-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v209) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S300000x32 : Shape := ⟨2, ![300000, 32]⟩
abbrev S2x600000 : Shape := ⟨2, ![2, 600000]⟩
abbrev S300000 : Shape := ⟨1, ![300000]⟩
abbrev S256x16 : Shape := ⟨2, ![256, 16]⟩
abbrev S256 : Shape := ⟨1, ![256]⟩
abbrev S256x32 : Shape := ⟨2, ![256, 32]⟩
abbrev S2x256x256 : Shape := ⟨3, ![2, 256, 256]⟩
abbrev S2x256 : Shape := ⟨2, ![2, 256]⟩
abbrev S256x544 : Shape := ⟨2, ![256, 544]⟩
abbrev S1x256 : Shape := ⟨2, ![1, 256]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S300000x32 : S_.BroadcastsInDim S300000x32 (![] : Fin 0 → Fin S300000x32.rank)
  reducesTo_S300000x32_S_d0_1 : S300000x32.ReducesTo [0, 1] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S256x544 : S_.BroadcastsInDim S256x544 (![] : Fin 0 → Fin S256x544.rank)
  reducesTo_S256x544_S_d0_1 : S256x544.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg20 : FVec F S2x256 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_cst_40 : FVec F S_ .f32 := constant S_ .f32 0x00000000#32
  let main_v104 : FVec F S2x256 .f32 := broadcastInDim S2x256 ![] bcast_S_S2x256 main_cst_40
  let main_v105 : IVec S2x256 1 := cmpf .oge main_arg20 main_v104
  let main_c_41 : IVec S_ 1 := constantI S_ 1 1#1
  let main_v106 : IVec S_ 1 := (fun x v => Host.reduce IntOp.andi x v reducesTo_S2x256_S_d0_1 h_S_) main_v105 main_c_41
  let main_v107 : IVec S_ 1 := andi main_v103 main_v106
  main_v107

def fn_part5 {F : FTy → Type} [FloatOps F] (main_arg20 : FVec F S2x256 .f32) (main_arg22 : FVec F S256 .f32) (main_arg23 : FVec F S1x256 .f32) (main_arg24 : FVec F S1 .f32) (main_v83 : IVec S_ 1) (main_v84 : FVec F S256x544 .f32) (main_cst_32 : FVec F S_ .f32) : IVec S_ 1 :=
  let main_v85 : FVec F S256x544 .f32 := broadcastInDim S256x544 ![] bcast_S_S256x544 main_cst_32
  let main_v86 : IVec S256x544 1 := cmpf .olt main_v84 main_v85
  let main_c_33 : IVec S_ 1 := constantI S_ 1 1#1
  let main_v87 : IVec S_ 1 := (fun x v => Host.reduce IntOp.andi x v reducesTo_S256x544_S_d0_1 h_S_) main_v86 main_c_33
  let main_v88 : IVec S_ 1 := andi main_v83 main_v87
  let main_v89 : FVec F S256 .f32 := Host.absf main_arg22
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S1x256 .f32 := Host.absf main_arg23
  let main_cst_36 : FVec F S_ .f32 := constant S_ .f32 0x7F800000#32
  let main_v95 : FVec F S1x256 .f32 := broadcastInDim S1x256 ![] bcast_S_S1x256 main_cst_36
  let main_v96 : IVec S1x256 1 := cmpf .olt main_v94 main_v95
  let main_c_37 : IVec S_ 1 := constantI S_ 1 1#1
  let main_v97 : IVec S_ 1 := (fun x v => Host.reduce IntOp.andi x v reducesTo_S1x256_S_d0_1 h_S_) main_v96 main_c_37
  let main_v98 : IVec S_ 1 := andi main_v93 main_v97
  let main_v99 : FVec F S1 .f32 := Host.absf main_arg24
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg20 main_v98 main_v101 main_c_39

def fn_part4 {F : FTy → Type} [FloatOps F] (main_arg18 : FVec F S2x256 .f32) (main_arg19 : FVec F S2x256 .f32) (main_arg20 : FVec F S2x256 .f32) (main_arg21 : FVec F S256x544 .f32) (main_arg22 : FVec F S256 .f32) (main_arg23 : FVec F S1x256 .f32) (main_arg24 : FVec F S1 .f32) (main_v63 : IVec S_ 1) (main_v67 : IVec S_ 1) : IVec S_ 1 :=
  let main_v68 : IVec S_ 1 := andi main_v63 main_v67
  let main_v69 : FVec F S2x256 .f32 := Host.absf main_arg18
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2x256 .f32 := Host.absf main_arg19
  let main_cst_28 : FVec F S_ .f32 := constant S_ .f32 0x7F800000#32
  let main_v75 : FVec F S2x256 .f32 := broadcastInDim S2x256 ![] bcast_S_S2x256 main_cst_28
  let main_v76 : IVec S2x256 1 := cmpf .olt main_v74 main_v75
  let main_c_29 : IVec S_ 1 := constantI S_ 1 1#1
  let main_v77 : IVec S_ 1 := (fun x v => Host.reduce IntOp.andi x v reducesTo_S2x256_S_d0_1 h_S_) main_v76 main_c_29
  let main_v78 : IVec S_ 1 := andi main_v73 main_v77
  let main_v79 : FVec F S2x256 .f32 := Host.absf main_arg20
  let main_cst_30 : FVec F S_ .f32 := constant S_ .f32 0x7F800000#32
  let main_v80 : FVec F S2x256 .f32 := broadcastInDim S2x256 ![] bcast_S_S2x256 main_cst_30
  let main_v81 : IVec S2x256 1 := cmpf .olt main_v79 main_v80
  let main_c_31 : IVec S_ 1 := constantI S_ 1 1#1
  let main_v82 : IVec S_ 1 := (fun x v => Host.reduce IntOp.andi x v reducesTo_S2x256_S_d0_1 h_S_) main_v81 main_c_31
  let main_v83 : IVec S_ 1 := andi main_v78 main_v82
  let main_v84 : FVec F S256x544 .f32 := Host.absf main_arg21
  let main_cst_32 : FVec F S_ .f32 := constant S_ .f32 0x7F800000#32
  fn_part5 (F := F) main_arg20 main_arg22 main_arg23 main_arg24 main_v83 main_v84 main_cst_32

def fn_part3 {F : FTy → Type} [FloatOps F] (main_arg15 : FVec F S2x256 .f32) (main_arg16 : FVec F S2x256x256 .f32) (main_arg17 : FVec F S2x256 .f32) (main_arg18 : FVec F S2x256 .f32) (main_arg19 : FVec F S2x256 .f32) (main_arg20 : FVec F S2x256 .f32) (main_arg21 : FVec F S256x544 .f32) (main_arg22 : FVec F S256 .f32) (main_arg23 : FVec F S1x256 .f32) (main_arg24 : FVec F S1 .f32) (main_v48 : IVec S_ 1) (main_v49 : FVec F S2x256x256 .f32) (main_v50 : FVec F S2x256x256 .f32) : IVec S_ 1 :=
  let main_v51 : IVec S2x256x256 1 := cmpf .olt main_v49 main_v50
  let main_c_19 : IVec S_ 1 := constantI S_ 1 1#1
  let main_v52 : IVec S_ 1 := (fun x v => Host.reduce IntOp.andi x v reducesTo_S2x256x256_S_d0_1_2 h_S_) main_v51 main_c_19
  let main_v53 : IVec S_ 1 := andi main_v48 main_v52
  let main_v54 : FVec F S2x256 .f32 := Host.absf main_arg15
  let main_cst_20 : FVec F S_ .f32 := constant S_ .f32 0x7F800000#32
  let main_v55 : FVec F S2x256 .f32 := broadcastInDim S2x256 ![] bcast_S_S2x256 main_cst_20
  let main_v56 : IVec S2x256 1 := cmpf .olt main_v54 main_v55
  let main_c_21 : IVec S_ 1 := constantI S_ 1 1#1
  let main_v57 : IVec S_ 1 := (fun x v => Host.reduce IntOp.andi x v reducesTo_S2x256_S_d0_1 h_S_) main_v56 main_c_21
  let main_v58 : IVec S_ 1 := andi main_v53 main_v57
  let main_v59 : FVec F S2x256x256 .f32 := Host.absf main_arg16
  let main_cst_22 : FVec F S_ .f32 := constant S_ .f32 0x7F800000#32
  let main_v60 : FVec F S2x256x256 .f32 := broadcastInDim S2x256x256 ![] bcast_S_S2x256x256 main_cst_22
  let main_v61 : IVec S2x256x256 1 := cmpf .olt main_v59 main_v60
  let main_c_23 : IVec S_ 1 := constantI S_ 1 1#1
  let main_v62 : IVec S_ 1 := (fun x v => Host.reduce IntOp.andi x v reducesTo_S2x256x256_S_d0_1_2 h_S_) main_v61 main_c_23
  let main_v63 : IVec S_ 1 := andi main_v58 main_v62
  let main_v64 : FVec F S2x256 .f32 := Host.absf main_arg17
  let main_cst_24 : FVec F S_ .f32 := constant S_ .f32 0x7F800000#32
  let main_v65 : FVec F S2x256 .f32 := broadcastInDim S2x256 ![] bcast_S_S2x256 main_cst_24
  let main_v66 : IVec S2x256 1 := cmpf .olt main_v64 main_v65
  let main_c_25 : IVec S_ 1 := constantI S_ 1 1#1
  let main_v67 : IVec S_ 1 := (fun x v => Host.reduce IntOp.andi x v reducesTo_S2x256_S_d0_1 h_S_) main_v66 main_c_25
  fn_part4 (F := F) main_arg18 main_arg19 main_arg20 main_arg21 main_arg22 main_arg23 main_arg24 main_v63 main_v67

def fn_part2 {F : FTy → Type} [FloatOps F] (main_arg11 : FVec F S2x256x256 .f32) (main_arg12 : FVec F S2x256 .f32) (main_arg13 : FVec F S2x256x256 .f32) (main_arg14 : FVec F S2x256x256 .f32) (main_arg15 : FVec F S2x256 .f32) (main_arg16 : FVec F S2x256x256 .f32) (main_arg17 : FVec F S2x256 .f32) (main_arg18 : FVec F S2x256 .f32) (main_arg19 : FVec F S2x256 .f32) (main_arg20 : FVec F S2x256 .f32) (main_arg21 : FVec F S256x544 .f32) (main_arg22 : FVec F S256 .f32) (main_arg23 : FVec F S1x256 .f32) (main_arg24 : FVec F S1 .f32) (main_v33 : IVec S_ 1) : IVec S_ 1 :=
  let main_v34 : FVec F S2x256x256 .f32 := Host.absf main_arg11
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S2x256 .f32 := Host.absf main_arg12
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2x256x256 .f32 := Host.absf main_arg13
  let main_cst_16 : FVec F S_ .f32 := constant S_ .f32 0x7F800000#32
  let main_v45 : FVec F S2x256x256 .f32 := broadcastInDim S2x256x256 ![] bcast_S_S2x256x256 main_cst_16
  let main_v46 : IVec S2x256x256 1 := cmpf .olt main_v44 main_v45
  let main_c_17 : IVec S_ 1 := constantI S_ 1 1#1
  let main_v47 : IVec S_ 1 := (fun x v => Host.reduce IntOp.andi x v reducesTo_S2x256x256_S_d0_1_2 h_S_) main_v46 main_c_17
  let main_v48 : IVec S_ 1 := andi main_v43 main_v47
  let main_v49 : FVec F S2x256x256 .f32 := Host.absf main_arg14
  let main_cst_18 : FVec F S_ .f32 := constant S_ .f32 0x7F800000#32
  let main_v50 : FVec F S2x256x256 .f32 := broadcastInDim S2x256x256 ![] bcast_S_S2x256x256 main_cst_18
  fn_part3 (F := F) main_arg15 main_arg16 main_arg17 main_arg18 main_arg19 main_arg20 main_arg21 main_arg22 main_arg23 main_arg24 main_v48 main_v49 main_v50

def fn_part1 {F : FTy → Type} [FloatOps F] (main_arg8 : FVec F S256 .f32) (main_arg9 : FVec F S256x32 .f32) (main_arg10 : FVec F S256 .f32) (main_arg11 : FVec F S2x256x256 .f32) (main_arg12 : FVec F S2x256 .f32) (main_arg13 : FVec F S2x256x256 .f32) (main_arg14 : FVec F S2x256x256 .f32) (main_arg15 : FVec F S2x256 .f32) (main_arg16 : FVec F S2x256x256 .f32) (main_arg17 : FVec F S2x256 .f32) (main_arg18 : FVec F S2x256 .f32) (main_arg19 : FVec F S2x256 .f32) (main_arg20 : FVec F S2x256 .f32) (main_arg21 : FVec F S256x544 .f32) (main_arg22 : FVec F S256 .f32) (main_arg23 : FVec F S1x256 .f32) (main_arg24 : FVec F S1 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x32 .f32 := Host.absf main_arg9
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x16 .f32) (main_arg1 : FVec F S300000x32 .f32) (main_arg2 : FVec F S300000x32 .f32) (main_arg3 : IVec S2x600000 32) (main_arg4 : IVec S2x600000 32) (main_arg5 : IVec S300000 32) (main_arg6 : IVec S300000 32) (main_arg7 : FVec F S256x16 .f32) (main_arg8 : FVec F S256 .f32) (main_arg9 : FVec F S256x32 .f32) (main_arg10 : FVec F S256 .f32) (main_arg11 : FVec F S2x256x256 .f32) (main_arg12 : FVec F S2x256 .f32) (main_arg13 : FVec F S2x256x256 .f32) (main_arg14 : FVec F S2x256x256 .f32) (main_arg15 : FVec F S2x256 .f32) (main_arg16 : FVec F S2x256x256 .f32) (main_arg17 : FVec F S2x256 .f32) (main_arg18 : FVec F S2x256 .f32) (main_arg19 : FVec F S2x256 .f32) (main_arg20 : FVec F S2x256 .f32) (main_arg21 : FVec F S256x544 .f32) (main_arg22 : FVec F S256 .f32) (main_arg23 : FVec F S1x256 .f32) (main_arg24 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S300000x32 .f32 := Host.absf main_arg1
  let main_cst_0 : FVec F S_ .f32 := constant S_ .f32 0x7F800000#32
  let main_v5 : FVec F S300000x32 .f32 := broadcastInDim S300000x32 ![] bcast_S_S300000x32 main_cst_0
  let main_v6 : IVec S300000x32 1 := cmpf .olt main_v4 main_v5
  let main_c_1 : IVec S_ 1 := constantI S_ 1 1#1
  let main_v7 : IVec S_ 1 := (fun x v => Host.reduce IntOp.andi x v reducesTo_S300000x32_S_d0_1 h_S_) main_v6 main_c_1
  let main_v8 : IVec S_ 1 := andi main_v3 main_v7
  let main_v9 : FVec F S300000x32 .f32 := Host.absf main_arg2
  let main_cst_2 : FVec F S_ .f32 := constant S_ .f32 0x7F800000#32
  let main_v10 : FVec F S300000x32 .f32 := broadcastInDim S300000x32 ![] bcast_S_S300000x32 main_cst_2
  let main_v11 : IVec S300000x32 1 := cmpf .olt main_v9 main_v10
  let main_c_3 : IVec S_ 1 := constantI S_ 1 1#1
  let main_v12 : IVec S_ 1 := (fun x v => Host.reduce IntOp.andi x v reducesTo_S300000x32_S_d0_1 h_S_) main_v11 main_c_3
  let main_v13 : IVec S_ 1 := andi main_v8 main_v12
  let main_v14 : FVec F S256x16 .f32 := Host.absf main_arg7
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x16 : Shape := ⟨2, ![100000, 16]⟩
abbrev S300000x32 : Shape := ⟨2, ![300000, 32]⟩
abbrev S2x600000 : Shape := ⟨2, ![2, 600000]⟩
abbrev S300000 : Shape := ⟨1, ![300000]⟩
abbrev S256x16 : Shape := ⟨2, ![256, 16]⟩
abbrev S256 : Shape := ⟨1, ![256]⟩
abbrev S256x32 : Shape := ⟨2, ![256, 32]⟩
abbrev S2x256x256 : Shape := ⟨3, ![2, 256, 256]⟩
abbrev S2x256 : Shape := ⟨2, ![2, 256]⟩
abbrev S256x544 : Shape := ⟨2, ![256, 544]⟩
abbrev S1x256 : Shape := ⟨2, ![1, 256]⟩
abbrev S1 : Shape := ⟨1, ![1]⟩
abbrev S16x256 : Shape := ⟨2, ![16, 256]⟩
abbrev S100000x256 : Shape := ⟨2, ![100000, 256]⟩
abbrev S2000x16 : Shape := ⟨2, ![2000, 16]⟩
abbrev S2000x256 : Shape := ⟨2, ![2000, 256]⟩
abbrev S32x256 : Shape := ⟨2, ![32, 256]⟩
abbrev S300000x256 : Shape := ⟨2, ![300000, 256]⟩
abbrev S2000x32 : Shape := ⟨2, ![2000, 32]⟩
abbrev S_ : Shape := ⟨0, ![]⟩
abbrev S600000 : Shape := ⟨1, ![600000]⟩
abbrev S1x600000 : Shape := ⟨2, ![1, 600000]⟩
abbrev S600000x1 : Shape := ⟨2, ![600000, 1]⟩
abbrev S300000x1 : Shape := ⟨2, ![300000, 1]⟩
abbrev S100000 : Shape := ⟨1, ![100000]⟩
abbrev S100000x1 : Shape := ⟨2, ![100000, 1]⟩
abbrev S600000x256 : Shape := ⟨2, ![600000, 256]⟩
abbrev S1x256x256 : Shape := ⟨3, ![1, 256, 256]⟩
abbrev S256x256 : Shape := ⟨2, ![256, 256]⟩
abbrev S2000x1 : Shape := ⟨2, ![2000, 1]⟩
abbrev S1x1 : Shape := ⟨2, ![1, 1]⟩
abbrev S2400x256 : Shape := ⟨2, ![2400, 256]⟩
abbrev S2400x32 : Shape := ⟨2, ![2400, 32]⟩
abbrev S2400x1 : Shape := ⟨2, ![2400, 1]⟩
abbrev S2400 : Shape := ⟨1, ![2400]⟩

abbrev nBuf : Space → Nat
  | .hbm => 258
  | .vmem => 78
  | .smem => 0
  | _ => 0

abbrev hbmTy0_0 (i : Nat) : BufTy := match i % 128 with
  | 0 => ⟨S100000x16, .f32⟩
  | 1 => ⟨S300000x32, .f32⟩
  | 2 => ⟨S300000x32, .f32⟩
  | 3 => ⟨S2x600000, .i32⟩
  | 4 => ⟨S2x600000, .i32⟩
  | 5 => ⟨S300000, .i32⟩
  | 6 => ⟨S300000, .i32⟩
  | 7 => ⟨S256x16, .f32⟩
  | 8 => ⟨S256, .f32⟩
  | 9 => ⟨S256x32, .f32⟩
  | 10 => ⟨S256, .f32⟩
  | 11 => ⟨S2x256x256, .f32⟩
  | 12 => ⟨S2x256, .f32⟩
  | 13 => ⟨S2x256x256, .f32⟩
  | 14 => ⟨S2x256x256, .f32⟩
  | 15 => ⟨S2x256, .f32⟩
  | 16 => ⟨S2x256x256, .f32⟩
  | 17 => ⟨S2x256, .f32⟩
  | 18 => ⟨S2x256, .f32⟩
  | 19 => ⟨S2x256, .f32⟩
  | 20 => ⟨S2x256, .f32⟩
  | 21 => ⟨S256x544, .f32⟩
  | 22 => ⟨S256, .f32⟩
  | 23 => ⟨S1x256, .f32⟩
  | 24 => ⟨S1, .f32⟩
  | 25 => ⟨S16x256, .f32⟩
  | 26 => ⟨S16x256, .bf16⟩
  | 27 => ⟨S1x256, .f32⟩
  | 28 => ⟨S100000x256, .f32⟩
  | 29 => ⟨S32x256, .f32⟩
  | 30 => ⟨S32x256, .bf16⟩
  | 31 => ⟨S1x256, .f32⟩
  | 32 => ⟨S300000x256, .f32⟩
  | 33 => ⟨S_, .f32⟩
  | 34 => ⟨S600000, .f32⟩
  | 35 => ⟨S1x600000, .i32⟩
  | 36 => ⟨S600000, .i32⟩
  | 37 => ⟨S_, .f32⟩
  | 38 => ⟨S300000, .f32⟩
  | 39 => ⟨S600000x1, .i32⟩
  | 40 => ⟨S300000, .f32⟩
  | 41 => ⟨S300000x1, .f32⟩
  | 42 => ⟨S1x600000, .i32⟩
  | 43 => ⟨S600000, .i32⟩
  | 44 => ⟨S_, .f32⟩
  | 45 => ⟨S100000, .f32⟩
  | 46 => ⟨S600000x1, .i32⟩
  | 47 => ⟨S100000, .f32⟩
  | 48 => ⟨S100000x1, .f32⟩
  | 49 => ⟨S1x600000, .i32⟩
  | 50 => ⟨S600000, .i32⟩
  | 51 => ⟨S1x600000, .i32⟩
  | 52 => ⟨S600000, .i32⟩
  | 53 => ⟨S100000x256, .bf16⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x256, .bf16⟩
  | 63 => ⟨S600000x256, .f32⟩
  | 64 => ⟨S_, .f32⟩
  | 65 => ⟨S300000x256, .f32⟩
  | 66 => ⟨S600000x1, .i32⟩
  | 67 => ⟨S300000x256, .f32⟩
  | 68 => ⟨S1x600000, .i32⟩
  | 69 => ⟨S600000, .i32⟩
  | 70 => ⟨S1x600000, .i32⟩
  | 71 => ⟨S600000, .i32⟩
  | 72 => ⟨S300000x256, .bf16⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x256, .bf16⟩
  | 82 => ⟨S600000x256, .f32⟩
  | 83 => ⟨S_, .f32⟩
  | 84 => ⟨S100000x256, .f32⟩
  | 85 => ⟨S600000x1, .i32⟩
  | 86 => ⟨S100000x256, .f32⟩
  | 87 => ⟨S1x256, .f32⟩
  | 88 => ⟨S256, .f32⟩
  | 89 => ⟨S1x256, .f32⟩
  | 90 => ⟨S256, .f32⟩
  | 91 => ⟨S_, .f32⟩
  | 92 => ⟨S256, .f32⟩
  | 93 => ⟨S256, .f32⟩
  | 94 => ⟨S256, .f32⟩
  | 95 => ⟨S256, .f32⟩
  | 96 => ⟨S1x256, .f32⟩
  | 97 => ⟨S1x256, .f32⟩
  | 98 => ⟨S256, .f32⟩
  | 99 => ⟨S1x256, .f32⟩
  | 100 => ⟨S256, .f32⟩
  | 101 => ⟨S1x256, .f32⟩
  | 102 => ⟨S256, .f32⟩
  | 103 => ⟨S256, .f32⟩
  | 104 => ⟨S1x256, .f32⟩
  | 105 => ⟨S256, .f32⟩
  | 106 => ⟨S_, .f32⟩
  | 107 => ⟨S256, .f32⟩
  | 108 => ⟨S256, .f32⟩
  | 109 => ⟨S256, .f32⟩
  | 110 => ⟨S256, .f32⟩
  | 111 => ⟨S256, .f32⟩
  | 112 => ⟨S1x256, .f32⟩
  | 113 => ⟨S1x256x256, .f32⟩
  | 114 => ⟨S256x256, .f32⟩
  | 115 => ⟨S256x256, .f32⟩
  | 116 => ⟨S256x256, .bf16⟩
  | 117 => ⟨S1x256x256, .f32⟩
  | 118 => ⟨S256x256, .f32⟩
  | 119 => ⟨S256x256, .f32⟩
  | 120 => ⟨S256x256, .bf16⟩
  | 121 => ⟨S1x256, .f32⟩
  | 122 => ⟨S256, .f32⟩
  | 123 => ⟨S1x256, .f32⟩
  | 124 => ⟨S300000x256, .f32⟩
  | 125 => ⟨S1x256x256, .f32⟩
  | 126 => ⟨S256x256, .f32⟩
  | 127 => ⟨S256x256, .f32⟩
  | _ => ⟨S100000x16, .f32⟩

abbrev hbmTy0_1 (i : Nat) : BufTy := match i % 128 with
  | 0 => ⟨S256x256, .bf16⟩
  | 1 => ⟨S1x256x256, .f32⟩
  | 2 => ⟨S256x256, .f32⟩
  | 3 => ⟨S256x256, .f32⟩
  | 4 => ⟨S256x256, .bf16⟩
  | 5 => ⟨S1x256, .f32⟩
  | 6 => ⟨S256, .f32⟩
  | 7 => ⟨S1x256, .f32⟩
  | 8 => ⟨S100000x256, .f32⟩
  | 9 => ⟨S1x600000, .i32⟩
  | 10 => ⟨S600000, .i32⟩
  | 11 => ⟨S1x600000, .i32⟩
  | 12 => ⟨S600000, .i32⟩
  | 13 => ⟨S100000x256, .bf16⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x256, .bf16⟩
  | 23 => ⟨S600000x256, .f32⟩
  | 24 => ⟨S_, .f32⟩
  | 25 => ⟨S300000x256, .f32⟩
  | 26 => ⟨S600000x1, .i32⟩
  | 27 => ⟨S300000x256, .f32⟩
  | 28 => ⟨S1x600000, .i32⟩
  | 29 => ⟨S600000, .i32⟩
  | 30 => ⟨S1x600000, .i32⟩
  | 31 => ⟨S600000, .i32⟩
  | 32 => ⟨S300000x256, .bf16⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x256, .bf16⟩
  | 42 => ⟨S600000x256, .f32⟩
  | 43 => ⟨S_, .f32⟩
  | 44 => ⟨S100000x256, .f32⟩
  | 45 => ⟨S600000x1, .i32⟩
  | 46 => ⟨S100000x256, .f32⟩
  | 47 => ⟨S1x256, .f32⟩
  | 48 => ⟨S256, .f32⟩
  | 49 => ⟨S1x256, .f32⟩
  | 50 => ⟨S256, .f32⟩
  | 51 => ⟨S_, .f32⟩
  | 52 => ⟨S256, .f32⟩
  | 53 => ⟨S256, .f32⟩
  | 54 => ⟨S256, .f32⟩
  | 55 => ⟨S256, .f32⟩
  | 56 => ⟨S1x256, .f32⟩
  | 57 => ⟨S1x256, .f32⟩
  | 58 => ⟨S256, .f32⟩
  | 59 => ⟨S1x256, .f32⟩
  | 60 => ⟨S256, .f32⟩
  | 61 => ⟨S1x256, .f32⟩
  | 62 => ⟨S256, .f32⟩
  | 63 => ⟨S256, .f32⟩
  | 64 => ⟨S1x256, .f32⟩
  | 65 => ⟨S256, .f32⟩
  | 66 => ⟨S_, .f32⟩
  | 67 => ⟨S256, .f32⟩
  | 68 => ⟨S256, .f32⟩
  | 69 => ⟨S256, .f32⟩
  | 70 => ⟨S256, .f32⟩
  | 71 => ⟨S256, .f32⟩
  | 72 => ⟨S1x256, .f32⟩
  | 73 => ⟨S1x256x256, .f32⟩
  | 74 => ⟨S256x256, .f32⟩
  | 75 => ⟨S256x256, .f32⟩
  | 76 => ⟨S256x256, .bf16⟩
  | 77 => ⟨S1x256x256, .f32⟩
  | 78 => ⟨S256x256, .f32⟩
  | 79 => ⟨S256x256, .f32⟩
  | 80 => ⟨S256x256, .bf16⟩
  | 81 => ⟨S1x256, .f32⟩
  | 82 => ⟨S256, .f32⟩
  | 83 => ⟨S1x256, .f32⟩
  | 84 => ⟨S300000x256, .f32⟩
  | 85 => ⟨S1x256x256, .f32⟩
  | 86 => ⟨S256x256, .f32⟩
  | 87 => ⟨S256x256, .f32⟩
  | 88 => ⟨S256x256, .bf16⟩
  | 89 => ⟨S1x256x256, .f32⟩
  | 90 => ⟨S256x256, .f32⟩
  | 91 => ⟨S256x256, .f32⟩
  | 92 => ⟨S256x256, .bf16⟩
  | 93 => ⟨S1x256, .f32⟩
  | 94 => ⟨S256, .f32⟩
  | 95 => ⟨S1x256, .f32⟩
  | 96 => ⟨S100000x256, .f32⟩
  | 97 => ⟨S100000x256, .bf16⟩
  | 98 => ⟨S_, .i32⟩
  | 99 => ⟨S300000, .i32⟩
  | 100 => ⟨S300000, .i1⟩
  | 101 => ⟨S_, .i32⟩
  | 102 => ⟨S300000, .i32⟩
  | 103 => ⟨S300000, .i32⟩
  | 104 => ⟨S300000, .i32⟩
  | 105 => ⟨S300000x1, .i32⟩
  | 106 => ⟨S300000x256, .bf16⟩
  | 107 => ⟨S_, .i32⟩
  | 108 => ⟨S300000, .i32⟩
  | 109 => ⟨S300000, .i1⟩
  | 110 => ⟨S_, .i32⟩
  | 111 => ⟨S300000, .i32⟩
  | 112 => ⟨S300000, .i32⟩
  | 113 => ⟨S300000, .i32⟩
  | 114 => ⟨S300000x1, .i32⟩
  | 115 => ⟨S300000x256, .bf16⟩
  | 116 => ⟨S300000x32, .bf16⟩
  | 117 => ⟨S256x256, .f32⟩
  | 118 => ⟨S256x256, .f32⟩
  | 119 => ⟨S256x256, .bf16⟩
  | 120 => ⟨S256x256, .f32⟩
  | 121 => ⟨S256x256, .f32⟩
  | 122 => ⟨S256x256, .bf16⟩
  | 123 => ⟨S256x32, .f32⟩
  | 124 => ⟨S32x256, .f32⟩
  | 125 => ⟨S32x256, .bf16⟩
  | 126 => ⟨S1x256, .f32⟩
  | 127 => ⟨S1x1, .f32⟩
  | _ => ⟨S100000x16, .f32⟩

abbrev hbmTy0_2 (i : Nat) : BufTy := match i % 128 with
  | 0 => ⟨S300000x1, .f32⟩
  | 1 => ⟨S300000, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | .local _ .vmem, ⟨0, _⟩ => ⟨S2000x16, .f32⟩
  | .local _ .vmem, ⟨1, _⟩ => ⟨S2000x16, .f32⟩
  | .local _ .vmem, ⟨2, _⟩ => ⟨S16x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x32, .f32⟩
  | .local _ .vmem, ⟨7, _⟩ => ⟨S2000x32, .f32⟩
  | .local _ .vmem, ⟨8, _⟩ => ⟨S32x256, .bf16⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S2000x256, .f32⟩
  | .local _ .vmem, ⟨17, _⟩ => ⟨S2000x256, .f32⟩
  | .local _ .vmem, ⟨18, _⟩ => ⟨S256x256, .bf16⟩
  | .local _ .vmem, ⟨19, _⟩ => ⟨S256x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x1, .f32⟩
  | .local _ .vmem, ⟨28, _⟩ => ⟨S2000x1, .f32⟩
  | .local _ .vmem, ⟨29, _⟩ => ⟨S2000x256, .f32⟩
  | .local _ .vmem, ⟨30, _⟩ => ⟨S2000x256, .f32⟩
  | .local _ .vmem, ⟨31, _⟩ => ⟨S256x256, .bf16⟩
  | .local _ .vmem, ⟨32, _⟩ => ⟨S256x256, .bf16⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x1, .f32⟩
  | .local _ .vmem, ⟨41, _⟩ => ⟨S2000x1, .f32⟩
  | .local _ .vmem, ⟨42, _⟩ => ⟨S2000x256, .f32⟩
  | .local _ .vmem, ⟨43, _⟩ => ⟨S2000x256, .f32⟩
  | .local _ .vmem, ⟨44, _⟩ => ⟨S256x256, .bf16⟩
  | .local _ .vmem, ⟨45, _⟩ => ⟨S256x256, .bf16⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x1, .f32⟩
  | .local _ .vmem, ⟨54, _⟩ => ⟨S2000x1, .f32⟩
  | .local _ .vmem, ⟨55, _⟩ => ⟨S2000x256, .f32⟩
  | .local _ .vmem, ⟨56, _⟩ => ⟨S2000x256, .f32⟩
  | .local _ .vmem, ⟨57, _⟩ => ⟨S256x256, .bf16⟩
  | .local _ .vmem, ⟨58, _⟩ => ⟨S256x256, .bf16⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S2000x256, .f32⟩
  | .local _ .vmem, ⟨63, _⟩ => ⟨S2000x256, .f32⟩
  | .local _ .vmem, ⟨64, _⟩ => ⟨S2400x256, .bf16⟩
  | .local _ .vmem, ⟨65, _⟩ => ⟨S2400x256, .bf16⟩
  | .local _ .vmem, ⟨66, _⟩ => ⟨S2400x256, .bf16⟩
  | .local _ .vmem, ⟨67, _⟩ => ⟨S2400x256, .bf16⟩
  | .local _ .vmem, ⟨68, _⟩ => ⟨S2400x32, .bf16⟩
  | .local _ .vmem, ⟨69, _⟩ => ⟨S2400x32, .bf16⟩
  | .local _ .vmem, ⟨70, _⟩ => ⟨S256x256, .bf16⟩
  | .local _ .vmem, ⟨71, _⟩ => ⟨S256x256, .bf16⟩
  | .local _ .vmem, ⟨72, _⟩ => ⟨S32x256, .bf16⟩
  | .local _ .vmem, ⟨73, _⟩ => ⟨S1x256, .f32⟩
  | .local _ .vmem, ⟨74, _⟩ => ⟨S1x256, .f32⟩
  | .local _ .vmem, ⟨75, _⟩ => ⟨S1x1, .f32⟩
  | .local _ .vmem, ⟨76, _⟩ => ⟨S2400x1, .f32⟩
  | .local _ .vmem, ⟨77, _⟩ => ⟨S2400x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c : Ref sig .tc := ⟨.hbm, 54, rfl⟩
abbrev main_v26 : Ref sig .tc := ⟨.hbm, 55, rfl⟩
abbrev main_v27 : Ref sig .tc := ⟨.hbm, 56, rfl⟩
abbrev main_c_2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_4 : Ref sig .tc := ⟨.hbm, 73, rfl⟩
abbrev main_v42 : Ref sig .tc := ⟨.hbm, 74, rfl⟩
abbrev main_v43 : Ref sig .tc := ⟨.hbm, 75, rfl⟩
abbrev main_c_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_6 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_7 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_8 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_9 : Ref sig .tc := ⟨.hbm, 142, rfl⟩
abbrev main_v106 : Ref sig .tc := ⟨.hbm, 143, rfl⟩
abbrev main_v107 : Ref sig .tc := ⟨.hbm, 144, rfl⟩
abbrev main_c_10 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_11 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_12 : Ref sig .tc := ⟨.hbm, 161, rfl⟩
abbrev main_v122 : Ref sig .tc := ⟨.hbm, 162, rfl⟩
abbrev main_v123 : Ref sig .tc := ⟨.hbm, 163, rfl⟩
abbrev main_c_13 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_14 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_15 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_16 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_c_17 : Ref sig .tc := ⟨.hbm, 226, rfl⟩
abbrev main_v182 : Ref sig .tc := ⟨.hbm, 227, rfl⟩
abbrev main_v183 : Ref sig .tc := ⟨.hbm, 228, rfl⟩
abbrev main_c_18 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_c_19 : Ref sig .tc := ⟨.hbm, 235, rfl⟩
abbrev main_v189 : Ref sig .tc := ⟨.hbm, 236, rfl⟩
abbrev main_v190 : Ref sig .tc := ⟨.hbm, 237, rfl⟩
abbrev main_c_20 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg8_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg8_0 : Ref sig .tc := ⟨.vmem, 49, rfl⟩
abbrev cc4_stg8_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg8_1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg1_1 : Ref sig .tc := ⟨.vmem, 67, rfl⟩
abbrev cc6_stg2_0 : Ref sig .tc := ⟨.vmem, 68, rfl⟩
abbrev cc6_stg2_1 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg8_0 : Ref sig .tc := ⟨.vmem, 75, rfl⟩
abbrev cc6_stg9_0 : Ref sig .tc := ⟨.vmem, 76, rfl⟩
abbrev cc6_stg9_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem8_0 : DmaSem sig := 49
abbrev cc4_sem8_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem8_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem2_1 : DmaSem sig := 69
abbrev cc6_sem3_0 : DmaSem sig := 70
abbrev cc6_sem4_0 : DmaSem sig := 71
abbrev cc6_sem5_0 : DmaSem sig := 72
abbrev cc6_sem6_0 : DmaSem sig := 73
abbrev cc6_sem7_0 : DmaSem sig := 74
abbrev cc6_sem8_0 : DmaSem sig := 75
abbrev cc6_sem9_0 : DmaSem sig := 76
abbrev cc6_sem9_1 : DmaSem sig := 77

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![150], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![150], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2400x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2400x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2400x32 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S256x256 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x256 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S2400x1 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  transposes_S256x16_S16x256_1_0 : S256x16.Transposes [1, 0] S16x256
  bitsLt_bf16_f32 : FTy.bits .bf16 < FTy.bits .f32
  shapeCasts_S256_S1x256 : S256.ShapeCasts S1x256
  inb_S2000x16_S2000x16_0_0 : ∀ a, (![0, 0] : Fin 2 → Nat) a + S2000x16.size a ≤ S2000x16.size a
  h_S2000x16 : 0 < S2000x16.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  transposes_S256x32_S32x256_1_0 : S256x32.Transposes [1, 0] S32x256
  inb_S2000x32_S2000x32_0_0 : ∀ a, (![0, 0] : Fin 2 → Nat) a + S2000x32.size a ≤ S2000x32.size a
  h_S2000x32 : 0 < S2000x32.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  bcast_S_S600000 : S_.BroadcastsInDim S600000 (![] : Fin 0 → Fin S600000.rank)
  slices_S2x600000_S1x600000_1_0 : S2x600000.Slices ![1, 0] S1x600000
  shapeCasts_S1x600000_S600000 : S1x600000.ShapeCasts S600000
  bcast_S_S300000 : S_.BroadcastsInDim S300000 (![] : Fin 0 → Fin S300000.rank)
  bcast_S600000_S600000x1_0 : S600000.BroadcastsInDim S600000x1 (![0] : Fin 1 → Fin S600000x1.rank)
  shapeCasts_S300000_S300000x1 : S300000.ShapeCasts S300000x1
  bcast_S_S100000 : S_.BroadcastsInDim S100000 (![] : Fin 0 → Fin S100000.rank)
  shapeCasts_S100000_S100000x1 : S100000.ShapeCasts S100000x1
  slices_S2x600000_S1x600000_0_0 : S2x600000.Slices ![0, 0] S1x600000
  bcast_S_S300000x256 : S_.BroadcastsInDim S300000x256 (![] : Fin 0 → Fin S300000x256.rank)
  bcast_S_S100000x256 : S_.BroadcastsInDim S100000x256 (![] : Fin 0 → Fin S100000x256.rank)
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2x256_S1x256_1_0 : S2x256.Slices ![1, 0] S1x256
  slices_S2x256x256_S1x256x256_1_0_0 : S2x256x256.Slices ![1, 0, 0] S1x256x256
  bcast_S300000_S300000x1_0 : S300000.BroadcastsInDim S300000x1 (![0] : Fin 1 → Fin S300000x1.rank)
  slices_S256x544_S256x256_0_0 : S256x544.Slices ![0, 0] S256x256
  slices_S256x544_S256x256_0_256 : S256x544.Slices ![0, 256] S256x256
  slices_S256x544_S256x32_0_512 : S256x544.Slices ![0, 512] S256x32
  shapeCasts_S1_S1x1 : S1.ShapeCasts S1x1
  inb_S2400x256_S2400x256_0_0 : ∀ a, (![0, 0] : Fin 2 → Nat) a + S2400x256.size a ≤ S2400x256.size a
  h_S2400x256 : 0 < S2400x256.numel
  shapeCasts_S2400x256_S2400x256 : S2400x256.ShapeCasts S2400x256
  inb_S2400x32_S2400x32_0_0 : ∀ a, (![0, 0] : Fin 2 → Nat) a + S2400x32.size a ≤ S2400x32.size a
  h_S2400x32 : 0 < S2400x32.numel
  shapeCasts_S2400x32_S2400x32 : S2400x32.ShapeCasts S2400x32
  broadcasts_S1x256_S2400x256 : S1x256.Broadcasts S2400x256
  reduces_S2400x256_S2400 : S2400x256.Reduces [1] S2400
  shapeCasts_S2400_S2400x1 : S2400.ShapeCasts S2400x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2400x1 : S1x1.Broadcasts S2400x1
  inb_S2400x1_S2400x1_0_0 : ∀ a, (![0, 0] : Fin 2 → Nat) a + S2400x1.size a ≤ S2400x1.size a
  h_S2400x1 : 0 < S2400x1.numel
  shapeCasts_S300000x1_S300000 : S300000x1.ShapeCasts S300000
  dot_S2000x16_S16x256_S2000x256_1_0_0_1_n_n_wf : DotDims.WF S2000x16 S16x256 S2000x256 [1] [0] [0] [1] [] []
  dot_S2000x32_S32x256_S2000x256_1_0_0_1_n_n_wf : DotDims.WF S2000x32 S32x256 S2000x256 [1] [0] [0] [1] [] []
  scatter_S300000_S600000x1_S600000_n_0_0_1_wf : ScatterDims.WF S300000 S600000x1 S600000 [] [0] [0] 1
  scatter_S100000_S600000x1_S600000_n_0_0_1_wf : ScatterDims.WF S100000 S600000x1 S600000 [] [0] [0] 1
  gather_S100000x256_S600000x1_S600000x256_1_0_n_n_0_1_1256_wf : GatherDims.WF S100000x256 S600000x1 S600000x256 [1] [0] [] [0] [] 1 ![1, 256]
  scatter_S300000x256_S600000x1_S600000x256_1_0_0_1_wf : ScatterDims.WF S300000x256 S600000x1 S600000x256 [1] [0] [0] 1
  gather_S300000x256_S600000x1_S600000x256_1_0_n_n_0_1_1256_wf : GatherDims.WF S300000x256 S600000x1 S600000x256 [1] [0] [] [0] [] 1 ![1, 256]
  scatter_S100000x256_S600000x1_S600000x256_1_0_0_1_wf : ScatterDims.WF S100000x256 S600000x1 S600000x256 [1] [0] [0] 1
  dot_S2000x256_S256x256_S2000x256_1_0_0_1_n_n_wf : DotDims.WF S2000x256 S256x256 S2000x256 [1] [0] [0] [1] [] []
  gather_S100000x256_S300000x1_S300000x256_1_0_n_n_0_1_1256_wf : GatherDims.WF S100000x256 S300000x1 S300000x256 [1] [0] [] [0] [] 1 ![1, 256]
  dot_S2400x256_S256x256_S2400x256_1_0_0_1_n_n_wf : DotDims.WF S2400x256 S256x256 S2400x256 [1] [0] [0] [1] [] []
  dot_S2400x32_S32x256_S2400x256_1_0_0_1_n_n_wf : DotDims.WF S2400x32 S32x256 S2400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .bf16 = 32 ∨ (Rect.block (s := S16x256) S16x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S300000x32.size a
  hwx1_0 : ∀ i : grid1.Coords, EltTy.bits .f32 = 32 ∨ (Rect.block (s := S300000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .bf16 = 32 ∨ (Rect.block (s := S32x256) S32x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S300000x256.size a
  hwx1_3 : ∀ i : grid1.Coords, EltTy.bits .f32 = 32 ∨ (Rect.block (s := S300000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S300000x256.size a
  hwx2_0 : ∀ i : grid2.Coords, EltTy.bits .f32 = 32 ∨ (Rect.block (s := S300000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S300000x1.size a
  hwx2_1 : ∀ i : grid2.Coords, EltTy.bits .f32 = 32 ∨ (Rect.block (s := S300000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S300000x256.size a
  hwx2_2 : ∀ i : grid2.Coords, EltTy.bits .f32 = 32 ∨ (Rect.block (s := S300000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S300000x256.size a
  hwx2_8 : ∀ i : grid2.Coords, EltTy.bits .f32 = 32 ∨ (Rect.block (s := S300000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S100000x256.size a
  hwx3_2 : ∀ i : grid3.Coords, EltTy.bits .f32 = 32 ∨ (Rect.block (s := S100000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S100000x256.size a
  hwx3_8 : ∀ i : grid3.Coords, EltTy.bits .f32 = 32 ∨ (Rect.block (s := S100000x256) S2000x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S300000x256.size a
  hwx4_0 : ∀ i : grid4.Coords, EltTy.bits .f32 = 32 ∨ (Rect.block (s := S300000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S300000x1.size a
  hwx4_1 : ∀ i : grid4.Coords, EltTy.bits .f32 = 32 ∨ (Rect.block (s := S300000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S300000x256.size a
  hwx4_2 : ∀ i : grid4.Coords, EltTy.bits .f32 = 32 ∨ (Rect.block (s := S300000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .bf16 = 32 ∨ (Rect.block (s := S256x256) S256x256.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x256.size a ≤ S300000x256.size a
  hwx4_8 : ∀ i : grid4.Coords, EltTy.bits .f32 = 32 ∨ (Rect.block (s := S300000x256) S2000x256.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S100000x256.size a
  hwx5_2 : ∀ i : grid5.Coords, EltTy.bits .f32 = 32 ∨ (Rect.block (s := S100000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .bf16 = 32 ∨ (Rect.block (s := S256x256) S256x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .bf16 = 32 ∨ (Rect.block (s := S256x256) S256x256.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x256.size a ≤ S100000x256.size a
  hwx5_8 : ∀ i : grid5.Coords, EltTy.bits .f32 = 32 ∨ (Rect.block (s := S100000x256) S2000x256.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2400x256.size a ≤ S300000x256.size a
  hwx6_0 : ∀ i : grid6.Coords, EltTy.bits .bf16 = 32 ∨ (Rect.block (s := S300000x256) S2400x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2400x256.size a ≤ S300000x256.size a
  hwx6_1 : ∀ i : grid6.Coords, EltTy.bits .bf16 = 32 ∨ (Rect.block (s := S300000x256) S2400x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2400x32.size a ≤ S300000x32.size a
  hwx6_2 : ∀ i : grid6.Coords, EltTy.bits .bf16 = 32 ∨ (Rect.block (s := S300000x32) S2400x32.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .bf16 = 32 ∨ (Rect.block (s := S256x256) S256x256.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .bf16 = 32 ∨ (Rect.block (s := S256x256) S256x256.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x256.size a ≤ S32x256.size a
  hwx6_5 : ∀ i : grid6.Coords, EltTy.bits .bf16 = 32 ∨ (Rect.block (s := S32x256) S32x256.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x1.size a ≤ S1x1.size a
  hwx6_8 : ∀ i : grid6.Coords, EltTy.bits .f32 = 32 ∨ (Rect.block (s := S1x1) S1x1.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2400x1.size a ≤ S300000x1.size a
  hwx6_9 : ∀ i : grid6.Coords, EltTy.bits .f32 = 32 ∨ (Rect.block (s := S300000x1) S2400x1.size (cc6_transform_9 i) (hinb6_9 i)).WholeWords (EltTy.packing .f32)

variable [Facts₀]

def dot_S2000x16_S16x256_S2000x256_1_0_0_1_n_n : DotDims S2000x16 S16x256 S2000x256 where
  lhsContracting := [1]
  rhsContracting := [0]
  lhsNonContracting := [0]
  rhsNonContracting := [1]
  lhsBatch := []
  rhsBatch := []
  wf := dot_S2000x16_S16x256_S2000x256_1_0_0_1_n_n_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def scatter_S300000_S600000x1_S600000_n_0_0_1 : ScatterDims S300000 S600000x1 S600000 where
  updateWindowDims := []
  insertedWindowDims := [0]
  scatterDimsToOperandDims := [0]
  indexVectorDim := 1
  wf := scatter_S300000_S600000x1_S600000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S300000x256_S600000x1_S600000x256_1_0_0_1 : ScatterDims S300000x256 S600000x1 S600000x256 where
  updateWindowDims := [1]
  insertedWindowDims := [0]
  scatterDimsToOperandDims := [0]
  indexVectorDim := 1
  wf := scatter_S300000x256_S600000x1_S600000x256_1_0_0_1_wf
def gather_S300000x256_S600000x1_S600000x256_1_0_n_n_0_1_1256 : GatherDims S300000x256 S600000x1 S600000x256 where
  offsetDims := [1]
  collapsedSliceDims := [0]
  operandBatchingDims := []
  startIndicesBatchingDims := []
  startIndexMap := [0]
  indexVectorDim := 1
  sliceSizes := ![1, 256]
  wf := gather_S300000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S2400x256_S256x256_S2400x256_1_0_0_1_n_n : DotDims S2400x256 S256x256 S2400x256 where
  lhsContracting := [1]
  rhsContracting := [0]
  lhsNonContracting := [0]
  rhsNonContracting := [1]
  lhsBatch := []
  rhsBatch := []
  wf := dot_S2400x256_S256x256_S2400x256_1_0_0_1_n_n_wf
def dot_S2400x32_S32x256_S2400x256_1_0_0_1_n_n : DotDims S2400x32 S32x256 S2400x256 where
  lhsContracting := [1]
  rhsContracting := [0]
  lhsNonContracting := [0]
  rhsNonContracting := [1]
  lhsBatch := []
  rhsBatch := []
  wf := dot_S2400x32_S32x256_S2400x256_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v80) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v87) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v76) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v88) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v52) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v92) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v99) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v76) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v100) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v116) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v160) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v164) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v167) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v141) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v156) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v168) S2000x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v132) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v100) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v172) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v176) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v179) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v141) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v156) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v180) S2000x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v188) S2400x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v195) S2400x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v196) S2400x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v199) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v202) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v205) S32x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v206) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg23) S1x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v207) S1x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v208) S2400x1.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S100000x16 : Shape := ⟨2, ![100000, 16]⟩
abbrev S300000x32 : Shape := ⟨2, ![300000, 32]⟩
abbrev S2x600000 : Shape := ⟨2, ![2, 600000]⟩
abbrev S300000 : Shape := ⟨1, ![300000]⟩
abbrev S256x16 : Shape := ⟨2, ![256, 16]⟩
abbrev S256 : Shape := ⟨1, ![256]⟩
abbrev S256x32 : Shape := ⟨2, ![256, 32]⟩
abbrev S2x256x256 : Shape := ⟨3, ![2, 256, 256]⟩
abbrev S2x256 : Shape := ⟨2, ![2, 256]⟩
abbrev S256x544 : Shape := ⟨2, ![256, 544]⟩
abbrev S1x256 : Shape := ⟨2, ![1, 256]⟩
abbrev S1 : Shape := ⟨1, ![1]⟩
abbrev S16x256 : Shape := ⟨2, ![16, 256]⟩
abbrev S100000x256 : Shape := ⟨2, ![100000, 256]⟩
abbrev S_ : Shape := ⟨0, ![]⟩
abbrev S32x256 : Shape := ⟨2, ![32, 256]⟩
abbrev S300000x256 : Shape := ⟨2, ![300000, 256]⟩
abbrev S1x256x256 : Shape := ⟨3, ![1, 256, 256]⟩
abbrev S256x256 : Shape := ⟨2, ![256, 256]⟩
abbrev S1x600000 : Shape := ⟨2, ![1, 600000]⟩
abbrev S600000 : Shape := ⟨1, ![600000]⟩
abbrev S600000x1 : Shape := ⟨2, ![600000, 1]⟩
abbrev S600000x256 : Shape := ⟨2, ![600000, 256]⟩
abbrev S300000x1 : Shape := ⟨2, ![300000, 1]⟩
abbrev S100000 : Shape := ⟨1, ![100000]⟩
abbrev S100000x1 : Shape := ⟨2, ![100000, 1]⟩
abbrev S300000x544 : Shape := ⟨2, ![300000, 544]⟩
abbrev S544x256 : Shape := ⟨2, ![544, 256]⟩
abbrev S256x1 : Shape := ⟨2, ![256, 1]⟩
abbrev S1x1 : Shape := ⟨2, ![1, 1]⟩

abbrev nBuf : Space → Nat
  | .hbm => 346
  | .vmem => 0
  | .smem => 0
  | _ => 0

abbrev hbmTy0_0 (i : Nat) : BufTy := match i % 128 with
  | 0 => ⟨S100000x16, .f32⟩
  | 1 => ⟨S300000x32, .f32⟩
  | 2 => ⟨S300000x32, .f32⟩
  | 3 => ⟨S2x600000, .i32⟩
  | 4 => ⟨S2x600000, .i32⟩
  | 5 => ⟨S300000, .i32⟩
  | 6 => ⟨S300000, .i32⟩
  | 7 => ⟨S256x16, .f32⟩
  | 8 => ⟨S256, .f32⟩
  | 9 => ⟨S256x32, .f32⟩
  | 10 => ⟨S256, .f32⟩
  | 11 => ⟨S2x256x256, .f32⟩
  | 12 => ⟨S2x256, .f32⟩
  | 13 => ⟨S2x256x256, .f32⟩
  | 14 => ⟨S2x256x256, .f32⟩
  | 15 => ⟨S2x256, .f32⟩
  | 16 => ⟨S2x256x256, .f32⟩
  | 17 => ⟨S2x256, .f32⟩
  | 18 => ⟨S2x256, .f32⟩
  | 19 => ⟨S2x256, .f32⟩
  | 20 => ⟨S2x256, .f32⟩
  | 21 => ⟨S256x544, .f32⟩
  | 22 => ⟨S256, .f32⟩
  | 23 => ⟨S1x256, .f32⟩
  | 24 => ⟨S1, .f32⟩
  | 25 => ⟨S16x256, .f32⟩
  | 26 => ⟨S100000x256, .f32⟩
  | 27 => ⟨S1x256, .f32⟩
  | 28 => ⟨S100000x256, .f32⟩
  | 29 => ⟨S100000x256, .f32⟩
  | 30 => ⟨S_, .f32⟩
  | 31 => ⟨S100000x256, .f32⟩
  | 32 => ⟨S100000x256, .f32⟩
  | 33 => ⟨S32x256, .f32⟩
  | 34 => ⟨S300000x256, .f32⟩
  | 35 => ⟨S1x256, .f32⟩
  | 36 => ⟨S300000x256, .f32⟩
  | 37 => ⟨S300000x256, .f32⟩
  | 38 => ⟨S_, .f32⟩
  | 39 => ⟨S300000x256, .f32⟩
  | 40 => ⟨S300000x256, .f32⟩
  | 41 => ⟨S1x256x256, .f32⟩
  | 42 => ⟨S256x256, .f32⟩
  | 43 => ⟨S1x256, .f32⟩
  | 44 => ⟨S256, .f32⟩
  | 45 => ⟨S1x256x256, .f32⟩
  | 46 => ⟨S256x256, .f32⟩
  | 47 => ⟨S1x600000, .i32⟩
  | 48 => ⟨S600000, .i32⟩
  | 49 => ⟨S1x600000, .i32⟩
  | 50 => ⟨S600000, .i32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x256, .f32⟩
  | 60 => ⟨S_, .f32⟩
  | 61 => ⟨S300000x256, .f32⟩
  | 62 => ⟨S600000x1, .i32⟩
  | 63 => ⟨S300000x256, .f32⟩
  | 64 => ⟨S_, .f32⟩
  | 65 => ⟨S600000, .f32⟩
  | 66 => ⟨S_, .f32⟩
  | 67 => ⟨S300000, .f32⟩
  | 68 => ⟨S600000x1, .i32⟩
  | 69 => ⟨S300000, .f32⟩
  | 70 => ⟨S_, .f32⟩
  | 71 => ⟨S300000, .f32⟩
  | 72 => ⟨S300000, .f32⟩
  | 73 => ⟨S300000x1, .f32⟩
  | 74 => ⟨S300000x256, .f32⟩
  | 75 => ⟨S300000x256, .f32⟩
  | 76 => ⟨S256x256, .f32⟩
  | 77 => ⟨S300000x256, .f32⟩
  | 78 => ⟨S1x256, .f32⟩
  | 79 => ⟨S300000x256, .f32⟩
  | 80 => ⟨S300000x256, .f32⟩
  | 81 => ⟨S256x256, .f32⟩
  | 82 => ⟨S300000x256, .f32⟩
  | 83 => ⟨S300000x256, .f32⟩
  | 84 => ⟨S1x256x256, .f32⟩
  | 85 => ⟨S256x256, .f32⟩
  | 86 => ⟨S1x256, .f32⟩
  | 87 => ⟨S256, .f32⟩
  | 88 => ⟨S1x256x256, .f32⟩
  | 89 => ⟨S256x256, .f32⟩
  | 90 => ⟨S1x600000, .i32⟩
  | 91 => ⟨S600000, .i32⟩
  | 92 => ⟨S1x600000, .i32⟩
  | 93 => ⟨S600000, .i32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x256, .f32⟩
  | 103 => ⟨S_, .f32⟩
  | 104 => ⟨S100000x256, .f32⟩
  | 105 => ⟨S600000x1, .i32⟩
  | 106 => ⟨S100000x256, .f32⟩
  | 107 => ⟨S_, .f32⟩
  | 108 => ⟨S600000, .f32⟩
  | 109 => ⟨S_, .f32⟩
  | 110 => ⟨S100000, .f32⟩
  | 111 => ⟨S600000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x256, .f32⟩
  | 118 => ⟨S100000x256, .f32⟩
  | 119 => ⟨S256x256, .f32⟩
  | 120 => ⟨S100000x256, .f32⟩
  | 121 => ⟨S1x256, .f32⟩
  | 122 => ⟨S100000x256, .f32⟩
  | 123 => ⟨S100000x256, .f32⟩
  | 124 => ⟨S256x256, .f32⟩
  | 125 => ⟨S100000x256, .f32⟩
  | 126 => ⟨S100000x256, .f32⟩
  | 127 => ⟨S1x256, .f32⟩
  | _ => ⟨S100000x16, .f32⟩

abbrev hbmTy0_1 (i : Nat) : BufTy := match i % 128 with
  | 0 => ⟨S256, .f32⟩
  | 1 => ⟨S1x256, .f32⟩
  | 2 => ⟨S256, .f32⟩
  | 3 => ⟨S1x256, .f32⟩
  | 4 => ⟨S256, .f32⟩
  | 5 => ⟨S1x256, .f32⟩
  | 6 => ⟨S256, .f32⟩
  | 7 => ⟨S1x256, .f32⟩
  | 8 => ⟨S100000x256, .f32⟩
  | 9 => ⟨S100000x256, .f32⟩
  | 10 => ⟨S_, .f32⟩
  | 11 => ⟨S256, .f32⟩
  | 12 => ⟨S256, .f32⟩
  | 13 => ⟨S256, .f32⟩
  | 14 => ⟨S256, .f32⟩
  | 15 => ⟨S1x256, .f32⟩
  | 16 => ⟨S100000x256, .f32⟩
  | 17 => ⟨S100000x256, .f32⟩
  | 18 => ⟨S1x256, .f32⟩
  | 19 => ⟨S100000x256, .f32⟩
  | 20 => ⟨S100000x256, .f32⟩
  | 21 => ⟨S_, .f32⟩
  | 22 => ⟨S100000x256, .f32⟩
  | 23 => ⟨S100000x256, .f32⟩
  | 24 => ⟨S1x256, .f32⟩
  | 25 => ⟨S256, .f32⟩
  | 26 => ⟨S1x256, .f32⟩
  | 27 => ⟨S256, .f32⟩
  | 28 => ⟨S1x256, .f32⟩
  | 29 => ⟨S256, .f32⟩
  | 30 => ⟨S1x256, .f32⟩
  | 31 => ⟨S256, .f32⟩
  | 32 => ⟨S1x256, .f32⟩
  | 33 => ⟨S300000x256, .f32⟩
  | 34 => ⟨S300000x256, .f32⟩
  | 35 => ⟨S_, .f32⟩
  | 36 => ⟨S256, .f32⟩
  | 37 => ⟨S256, .f32⟩
  | 38 => ⟨S256, .f32⟩
  | 39 => ⟨S256, .f32⟩
  | 40 => ⟨S1x256, .f32⟩
  | 41 => ⟨S300000x256, .f32⟩
  | 42 => ⟨S300000x256, .f32⟩
  | 43 => ⟨S1x256, .f32⟩
  | 44 => ⟨S300000x256, .f32⟩
  | 45 => ⟨S300000x256, .f32⟩
  | 46 => ⟨S_, .f32⟩
  | 47 => ⟨S300000x256, .f32⟩
  | 48 => ⟨S300000x256, .f32⟩
  | 49 => ⟨S1x256x256, .f32⟩
  | 50 => ⟨S256x256, .f32⟩
  | 51 => ⟨S1x256, .f32⟩
  | 52 => ⟨S256, .f32⟩
  | 53 => ⟨S1x256x256, .f32⟩
  | 54 => ⟨S256x256, .f32⟩
  | 55 => ⟨S1x600000, .i32⟩
  | 56 => ⟨S600000, .i32⟩
  | 57 => ⟨S1x600000, .i32⟩
  | 58 => ⟨S600000, .i32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x256, .f32⟩
  | 68 => ⟨S_, .f32⟩
  | 69 => ⟨S300000x256, .f32⟩
  | 70 => ⟨S600000x1, .i32⟩
  | 71 => ⟨S300000x256, .f32⟩
  | 72 => ⟨S_, .f32⟩
  | 73 => ⟨S600000, .f32⟩
  | 74 => ⟨S_, .f32⟩
  | 75 => ⟨S300000, .f32⟩
  | 76 => ⟨S600000x1, .i32⟩
  | 77 => ⟨S300000, .f32⟩
  | 78 => ⟨S_, .f32⟩
  | 79 => ⟨S300000, .f32⟩
  | 80 => ⟨S300000, .f32⟩
  | 81 => ⟨S300000x1, .f32⟩
  | 82 => ⟨S300000x256, .f32⟩
  | 83 => ⟨S300000x256, .f32⟩
  | 84 => ⟨S256x256, .f32⟩
  | 85 => ⟨S300000x256, .f32⟩
  | 86 => ⟨S1x256, .f32⟩
  | 87 => ⟨S300000x256, .f32⟩
  | 88 => ⟨S300000x256, .f32⟩
  | 89 => ⟨S256x256, .f32⟩
  | 90 => ⟨S300000x256, .f32⟩
  | 91 => ⟨S300000x256, .f32⟩
  | 92 => ⟨S1x256x256, .f32⟩
  | 93 => ⟨S256x256, .f32⟩
  | 94 => ⟨S1x256, .f32⟩
  | 95 => ⟨S256, .f32⟩
  | 96 => ⟨S1x256x256, .f32⟩
  | 97 => ⟨S256x256, .f32⟩
  | 98 => ⟨S1x600000, .i32⟩
  | 99 => ⟨S600000, .i32⟩
  | 100 => ⟨S1x600000, .i32⟩
  | 101 => ⟨S600000, .i32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x256, .f32⟩
  | 111 => ⟨S_, .f32⟩
  | 112 => ⟨S100000x256, .f32⟩
  | 113 => ⟨S600000x1, .i32⟩
  | 114 => ⟨S100000x256, .f32⟩
  | 115 => ⟨S_, .f32⟩
  | 116 => ⟨S600000, .f32⟩
  | 117 => ⟨S_, .f32⟩
  | 118 => ⟨S100000, .f32⟩
  | 119 => ⟨S600000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x256, .f32⟩
  | 126 => ⟨S100000x256, .f32⟩
  | 127 => ⟨S256x256, .f32⟩
  | _ => ⟨S100000x16, .f32⟩

abbrev hbmTy0_2 (i : Nat) : BufTy := match i % 128 with
  | 0 => ⟨S100000x256, .f32⟩
  | 1 => ⟨S1x256, .f32⟩
  | 2 => ⟨S100000x256, .f32⟩
  | 3 => ⟨S100000x256, .f32⟩
  | 4 => ⟨S256x256, .f32⟩
  | 5 => ⟨S100000x256, .f32⟩
  | 6 => ⟨S100000x256, .f32⟩
  | 7 => ⟨S1x256, .f32⟩
  | 8 => ⟨S256, .f32⟩
  | 9 => ⟨S1x256, .f32⟩
  | 10 => ⟨S256, .f32⟩
  | 11 => ⟨S1x256, .f32⟩
  | 12 => ⟨S256, .f32⟩
  | 13 => ⟨S1x256, .f32⟩
  | 14 => ⟨S256, .f32⟩
  | 15 => ⟨S1x256, .f32⟩
  | 16 => ⟨S100000x256, .f32⟩
  | 17 => ⟨S100000x256, .f32⟩
  | 18 => ⟨S_, .f32⟩
  | 19 => ⟨S256, .f32⟩
  | 20 => ⟨S256, .f32⟩
  | 21 => ⟨S256, .f32⟩
  | 22 => ⟨S256, .f32⟩
  | 23 => ⟨S1x256, .f32⟩
  | 24 => ⟨S100000x256, .f32⟩
  | 25 => ⟨S100000x256, .f32⟩
  | 26 => ⟨S1x256, .f32⟩
  | 27 => ⟨S100000x256, .f32⟩
  | 28 => ⟨S100000x256, .f32⟩
  | 29 => ⟨S_, .f32⟩
  | 30 => ⟨S100000x256, .f32⟩
  | 31 => ⟨S100000x256, .f32⟩
  | 32 => ⟨S1x256, .f32⟩
  | 33 => ⟨S256, .f32⟩
  | 34 => ⟨S1x256, .f32⟩
  | 35 => ⟨S256, .f32⟩
  | 36 => ⟨S1x256, .f32⟩
  | 37 => ⟨S256, .f32⟩
  | 38 => ⟨S1x256, .f32⟩
  | 39 => ⟨S256, .f32⟩
  | 40 => ⟨S1x256, .f32⟩
  | 41 => ⟨S300000x256, .f32⟩
  | 42 => ⟨S300000x256, .f32⟩
  | 43 => ⟨S_, .f32⟩
  | 44 => ⟨S256, .f32⟩
  | 45 => ⟨S256, .f32⟩
  | 46 => ⟨S256, .f32⟩
  | 47 => ⟨S256, .f32⟩
  | 48 => ⟨S1x256, .f32⟩
  | 49 => ⟨S300000x256, .f32⟩
  | 50 => ⟨S300000x256, .f32⟩
  | 51 => ⟨S1x256, .f32⟩
  | 52 => ⟨S300000x256, .f32⟩
  | 53 => ⟨S300000x256, .f32⟩
  | 54 => ⟨S_, .f32⟩
  | 55 => ⟨S300000x256, .f32⟩
  | 56 => ⟨S300000x256, .f32⟩
  | 57 => ⟨S_, .i32⟩
  | 58 => ⟨S300000, .i32⟩
  | 59 => ⟨S300000, .i1⟩
  | 60 => ⟨S_, .i32⟩
  | 61 => ⟨S300000, .i32⟩
  | 62 => ⟨S300000, .i32⟩
  | 63 => ⟨S300000, .i32⟩
  | 64 => ⟨S300000x1, .i32⟩
  | 65 => ⟨S300000x256, .f32⟩
  | 66 => ⟨S_, .i32⟩
  | 67 => ⟨S300000, .i32⟩
  | 68 => ⟨S300000, .i1⟩
  | 69 => ⟨S_, .i32⟩
  | 70 => ⟨S300000, .i32⟩
  | 71 => ⟨S300000, .i32⟩
  | 72 => ⟨S300000, .i32⟩
  | 73 => ⟨S300000x1, .i32⟩
  | 74 => ⟨S300000x256, .f32⟩
  | 75 => ⟨S300000x544, .f32⟩
  | 76 => ⟨S544x256, .f32⟩
  | 77 => ⟨S300000x256, .f32⟩
  | 78 => ⟨S1x256, .f32⟩
  | 79 => ⟨S300000x256, .f32⟩
  | 80 => ⟨S300000x256, .f32⟩
  | 81 => ⟨S_, .f32⟩
  | 82 => ⟨S300000x256, .f32⟩
  | 83 => ⟨S300000x256, .f32⟩
  | 84 => ⟨S256x1, .f32⟩
  | 85 => ⟨S300000x1, .f32⟩
  | 86 => ⟨S1x1, .f32⟩
  | 87 => ⟨S300000x1, .f32⟩
  | 88 => ⟨S300000x1, .f32⟩
  | 89 => ⟨S300000, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call0_cst : Ref sig .tc := ⟨.hbm, 30, rfl⟩
abbrev main_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call1_cst : Ref sig .tc := ⟨.hbm, 38, rfl⟩
abbrev main_call1_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c : Ref sig .tc := ⟨.hbm, 51, rfl⟩
abbrev main_v22 : Ref sig .tc := ⟨.hbm, 52, rfl⟩
abbrev main_v23 : Ref sig .tc := ⟨.hbm, 53, rfl⟩
abbrev main_c_0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_1 : Ref sig .tc := ⟨.hbm, 64, rfl⟩
abbrev main_v32 : Ref sig .tc := ⟨.hbm, 65, rfl⟩
abbrev main_cst_2 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_3 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_4 : Ref sig .tc := ⟨.hbm, 94, rfl⟩
abbrev main_v59 : Ref sig .tc := ⟨.hbm, 95, rfl⟩
abbrev main_v60 : Ref sig .tc := ⟨.hbm, 96, rfl⟩
abbrev main_c_5 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_6 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_7 : Ref sig .tc := ⟨.hbm, 107, rfl⟩
abbrev main_v69 : Ref sig .tc := ⟨.hbm, 108, rfl⟩
abbrev main_cst_8 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_9 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_10 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_call2_cst : Ref sig .tc := ⟨.hbm, 149, rfl⟩
abbrev main_call2_v0 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_11 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_call3_cst : Ref sig .tc := ⟨.hbm, 174, rfl⟩
abbrev main_call3_v0 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_c_12 : Ref sig .tc := ⟨.hbm, 187, rfl⟩
abbrev main_v140 : Ref sig .tc := ⟨.hbm, 188, rfl⟩
abbrev main_v141 : Ref sig .tc := ⟨.hbm, 189, rfl⟩
abbrev main_c_13 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_14 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_15 : Ref sig .tc := ⟨.hbm, 200, rfl⟩
abbrev main_v150 : Ref sig .tc := ⟨.hbm, 201, rfl⟩
abbrev main_cst_16 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_17 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_c_18 : Ref sig .tc := ⟨.hbm, 230, rfl⟩
abbrev main_v177 : Ref sig .tc := ⟨.hbm, 231, rfl⟩
abbrev main_v178 : Ref sig .tc := ⟨.hbm, 232, rfl⟩
abbrev main_c_19 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_20 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_cst_21 : Ref sig .tc := ⟨.hbm, 243, rfl⟩
abbrev main_v187 : Ref sig .tc := ⟨.hbm, 244, rfl⟩
abbrev main_cst_22 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_cst_23 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_24 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_call4_cst : Ref sig .tc := ⟨.hbm, 285, rfl⟩
abbrev main_call4_v0 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_cst_25 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_call5_cst : Ref sig .tc := ⟨.hbm, 310, rfl⟩
abbrev main_call5_v0 : Ref sig .tc := ⟨.hbm, 311, rfl⟩
abbrev main_v247 : Ref sig .tc := ⟨.hbm, 312, rfl⟩
abbrev main_c_26 : Ref sig .tc := ⟨.hbm, 313, rfl⟩
abbrev main_v248 : Ref sig .tc := ⟨.hbm, 314, rfl⟩
abbrev main_v249 : Ref sig .tc := ⟨.hbm, 315, rfl⟩
abbrev main_c_27 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_c_28 : Ref sig .tc := ⟨.hbm, 322, rfl⟩
abbrev main_v255 : Ref sig .tc := ⟨.hbm, 323, rfl⟩
abbrev main_v256 : Ref sig .tc := ⟨.hbm, 324, rfl⟩
abbrev main_c_29 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_call6_cst : Ref sig .tc := ⟨.hbm, 337, rfl⟩
abbrev main_call6_v0 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩

abbrev nD : Nat := 1
abbrev τ : Topo := Topo.v7x

variable {F : FTy → Type} [FloatOps F]

class Facts₀ : Prop where
  transposes_S256x16_S16x256_1_0 : S256x16.Transposes [1, 0] S16x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S256x32_S32x256_1_0 : S256x32.Transposes [1, 0] S32x256
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  transposes_S256x256_S256x256_1_0 : S256x256.Transposes [1, 0] S256x256
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S256 : S_.BroadcastsInDim S256 (![] : Fin 0 → Fin S256.rank)
  slices_S2x256x256_S1x256x256_1_0_0 : S2x256x256.Slices ![1, 0, 0] S1x256x256
  slices_S2x256_S1x256_1_0 : S2x256.Slices ![1, 0] S1x256
  concatenates_S300000x256_S300000x256_S300000x32_S300000x544_d1 : Shape.Concatenates [S300000x256, S300000x256, S300000x32] S300000x544 1
  transposes_S256x544_S544x256_1_0 : S256x544.Transposes [1, 0] S544x256
  transposes_S1x256_S256x1_1_0 : S1x256.Transposes [1, 0] S256x1
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  shapeCasts_S300000x1_S300000 : S300000x1.ShapeCasts S300000
  dot_S100000x16_S16x256_S100000x256_1_0_0_1_n_n_wf : DotDims.WF S100000x16 S16x256 S100000x256 [1] [0] [0] [1] [] []
  dot_S300000x32_S32x256_S300000x256_1_0_0_1_n_n_wf : DotDims.WF S300000x32 S32x256 S300000x256 [1] [0] [0] [1] [] []
  gather_S100000x256_S600000x1_S600000x256_1_0_n_n_0_1_1256_wf : GatherDims.WF S100000x256 S600000x1 S600000x256 [1] [0] [] [0] [] 1 ![1, 256]
  scatter_S300000x256_S600000x1_S600000x256_1_0_0_1_wf : ScatterDims.WF S300000x256 S600000x1 S600000x256 [1] [0] [0] 1
  scatter_S300000_S600000x1_S600000_n_0_0_1_wf : ScatterDims.WF S300000 S600000x1 S600000 [] [0] [0] 1
  dot_S300000x256_S256x256_S300000x256_1_0_0_1_n_n_wf : DotDims.WF S300000x256 S256x256 S300000x256 [1] [0] [0] [1] [] []
  gather_S300000x256_S600000x1_S600000x256_1_0_n_n_0_1_1256_wf : GatherDims.WF S300000x256 S600000x1 S600000x256 [1] [0] [] [0] [] 1 ![1, 256]
  scatter_S100000x256_S600000x1_S600000x256_1_0_0_1_wf : ScatterDims.WF S100000x256 S600000x1 S600000x256 [1] [0] [0] 1
  scatter_S100000_S600000x1_S600000_n_0_0_1_wf : ScatterDims.WF S100000 S600000x1 S600000 [] [0] [0] 1
  dot_S100000x256_S256x256_S100000x256_1_0_0_1_n_n_wf : DotDims.WF S100000x256 S256x256 S100000x256 [1] [0] [0] [1] [] []
  gather_S100000x256_S300000x1_S300000x256_1_0_n_n_0_1_1256_wf : GatherDims.WF S100000x256 S300000x1 S300000x256 [1] [0] [] [0] [] 1 ![1, 256]
  dot_S300000x544_S544x256_S300000x256_1_0_0_1_n_n_wf : DotDims.WF S300000x544 S544x256 S300000x256 [1] [0] [0] [1] [] []
  dot_S300000x256_S256x1_S300000x1_1_0_0_1_n_n_wf : DotDims.WF S300000x256 S256x1 S300000x1 [1] [0] [0] [1] [] []

variable [Facts₀]

def dot_S100000x16_S16x256_S100000x256_1_0_0_1_n_n : DotDims S100000x16 S16x256 S100000x256 where
  lhsContracting := [1]
  rhsContracting := [0]
  lhsNonContracting := [0]
  rhsNonContracting := [1]
  lhsBatch := []
  rhsBatch := []
  wf := dot_S100000x16_S16x256_S100000x256_1_0_0_1_n_n_wf
def dot_S300000x32_S32x256_S300000x256_1_0_0_1_n_n : DotDims S300000x32 S32x256 S300000x256 where
  lhsContracting := [1]
  rhsContracting := [0]
  lhsNonContracting := [0]
  rhsNonContracting := [1]
  lhsBatch := []
  rhsBatch := []
  wf := dot_S300000x32_S32x256_S300000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S300000x256_S600000x1_S600000x256_1_0_0_1 : ScatterDims S300000x256 S600000x1 S600000x256 where
  updateWindowDims := [1]
  insertedWindowDims := [0]
  scatterDimsToOperandDims := [0]
  indexVectorDim := 1
  wf := scatter_S300000x256_S600000x1_S600000x256_1_0_0_1_wf
def scatter_S300000_S600000x1_S600000_n_0_0_1 : ScatterDims S300000 S600000x1 S600000 where
  updateWindowDims := []
  insertedWindowDims := [0]
  scatterDimsToOperandDims := [0]
  indexVectorDim := 1
  wf := scatter_S300000_S600000x1_S600000_n_0_0_1_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def gather_S300000x256_S600000x1_S600000x256_1_0_n_n_0_1_1256 : GatherDims S300000x256 S600000x1 S600000x256 where
  offsetDims := [1]
  collapsedSliceDims := [0]
  operandBatchingDims := []
  startIndicesBatchingDims := []
  startIndexMap := [0]
  indexVectorDim := 1
  sliceSizes := ![1, 256]
  wf := gather_S300000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x544_S544x256_S300000x256_1_0_0_1_n_n : DotDims S300000x544 S544x256 S300000x256 where
  lhsContracting := [1]
  rhsContracting := [0]
  lhsNonContracting := [0]
  rhsNonContracting := [1]
  lhsBatch := []
  rhsBatch := []
  wf := dot_S300000x544_S544x256_S300000x256_1_0_0_1_n_n_wf
def dot_S300000x256_S256x1_S300000x1_1_0_0_1_n_n : DotDims S300000x256 S256x1 S300000x1 where
  lhsContracting := [1]
  rhsContracting := [0]
  lhsNonContracting := [0]
  rhsNonContracting := [1]
  lhsBatch := []
  rhsBatch := []
  wf := dot_S300000x256_S256x1_S300000x1_1_0_0_1_n_n_wf

class Facts : Prop extends Facts₀ where

variable [Facts]
-- ==== Proof.RefKeys.lean ====
/-
  The reference's run read window by window. Its 321 host operations are cut into eight consecutive windows, one per stage
  of the network (the two input projections; each layer's two neighbour-mean updates; each layer's normalisation and relu;
  the edge MLP). Every buffer is written once, so a value made in an early window reaches a later one unchanged. Reading
  each window's operations over the contents it starts from gives each stage's output as the composed function of the
  argument arrays that the per-operation definitions `val_<buffer>` spell: the projections, the first layer's two updates,
  their normalised forms, the second layer's account update, and the result.
-/
import proofs.«149189_j32641751449687_2_alg».proof.Proof.RefWin
import proofs.«149189_j32641751449687_2_alg».proof.Proof.RefRead

set_option maxRecDepth 16384

noncomputable section

namespace Cert.ReferenceIdeal.Keys

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- Stage output `main_v5` is its composed function of the arguments. -/
theorem k_main_v5 (c : Dev nD) :
    U1 m c (Proc.devRef .tc main_v5) = val_main_v5 (F := F) (m ((c.tc : Thread nD τ).loc main_arg0)) (m ((c.tc : Thread nD τ).loc main_arg7)) (m ((c.tc : Thread nD τ).loc main_arg8)) := by
  show after opsW1 (U0 m c) (Proc.devRef .tc main_v5) = _
  after_results_simp
  rfl

set_option maxHeartbeats 4000000 in
/-- Stage output `main_v11` is its composed function of the arguments. -/
theorem k_main_v11 (c : Dev nD) :
    U1 m c (Proc.devRef .tc main_v11) = val_main_v11 (F := F) (m ((c.tc : Thread nD τ).loc main_arg1)) (m ((c.tc : Thread nD τ).loc main_arg9)) (m ((c.tc : Thread nD τ).loc main_arg10)) := by
  show after opsW1 (U0 m c) (Proc.devRef .tc main_v11) = _
  after_results_simp
  rfl

theorem rp1_main_arg3 (c : Dev nD) : U1 m c (Proc.devRef .tc main_arg3) = m ((c.tc : Thread nD τ).loc main_arg3) :=
  (hsW1 m c main_arg3 (by decide))

theorem rp1_main_arg11 (c : Dev nD) : U1 m c (Proc.devRef .tc main_arg11) = m ((c.tc : Thread nD τ).loc main_arg11) :=
  (hsW1 m c main_arg11 (by decide))

theorem rp1_main_arg12 (c : Dev nD) : U1 m c (Proc.devRef .tc main_arg12) = m ((c.tc : Thread nD τ).loc main_arg12) :=
  (hsW1 m c main_arg12 (by decide))

theorem rp1_main_arg13 (c : Dev nD) : U1 m c (Proc.devRef .tc main_arg13) = m ((c.tc : Thread nD τ).loc main_arg13) :=
  (hsW1 m c main_arg13 (by decide))

set_option maxHeartbeats 4000000 in
/-- Stage output `main_v48` is its composed function of the arguments. -/
theorem k_main_v48 (c : Dev nD) :
    U2 m c (Proc.devRef .tc main_v48) = val_main_v48 (F := F) (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show after opsW2 (U1 m c) (Proc.devRef .tc main_v48) = _
  after_results_simp
  rw [k_main_v5 m c, k_main_v11 m c, rp1_main_arg3 m c, rp1_main_arg11 m c, rp1_main_arg12 m c, rp1_main_arg13 m c]
  rfl

theorem rp2_main_v11 (c : Dev nD) : U2 m c (Proc.devRef .tc main_v11) = U1 m c (Proc.devRef .tc main_v11) :=
  (hsW2 m c main_v11 (by decide))

theorem rp2_main_v5 (c : Dev nD) : U2 m c (Proc.devRef .tc main_v5) = U1 m c (Proc.devRef .tc main_v5) :=
  (hsW2 m c main_v5 (by decide))

theorem rp2_main_arg4 (c : Dev nD) : U2 m c (Proc.devRef .tc main_arg4) = m ((c.tc : Thread nD τ).loc main_arg4) :=
  ((hsW2 m c main_arg4 (by decide)).trans (hsW1 m c main_arg4 (by decide)))

theorem rp2_main_arg14 (c : Dev nD) : U2 m c (Proc.devRef .tc main_arg14) = m ((c.tc : Thread nD τ).loc main_arg14) :=
  ((hsW2 m c main_arg14 (by decide)).trans (hsW1 m c main_arg14 (by decide)))

theorem rp2_main_arg15 (c : Dev nD) : U2 m c (Proc.devRef .tc main_arg15) = m ((c.tc : Thread nD τ).loc main_arg15) :=
  ((hsW2 m c main_arg15 (by decide)).trans (hsW1 m c main_arg15 (by decide)))

theorem rp2_main_arg16 (c : Dev nD) : U2 m c (Proc.devRef .tc main_arg16) = m ((c.tc : Thread nD τ).loc main_arg16) :=
  ((hsW2 m c main_arg16 (by decide)).trans (hsW1 m c main_arg16 (by decide)))

set_option maxHeartbeats 4000000 in
/-- Stage output `main_v85` is its composed function of the arguments. -/
theorem k_main_v85 (c : Dev nD) :
    U3 m c (Proc.devRef .tc main_v85) = val_main_v85 (F := F) (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) (m ((c.tc : Thread nD τ).loc main_arg16)) := by
  show after opsW3 (U2 m c) (Proc.devRef .tc main_v85) = _
  after_results_simp
  rw [rp2_main_v11 m c, k_main_v11 m c, rp2_main_v5 m c, k_main_v5 m c, rp2_main_arg4 m c, rp2_main_arg14 m c, rp2_main_arg15 m c, rp2_main_arg16 m c]
  rfl

theorem rp3_main_arg17 (c : Dev nD) : U3 m c (Proc.devRef .tc main_arg17) = m ((c.tc : Thread nD τ).loc main_arg17) :=
  ((hsW3 m c main_arg17 (by decide)).trans ((hsW2 m c main_arg17 (by decide)).trans (hsW1 m c main_arg17 (by decide))))

theorem rp3_main_arg18 (c : Dev nD) : U3 m c (Proc.devRef .tc main_arg18) = m ((c.tc : Thread nD τ).loc main_arg18) :=
  ((hsW3 m c main_arg18 (by decide)).trans ((hsW2 m c main_arg18 (by decide)).trans (hsW1 m c main_arg18 (by decide))))

theorem rp3_main_arg19 (c : Dev nD) : U3 m c (Proc.devRef .tc main_arg19) = m ((c.tc : Thread nD τ).loc main_arg19) :=
  ((hsW3 m c main_arg19 (by decide)).trans ((hsW2 m c main_arg19 (by decide)).trans (hsW1 m c main_arg19 (by decide))))

theorem rp3_main_arg20 (c : Dev nD) : U3 m c (Proc.devRef .tc main_arg20) = m ((c.tc : Thread nD τ).loc main_arg20) :=
  ((hsW3 m c main_arg20 (by decide)).trans ((hsW2 m c main_arg20 (by decide)).trans (hsW1 m c main_arg20 (by decide))))

set_option maxHeartbeats 4000000 in
/-- Stage output `main_v107` is its composed function of the arguments. -/
theorem k_main_v107 (c : Dev nD) :
    U4 m c (Proc.devRef .tc main_v107) = val_main_v107 (F := F) (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show after opsW4 (U3 m c) (Proc.devRef .tc main_v107) = _
  after_results_simp
  rw [k_main_v85 m c, rp3_main_arg17 m c, rp3_main_arg18 m c, rp3_main_arg19 m c, rp3_main_arg20 m c]
  rfl

theorem rp3_main_v48 (c : Dev nD) : U3 m c (Proc.devRef .tc main_v48) = U2 m c (Proc.devRef .tc main_v48) :=
  (hsW3 m c main_v48 (by decide))

set_option maxHeartbeats 4000000 in
/-- Stage output `main_v129` is its composed function of the arguments. -/
theorem k_main_v129 (c : Dev nD) :
    U4 m c (Proc.devRef .tc main_v129) = val_main_v129 (F := F) (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg17)) (m ((c.tc : Thread nD τ).loc main_arg18)) (m ((c.tc : Thread nD τ).loc main_arg19)) (m ((c.tc : Thread nD τ).loc main_arg20)) := by
  show after opsW4 (U3 m c) (Proc.devRef .tc main_v129) = _
  after_results_simp
  rw [rp3_main_v48 m c, k_main_v48 m c, rp3_main_arg17 m c, rp3_main_arg18 m c, rp3_main_arg19 m c, rp3_main_arg20 m c]
  rfl

theorem rp5_main_v129 (c : Dev nD) : U5 m c (Proc.devRef .tc main_v129) = U4 m c (Proc.devRef .tc main_v129) :=
  (hsW5 m c main_v129 (by decide))

theorem rp5_main_v107 (c : Dev nD) : U5 m c (Proc.devRef .tc main_v107) = U4 m c (Proc.devRef .tc main_v107) :=
  (hsW5 m c main_v107 (by decide))

theorem rp5_main_arg4 (c : Dev nD) : U5 m c (Proc.devRef .tc main_arg4) = m ((c.tc : Thread nD τ).loc main_arg4) :=
  ((hsW5 m c main_arg4 (by decide)).trans ((hsW4 m c main_arg4 (by decide)).trans ((hsW3 m c main_arg4 (by decide)).trans ((hsW2 m c main_arg4 (by decide)).trans (hsW1 m c main_arg4 (by decide))))))

theorem rp5_main_arg14 (c : Dev nD) : U5 m c (Proc.devRef .tc main_arg14) = m ((c.tc : Thread nD τ).loc main_arg14) :=
  ((hsW5 m c main_arg14 (by decide)).trans ((hsW4 m c main_arg14 (by decide)).trans ((hsW3 m c main_arg14 (by decide)).trans ((hsW2 m c main_arg14 (by decide)).trans (hsW1 m c main_arg14 (by decide))))))

theorem rp5_main_arg15 (c : Dev nD) : U5 m c (Proc.devRef .tc main_arg15) = m ((c.tc : Thread nD τ).loc main_arg15) :=
  ((hsW5 m c main_arg15 (by decide)).trans ((hsW4 m c main_arg15 (by decide)).trans ((hsW3 m c main_arg15 (by decide)).trans ((hsW2 m c main_arg15 (by decide)).trans (hsW1 m c main_arg15 (by decide))))))

theorem rp5_main_arg16 (c : Dev nD) : U5 m c (Proc.devRef .tc main_arg16) = m ((c.tc : Thread nD τ).loc main_arg16) :=
  ((hsW5 m c main_arg16 (by decide)).trans ((hsW4 m c main_arg16 (by decide)).trans ((hsW3 m c main_arg16 (by decide)).trans ((hsW2 m c main_arg16 (by decide)).trans (hsW1 m c main_arg16 (by decide))))))

set_option maxHeartbeats 4000000 in
/-- Stage output `main_v203` is its composed function of the arguments. -/
theorem k_main_v203 (c : Dev nD) :
    U6 m c (Proc.devRef .tc main_v203) = val_main_v203 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show after opsW6 (U5 m c) (Proc.devRef .tc main_v203) = _
  after_results_simp
  rw [rp5_main_v129 m c, k_main_v129 m c, rp5_main_v107 m c, k_main_v107 m c, rp5_main_arg4 m c, rp5_main_arg14 m c, rp5_main_arg15 m c, rp5_main_arg16 m c]
  rfl

theorem rp6_main_arg17 (c : Dev nD) : U6 m c (Proc.devRef .tc main_arg17) = m ((c.tc : Thread nD τ).loc main_arg17) :=
  ((hsW6 m c main_arg17 (by decide)).trans ((hsW5 m c main_arg17 (by decide)).trans ((hsW4 m c main_arg17 (by decide)).trans ((hsW3 m c main_arg17 (by decide)).trans ((hsW2 m c main_arg17 (by decide)).trans (hsW1 m c main_arg17 (by decide)))))))

theorem rp6_main_arg18 (c : Dev nD) : U6 m c (Proc.devRef .tc main_arg18) = m ((c.tc : Thread nD τ).loc main_arg18) :=
  ((hsW6 m c main_arg18 (by decide)).trans ((hsW5 m c main_arg18 (by decide)).trans ((hsW4 m c main_arg18 (by decide)).trans ((hsW3 m c main_arg18 (by decide)).trans ((hsW2 m c main_arg18 (by decide)).trans (hsW1 m c main_arg18 (by decide)))))))

theorem rp6_main_arg19 (c : Dev nD) : U6 m c (Proc.devRef .tc main_arg19) = m ((c.tc : Thread nD τ).loc main_arg19) :=
  ((hsW6 m c main_arg19 (by decide)).trans ((hsW5 m c main_arg19 (by decide)).trans ((hsW4 m c main_arg19 (by decide)).trans ((hsW3 m c main_arg19 (by decide)).trans ((hsW2 m c main_arg19 (by decide)).trans (hsW1 m c main_arg19 (by decide)))))))

theorem rp6_main_arg20 (c : Dev nD) : U6 m c (Proc.devRef .tc main_arg20) = m ((c.tc : Thread nD τ).loc main_arg20) :=
  ((hsW6 m c main_arg20 (by decide)).trans ((hsW5 m c main_arg20 (by decide)).trans ((hsW4 m c main_arg20 (by decide)).trans ((hsW3 m c main_arg20 (by decide)).trans ((hsW2 m c main_arg20 (by decide)).trans (hsW1 m c main_arg20 (by decide)))))))

set_option maxHeartbeats 4000000 in
/-- Stage output `main_v225` is its composed function of the arguments. -/
theorem k_main_v225 (c : Dev nD) :
    U7 m c (Proc.devRef .tc main_v225) = val_main_v225 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show after opsW7 (U6 m c) (Proc.devRef .tc main_v225) = _
  after_results_simp
  rw [k_main_v203 m c, rp6_main_arg17 m c, rp6_main_arg18 m c, rp6_main_arg19 m c, rp6_main_arg20 m c]
  rfl

theorem rp7_main_arg5 (c : Dev nD) : U7 m c (Proc.devRef .tc main_arg5) = m ((c.tc : Thread nD τ).loc main_arg5) :=
  ((hsW7 m c main_arg5 (by decide)).trans ((hsW6 m c main_arg5 (by decide)).trans ((hsW5 m c main_arg5 (by decide)).trans ((hsW4 m c main_arg5 (by decide)).trans ((hsW3 m c main_arg5 (by decide)).trans ((hsW2 m c main_arg5 (by decide)).trans (hsW1 m c main_arg5 (by decide))))))))

theorem rp7_main_arg6 (c : Dev nD) : U7 m c (Proc.devRef .tc main_arg6) = m ((c.tc : Thread nD τ).loc main_arg6) :=
  ((hsW7 m c main_arg6 (by decide)).trans ((hsW6 m c main_arg6 (by decide)).trans ((hsW5 m c main_arg6 (by decide)).trans ((hsW4 m c main_arg6 (by decide)).trans ((hsW3 m c main_arg6 (by decide)).trans ((hsW2 m c main_arg6 (by decide)).trans (hsW1 m c main_arg6 (by decide))))))))

theorem rp7_main_arg2 (c : Dev nD) : U7 m c (Proc.devRef .tc main_arg2) = m ((c.tc : Thread nD τ).loc main_arg2) :=
  ((hsW7 m c main_arg2 (by decide)).trans ((hsW6 m c main_arg2 (by decide)).trans ((hsW5 m c main_arg2 (by decide)).trans ((hsW4 m c main_arg2 (by decide)).trans ((hsW3 m c main_arg2 (by decide)).trans ((hsW2 m c main_arg2 (by decide)).trans (hsW1 m c main_arg2 (by decide))))))))

theorem rp7_main_arg21 (c : Dev nD) : U7 m c (Proc.devRef .tc main_arg21) = m ((c.tc : Thread nD τ).loc main_arg21) :=
  ((hsW7 m c main_arg21 (by decide)).trans ((hsW6 m c main_arg21 (by decide)).trans ((hsW5 m c main_arg21 (by decide)).trans ((hsW4 m c main_arg21 (by decide)).trans ((hsW3 m c main_arg21 (by decide)).trans ((hsW2 m c main_arg21 (by decide)).trans (hsW1 m c main_arg21 (by decide))))))))

theorem rp7_main_arg22 (c : Dev nD) : U7 m c (Proc.devRef .tc main_arg22) = m ((c.tc : Thread nD τ).loc main_arg22) :=
  ((hsW7 m c main_arg22 (by decide)).trans ((hsW6 m c main_arg22 (by decide)).trans ((hsW5 m c main_arg22 (by decide)).trans ((hsW4 m c main_arg22 (by decide)).trans ((hsW3 m c main_arg22 (by decide)).trans ((hsW2 m c main_arg22 (by decide)).trans (hsW1 m c main_arg22 (by decide))))))))

theorem rp7_main_arg23 (c : Dev nD) : U7 m c (Proc.devRef .tc main_arg23) = m ((c.tc : Thread nD τ).loc main_arg23) :=
  ((hsW7 m c main_arg23 (by decide)).trans ((hsW6 m c main_arg23 (by decide)).trans ((hsW5 m c main_arg23 (by decide)).trans ((hsW4 m c main_arg23 (by decide)).trans ((hsW3 m c main_arg23 (by decide)).trans ((hsW2 m c main_arg23 (by decide)).trans (hsW1 m c main_arg23 (by decide))))))))

theorem rp7_main_arg24 (c : Dev nD) : U7 m c (Proc.devRef .tc main_arg24) = m ((c.tc : Thread nD τ).loc main_arg24) :=
  ((hsW7 m c main_arg24 (by decide)).trans ((hsW6 m c main_arg24 (by decide)).trans ((hsW5 m c main_arg24 (by decide)).trans ((hsW4 m c main_arg24 (by decide)).trans ((hsW3 m c main_arg24 (by decide)).trans ((hsW2 m c main_arg24 (by decide)).trans (hsW1 m c main_arg24 (by decide))))))))

/-- The reference's one three-operand operation (the concatenation of the two gathered node-feature arrays and the edge
    features, %262) leaves in its result buffer the concatenation of what its three operand buffers hold, each read at its own
    reference. (The library's general statement reads operand k at the k-th entry of the family of references, under a binder,
    where no further operation's result can be read off; it has this literal form for four operands only.) -/
theorem concat_result (hxs hy) (V : Valuation τ sig (Elt F)) :
    (nary (τ := τ) (Val := Elt F) ![main_v254, main_v261, main_arg2] main_v262 (fun u => concatenate S300000x544 1 [⟨S300000x256, u 0⟩, ⟨S300000x256, u 1⟩, ⟨S300000x32, u 2⟩] concatenates_S300000x256_S300000x256_S300000x32_S300000x544_d1) hxs hy).result V (no_index (Proc.devRef .tc main_v262))
      = concatenate S300000x544 1 [⟨S300000x256, V (Proc.devRef .tc main_v254)⟩, ⟨S300000x256, V (Proc.devRef .tc main_v261)⟩, ⟨S300000x32, V (Proc.devRef .tc main_arg2)⟩] concatenates_S300000x256_S300000x256_S300000x32_S300000x544_d1 := by
  rw [nary_result]; rfl

set_option maxHeartbeats 4000000 in
/-- Stage output `main_v274` is its composed function of the arguments. -/
theorem k_main_v274 (c : Dev nD) :
    U8 m c (Proc.devRef .tc main_v274) = val_main_v274 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show after opsW8 (U7 m c) (Proc.devRef .tc main_v274) = _
  -- the window's operations one by one; the concatenation by `concat_result`
  simp (disch := decide) only [after_cons, after_nil,
    nullary_result', unary_result', binary_result', ternary_result', quaternary_result', reshape_result', concat_result,
    nullary_result_ne', unary_result_ne', binary_result_ne', ternary_result_ne', quaternary_result_ne', reshape_result_ne',
    nary_result_ne']
  -- the three operands inside the concatenation's list, which a simp pass does not enter: by rewriting
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [k_main_v225 m c, rp7_main_arg5 m c, rp7_main_arg6 m c, rp7_main_arg2 m c, rp7_main_arg21 m c, rp7_main_arg22 m c, rp7_main_arg23 m c, rp7_main_arg24 m c]
  rfl

end Cert.ReferenceIdeal.Keys

end
-- ==== Proof.KernelRun.lean ====
/-
  The idealized kernel's run with its result named. Every weakly fair execution of the program from a memory with
  zero counters terminates without a fault, leaves the 25 argument arrays as launched, and leaves in the result
  buffer what the fold of the program's fifteen segments leaves there: eight stretches of host operations, each a
  pure function of the buffers before it, alternating with the seven row-tiled regions, each of which replaces its
  output array by the blocks its grid points write back and keeps every other buffer. The run is the one the frame
  of this program is proved by; only the last step differs, which here also reads the result buffer off the final
  thread state.
-/
import proofs.«149189_j32641751449687_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel: the result buffer ends at the last boundary's contents `W15`, the arguments
    as launched. -/
theorem run_result : θ_run defs (onTc (τ := τ) (main (F := F))) ⟨m, fun _ => 0, ρ⟩ (fun r => ∀ c : Dev nD,
      r.2.mem ((c.tc : Thread nD τ).loc main_v209) = W15 m ρ c (Proc.devRef .tc main_v209)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v209 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c)⟩)

end Cert.KernelIdeal.Result

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«149189_j32641751449687_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.Payloads.lean ====
/-
  The three kernel bodies on whole arrays. Each body is a chain of row-local operations: products with weight
  matrices, rows and columns repeated, pointwise arithmetic, a sum along each row. `linear`, `sage` and `mlp` are the
  same chains on an array of M rows, written with the whole-array side of each row-tile lemma, in the body's order
  and grouping; `*_tile` say that a body applied to rows [r0, r0 + T) of its row-tiled inputs gives rows
  [r0, r0 + T) of the whole-array function.
-/
import proofs.«149189_j32641751449687_2_alg».proof.Proof.Gen.KernelIdeal.Skeleton
import proofs.«149189_j32641751449687_2_alg».proof.Proof.LibTile
import proofs.«149189_j32641751449687_2_alg».proof.Proof.LibTileMore

noncomputable section

namespace Cert.KernelIdeal.Whole

open Idealize.ShloMosaic Idealize.ShloMosaic.ValueIdx Cert.Tile Cert.KernelIdeal.Gen

/-- relu (X · W + b): the dense layer on M rows; the bias row is repeated down the rows and the zero of the relu is
    the rank-0 constant broadcast. -/
def linear {M K : Nat} (X : (⟨2, ![M, K]⟩ : Shape).Idx → EReal) (W : (⟨2, ![K, 256]⟩ : Shape).Idx → EReal)
    (b : (⟨2, ![1, 256]⟩ : Shape).Idx → EReal) : (⟨2, ![M, 256]⟩ : Shape).Idx → EReal :=
  fun i => max
    (Ideal.matmul (DotDims.plain M K 256) X W (fun _ => 0) i
      + broadcastInDim ⟨2, ![M, 256]⟩ ![0, 1] (bidRow M 256) b i)
    (broadcastInDim ⟨2, ![M, 256]⟩ ![] (bidScalar M 256) (constant (F := Ideal) ⟨0, ![]⟩ .f32 0x00000000#32) i)

/-- relu (((AGG / max (CNT, 1)) · WL + BL + XD · WR) * SC + SH): the SAGE update on M rows; the count column, clamped
    below by one, is repeated across the 256 columns. -/
def sage {M : Nat} (AGG : (⟨2, ![M, 256]⟩ : Shape).Idx → EReal) (CNT : (⟨2, ![M, 1]⟩ : Shape).Idx → EReal)
    (XD : (⟨2, ![M, 256]⟩ : Shape).Idx → EReal) (WL WR : (⟨2, ![256, 256]⟩ : Shape).Idx → EReal)
    (BL SC SH : (⟨2, ![1, 256]⟩ : Shape).Idx → EReal) : (⟨2, ![M, 256]⟩ : Shape).Idx → EReal :=
  fun i => max
    ((Ideal.matmul (DotDims.plain M 256 256)
          (fun j => Ideal.div (AGG j)
            (broadcastInDim ⟨2, ![M, 256]⟩ ![0, 1] (bidCol M 256)
              (fun k => max (CNT k)
                (broadcastInDim ⟨2, ![M, 1]⟩ ![] (bidScalar M 1) (constant (F := Ideal) ⟨0, ![]⟩ .f32 0x3F800000#32) k)) j))
          WL (fun _ => 0) i
        + broadcastInDim ⟨2, ![M, 256]⟩ ![0, 1] (bidRow M 256) BL i
        + Ideal.matmul (DotDims.plain M 256 256) XD WR (fun _ => 0) i)
      * broadcastInDim ⟨2, ![M, 256]⟩ ![0, 1] (bidRow M 256) SC i
      + broadcastInDim ⟨2, ![M, 256]⟩ ![0, 1] (bidRow M 256) SH i)
    (broadcastInDim ⟨2, ![M, 256]⟩ ![] (bidScalar M 256) (constant (F := Ideal) ⟨0, ![]⟩ .f32 0x00000000#32) i)

/-- relu (HS · W1A + HR · W1B + TX · W1C + B1): the hidden layer of the edge MLP on M rows. -/
def mlpHidden {M : Nat} (HS HR : (⟨2, ![M, 256]⟩ : Shape).Idx → EReal) (TX : (⟨2, ![M, 32]⟩ : Shape).Idx → EReal)
    (W1A W1B : (⟨2, ![256, 256]⟩ : Shape).Idx → EReal) (W1C : (⟨2, ![32, 256]⟩ : Shape).Idx → EReal)
    (B1 : (⟨2, ![1, 256]⟩ : Shape).Idx → EReal) : (⟨2, ![M, 256]⟩ : Shape).Idx → EReal :=
  fun i => max
    (Ideal.matmul (DotDims.plain M 256 256) HS W1A (fun _ => 0) i
      + Ideal.matmul (DotDims.plain M 256 256) HR W1B (fun _ => 0) i
      + Ideal.matmul (DotDims.plain M 32 256) TX W1C (fun _ => 0) i
      + broadcastInDim ⟨2, ![M, 256]⟩ ![0, 1] (bidRow M 256) B1 i)
    (broadcastInDim ⟨2, ![M, 256]⟩ ![] (bidScalar M 256) (constant (F := Ideal) ⟨0, ![]⟩ .f32 0x00000000#32) i)

/-- The edge MLP on M rows: each row of the hidden layer times the row W2, summed over the 256 columns and kept as an
    M × 1 column, plus the 1 × 1 value B2. -/
def mlp {M : Nat} (HS HR : (⟨2, ![M, 256]⟩ : Shape).Idx → EReal) (TX : (⟨2, ![M, 32]⟩ : Shape).Idx → EReal)
    (W1A W1B : (⟨2, ![256, 256]⟩ : Shape).Idx → EReal) (W1C : (⟨2, ![32, 256]⟩ : Shape).Idx → EReal)
    (B1 W2 : (⟨2, ![1, 256]⟩ : Shape).Idx → EReal) (B2 : (⟨2, ![1, 1]⟩ : Shape).Idx → EReal) :
    (⟨2, ![M, 1]⟩ : Shape).Idx → EReal :=
  fun i =>
    rowSum (fun j => mlpHidden HS HR TX W1A W1B W1C B1 j * broadcastInDim ⟨2, ![M, 256]⟩ ![0, 1] (bidRow M 256) W2 j) i
      + broadcastInDim ⟨2, ![M, 1]⟩ ![0, 1] (bidRow M 1) B2 i

/-- The first dense layer (16 input columns) keeps row tiles of 2000 rows. -/
theorem linear16_tile {M r0 : Nat} (hr : r0 + 2000 ≤ M) (x : Vec Ideal S2000x16 .f32)
    (X : (⟨2, ![M, 16]⟩ : Shape).Idx → EReal) (w : Vec Ideal S16x256 .bf16) (b : Vec Ideal S1x256 .f32)
    (hx : IsTile r0 hr x X) : IsTile r0 hr (k0_pay1 (F := Ideal) x w b) (linear X w b) := by
  unfold k0_pay1 linear
  simp only [shapeCast_self]
  exact vMax (vAdd (vMatmul _ rfl _ w (vTrunc _ _ hx)) (rowRep b _ _)) (vSplat _ _)

/-- The second dense layer (32 input columns) keeps row tiles of 2000 rows. -/
theorem linear32_tile {M r0 : Nat} (hr : r0 + 2000 ≤ M) (x : Vec Ideal S2000x32 .f32)
    (X : (⟨2, ![M, 32]⟩ : Shape).Idx → EReal) (w : Vec Ideal S32x256 .bf16) (b : Vec Ideal S1x256 .f32)
    (hx : IsTile r0 hr x X) : IsTile r0 hr (k1_pay1 (F := Ideal) x w b) (linear X w b) := by
  unfold k1_pay1 linear
  simp only [shapeCast_self]
  exact vMax (vAdd (vMatmul _ rfl _ w (vTrunc _ _ hx)) (rowRep b _ _)) (vSplat _ _)

/-- The SAGE update keeps row tiles of 2000 rows. -/
theorem sage_tile {M r0 : Nat} (hr : r0 + 2000 ≤ M) (agg xd : Vec Ideal S2000x256 .f32) (cnt : Vec Ideal S2000x1 .f32)
    (AGG XD : (⟨2, ![M, 256]⟩ : Shape).Idx → EReal) (CNT : (⟨2, ![M, 1]⟩ : Shape).Idx → EReal)
    (wl wr : Vec Ideal S256x256 .bf16) (bl sc sh : Vec Ideal S1x256 .f32)
    (h0 : IsTile r0 hr agg AGG) (h1 : IsTile r0 hr cnt CNT) (h2 : IsTile r0 hr xd XD) :
    IsTile r0 hr (k2_pay1 (F := Ideal) agg cnt xd wl wr bl sc sh) (sage AGG CNT XD wl wr bl sc sh) := by
  unfold k2_pay1 sage
  simp only [shapeCast_self]
  exact vMax
    (vAdd
      (vMul
        (vAdd
          (vAdd (vMatmul _ rfl _ wl (vTrunc _ _ (vDiv h0 (colRep _ _ (vMax h1 (vSplat _ _)))))) (rowRep bl _ _))
          (vMatmul _ rfl _ wr (vTrunc _ _ h2)))
        (rowRep sc _ _))
      (rowRep sh _ _))
    (vSplat _ _)

/-- The second SAGE region's body is the first's, text for text. -/
theorem sage_tile3 {M r0 : Nat} (hr : r0 + 2000 ≤ M) (agg xd : Vec Ideal S2000x256 .f32) (cnt : Vec Ideal S2000x1 .f32)
    (AGG XD : (⟨2, ![M, 256]⟩ : Shape).Idx → EReal) (CNT : (⟨2, ![M, 1]⟩ : Shape).Idx → EReal)
    (wl wr : Vec Ideal S256x256 .bf16) (bl sc sh : Vec Ideal S1x256 .f32)
    (h0 : IsTile r0 hr agg AGG) (h1 : IsTile r0 hr cnt CNT) (h2 : IsTile r0 hr xd XD) :
    IsTile r0 hr (k3_pay1 (F := Ideal) agg cnt xd wl wr bl sc sh) (sage AGG CNT XD wl wr bl sc sh) :=
  sage_tile hr agg xd cnt AGG XD CNT wl wr bl sc sh h0 h1 h2

/-- The third SAGE region's body likewise. -/
theorem sage_tile4 {M r0 : Nat} (hr : r0 + 2000 ≤ M) (agg xd : Vec Ideal S2000x256 .f32) (cnt : Vec Ideal S2000x1 .f32)
    (AGG XD : (⟨2, ![M, 256]⟩ : Shape).Idx → EReal) (CNT : (⟨2, ![M, 1]⟩ : Shape).Idx → EReal)
    (wl wr : Vec Ideal S256x256 .bf16) (bl sc sh : Vec Ideal S1x256 .f32)
    (h0 : IsTile r0 hr agg AGG) (h1 : IsTile r0 hr cnt CNT) (h2 : IsTile r0 hr xd XD) :
    IsTile r0 hr (k4_pay1 (F := Ideal) agg cnt xd wl wr bl sc sh) (sage AGG CNT XD wl wr bl sc sh) :=
  sage_tile hr agg xd cnt AGG XD CNT wl wr bl sc sh h0 h1 h2

/-- The fourth SAGE region's body likewise. -/
theorem sage_tile5 {M r0 : Nat} (hr : r0 + 2000 ≤ M) (agg xd : Vec Ideal S2000x256 .f32) (cnt : Vec Ideal S2000x1 .f32)
    (AGG XD : (⟨2, ![M, 256]⟩ : Shape).Idx → EReal) (CNT : (⟨2, ![M, 1]⟩ : Shape).Idx → EReal)
    (wl wr : Vec Ideal S256x256 .bf16) (bl sc sh : Vec Ideal S1x256 .f32)
    (h0 : IsTile r0 hr agg AGG) (h1 : IsTile r0 hr cnt CNT) (h2 : IsTile r0 hr xd XD) :
    IsTile r0 hr (k5_pay1 (F := Ideal) agg cnt xd wl wr bl sc sh) (sage AGG CNT XD wl wr bl sc sh) :=
  sage_tile hr agg xd cnt AGG XD CNT wl wr bl sc sh h0 h1 h2

/-- The edge MLP keeps row tiles of 2400 rows: the hidden layer does, operation by operation, and each output row
    sums one hidden row against W2. -/
theorem mlp_tile {M r0 : Nat} (hr : r0 + 2400 ≤ M) (vs vr : Vec Ideal S2400x256 .bf16) (vt : Vec Ideal S2400x32 .bf16)
    (HS HR : (⟨2, ![M, 256]⟩ : Shape).Idx → EReal) (TX : (⟨2, ![M, 32]⟩ : Shape).Idx → EReal)
    (w1a w1b : Vec Ideal S256x256 .bf16) (w1c : Vec Ideal S32x256 .bf16) (b1 w2 : Vec Ideal S1x256 .f32)
    (b2 : Vec Ideal S1x1 .f32)
    (h0 : IsTile r0 hr vs HS) (h1 : IsTile r0 hr vr HR) (h2 : IsTile r0 hr vt TX) :
    IsTile r0 hr (k6_pay1 (F := Ideal) vs vr vt w1a w1b w1c b1 w2 b2) (mlp HS HR TX w1a w1b w1c b1 w2 b2) := by
  unfold k6_pay1 mlp mlpHidden
  simp only [shapeCast_self]
  exact vAdd
    (laneSum _ _ _ _ _
      (vMul
        (vMax
          (vAdd
            (vAdd (vAdd (vMatmul _ rfl _ w1a h0) (vMatmul _ rfl _ w1b h1)) (vMatmul _ rfl _ w1c h2))
            (rowRep b1 _ _))
          (vSplat _ _))
        (rowRep w2 _ _)))
    (rowRep b2 _ _)

end Cert.KernelIdeal.Whole

end
-- ==== Proof.Blocks0.lean ====
import proofs.«149189_j32641751449687_2_alg».proof.Proof.Gen.KernelIdeal.Frame
import proofs.«149189_j32641751449687_2_alg».proof.Proof.LibTile
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

/-! ## Row tiles and reads through an index map -/

/-- The zero offsets of a whole-buffer access, as a constant function. -/
private theorem zeros2 : (![0, 0] : Fin 2 → Nat) = fun _ => 0 := funext fun a => by fin_cases a <;> rfl

/-- An array read through a map sending (p, l) to (r0 + p, l) is the array's row tile at r0. -/
private theorem tile_of_read {T M C : Nat} {r0 : Nat} (hr : r0 + T ≤ M) (X : (⟨2, ![M, C]⟩ : Shape).Idx → EReal)
    (e : (⟨2, ![T, C]⟩ : Shape).Idx → (⟨2, ![M, C]⟩ : Shape).Idx)
    (he0 : ∀ j, (e j 0).val = r0 + (j 0).val) (he1 : ∀ j, (e j 1).val = (j 1).val) :
    Cert.Tile.IsTile r0 hr (fun j => X (e j)) X := by
  intro p l
  refine congrArg X (funext fun a => Fin.ext ?_)
  match a with
  | ⟨0, _⟩ => exact he0 (ix2 p l)
  | ⟨1, _⟩ => exact he1 (ix2 p l)

/-- Conversely the row tile at r0 is the array read through such a map. -/
private theorem read_of_tile {T M C : Nat} {r0 : Nat} {hr : r0 + T ≤ M} {x : (⟨2, ![T, C]⟩ : Shape).Idx → EReal}
    {X : (⟨2, ![M, C]⟩ : Shape).Idx → EReal} (h : Cert.Tile.IsTile r0 hr x X)
    (e : (⟨2, ![T, C]⟩ : Shape).Idx → (⟨2, ![M, C]⟩ : Shape).Idx)
    (he0 : ∀ j, (e j 0).val = r0 + (j 0).val) (he1 : ∀ j, (e j 1).val = (j 1).val) :
    x = fun j => X (e j) := by
  funext j
  obtain ⟨p, l, rfl⟩ : ∃ (p : Fin T) (l : Fin C), j = ix2 p l := ⟨j 0, j 1, eq_ix2 j⟩
  refine (h p l).trans (congrArg X (funext fun a => Fin.ext ?_))
  match a with
  | ⟨0, _⟩ => exact (he0 (ix2 p l)).symm
  | ⟨1, _⟩ => exact (he1 (ix2 p l)).symm

/-- An array read through a map that keeps both coordinates is the array. -/
private theorem read_same {A B : Nat} (X : (⟨2, ![A, B]⟩ : Shape).Idx → EReal)
    (e : (⟨2, ![A, B]⟩ : Shape).Idx → (⟨2, ![A, B]⟩ : Shape).Idx)
    (he0 : ∀ j, (e j 0).val = (j 0).val) (he1 : ∀ j, (e j 1).val = (j 1).val) :
    (fun j => X (e j)) = X := by
  funext j
  refine congrArg X (funext fun a => Fin.ext ?_)
  match a with
  | ⟨0, _⟩ => exact he0 j
  | ⟨1, _⟩ => exact he1 j

variable (V : (c : Dev nD) → (b : Ref sig .tc) → Buf (Elt Ideal) ((c : Thread nD τ).loc b))

/-! ## Region 0: a dense layer with relu, 50 tiles of 2000 rows of 100000 -/

theorem points0 : cfg0.N = 50 := N_0

/-- Tile t of region 0 lies inside the 100000 rows. -/
theorem rows0 (t : Fin cfg0.N) : 2000 * t.val + 2000 ≤ 100000 := by
  have h := t.isLt; have hN : cfg0.N = 50 := points0; omega

/-- The output buffer after the body is the payload of the input blocks: every access is to a whole buffer. -/
theorem out0_eq (x0 : Vec Ideal S2000x16 .f32) (x1 : Vec Ideal S16x256 .bf16) (x2 : Vec Ideal S1x256 .f32) :
    out0_3 x0 x1 x2 = k0_pay1 x0 x1 x2 := by
  unfold out0_3
  rw [View.canon_unit_zero zeros2]
  simp only [View.ld_unit_zero (S := S2000x16) zeros2, View.ld_unit_zero (S := S16x256) zeros2, View.ld_unit_zero (S := S1x256) zeros2]

/-- The printed index maps over the grid: the row-tiled windows sit at block (t, 0), the whole ones at (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Input block 0 of tile t is rows 2000 t … 2000 t + 1999 of its array. -/
theorem in0_0 (c : Dev nD) (t : Fin cfg0.N) :
    Cert.Tile.IsTile (T := 2000) (M := 100000) (C := 16) (2000 * t.val) (rows0 t) (iblk0 V c 0 t) (V c (Pipeline.arrRef spec0 0)) := by
  obtain ⟨e0, e1, -⟩ := index0 t
  unfold iblk0
  refine tile_of_read (rows0 t) (V c (Pipeline.arrRef spec0 0)) (fun j => ((cfg0.win 0).blk t).view.emb j) (fun j => ?_) (fun j => ?_)
  · show win0_0.index t (0 : Fin 2) * 2000 + 1 * (j 0).val = 2000 * t.val + (j 0).val
    omega
  · show win0_0.index t (1 : Fin 2) * 16 + 1 * (j 1).val = (j 1).val
    omega

/-- The weight block at every tile is the whole weight array. -/
theorem in0_1 (c : Dev nD) (t : Fin cfg0.N) : iblk0 V c 1 t = V c (Pipeline.arrRef spec0 1) := by
  obtain ⟨-, -, e0, e1, -⟩ := index0 t
  unfold iblk0
  refine read_same (A := 16) (B := 256) (V c (Pipeline.arrRef spec0 1)) (fun j => ((cfg0.win 1).blk t).view.emb j) (fun j => ?_) (fun j => ?_)
  · show win0_1.index t (0 : Fin 2) * 16 + 1 * (j 0).val = (j 0).val
    omega
  · show win0_1.index t (1 : Fin 2) * 256 + 1 * (j 1).val = (j 1).val
    omega

/-- The bias block at every tile is the whole bias array. -/
theorem in0_2 (c : Dev nD) (t : Fin cfg0.N) : iblk0 V c 2 t = V c (Pipeline.arrRef spec0 2) := by
  obtain ⟨-, -, -, -, e0, e1, -⟩ := index0 t
  unfold iblk0
  refine read_same (A := 1) (B := 256) (V c (Pipeline.arrRef spec0 2)) (fun j => ((cfg0.win 2).blk t).view.emb j) (fun j => ?_) (fun j => ?_)
  · show win0_2.index t (0 : Fin 2) * 1 + 1 * (j 0).val = (j 0).val
    omega
  · show win0_2.index t (1 : Fin 2) * 256 + 1 * (j 1).val = (j 1).val
    omega

/-- An index of the output array is in tile t's block iff each coordinate is in the block's range. -/
theorem mem_blk0 (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v3).slice (win0_3.rect t)).set ↔ _
  rw [View.set_slice_whole, Rect.mem_set_unit]
  exact Iff.rfl

/-- Every row of the output array is in the block of the tile its row number over 2000 names. -/
theorem cover0 (i : S100000x256.Idx) : ∃ t : Fin cfg0.N, (cfg0.win 3).flush t = true ∧ i ∈ ((cfg0.win 3).blk t).view.set := by
  have h0 : (i 0).val < 100000 := (i 0).isLt
  have h1 : (i 1).val < 256 := (i 1).isLt
  obtain ⟨t, ht⟩ : ∃ t : Fin cfg0.N, t.val = (i 0).val / 2000 := ⟨⟨(i 0).val / 2000, by rw [points0]; omega⟩, rfl⟩
  obtain ⟨-, -, -, -, -, -, e0, e1⟩ := index0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- What tile t writes back is block t of any array whose row tiles are the bodies' outputs. -/
theorem flushed0 (c : Dev nD) (G : Vec Ideal S100000x256 .f32)
    (hG : ∀ t : Fin cfg0.N, Cert.Tile.IsTile (2000 * t.val) (rows0 t) (out0_3 (iblk0 V c 0 t) (iblk0 V c 1 t) (iblk0 V c 2 t)) G)
    (t : Fin cfg0.N) : (dat0 (F := Ideal) V c).flushed 3 t = ((cfg0.win 3).blk t).view.read (Elt Ideal) G := by
  obtain ⟨-, -, -, -, -, -, e0, e1⟩ := index0 t
  show (cfg0.win 3).cut (grid0.coords t) ((dat0 V c).after 3 t) = _
  rw [after0_3]
  refine read_of_tile (hG t) (fun j => ((cfg0.win 3).blk t).view.emb j) (fun j => ?_) (fun j => ?_)
  · show win0_3.index t (0 : Fin 2) * 2000 + 1 * (j 0).val = 2000 * t.val + (j 0).val
    omega
  · show win0_3.index t (1 : Fin 2) * 256 + 1 * (j 1).val = (j 1).val
    omega

/-- So the output array after the region is that array. -/
theorem arr0 (c : Dev nD) (G : Vec Ideal S100000x256 .f32)
    (hG : ∀ t : Fin cfg0.N, Cert.Tile.IsTile (2000 * t.val) (rows0 t) (out0_3 (iblk0 V c 0 t) (iblk0 V c 1 t) (iblk0 V c 2 t)) G) :
    (dat0 (F := Ideal) V c).arrAt 3 cfg0.N = G :=
  (dat0 V c).arrAt_eq_of_cover 3 G (fun t _ => flushed0 V c G hG t) cover0

end Cert.KernelIdeal.Blocks

end
-- ==== Proof.Blocks1.lean ====
import proofs.«149189_j32641751449687_2_alg».proof.Proof.Gen.KernelIdeal.Frame
import proofs.«149189_j32641751449687_2_alg».proof.Proof.LibTile
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

/-! ## Row tiles and reads through an index map -/

/-- The zero offsets of a whole-buffer access, as a constant function. -/
private theorem zeros2 : (![0, 0] : Fin 2 → Nat) = fun _ => 0 := funext fun a => by fin_cases a <;> rfl

/-- An array read through a map sending (p, l) to (r0 + p, l) is the array's row tile at r0. -/
private theorem tile_of_read {T M C : Nat} {r0 : Nat} (hr : r0 + T ≤ M) (X : (⟨2, ![M, C]⟩ : Shape).Idx → EReal)
    (e : (⟨2, ![T, C]⟩ : Shape).Idx → (⟨2, ![M, C]⟩ : Shape).Idx)
    (he0 : ∀ j, (e j 0).val = r0 + (j 0).val) (he1 : ∀ j, (e j 1).val = (j 1).val) :
    Cert.Tile.IsTile r0 hr (fun j => X (e j)) X := by
  intro p l
  refine congrArg X (funext fun a => Fin.ext ?_)
  match a with
  | ⟨0, _⟩ => exact he0 (ix2 p l)
  | ⟨1, _⟩ => exact he1 (ix2 p l)

/-- Conversely the row tile at r0 is the array read through such a map. -/
private theorem read_of_tile {T M C : Nat} {r0 : Nat} {hr : r0 + T ≤ M} {x : (⟨2, ![T, C]⟩ : Shape).Idx → EReal}
    {X : (⟨2, ![M, C]⟩ : Shape).Idx → EReal} (h : Cert.Tile.IsTile r0 hr x X)
    (e : (⟨2, ![T, C]⟩ : Shape).Idx → (⟨2, ![M, C]⟩ : Shape).Idx)
    (he0 : ∀ j, (e j 0).val = r0 + (j 0).val) (he1 : ∀ j, (e j 1).val = (j 1).val) :
    x = fun j => X (e j) := by
  funext j
  obtain ⟨p, l, rfl⟩ : ∃ (p : Fin T) (l : Fin C), j = ix2 p l := ⟨j 0, j 1, eq_ix2 j⟩
  refine (h p l).trans (congrArg X (funext fun a => Fin.ext ?_))
  match a with
  | ⟨0, _⟩ => exact (he0 (ix2 p l)).symm
  | ⟨1, _⟩ => exact (he1 (ix2 p l)).symm

/-- An array read through a map that keeps both coordinates is the array. -/
private theorem read_same {A B : Nat} (X : (⟨2, ![A, B]⟩ : Shape).Idx → EReal)
    (e : (⟨2, ![A, B]⟩ : Shape).Idx → (⟨2, ![A, B]⟩ : Shape).Idx)
    (he0 : ∀ j, (e j 0).val = (j 0).val) (he1 : ∀ j, (e j 1).val = (j 1).val) :
    (fun j => X (e j)) = X := by
  funext j
  refine congrArg X (funext fun a => Fin.ext ?_)
  match a with
  | ⟨0, _⟩ => exact he0 j
  | ⟨1, _⟩ => exact he1 j

variable (V : (c : Dev nD) → (b : Ref sig .tc) → Buf (Elt Ideal) ((c : Thread nD τ).loc b))

/-! ## Region 1: a dense layer with relu, 150 tiles of 2000 rows of 300000 -/

theorem points1 : cfg1.N = 150 := N_1

/-- Tile t of region 1 lies inside the 300000 rows. -/
theorem rows1 (t : Fin cfg1.N) : 2000 * t.val + 2000 ≤ 300000 := by
  have h := t.isLt; have hN : cfg1.N = 150 := points1; omega

/-- The output buffer after the body is the payload of the input blocks: every access is to a whole buffer. -/
theorem out1_eq (x0 : Vec Ideal S2000x32 .f32) (x1 : Vec Ideal S32x256 .bf16) (x2 : Vec Ideal S1x256 .f32) :
    out1_3 x0 x1 x2 = k1_pay1 x0 x1 x2 := by
  unfold out1_3
  rw [View.canon_unit_zero zeros2]
  simp only [View.ld_unit_zero (S := S2000x32) zeros2, View.ld_unit_zero (S := S32x256) zeros2, View.ld_unit_zero (S := S1x256) zeros2]

/-- The printed index maps over the grid: the row-tiled windows sit at block (t, 0), the whole ones at (0, 0). -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Input block 0 of tile t is rows 2000 t … 2000 t + 1999 of its array. -/
theorem in1_0 (c : Dev nD) (t : Fin cfg1.N) :
    Cert.Tile.IsTile (T := 2000) (M := 300000) (C := 32) (2000 * t.val) (rows1 t) (iblk1 V c 0 t) (V c (Pipeline.arrRef spec1 0)) := by
  obtain ⟨e0, e1, -⟩ := index1 t
  unfold iblk1
  refine tile_of_read (rows1 t) (V c (Pipeline.arrRef spec1 0)) (fun j => ((cfg1.win 0).blk t).view.emb j) (fun j => ?_) (fun j => ?_)
  · show win1_0.index t (0 : Fin 2) * 2000 + 1 * (j 0).val = 2000 * t.val + (j 0).val
    omega
  · show win1_0.index t (1 : Fin 2) * 32 + 1 * (j 1).val = (j 1).val
    omega

/-- The weight block at every tile is the whole weight array. -/
theorem in1_1 (c : Dev nD) (t : Fin cfg1.N) : iblk1 V c 1 t = V c (Pipeline.arrRef spec1 1) := by
  obtain ⟨-, -, e0, e1, -⟩ := index1 t
  unfold iblk1
  refine read_same (A := 32) (B := 256) (V c (Pipeline.arrRef spec1 1)) (fun j => ((cfg1.win 1).blk t).view.emb j) (fun j => ?_) (fun j => ?_)
  · show win1_1.index t (0 : Fin 2) * 32 + 1 * (j 0).val = (j 0).val
    omega
  · show win1_1.index t (1 : Fin 2) * 256 + 1 * (j 1).val = (j 1).val
    omega

/-- The bias block at every tile is the whole bias array. -/
theorem in1_2 (c : Dev nD) (t : Fin cfg1.N) : iblk1 V c 2 t = V c (Pipeline.arrRef spec1 2) := by
  obtain ⟨-, -, -, -, e0, e1, -⟩ := index1 t
  unfold iblk1
  refine read_same (A := 1) (B := 256) (V c (Pipeline.arrRef spec1 2)) (fun j => ((cfg1.win 2).blk t).view.emb j) (fun j => ?_) (fun j => ?_)
  · show win1_2.index t (0 : Fin 2) * 1 + 1 * (j 0).val = (j 0).val
    omega
  · show win1_2.index t (1 : Fin 2) * 256 + 1 * (j 1).val = (j 1).val
    omega

/-- An index of the output array is in tile t's block iff each coordinate is in the block's range. -/
theorem mem_blk1 (t : Fin cfg1.N) (i : S300000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v7).slice (win1_3.rect t)).set ↔ _
  rw [View.set_slice_whole, Rect.mem_set_unit]
  exact Iff.rfl

/-- Every row of the output array is in the block of the tile its row number over 2000 names. -/
theorem cover1 (i : S300000x256.Idx) : ∃ t : Fin cfg1.N, (cfg1.win 3).flush t = true ∧ i ∈ ((cfg1.win 3).blk t).view.set := by
  have h0 : (i 0).val < 300000 := (i 0).isLt
  have h1 : (i 1).val < 256 := (i 1).isLt
  obtain ⟨t, ht⟩ : ∃ t : Fin cfg1.N, t.val = (i 0).val / 2000 := ⟨⟨(i 0).val / 2000, by rw [points1]; omega⟩, rfl⟩
  obtain ⟨-, -, -, -, -, -, e0, e1⟩ := index1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- What tile t writes back is block t of any array whose row tiles are the bodies' outputs. -/
theorem flushed1 (c : Dev nD) (G : Vec Ideal S300000x256 .f32)
    (hG : ∀ t : Fin cfg1.N, Cert.Tile.IsTile (2000 * t.val) (rows1 t) (out1_3 (iblk1 V c 0 t) (iblk1 V c 1 t) (iblk1 V c 2 t)) G)
    (t : Fin cfg1.N) : (dat1 (F := Ideal) V c).flushed 3 t = ((cfg1.win 3).blk t).view.read (Elt Ideal) G := by
  obtain ⟨-, -, -, -, -, -, e0, e1⟩ := index1 t
  show (cfg1.win 3).cut (grid1.coords t) ((dat1 V c).after 3 t) = _
  rw [after1_3]
  refine read_of_tile (hG t) (fun j => ((cfg1.win 3).blk t).view.emb j) (fun j => ?_) (fun j => ?_)
  · show win1_3.index t (0 : Fin 2) * 2000 + 1 * (j 0).val = 2000 * t.val + (j 0).val
    omega
  · show win1_3.index t (1 : Fin 2) * 256 + 1 * (j 1).val = (j 1).val
    omega

/-- So the output array after the region is that array. -/
theorem arr1 (c : Dev nD) (G : Vec Ideal S300000x256 .f32)
    (hG : ∀ t : Fin cfg1.N, Cert.Tile.IsTile (2000 * t.val) (rows1 t) (out1_3 (iblk1 V c 0 t) (iblk1 V c 1 t) (iblk1 V c 2 t)) G) :
    (dat1 (F := Ideal) V c).arrAt 3 cfg1.N = G :=
  (dat1 V c).arrAt_eq_of_cover 3 G (fun t _ => flushed1 V c G hG t) cover1

end Cert.KernelIdeal.Blocks

end
-- ==== Proof.Blocks2.lean ====
import proofs.«149189_j32641751449687_2_alg».proof.Proof.Gen.KernelIdeal.Frame
import proofs.«149189_j32641751449687_2_alg».proof.Proof.LibTile
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

/-! ## Row tiles and reads through an index map -/

/-- The zero offsets of a whole-buffer access, as a constant function. -/
private theorem zeros2 : (![0, 0] : Fin 2 → Nat) = fun _ => 0 := funext fun a => by fin_cases a <;> rfl

/-- An array read through a map sending (p, l) to (r0 + p, l) is the array's row tile at r0. -/
private theorem tile_of_read {T M C : Nat} {r0 : Nat} (hr : r0 + T ≤ M) (X : (⟨2, ![M, C]⟩ : Shape).Idx → EReal)
    (e : (⟨2, ![T, C]⟩ : Shape).Idx → (⟨2, ![M, C]⟩ : Shape).Idx)
    (he0 : ∀ j, (e j 0).val = r0 + (j 0).val) (he1 : ∀ j, (e j 1).val = (j 1).val) :
    Cert.Tile.IsTile r0 hr (fun j => X (e j)) X := by
  intro p l
  refine congrArg X (funext fun a => Fin.ext ?_)
  match a with
  | ⟨0, _⟩ => exact he0 (ix2 p l)
  | ⟨1, _⟩ => exact he1 (ix2 p l)

/-- Conversely the row tile at r0 is the array read through such a map. -/
private theorem read_of_tile {T M C : Nat} {r0 : Nat} {hr : r0 + T ≤ M} {x : (⟨2, ![T, C]⟩ : Shape).Idx → EReal}
    {X : (⟨2, ![M, C]⟩ : Shape).Idx → EReal} (h : Cert.Tile.IsTile r0 hr x X)
    (e : (⟨2, ![T, C]⟩ : Shape).Idx → (⟨2, ![M, C]⟩ : Shape).Idx)
    (he0 : ∀ j, (e j 0).val = r0 + (j 0).val) (he1 : ∀ j, (e j 1).val = (j 1).val) :
    x = fun j => X (e j) := by
  funext j
  obtain ⟨p, l, rfl⟩ : ∃ (p : Fin T) (l : Fin C), j = ix2 p l := ⟨j 0, j 1, eq_ix2 j⟩
  refine (h p l).trans (congrArg X (funext fun a => Fin.ext ?_))
  match a with
  | ⟨0, _⟩ => exact (he0 (ix2 p l)).symm
  | ⟨1, _⟩ => exact (he1 (ix2 p l)).symm

/-- An array read through a map that keeps both coordinates is the array. -/
private theorem read_same {A B : Nat} (X : (⟨2, ![A, B]⟩ : Shape).Idx → EReal)
    (e : (⟨2, ![A, B]⟩ : Shape).Idx → (⟨2, ![A, B]⟩ : Shape).Idx)
    (he0 : ∀ j, (e j 0).val = (j 0).val) (he1 : ∀ j, (e j 1).val = (j 1).val) :
    (fun j => X (e j)) = X := by
  funext j
  refine congrArg X (funext fun a => Fin.ext ?_)
  match a with
  | ⟨0, _⟩ => exact he0 j
  | ⟨1, _⟩ => exact he1 j

variable (V : (c : Dev nD) → (b : Ref sig .tc) → Buf (Elt Ideal) ((c : Thread nD τ).loc b))

/-! ## Region 2: a SAGE update, 150 tiles of 2000 rows of 300000 -/

theorem points2 : cfg2.N = 150 := N_2

/-- Tile t of region 2 lies inside the 300000 rows. -/
theorem rows2 (t : Fin cfg2.N) : 2000 * t.val + 2000 ≤ 300000 := by
  have h := t.isLt; have hN : cfg2.N = 150 := points2; omega

/-- The output buffer after the body is the payload of the input blocks: every access is to a whole buffer. -/
theorem out2_eq (x0 : Vec Ideal S2000x256 .f32) (x1 : Vec Ideal S2000x1 .f32) (x2 : Vec Ideal S2000x256 .f32) (x3 : Vec Ideal S256x256 .bf16) (x4 : Vec Ideal S256x256 .bf16) (x5 : Vec Ideal S1x256 .f32) (x6 : Vec Ideal S1x256 .f32) (x7 : Vec Ideal S1x256 .f32) :
    out2_8 x0 x1 x2 x3 x4 x5 x6 x7 = k2_pay1 x0 x1 x2 x3 x4 x5 x6 x7 := by
  unfold out2_8
  rw [View.canon_unit_zero zeros2]
  simp only [View.ld_unit_zero (S := S2000x256) zeros2, View.ld_unit_zero (S := S2000x1) zeros2, View.ld_unit_zero (S := S256x256) zeros2, View.ld_unit_zero (S := S1x256) zeros2]

/-- The printed index maps over the grid: the row-tiled windows sit at block (t, 0), the whole ones at (0, 0). -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Input block 0 of tile t is rows 2000 t … 2000 t + 1999 of its array. -/
theorem in2_0 (c : Dev nD) (t : Fin cfg2.N) :
    Cert.Tile.IsTile (T := 2000) (M := 300000) (C := 256) (2000 * t.val) (rows2 t) (iblk2 V c 0 t) (V c (Pipeline.arrRef spec2 0)) := by
  obtain ⟨e0, e1, -⟩ := index2 t
  unfold iblk2
  refine tile_of_read (rows2 t) (V c (Pipeline.arrRef spec2 0)) (fun j => ((cfg2.win 0).blk t).view.emb j) (fun j => ?_) (fun j => ?_)
  · show win2_0.index t (0 : Fin 2) * 2000 + 1 * (j 0).val = 2000 * t.val + (j 0).val
    omega
  · show win2_0.index t (1 : Fin 2) * 256 + 1 * (j 1).val = (j 1).val
    omega

/-- Input block 1 of tile t is rows 2000 t … 2000 t + 1999 of its array. -/
theorem in2_1 (c : Dev nD) (t : Fin cfg2.N) :
    Cert.Tile.IsTile (T := 2000) (M := 300000) (C := 1) (2000 * t.val) (rows2 t) (iblk2 V c 1 t) (V c (Pipeline.arrRef spec2 1)) := by
  obtain ⟨-, -, e0, e1, -⟩ := index2 t
  unfold iblk2
  refine tile_of_read (rows2 t) (V c (Pipeline.arrRef spec2 1)) (fun j => ((cfg2.win 1).blk t).view.emb j) (fun j => ?_) (fun j => ?_)
  · show win2_1.index t (0 : Fin 2) * 2000 + 1 * (j 0).val = 2000 * t.val + (j 0).val
    omega
  · show win2_1.index t (1 : Fin 2) * 1 + 1 * (j 1).val = (j 1).val
    omega

/-- Input block 2 of tile t is rows 2000 t … 2000 t + 1999 of its array. -/
theorem in2_2 (c : Dev nD) (t : Fin cfg2.N) :
    Cert.Tile.IsTile (T := 2000) (M := 300000) (C := 256) (2000 * t.val) (rows2 t) (iblk2 V c 2 t) (V c (Pipeline.arrRef spec2 2)) := by
  obtain ⟨-, -, -, -, e0, e1, -⟩ := index2 t
  unfold iblk2
  refine tile_of_read (rows2 t) (V c (Pipeline.arrRef spec2 2)) (fun j => ((cfg2.win 2).blk t).view.emb j) (fun j => ?_) (fun j => ?_)
  · show win2_2.index t (0 : Fin 2) * 2000 + 1 * (j 0).val = 2000 * t.val + (j 0).val
    omega
  · show win2_2.index t (1 : Fin 2) * 256 + 1 * (j 1).val = (j 1).val
    omega

/-- The first weight block at every tile is the whole first weight array. -/
theorem in2_3 (c : Dev nD) (t : Fin cfg2.N) : iblk2 V c 3 t = V c (Pipeline.arrRef spec2 3) := by
  obtain ⟨-, -, -, -, -, -, e0, e1, -⟩ := index2 t
  unfold iblk2
  refine read_same (A := 256) (B := 256) (V c (Pipeline.arrRef spec2 3)) (fun j => ((cfg2.win 3).blk t).view.emb j) (fun j => ?_) (fun j => ?_)
  · show win2_3.index t (0 : Fin 2) * 256 + 1 * (j 0).val = (j 0).val
    omega
  · show win2_3.index t (1 : Fin 2) * 256 + 1 * (j 1).val = (j 1).val
    omega

/-- The second weight block at every tile is the whole second weight array. -/
theorem in2_4 (c : Dev nD) (t : Fin cfg2.N) : iblk2 V c 4 t = V c (Pipeline.arrRef spec2 4) := by
  obtain ⟨-, -, -, -, -, -, -, -, e0, e1, -⟩ := index2 t
  unfold iblk2
  refine read_same (A := 256) (B := 256) (V c (Pipeline.arrRef spec2 4)) (fun j => ((cfg2.win 4).blk t).view.emb j) (fun j => ?_) (fun j => ?_)
  · show win2_4.index t (0 : Fin 2) * 256 + 1 * (j 0).val = (j 0).val
    omega
  · show win2_4.index t (1 : Fin 2) * 256 + 1 * (j 1).val = (j 1).val
    omega

/-- The bias block at every tile is the whole bias array. -/
theorem in2_5 (c : Dev nD) (t : Fin cfg2.N) : iblk2 V c 5 t = V c (Pipeline.arrRef spec2 5) := by
  obtain ⟨-, -, -, -, -, -, -, -, -, -, e0, e1, -⟩ := index2 t
  unfold iblk2
  refine read_same (A := 1) (B := 256) (V c (Pipeline.arrRef spec2 5)) (fun j => ((cfg2.win 5).blk t).view.emb j) (fun j => ?_) (fun j => ?_)
  · show win2_5.index t (0 : Fin 2) * 1 + 1 * (j 0).val = (j 0).val
    omega
  · show win2_5.index t (1 : Fin 2) * 256 + 1 * (j 1).val = (j 1).val
    omega

/-- The scale block at every tile is the whole scale array. -/
theorem in2_6 (c : Dev nD) (t : Fin cfg2.N) : iblk2 V c 6 t = V c (Pipeline.arrRef spec2 6) := by
  obtain ⟨-, -, -, -, -, -, -, -, -, -, -, -, e0, e1, -⟩ := index2 t
  unfold iblk2
  refine read_same (A := 1) (B := 256) (V c (Pipeline.arrRef spec2 6)) (fun j => ((cfg2.win 6).blk t).view.emb j) (fun j => ?_) (fun j => ?_)
  · show win2_6.index t (0 : Fin 2) * 1 + 1 * (j 0).val = (j 0).val
    omega
  · show win2_6.index t (1 : Fin 2) * 256 + 1 * (j 1).val = (j 1).val
    omega

/-- The shift block at every tile is the whole shift array. -/
theorem in2_7 (c : Dev nD) (t : Fin cfg2.N) : iblk2 V c 7 t = V c (Pipeline.arrRef spec2 7) := by
  obtain ⟨-, -, -, -, -, -, -, -, -, -, -, -, -, -, e0, e1, -⟩ := index2 t
  unfold iblk2
  refine read_same (A := 1) (B := 256) (V c (Pipeline.arrRef spec2 7)) (fun j => ((cfg2.win 7).blk t).view.emb j) (fun j => ?_) (fun j => ?_)
  · show win2_7.index t (0 : Fin 2) * 1 + 1 * (j 0).val = (j 0).val
    omega
  · show win2_7.index t (1 : Fin 2) * 256 + 1 * (j 1).val = (j 1).val
    omega

/-- An index of the output array is in tile t's block iff each coordinate is in the block's range. -/
theorem mem_blk2 (t : Fin cfg2.N) (i : S300000x256.Idx) :
    i ∈ ((cfg2.win 8).blk t).view.set ↔ ∀ a : Fin 2, win2_8.index t a * S2000x256.size a ≤ (i a).val ∧ (i a).val < win2_8.index t a * S2000x256.size a + S2000x256.size a := by
  show i ∈ ((View.whole main_v88).slice (win2_8.rect t)).set ↔ _
  rw [View.set_slice_whole, Rect.mem_set_unit]
  exact Iff.rfl

/-- Every row of the output array is in the block of the tile its row number over 2000 names. -/
theorem cover2 (i : S300000x256.Idx) : ∃ t : Fin cfg2.N, (cfg2.win 8).flush t = true ∧ i ∈ ((cfg2.win 8).blk t).view.set := by
  have h0 : (i 0).val < 300000 := (i 0).isLt
  have h1 : (i 1).val < 256 := (i 1).isLt
  obtain ⟨t, ht⟩ : ∃ t : Fin cfg2.N, t.val = (i 0).val / 2000 := ⟨⟨(i 0).val / 2000, by rw [points2]; omega⟩, rfl⟩
  obtain ⟨-, -, -, -, -, -, -, -, -, -, -, -, -, -, -, -, e0, e1⟩ := index2 t
  refine ⟨t, flush2_8 t, ?_⟩
  rw [mem_blk2]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 256 ≤ (i 1).val ∧ (i 1).val < win2_8.index t (1 : Fin 2) * 256 + 256; omega

/-- What tile t writes back is block t of any array whose row tiles are the bodies' outputs. -/
theorem flushed2 (c : Dev nD) (G : Vec Ideal S300000x256 .f32)
    (hG : ∀ t : Fin cfg2.N, Cert.Tile.IsTile (2000 * t.val) (rows2 t) (out2_8 (iblk2 V c 0 t) (iblk2 V c 1 t) (iblk2 V c 2 t) (iblk2 V c 3 t) (iblk2 V c 4 t) (iblk2 V c 5 t) (iblk2 V c 6 t) (iblk2 V c 7 t)) G)
    (t : Fin cfg2.N) : (dat2 (F := Ideal) V c).flushed 8 t = ((cfg2.win 8).blk t).view.read (Elt Ideal) G := by
  obtain ⟨-, -, -, -, -, -, -, -, -, -, -, -, -, -, -, -, e0, e1⟩ := index2 t
  show (cfg2.win 8).cut (grid2.coords t) ((dat2 V c).after 8 t) = _
  rw [after2_8]
  refine read_of_tile (hG t) (fun j => ((cfg2.win 8).blk t).view.emb j) (fun j => ?_) (fun j => ?_)
  · show win2_8.index t (0 : Fin 2) * 2000 + 1 * (j 0).val = 2000 * t.val + (j 0).val
    omega
  · show win2_8.index t (1 : Fin 2) * 256 + 1 * (j 1).val = (j 1).val
    omega

/-- So the output array after the region is that array. -/
theorem arr2 (c : Dev nD) (G : Vec Ideal S300000x256 .f32)
    (hG : ∀ t : Fin cfg2.N, Cert.Tile.IsTile (2000 * t.val) (rows2 t) (out2_8 (iblk2 V c 0 t) (iblk2 V c 1 t) (iblk2 V c 2 t) (iblk2 V c 3 t) (iblk2 V c 4 t) (iblk2 V c 5 t) (iblk2 V c 6 t) (iblk2 V c 7 t)) G) :
    (dat2 (F := Ideal) V c).arrAt 8 cfg2.N = G :=
  (dat2 V c).arrAt_eq_of_cover 8 G (fun t _ => flushed2 V c G hG t) cover2

end Cert.KernelIdeal.Blocks

end
-- ==== Proof.Blocks3.lean ====
import proofs.«149189_j32641751449687_2_alg».proof.Proof.Gen.KernelIdeal.Frame
import proofs.«149189_j32641751449687_2_alg».proof.Proof.LibTile
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

/-! ## Row tiles and reads through an index map -/

/-- The zero offsets of a whole-buffer access, as a constant function. -/
private theorem zeros2 : (![0, 0] : Fin 2 → Nat) = fun _ => 0 := funext fun a => by fin_cases a <;> rfl

/-- An array read through a map sending (p, l) to (r0 + p, l) is the array's row tile at r0. -/
private theorem tile_of_read {T M C : Nat} {r0 : Nat} (hr : r0 + T ≤ M) (X : (⟨2, ![M, C]⟩ : Shape).Idx → EReal)
    (e : (⟨2, ![T, C]⟩ : Shape).Idx → (⟨2, ![M, C]⟩ : Shape).Idx)
    (he0 : ∀ j, (e j 0).val = r0 + (j 0).val) (he1 : ∀ j, (e j 1).val = (j 1).val) :
    Cert.Tile.IsTile r0 hr (fun j => X (e j)) X := by
  intro p l
  refine congrArg X (funext fun a => Fin.ext ?_)
  match a with
  | ⟨0, _⟩ => exact he0 (ix2 p l)
  | ⟨1, _⟩ => exact he1 (ix2 p l)

/-- Conversely the row tile at r0 is the array read through such a map. -/
private theorem read_of_tile {T M C : Nat} {r0 : Nat} {hr : r0 + T ≤ M} {x : (⟨2, ![T, C]⟩ : Shape).Idx → EReal}
    {X : (⟨2, ![M, C]⟩ : Shape).Idx → EReal} (h : Cert.Tile.IsTile r0 hr x X)
    (e : (⟨2, ![T, C]⟩ : Shape).Idx → (⟨2, ![M, C]⟩ : Shape).Idx)
    (he0 : ∀ j, (e j 0).val = r0 + (j 0).val) (he1 : ∀ j, (e j 1).val = (j 1).val) :
    x = fun j => X (e j) := by
  funext j
  obtain ⟨p, l, rfl⟩ : ∃ (p : Fin T) (l : Fin C), j = ix2 p l := ⟨j 0, j 1, eq_ix2 j⟩
  refine (h p l).trans (congrArg X (funext fun a => Fin.ext ?_))
  match a with
  | ⟨0, _⟩ => exact (he0 (ix2 p l)).symm
  | ⟨1, _⟩ => exact (he1 (ix2 p l)).symm

/-- An array read through a map that keeps both coordinates is the array. -/
private theorem read_same {A B : Nat} (X : (⟨2, ![A, B]⟩ : Shape).Idx → EReal)
    (e : (⟨2, ![A, B]⟩ : Shape).Idx → (⟨2, ![A, B]⟩ : Shape).Idx)
    (he0 : ∀ j, (e j 0).val = (j 0).val) (he1 : ∀ j, (e j 1).val = (j 1).val) :
    (fun j => X (e j)) = X := by
  funext j
  refine congrArg X (funext fun a => Fin.ext ?_)
  match a with
  | ⟨0, _⟩ => exact he0 j
  | ⟨1, _⟩ => exact he1 j

variable (V : (c : Dev nD) → (b : Ref sig .tc) → Buf (Elt Ideal) ((c : Thread nD τ).loc b))

/-! ## Region 3: a SAGE update, 50 tiles of 2000 rows of 100000 -/

theorem points3 : cfg3.N = 50 := N_3

/-- Tile t of region 3 lies inside the 100000 rows. -/
theorem rows3 (t : Fin cfg3.N) : 2000 * t.val + 2000 ≤ 100000 := by
  have h := t.isLt; have hN : cfg3.N = 50 := points3; omega

/-- The output buffer after the body is the payload of the input blocks: every access is to a whole buffer. -/
theorem out3_eq (x0 : Vec Ideal S2000x256 .f32) (x1 : Vec Ideal S2000x1 .f32) (x2 : Vec Ideal S2000x256 .f32) (x3 : Vec Ideal S256x256 .bf16) (x4 : Vec Ideal S256x256 .bf16) (x5 : Vec Ideal S1x256 .f32) (x6 : Vec Ideal S1x256 .f32) (x7 : Vec Ideal S1x256 .f32) :
    out3_8 x0 x1 x2 x3 x4 x5 x6 x7 = k3_pay1 x0 x1 x2 x3 x4 x5 x6 x7 := by
  unfold out3_8
  rw [View.canon_unit_zero zeros2]
  simp only [View.ld_unit_zero (S := S2000x256) zeros2, View.ld_unit_zero (S := S2000x1) zeros2, View.ld_unit_zero (S := S256x256) zeros2, View.ld_unit_zero (S := S1x256) zeros2]

/-- The printed index maps over the grid: the row-tiled windows sit at block (t, 0), the whole ones at (0, 0). -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Input block 0 of tile t is rows 2000 t … 2000 t + 1999 of its array. -/
theorem in3_0 (c : Dev nD) (t : Fin cfg3.N) :
    Cert.Tile.IsTile (T := 2000) (M := 100000) (C := 256) (2000 * t.val) (rows3 t) (iblk3 V c 0 t) (V c (Pipeline.arrRef spec3 0)) := by
  obtain ⟨e0, e1, -⟩ := index3 t
  unfold iblk3
  refine tile_of_read (rows3 t) (V c (Pipeline.arrRef spec3 0)) (fun j => ((cfg3.win 0).blk t).view.emb j) (fun j => ?_) (fun j => ?_)
  · show win3_0.index t (0 : Fin 2) * 2000 + 1 * (j 0).val = 2000 * t.val + (j 0).val
    omega
  · show win3_0.index t (1 : Fin 2) * 256 + 1 * (j 1).val = (j 1).val
    omega

/-- Input block 1 of tile t is rows 2000 t … 2000 t + 1999 of its array. -/
theorem in3_1 (c : Dev nD) (t : Fin cfg3.N) :
    Cert.Tile.IsTile (T := 2000) (M := 100000) (C := 1) (2000 * t.val) (rows3 t) (iblk3 V c 1 t) (V c (Pipeline.arrRef spec3 1)) := by
  obtain ⟨-, -, e0, e1, -⟩ := index3 t
  unfold iblk3
  refine tile_of_read (rows3 t) (V c (Pipeline.arrRef spec3 1)) (fun j => ((cfg3.win 1).blk t).view.emb j) (fun j => ?_) (fun j => ?_)
  · show win3_1.index t (0 : Fin 2) * 2000 + 1 * (j 0).val = 2000 * t.val + (j 0).val
    omega
  · show win3_1.index t (1 : Fin 2) * 1 + 1 * (j 1).val = (j 1).val
    omega

/-- Input block 2 of tile t is rows 2000 t … 2000 t + 1999 of its array. -/
theorem in3_2 (c : Dev nD) (t : Fin cfg3.N) :
    Cert.Tile.IsTile (T := 2000) (M := 100000) (C := 256) (2000 * t.val) (rows3 t) (iblk3 V c 2 t) (V c (Pipeline.arrRef spec3 2)) := by
  obtain ⟨-, -, -, -, e0, e1, -⟩ := index3 t
  unfold iblk3
  refine tile_of_read (rows3 t) (V c (Pipeline.arrRef spec3 2)) (fun j => ((cfg3.win 2).blk t).view.emb j) (fun j => ?_) (fun j => ?_)
  · show win3_2.index t (0 : Fin 2) * 2000 + 1 * (j 0).val = 2000 * t.val + (j 0).val
    omega
  · show win3_2.index t (1 : Fin 2) * 256 + 1 * (j 1).val = (j 1).val
    omega

/-- The first weight block at every tile is the whole first weight array. -/
theorem in3_3 (c : Dev nD) (t : Fin cfg3.N) : iblk3 V c 3 t = V c (Pipeline.arrRef spec3 3) := by
  obtain ⟨-, -, -, -, -, -, e0, e1, -⟩ := index3 t
  unfold iblk3
  refine read_same (A := 256) (B := 256) (V c (Pipeline.arrRef spec3 3)) (fun j => ((cfg3.win 3).blk t).view.emb j) (fun j => ?_) (fun j => ?_)
  · show win3_3.index t (0 : Fin 2) * 256 + 1 * (j 0).val = (j 0).val
    omega
  · show win3_3.index t (1 : Fin 2) * 256 + 1 * (j 1).val = (j 1).val
    omega

/-- The second weight block at every tile is the whole second weight array. -/
theorem in3_4 (c : Dev nD) (t : Fin cfg3.N) : iblk3 V c 4 t = V c (Pipeline.arrRef spec3 4) := by
  obtain ⟨-, -, -, -, -, -, -, -, e0, e1, -⟩ := index3 t
  unfold iblk3
  refine read_same (A := 256) (B := 256) (V c (Pipeline.arrRef spec3 4)) (fun j => ((cfg3.win 4).blk t).view.emb j) (fun j => ?_) (fun j => ?_)
  · show win3_4.index t (0 : Fin 2) * 256 + 1 * (j 0).val = (j 0).val
    omega
  · show win3_4.index t (1 : Fin 2) * 256 + 1 * (j 1).val = (j 1).val
    omega

/-- The bias block at every tile is the whole bias array. -/
theorem in3_5 (c : Dev nD) (t : Fin cfg3.N) : iblk3 V c 5 t = V c (Pipeline.arrRef spec3 5) := by
  obtain ⟨-, -, -, -, -, -, -, -, -, -, e0, e1, -⟩ := index3 t
  unfold iblk3
  refine read_same (A := 1) (B := 256) (V c (Pipeline.arrRef spec3 5)) (fun j => ((cfg3.win 5).blk t).view.emb j) (fun j => ?_) (fun j => ?_)
  · show win3_5.index t (0 : Fin 2) * 1 + 1 * (j 0).val = (j 0).val
    omega
  · show win3_5.index t (1 : Fin 2) * 256 + 1 * (j 1).val = (j 1).val
    omega

/-- The scale block at every tile is the whole scale array. -/
theorem in3_6 (c : Dev nD) (t : Fin cfg3.N) : iblk3 V c 6 t = V c (Pipeline.arrRef spec3 6) := by
  obtain ⟨-, -, -, -, -, -, -, -, -, -, -, -, e0, e1, -⟩ := index3 t
  unfold iblk3
  refine read_same (A := 1) (B := 256) (V c (Pipeline.arrRef spec3 6)) (fun j => ((cfg3.win 6).blk t).view.emb j) (fun j => ?_) (fun j => ?_)
  · show win3_6.index t (0 : Fin 2) * 1 + 1 * (j 0).val = (j 0).val
    omega
  · show win3_6.index t (1 : Fin 2) * 256 + 1 * (j 1).val = (j 1).val
    omega

/-- The shift block at every tile is the whole shift array. -/
theorem in3_7 (c : Dev nD) (t : Fin cfg3.N) : iblk3 V c 7 t = V c (Pipeline.arrRef spec3 7) := by
  obtain ⟨-, -, -, -, -, -, -, -, -, -, -, -, -, -, e0, e1, -⟩ := index3 t
  unfold iblk3
  refine read_same (A := 1) (B := 256) (V c (Pipeline.arrRef spec3 7)) (fun j => ((cfg3.win 7).blk t).view.emb j) (fun j => ?_) (fun j => ?_)
  · show win3_7.index t (0 : Fin 2) * 1 + 1 * (j 0).val = (j 0).val
    omega
  · show win3_7.index t (1 : Fin 2) * 256 + 1 * (j 1).val = (j 1).val
    omega

/-- An index of the output array is in tile t's block iff each coordinate is in the block's range. -/
theorem mem_blk3 (t : Fin cfg3.N) (i : S100000x256.Idx) :
    i ∈ ((cfg3.win 8).blk t).view.set ↔ ∀ a : Fin 2, win3_8.index t a * S2000x256.size a ≤ (i a).val ∧ (i a).val < win3_8.index t a * S2000x256.size a + S2000x256.size a := by
  show i ∈ ((View.whole main_v100).slice (win3_8.rect t)).set ↔ _
  rw [View.set_slice_whole, Rect.mem_set_unit]
  exact Iff.rfl

/-- Every row of the output array is in the block of the tile its row number over 2000 names. -/
theorem cover3 (i : S100000x256.Idx) : ∃ t : Fin cfg3.N, (cfg3.win 8).flush t = true ∧ i ∈ ((cfg3.win 8).blk t).view.set := by
  have h0 : (i 0).val < 100000 := (i 0).isLt
  have h1 : (i 1).val < 256 := (i 1).isLt
  obtain ⟨t, ht⟩ : ∃ t : Fin cfg3.N, t.val = (i 0).val / 2000 := ⟨⟨(i 0).val / 2000, by rw [points3]; omega⟩, rfl⟩
  obtain ⟨-, -, -, -, -, -, -, -, -, -, -, -, -, -, -, -, e0, e1⟩ := index3 t
  refine ⟨t, flush3_8 t, ?_⟩
  rw [mem_blk3]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 256 ≤ (i 1).val ∧ (i 1).val < win3_8.index t (1 : Fin 2) * 256 + 256; omega

/-- What tile t writes back is block t of any array whose row tiles are the bodies' outputs. -/
theorem flushed3 (c : Dev nD) (G : Vec Ideal S100000x256 .f32)
    (hG : ∀ t : Fin cfg3.N, Cert.Tile.IsTile (2000 * t.val) (rows3 t) (out3_8 (iblk3 V c 0 t) (iblk3 V c 1 t) (iblk3 V c 2 t) (iblk3 V c 3 t) (iblk3 V c 4 t) (iblk3 V c 5 t) (iblk3 V c 6 t) (iblk3 V c 7 t)) G)
    (t : Fin cfg3.N) : (dat3 (F := Ideal) V c).flushed 8 t = ((cfg3.win 8).blk t).view.read (Elt Ideal) G := by
  obtain ⟨-, -, -, -, -, -, -, -, -, -, -, -, -, -, -, -, e0, e1⟩ := index3 t
  show (cfg3.win 8).cut (grid3.coords t) ((dat3 V c).after 8 t) = _
  rw [after3_8]
  refine read_of_tile (hG t) (fun j => ((cfg3.win 8).blk t).view.emb j) (fun j => ?_) (fun j => ?_)
  · show win3_8.index t (0 : Fin 2) * 2000 + 1 * (j 0).val = 2000 * t.val + (j 0).val
    omega
  · show win3_8.index t (1 : Fin 2) * 256 + 1 * (j 1).val = (j 1).val
    omega

/-- So the output array after the region is that array. -/
theorem arr3 (c : Dev nD) (G : Vec Ideal S100000x256 .f32)
    (hG : ∀ t : Fin cfg3.N, Cert.Tile.IsTile (2000 * t.val) (rows3 t) (out3_8 (iblk3 V c 0 t) (iblk3 V c 1 t) (iblk3 V c 2 t) (iblk3 V c 3 t) (iblk3 V c 4 t) (iblk3 V c 5 t) (iblk3 V c 6 t) (iblk3 V c 7 t)) G) :
    (dat3 (F := Ideal) V c).arrAt 8 cfg3.N = G :=
  (dat3 V c).arrAt_eq_of_cover 8 G (fun t _ => flushed3 V c G hG t) cover3

end Cert.KernelIdeal.Blocks

end
-- ==== Proof.Blocks5.lean ====
import proofs.«149189_j32641751449687_2_alg».proof.Proof.Gen.KernelIdeal.Frame
import proofs.«149189_j32641751449687_2_alg».proof.Proof.LibTile
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

/-! ## Row tiles and reads through an index map -/

/-- The zero offsets of a whole-buffer access, as a constant function. -/
private theorem zeros2 : (![0, 0] : Fin 2 → Nat) = fun _ => 0 := funext fun a => by fin_cases a <;> rfl

/-- An array read through a map sending (p, l) to (r0 + p, l) is the array's row tile at r0. -/
private theorem tile_of_read {T M C : Nat} {r0 : Nat} (hr : r0 + T ≤ M) (X : (⟨2, ![M, C]⟩ : Shape).Idx → EReal)
    (e : (⟨2, ![T, C]⟩ : Shape).Idx → (⟨2, ![M, C]⟩ : Shape).Idx)
    (he0 : ∀ j, (e j 0).val = r0 + (j 0).val) (he1 : ∀ j, (e j 1).val = (j 1).val) :
    Cert.Tile.IsTile r0 hr (fun j => X (e j)) X := by
  intro p l
  refine congrArg X (funext fun a => Fin.ext ?_)
  match a with
  | ⟨0, _⟩ => exact he0 (ix2 p l)
  | ⟨1, _⟩ => exact he1 (ix2 p l)

/-- Conversely the row tile at r0 is the array read through such a map. -/
private theorem read_of_tile {T M C : Nat} {r0 : Nat} {hr : r0 + T ≤ M} {x : (⟨2, ![T, C]⟩ : Shape).Idx → EReal}
    {X : (⟨2, ![M, C]⟩ : Shape).Idx → EReal} (h : Cert.Tile.IsTile r0 hr x X)
    (e : (⟨2, ![T, C]⟩ : Shape).Idx → (⟨2, ![M, C]⟩ : Shape).Idx)
    (he0 : ∀ j, (e j 0).val = r0 + (j 0).val) (he1 : ∀ j, (e j 1).val = (j 1).val) :
    x = fun j => X (e j) := by
  funext j
  obtain ⟨p, l, rfl⟩ : ∃ (p : Fin T) (l : Fin C), j = ix2 p l := ⟨j 0, j 1, eq_ix2 j⟩
  refine (h p l).trans (congrArg X (funext fun a => Fin.ext ?_))
  match a with
  | ⟨0, _⟩ => exact (he0 (ix2 p l)).symm
  | ⟨1, _⟩ => exact (he1 (ix2 p l)).symm

/-- An array read through a map that keeps both coordinates is the array. -/
private theorem read_same {A B : Nat} (X : (⟨2, ![A, B]⟩ : Shape).Idx → EReal)
    (e : (⟨2, ![A, B]⟩ : Shape).Idx → (⟨2, ![A, B]⟩ : Shape).Idx)
    (he0 : ∀ j, (e j 0).val = (j 0).val) (he1 : ∀ j, (e j 1).val = (j 1).val) :
    (fun j => X (e j)) = X := by
  funext j
  refine congrArg X (funext fun a => Fin.ext ?_)
  match a with
  | ⟨0, _⟩ => exact he0 j
  | ⟨1, _⟩ => exact he1 j

variable (V : (c : Dev nD) → (b : Ref sig .tc) → Buf (Elt Ideal) ((c : Thread nD τ).loc b))

/-! ## Region 5: a SAGE update, 50 tiles of 2000 rows of 100000 -/

theorem points5 : cfg5.N = 50 := N_5

/-- Tile t of region 5 lies inside the 100000 rows. -/
theorem rows5 (t : Fin cfg5.N) : 2000 * t.val + 2000 ≤ 100000 := by
  have h := t.isLt; have hN : cfg5.N = 50 := points5; omega

/-- The output buffer after the body is the payload of the input blocks: every access is to a whole buffer. -/
theorem out5_eq (x0 : Vec Ideal S2000x256 .f32) (x1 : Vec Ideal S2000x1 .f32) (x2 : Vec Ideal S2000x256 .f32) (x3 : Vec Ideal S256x256 .bf16) (x4 : Vec Ideal S256x256 .bf16) (x5 : Vec Ideal S1x256 .f32) (x6 : Vec Ideal S1x256 .f32) (x7 : Vec Ideal S1x256 .f32) :
    out5_8 x0 x1 x2 x3 x4 x5 x6 x7 = k5_pay1 x0 x1 x2 x3 x4 x5 x6 x7 := by
  unfold out5_8
  rw [View.canon_unit_zero zeros2]
  simp only [View.ld_unit_zero (S := S2000x256) zeros2, View.ld_unit_zero (S := S2000x1) zeros2, View.ld_unit_zero (S := S256x256) zeros2, View.ld_unit_zero (S := S1x256) zeros2]

/-- The printed index maps over the grid: the row-tiled windows sit at block (t, 0), the whole ones at (0, 0). -/
theorem index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- Input block 0 of tile t is rows 2000 t … 2000 t + 1999 of its array. -/
theorem in5_0 (c : Dev nD) (t : Fin cfg5.N) :
    Cert.Tile.IsTile (T := 2000) (M := 100000) (C := 256) (2000 * t.val) (rows5 t) (iblk5 V c 0 t) (V c (Pipeline.arrRef spec5 0)) := by
  obtain ⟨e0, e1, -⟩ := index5 t
  unfold iblk5
  refine tile_of_read (rows5 t) (V c (Pipeline.arrRef spec5 0)) (fun j => ((cfg5.win 0).blk t).view.emb j) (fun j => ?_) (fun j => ?_)
  · show win5_0.index t (0 : Fin 2) * 2000 + 1 * (j 0).val = 2000 * t.val + (j 0).val
    omega
  · show win5_0.index t (1 : Fin 2) * 256 + 1 * (j 1).val = (j 1).val
    omega

/-- Input block 1 of tile t is rows 2000 t … 2000 t + 1999 of its array. -/
theorem in5_1 (c : Dev nD) (t : Fin cfg5.N) :
    Cert.Tile.IsTile (T := 2000) (M := 100000) (C := 1) (2000 * t.val) (rows5 t) (iblk5 V c 1 t) (V c (Pipeline.arrRef spec5 1)) := by
  obtain ⟨-, -, e0, e1, -⟩ := index5 t
  unfold iblk5
  refine tile_of_read (rows5 t) (V c (Pipeline.arrRef spec5 1)) (fun j => ((cfg5.win 1).blk t).view.emb j) (fun j => ?_) (fun j => ?_)
  · show win5_1.index t (0 : Fin 2) * 2000 + 1 * (j 0).val = 2000 * t.val + (j 0).val
    omega
  · show win5_1.index t (1 : Fin 2) * 1 + 1 * (j 1).val = (j 1).val
    omega

/-- Input block 2 of tile t is rows 2000 t … 2000 t + 1999 of its array. -/
theorem in5_2 (c : Dev nD) (t : Fin cfg5.N) :
    Cert.Tile.IsTile (T := 2000) (M := 100000) (C := 256) (2000 * t.val) (rows5 t) (iblk5 V c 2 t) (V c (Pipeline.arrRef spec5 2)) := by
  obtain ⟨-, -, -, -, e0, e1, -⟩ := index5 t
  unfold iblk5
  refine tile_of_read (rows5 t) (V c (Pipeline.arrRef spec5 2)) (fun j => ((cfg5.win 2).blk t).view.emb j) (fun j => ?_) (fun j => ?_)
  · show win5_2.index t (0 : Fin 2) * 2000 + 1 * (j 0).val = 2000 * t.val + (j 0).val
    omega
  · show win5_2.index t (1 : Fin 2) * 256 + 1 * (j 1).val = (j 1).val
    omega

/-- The first weight block at every tile is the whole first weight array. -/
theorem in5_3 (c : Dev nD) (t : Fin cfg5.N) : iblk5 V c 3 t = V c (Pipeline.arrRef spec5 3) := by
  obtain ⟨-, -, -, -, -, -, e0, e1, -⟩ := index5 t
  unfold iblk5
  refine read_same (A := 256) (B := 256) (V c (Pipeline.arrRef spec5 3)) (fun j => ((cfg5.win 3).blk t).view.emb j) (fun j => ?_) (fun j => ?_)
  · show win5_3.index t (0 : Fin 2) * 256 + 1 * (j 0).val = (j 0).val
    omega
  · show win5_3.index t (1 : Fin 2) * 256 + 1 * (j 1).val = (j 1).val
    omega

/-- The second weight block at every tile is the whole second weight array. -/
theorem in5_4 (c : Dev nD) (t : Fin cfg5.N) : iblk5 V c 4 t = V c (Pipeline.arrRef spec5 4) := by
  obtain ⟨-, -, -, -, -, -, -, -, e0, e1, -⟩ := index5 t
  unfold iblk5
  refine read_same (A := 256) (B := 256) (V c (Pipeline.arrRef spec5 4)) (fun j => ((cfg5.win 4).blk t).view.emb j) (fun j => ?_) (fun j => ?_)
  · show win5_4.index t (0 : Fin 2) * 256 + 1 * (j 0).val = (j 0).val
    omega
  · show win5_4.index t (1 : Fin 2) * 256 + 1 * (j 1).val = (j 1).val
    omega

/-- The bias block at every tile is the whole bias array. -/
theorem in5_5 (c : Dev nD) (t : Fin cfg5.N) : iblk5 V c 5 t = V c (Pipeline.arrRef spec5 5) := by
  obtain ⟨-, -, -, -, -, -, -, -, -, -, e0, e1, -⟩ := index5 t
  unfold iblk5
  refine read_same (A := 1) (B := 256) (V c (Pipeline.arrRef spec5 5)) (fun j => ((cfg5.win 5).blk t).view.emb j) (fun j => ?_) (fun j => ?_)
  · show win5_5.index t (0 : Fin 2) * 1 + 1 * (j 0).val = (j 0).val
    omega
  · show win5_5.index t (1 : Fin 2) * 256 + 1 * (j 1).val = (j 1).val
    omega

/-- The scale block at every tile is the whole scale array. -/
theorem in5_6 (c : Dev nD) (t : Fin cfg5.N) : iblk5 V c 6 t = V c (Pipeline.arrRef spec5 6) := by
  obtain ⟨-, -, -, -, -, -, -, -, -, -, -, -, e0, e1, -⟩ := index5 t
  unfold iblk5
  refine read_same (A := 1) (B := 256) (V c (Pipeline.arrRef spec5 6)) (fun j => ((cfg5.win 6).blk t).view.emb j) (fun j => ?_) (fun j => ?_)
  · show win5_6.index t (0 : Fin 2) * 1 + 1 * (j 0).val = (j 0).val
    omega
  · show win5_6.index t (1 : Fin 2) * 256 + 1 * (j 1).val = (j 1).val
    omega

/-- The shift block at every tile is the whole shift array. -/
theorem in5_7 (c : Dev nD) (t : Fin cfg5.N) : iblk5 V c 7 t = V c (Pipeline.arrRef spec5 7) := by
  obtain ⟨-, -, -, -, -, -, -, -, -, -, -, -, -, -, e0, e1, -⟩ := index5 t
  unfold iblk5
  refine read_same (A := 1) (B := 256) (V c (Pipeline.arrRef spec5 7)) (fun j => ((cfg5.win 7).blk t).view.emb j) (fun j => ?_) (fun j => ?_)
  · show win5_7.index t (0 : Fin 2) * 1 + 1 * (j 0).val = (j 0).val
    omega
  · show win5_7.index t (1 : Fin 2) * 256 + 1 * (j 1).val = (j 1).val
    omega

/-- An index of the output array is in tile t's block iff each coordinate is in the block's range. -/
theorem mem_blk5 (t : Fin cfg5.N) (i : S100000x256.Idx) :
    i ∈ ((cfg5.win 8).blk t).view.set ↔ ∀ a : Fin 2, win5_8.index t a * S2000x256.size a ≤ (i a).val ∧ (i a).val < win5_8.index t a * S2000x256.size a + S2000x256.size a := by
  show i ∈ ((View.whole main_v180).slice (win5_8.rect t)).set ↔ _
  rw [View.set_slice_whole, Rect.mem_set_unit]
  exact Iff.rfl

/-- Every row of the output array is in the block of the tile its row number over 2000 names. -/
theorem cover5 (i : S100000x256.Idx) : ∃ t : Fin cfg5.N, (cfg5.win 8).flush t = true ∧ i ∈ ((cfg5.win 8).blk t).view.set := by
  have h0 : (i 0).val < 100000 := (i 0).isLt
  have h1 : (i 1).val < 256 := (i 1).isLt
  obtain ⟨t, ht⟩ : ∃ t : Fin cfg5.N, t.val = (i 0).val / 2000 := ⟨⟨(i 0).val / 2000, by rw [points5]; omega⟩, rfl⟩
  obtain ⟨-, -, -, -, -, -, -, -, -, -, -, -, -, -, -, -, e0, e1⟩ := index5 t
  refine ⟨t, flush5_8 t, ?_⟩
  rw [mem_blk5]
  intro a
  match a with
  | ⟨0, _⟩ => show win5_8.index t (0 : Fin 2) * 2000 ≤ (i 0).val ∧ (i 0).val < win5_8.index t (0 : Fin 2) * 2000 + 2000; omega
  | ⟨1, _⟩ => show win5_8.index t (1 : Fin 2) * 256 ≤ (i 1).val ∧ (i 1).val < win5_8.index t (1 : Fin 2) * 256 + 256; omega

/-- What tile t writes back is block t of any array whose row tiles are the bodies' outputs. -/
theorem flushed5 (c : Dev nD) (G : Vec Ideal S100000x256 .f32)
    (hG : ∀ t : Fin cfg5.N, Cert.Tile.IsTile (2000 * t.val) (rows5 t) (out5_8 (iblk5 V c 0 t) (iblk5 V c 1 t) (iblk5 V c 2 t) (iblk5 V c 3 t) (iblk5 V c 4 t) (iblk5 V c 5 t) (iblk5 V c 6 t) (iblk5 V c 7 t)) G)
    (t : Fin cfg5.N) : (dat5 (F := Ideal) V c).flushed 8 t = ((cfg5.win 8).blk t).view.read (Elt Ideal) G := by
  obtain ⟨-, -, -, -, -, -, -, -, -, -, -, -, -, -, -, -, e0, e1⟩ := index5 t
  show (cfg5.win 8).cut (grid5.coords t) ((dat5 V c).after 8 t) = _
  rw [after5_8]
  refine read_of_tile (hG t) (fun j => ((cfg5.win 8).blk t).view.emb j) (fun j => ?_) (fun j => ?_)
  · show win5_8.index t (0 : Fin 2) * 2000 + 1 * (j 0).val = 2000 * t.val + (j 0).val
    omega
  · show win5_8.index t (1 : Fin 2) * 256 + 1 * (j 1).val = (j 1).val
    omega

/-- So the output array after the region is that array. -/
theorem arr5 (c : Dev nD) (G : Vec Ideal S100000x256 .f32)
    (hG : ∀ t : Fin cfg5.N, Cert.Tile.IsTile (2000 * t.val) (rows5 t) (out5_8 (iblk5 V c 0 t) (iblk5 V c 1 t) (iblk5 V c 2 t) (iblk5 V c 3 t) (iblk5 V c 4 t) (iblk5 V c 5 t) (iblk5 V c 6 t) (iblk5 V c 7 t)) G) :
    (dat5 (F := Ideal) V c).arrAt 8 cfg5.N = G :=
  (dat5 V c).arrAt_eq_of_cover 8 G (fun t _ => flushed5 V c G hG t) cover5

end Cert.KernelIdeal.Blocks

end
-- ==== Proof.Blocks6.lean ====
import proofs.«149189_j32641751449687_2_alg».proof.Proof.Gen.KernelIdeal.Frame
import proofs.«149189_j32641751449687_2_alg».proof.Proof.LibTile
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

/-! ## Row tiles and reads through an index map -/

/-- The zero offsets of a whole-buffer access, as a constant function. -/
private theorem zeros2 : (![0, 0] : Fin 2 → Nat) = fun _ => 0 := funext fun a => by fin_cases a <;> rfl

/-- An array read through a map sending (p, l) to (r0 + p, l) is the array's row tile at r0. -/
private theorem tile_of_read {T M C : Nat} {r0 : Nat} (hr : r0 + T ≤ M) (X : (⟨2, ![M, C]⟩ : Shape).Idx → EReal)
    (e : (⟨2, ![T, C]⟩ : Shape).Idx → (⟨2, ![M, C]⟩ : Shape).Idx)
    (he0 : ∀ j, (e j 0).val = r0 + (j 0).val) (he1 : ∀ j, (e j 1).val = (j 1).val) :
    Cert.Tile.IsTile r0 hr (fun j => X (e j)) X := by
  intro p l
  refine congrArg X (funext fun a => Fin.ext ?_)
  match a with
  | ⟨0, _⟩ => exact he0 (ix2 p l)
  | ⟨1, _⟩ => exact he1 (ix2 p l)

/-- Conversely the row tile at r0 is the array read through such a map. -/
private theorem read_of_tile {T M C : Nat} {r0 : Nat} {hr : r0 + T ≤ M} {x : (⟨2, ![T, C]⟩ : Shape).Idx → EReal}
    {X : (⟨2, ![M, C]⟩ : Shape).Idx → EReal} (h : Cert.Tile.IsTile r0 hr x X)
    (e : (⟨2, ![T, C]⟩ : Shape).Idx → (⟨2, ![M, C]⟩ : Shape).Idx)
    (he0 : ∀ j, (e j 0).val = r0 + (j 0).val) (he1 : ∀ j, (e j 1).val = (j 1).val) :
    x = fun j => X (e j) := by
  funext j
  obtain ⟨p, l, rfl⟩ : ∃ (p : Fin T) (l : Fin C), j = ix2 p l := ⟨j 0, j 1, eq_ix2 j⟩
  refine (h p l).trans (congrArg X (funext fun a => Fin.ext ?_))
  match a with
  | ⟨0, _⟩ => exact (he0 (ix2 p l)).symm
  | ⟨1, _⟩ => exact (he1 (ix2 p l)).symm

/-- An array read through a map that keeps both coordinates is the array. -/
private theorem read_same {A B : Nat} (X : (⟨2, ![A, B]⟩ : Shape).Idx → EReal)
    (e : (⟨2, ![A, B]⟩ : Shape).Idx → (⟨2, ![A, B]⟩ : Shape).Idx)
    (he0 : ∀ j, (e j 0).val = (j 0).val) (he1 : ∀ j, (e j 1).val = (j 1).val) :
    (fun j => X (e j)) = X := by
  funext j
  refine congrArg X (funext fun a => Fin.ext ?_)
  match a with
  | ⟨0, _⟩ => exact he0 j
  | ⟨1, _⟩ => exact he1 j

variable (V : (c : Dev nD) → (b : Ref sig .tc) → Buf (Elt Ideal) ((c : Thread nD τ).loc b))

/-! ## Region 6: the edge MLP, 125 tiles of 2400 rows of 300000 -/

theorem points6 : cfg6.N = 125 := N_6

/-- Tile t of region 6 lies inside the 300000 rows. -/
theorem rows6 (t : Fin cfg6.N) : 2400 * t.val + 2400 ≤ 300000 := by
  have h := t.isLt; have hN : cfg6.N = 125 := points6; omega

/-- The output buffer after the body is the payload of the input blocks: every access is to a whole buffer. -/
theorem out6_eq (x0 : Vec Ideal S2400x256 .bf16) (x1 : Vec Ideal S2400x256 .bf16) (x2 : Vec Ideal S2400x32 .bf16) (x3 : Vec Ideal S256x256 .bf16) (x4 : Vec Ideal S256x256 .bf16) (x5 : Vec Ideal S32x256 .bf16) (x6 : Vec Ideal S1x256 .f32) (x7 : Vec Ideal S1x256 .f32) (x8 : Vec Ideal S1x1 .f32) :
    out6_9 x0 x1 x2 x3 x4 x5 x6 x7 x8 = k6_pay1 x0 x1 x2 x3 x4 x5 x6 x7 x8 := by
  unfold out6_9
  rw [View.canon_unit_zero zeros2]
  simp only [View.ld_unit_zero (S := S2400x256) zeros2, View.ld_unit_zero (S := S2400x32) zeros2, View.ld_unit_zero (S := S256x256) zeros2, View.ld_unit_zero (S := S32x256) zeros2, View.ld_unit_zero (S := S1x256) zeros2, View.ld_unit_zero (S := S1x1) zeros2]

/-- The printed index maps over the grid: the row-tiled windows sit at block (t, 0), the whole ones at (0, 0). -/
theorem index6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

/-- Input block 0 of tile t is rows 2400 t … 2400 t + 2399 of its array. -/
theorem in6_0 (c : Dev nD) (t : Fin cfg6.N) :
    Cert.Tile.IsTile (T := 2400) (M := 300000) (C := 256) (2400 * t.val) (rows6 t) (iblk6 V c 0 t) (V c (Pipeline.arrRef spec6 0)) := by
  obtain ⟨e0, e1, -⟩ := index6 t
  unfold iblk6
  refine tile_of_read (rows6 t) (V c (Pipeline.arrRef spec6 0)) (fun j => ((cfg6.win 0).blk t).view.emb j) (fun j => ?_) (fun j => ?_)
  · show win6_0.index t (0 : Fin 2) * 2400 + 1 * (j 0).val = 2400 * t.val + (j 0).val
    omega
  · show win6_0.index t (1 : Fin 2) * 256 + 1 * (j 1).val = (j 1).val
    omega

/-- Input block 1 of tile t is rows 2400 t … 2400 t + 2399 of its array. -/
theorem in6_1 (c : Dev nD) (t : Fin cfg6.N) :
    Cert.Tile.IsTile (T := 2400) (M := 300000) (C := 256) (2400 * t.val) (rows6 t) (iblk6 V c 1 t) (V c (Pipeline.arrRef spec6 1)) := by
  obtain ⟨-, -, e0, e1, -⟩ := index6 t
  unfold iblk6
  refine tile_of_read (rows6 t) (V c (Pipeline.arrRef spec6 1)) (fun j => ((cfg6.win 1).blk t).view.emb j) (fun j => ?_) (fun j => ?_)
  · show win6_1.index t (0 : Fin 2) * 2400 + 1 * (j 0).val = 2400 * t.val + (j 0).val
    omega
  · show win6_1.index t (1 : Fin 2) * 256 + 1 * (j 1).val = (j 1).val
    omega

/-- Input block 2 of tile t is rows 2400 t … 2400 t + 2399 of its array. -/
theorem in6_2 (c : Dev nD) (t : Fin cfg6.N) :
    Cert.Tile.IsTile (T := 2400) (M := 300000) (C := 32) (2400 * t.val) (rows6 t) (iblk6 V c 2 t) (V c (Pipeline.arrRef spec6 2)) := by
  obtain ⟨-, -, -, -, e0, e1, -⟩ := index6 t
  unfold iblk6
  refine tile_of_read (rows6 t) (V c (Pipeline.arrRef spec6 2)) (fun j => ((cfg6.win 2).blk t).view.emb j) (fun j => ?_) (fun j => ?_)
  · show win6_2.index t (0 : Fin 2) * 2400 + 1 * (j 0).val = 2400 * t.val + (j 0).val
    omega
  · show win6_2.index t (1 : Fin 2) * 32 + 1 * (j 1).val = (j 1).val
    omega

/-- The sender weight block at every tile is the whole sender weight array. -/
theorem in6_3 (c : Dev nD) (t : Fin cfg6.N) : iblk6 V c 3 t = V c (Pipeline.arrRef spec6 3) := by
  obtain ⟨-, -, -, -, -, -, e0, e1, -⟩ := index6 t
  unfold iblk6
  refine read_same (A := 256) (B := 256) (V c (Pipeline.arrRef spec6 3)) (fun j => ((cfg6.win 3).blk t).view.emb j) (fun j => ?_) (fun j => ?_)
  · show win6_3.index t (0 : Fin 2) * 256 + 1 * (j 0).val = (j 0).val
    omega
  · show win6_3.index t (1 : Fin 2) * 256 + 1 * (j 1).val = (j 1).val
    omega

/-- The receiver weight block at every tile is the whole receiver weight array. -/
theorem in6_4 (c : Dev nD) (t : Fin cfg6.N) : iblk6 V c 4 t = V c (Pipeline.arrRef spec6 4) := by
  obtain ⟨-, -, -, -, -, -, -, -, e0, e1, -⟩ := index6 t
  unfold iblk6
  refine read_same (A := 256) (B := 256) (V c (Pipeline.arrRef spec6 4)) (fun j => ((cfg6.win 4).blk t).view.emb j) (fun j => ?_) (fun j => ?_)
  · show win6_4.index t (0 : Fin 2) * 256 + 1 * (j 0).val = (j 0).val
    omega
  · show win6_4.index t (1 : Fin 2) * 256 + 1 * (j 1).val = (j 1).val
    omega

/-- The edge-feature weight block at every tile is the whole edge-feature weight array. -/
theorem in6_5 (c : Dev nD) (t : Fin cfg6.N) : iblk6 V c 5 t = V c (Pipeline.arrRef spec6 5) := by
  obtain ⟨-, -, -, -, -, -, -, -, -, -, e0, e1, -⟩ := index6 t
  unfold iblk6
  refine read_same (A := 32) (B := 256) (V c (Pipeline.arrRef spec6 5)) (fun j => ((cfg6.win 5).blk t).view.emb j) (fun j => ?_) (fun j => ?_)
  · show win6_5.index t (0 : Fin 2) * 32 + 1 * (j 0).val = (j 0).val
    omega
  · show win6_5.index t (1 : Fin 2) * 256 + 1 * (j 1).val = (j 1).val
    omega

/-- The bias block at every tile is the whole bias array. -/
theorem in6_6 (c : Dev nD) (t : Fin cfg6.N) : iblk6 V c 6 t = V c (Pipeline.arrRef spec6 6) := by
  obtain ⟨-, -, -, -, -, -, -, -, -, -, -, -, e0, e1, -⟩ := index6 t
  unfold iblk6
  refine read_same (A := 1) (B := 256) (V c (Pipeline.arrRef spec6 6)) (fun j => ((cfg6.win 6).blk t).view.emb j) (fun j => ?_) (fun j => ?_)
  · show win6_6.index t (0 : Fin 2) * 1 + 1 * (j 0).val = (j 0).val
    omega
  · show win6_6.index t (1 : Fin 2) * 256 + 1 * (j 1).val = (j 1).val
    omega

/-- The output row block at every tile is the whole output row array. -/
theorem in6_7 (c : Dev nD) (t : Fin cfg6.N) : iblk6 V c 7 t = V c (Pipeline.arrRef spec6 7) := by
  obtain ⟨-, -, -, -, -, -, -, -, -, -, -, -, -, -, e0, e1, -⟩ := index6 t
  unfold iblk6
  refine read_same (A := 1) (B := 256) (V c (Pipeline.arrRef spec6 7)) (fun j => ((cfg6.win 7).blk t).view.emb j) (fun j => ?_) (fun j => ?_)
  · show win6_7.index t (0 : Fin 2) * 1 + 1 * (j 0).val = (j 0).val
    omega
  · show win6_7.index t (1 : Fin 2) * 256 + 1 * (j 1).val = (j 1).val
    omega

/-- The output bias block at every tile is the whole output bias array. -/
theorem in6_8 (c : Dev nD) (t : Fin cfg6.N) : iblk6 V c 8 t = V c (Pipeline.arrRef spec6 8) := by
  obtain ⟨-, -, -, -, -, -, -, -, -, -, -, -, -, -, -, -, e0, e1, -⟩ := index6 t
  unfold iblk6
  refine read_same (A := 1) (B := 1) (V c (Pipeline.arrRef spec6 8)) (fun j => ((cfg6.win 8).blk t).view.emb j) (fun j => ?_) (fun j => ?_)
  · show win6_8.index t (0 : Fin 2) * 1 + 1 * (j 0).val = (j 0).val
    omega
  · show win6_8.index t (1 : Fin 2) * 1 + 1 * (j 1).val = (j 1).val
    omega

/-- An index of the output array is in tile t's block iff each coordinate is in the block's range. -/
theorem mem_blk6 (t : Fin cfg6.N) (i : S300000x1.Idx) :
    i ∈ ((cfg6.win 9).blk t).view.set ↔ ∀ a : Fin 2, win6_9.index t a * S2400x1.size a ≤ (i a).val ∧ (i a).val < win6_9.index t a * S2400x1.size a + S2400x1.size a := by
  show i ∈ ((View.whole main_v208).slice (win6_9.rect t)).set ↔ _
  rw [View.set_slice_whole, Rect.mem_set_unit]
  exact Iff.rfl

/-- Every row of the output array is in the block of the tile its row number over 2400 names. -/
theorem cover6 (i : S300000x1.Idx) : ∃ t : Fin cfg6.N, (cfg6.win 9).flush t = true ∧ i ∈ ((cfg6.win 9).blk t).view.set := by
  have h0 : (i 0).val < 300000 := (i 0).isLt
  have h1 : (i 1).val < 1 := (i 1).isLt
  obtain ⟨t, ht⟩ : ∃ t : Fin cfg6.N, t.val = (i 0).val / 2400 := ⟨⟨(i 0).val / 2400, by rw [points6]; omega⟩, rfl⟩
  obtain ⟨-, -, -, -, -, -, -, -, -, -, -, -, -, -, -, -, -, -, e0, e1⟩ := index6 t
  refine ⟨t, flush6_9 t, ?_⟩
  rw [mem_blk6]
  intro a
  match a with
  | ⟨0, _⟩ => show win6_9.index t (0 : Fin 2) * 2400 ≤ (i 0).val ∧ (i 0).val < win6_9.index t (0 : Fin 2) * 2400 + 2400; omega
  | ⟨1, _⟩ => show win6_9.index t (1 : Fin 2) * 1 ≤ (i 1).val ∧ (i 1).val < win6_9.index t (1 : Fin 2) * 1 + 1; omega

/-- What tile t writes back is block t of any array whose row tiles are the bodies' outputs. -/
theorem flushed6 (c : Dev nD) (G : Vec Ideal S300000x1 .f32)
    (hG : ∀ t : Fin cfg6.N, Cert.Tile.IsTile (2400 * t.val) (rows6 t) (out6_9 (iblk6 V c 0 t) (iblk6 V c 1 t) (iblk6 V c 2 t) (iblk6 V c 3 t) (iblk6 V c 4 t) (iblk6 V c 5 t) (iblk6 V c 6 t) (iblk6 V c 7 t) (iblk6 V c 8 t)) G)
    (t : Fin cfg6.N) : (dat6 (F := Ideal) V c).flushed 9 t = ((cfg6.win 9).blk t).view.read (Elt Ideal) G := by
  obtain ⟨-, -, -, -, -, -, -, -, -, -, -, -, -, -, -, -, -, -, e0, e1⟩ := index6 t
  show (cfg6.win 9).cut (grid6.coords t) ((dat6 V c).after 9 t) = _
  rw [after6_9]
  refine read_of_tile (hG t) (fun j => ((cfg6.win 9).blk t).view.emb j) (fun j => ?_) (fun j => ?_)
  · show win6_9.index t (0 : Fin 2) * 2400 + 1 * (j 0).val = 2400 * t.val + (j 0).val
    omega
  · show win6_9.index t (1 : Fin 2) * 1 + 1 * (j 1).val = (j 1).val
    omega

/-- So the output array after the region is that array. -/
theorem arr6 (c : Dev nD) (G : Vec Ideal S300000x1 .f32)
    (hG : ∀ t : Fin cfg6.N, Cert.Tile.IsTile (2400 * t.val) (rows6 t) (out6_9 (iblk6 V c 0 t) (iblk6 V c 1 t) (iblk6 V c 2 t) (iblk6 V c 3 t) (iblk6 V c 4 t) (iblk6 V c 5 t) (iblk6 V c 6 t) (iblk6 V c 7 t) (iblk6 V c 8 t)) G) :
    (dat6 (F := Ideal) V c).arrAt 9 cfg6.N = G :=
  (dat6 V c).arrAt_eq_of_cover 9 G (fun t _ => flushed6 V c G hG t) cover6

end Cert.KernelIdeal.Blocks

end
-- ==== Proof.Blocks.lean ====
import proofs.«149189_j32641751449687_2_alg».proof.Proof.Blocks0
import proofs.«149189_j32641751449687_2_alg».proof.Proof.Blocks1
import proofs.«149189_j32641751449687_2_alg».proof.Proof.Blocks2
import proofs.«149189_j32641751449687_2_alg».proof.Proof.Blocks3
import proofs.«149189_j32641751449687_2_alg».proof.Proof.Blocks5
import proofs.«149189_j32641751449687_2_alg».proof.Proof.Blocks6

/-!
  From blocks to arrays, for the row-tiled regions 0, 1, 2, 3, 5 and 6: one module per region.
  Per region K: the output buffer after the body
  is the payload of the input blocks (outK_eq); each row-tiled input block is a row tile of its array and
  each whole input block is its array (inK_w); and the output array after the region is any array whose
  row tiles are the bodies' outputs (arrK).
-/
-- ==== Proof.Regions.lean ====
/-
  Each region's output array as ONE whole-array function of the arrays the region finds at its entry. A region cuts its
  row-tiled operands into blocks of 2000 (the last region: 2400) rows, hands the weights, biases and the normalisation's
  scale and shift to every grid point whole, and writes block t of its output from block t of its operands. The body's
  arithmetic keeps row tiles, so block t of the output is rows [T·t, T·t + T) of the layer's whole-array function of the
  entry arrays; the blocks cover the output array, hence the output array IS that function.
-/
import proofs.«149189_j32641751449687_2_alg».proof.Proof.Gen.KernelIdeal.Frame
import Idealize.ShloMosaic.PureOps.Ideal
import Idealize.ShloMosaic.PureOps.Ideal.Laws
import proofs.«149189_j32641751449687_2_alg».proof.Proof.Payloads
import proofs.«149189_j32641751449687_2_alg».proof.Proof.Blocks
set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

open Cert.KernelIdeal.Whole Cert.KernelIdeal.Blocks

/-- Region 0: a dense layer with relu, over 100000 rows. -/
theorem reg0 (c : Dev nD) :
    W2 m ρ c (Proc.devRef .tc main_v3) = linear (M := 100000) (K := 16) (W1 m ρ c (Proc.devRef .tc main_arg0)) (W1 m ρ c (Proc.devRef .tc main_v1)) (W1 m ρ c (Proc.devRef .tc main_v2)) := by
  refine (W2_arr m ρ c 3).trans (arr0 (V1 m ρ) c _ fun t => ?_)
  rw [out0_eq, in0_1, in0_2]
  exact linear16_tile (rows0 t) _ _ _ _ (in0_0 (V1 m ρ) c t)

/-- Region 1: a dense layer with relu, over 300000 rows. -/
theorem reg1 (c : Dev nD) :
    W4 m ρ c (Proc.devRef .tc main_v7) = linear (M := 300000) (K := 32) (W3 m ρ c (Proc.devRef .tc main_arg1)) (W3 m ρ c (Proc.devRef .tc main_v5)) (W3 m ρ c (Proc.devRef .tc main_v6)) := by
  refine (W4_arr m ρ c 3).trans (arr1 (V3 m ρ) c _ fun t => ?_)
  rw [out1_eq, in1_1, in1_2]
  exact linear32_tile (rows1 t) _ _ _ _ (in1_0 (V3 m ρ) c t)

/-- Region 2: a SAGE update with the folded normalisation and relu, over 300000 rows. -/
theorem reg2 (c : Dev nD) :
    W6 m ρ c (Proc.devRef .tc main_v88) = sage (M := 300000) (W5 m ρ c (Proc.devRef .tc main_v36)) (W5 m ρ c (Proc.devRef .tc main_v14)) (W5 m ρ c (Proc.devRef .tc main_v7)) (W5 m ρ c (Proc.devRef .tc main_v80)) (W5 m ρ c (Proc.devRef .tc main_v84)) (W5 m ρ c (Proc.devRef .tc main_v87)) (W5 m ρ c (Proc.devRef .tc main_v61)) (W5 m ρ c (Proc.devRef .tc main_v76)) := by
  refine (W6_arr m ρ c 8).trans (arr2 (V5 m ρ) c _ fun t => ?_)
  rw [out2_eq, in2_3, in2_4, in2_5, in2_6, in2_7]
  exact sage_tile (rows2 t) _ _ _ _ _ _ _ _ _ _ _ (in2_0 (V5 m ρ) c t) (in2_1 (V5 m ρ) c t) (in2_2 (V5 m ρ) c t)

/-- Region 3: a SAGE update with the folded normalisation and relu, over 100000 rows. -/
theorem reg3 (c : Dev nD) :
    W8 m ρ c (Proc.devRef .tc main_v100) = sage (M := 100000) (W7 m ρ c (Proc.devRef .tc main_v52)) (W7 m ρ c (Proc.devRef .tc main_v20)) (W7 m ρ c (Proc.devRef .tc main_v3)) (W7 m ρ c (Proc.devRef .tc main_v92)) (W7 m ρ c (Proc.devRef .tc main_v96)) (W7 m ρ c (Proc.devRef .tc main_v99)) (W7 m ρ c (Proc.devRef .tc main_v61)) (W7 m ρ c (Proc.devRef .tc main_v76)) := by
  refine (W8_arr m ρ c 8).trans (arr3 (V7 m ρ) c _ fun t => ?_)
  rw [out3_eq, in3_3, in3_4, in3_5, in3_6, in3_7]
  exact sage_tile3 (rows3 t) _ _ _ _ _ _ _ _ _ _ _ (in3_0 (V7 m ρ) c t) (in3_1 (V7 m ρ) c t) (in3_2 (V7 m ρ) c t)

/-- Region 5: a SAGE update with the folded normalisation and relu, over 100000 rows. -/
theorem reg5 (c : Dev nD) :
    W12 m ρ c (Proc.devRef .tc main_v180) = sage (M := 100000) (W11 m ρ c (Proc.devRef .tc main_v132)) (W11 m ρ c (Proc.devRef .tc main_v20)) (W11 m ρ c (Proc.devRef .tc main_v100)) (W11 m ρ c (Proc.devRef .tc main_v172)) (W11 m ρ c (Proc.devRef .tc main_v176)) (W11 m ρ c (Proc.devRef .tc main_v179)) (W11 m ρ c (Proc.devRef .tc main_v141)) (W11 m ρ c (Proc.devRef .tc main_v156)) := by
  refine (W12_arr m ρ c 8).trans (arr5 (V11 m ρ) c _ fun t => ?_)
  rw [out5_eq, in5_3, in5_4, in5_5, in5_6, in5_7]
  exact sage_tile5 (rows5 t) _ _ _ _ _ _ _ _ _ _ _ (in5_0 (V11 m ρ) c t) (in5_1 (V11 m ρ) c t) (in5_2 (V11 m ρ) c t)

/-- Region 6: the edge MLP, over 300000 rows. -/
theorem reg6 (c : Dev nD) :
    W14 m ρ c (Proc.devRef .tc main_v208) = mlp (M := 300000) (W13 m ρ c (Proc.devRef .tc main_v188)) (W13 m ρ c (Proc.devRef .tc main_v195)) (W13 m ρ c (Proc.devRef .tc main_v196)) (W13 m ρ c (Proc.devRef .tc main_v199)) (W13 m ρ c (Proc.devRef .tc main_v202)) (W13 m ρ c (Proc.devRef .tc main_v205)) (W13 m ρ c (Proc.devRef .tc main_v206)) (W13 m ρ c (Proc.devRef .tc main_arg23)) (W13 m ρ c (Proc.devRef .tc main_v207)) := by
  refine (W14_arr m ρ c 9).trans (arr6 (V13 m ρ) c _ fun t => ?_)
  rw [out6_eq, in6_3, in6_4, in6_5, in6_6, in6_7, in6_8]
  exact mlp_tile (rows6 t) _ _ _ _ _ _ _ _ _ _ _ _ (in6_0 (V13 m ρ) c t) (in6_1 (V13 m ρ) c t) (in6_2 (V13 m ρ) c t)

end Cert.KernelIdeal.Regions

end
-- ==== Proof.Skip.lean ====
/-
  Which buffers a stretch of host operations leaves alone. Each of the program's eight stretches is a list of operations
  that each write ONE buffer; listing those buffers once per stretch, any buffer outside the list holds after the stretch
  what it held before it. (Every buffer of this program is written at most once, so this is how a value produced early
  reaches a later reader.)
-/
import proofs.«149189_j32641751449687_2_alg».proof.Proof.Gen.KernelIdeal.Frame

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers the operations of stretch 0 write, in order. -/
def writes0 : List (Ref sig .tc) := [main_v0, main_v1, main_v2]

theorem sub0 : (hostOps0 : List (HloOp τ sig (Elt F))).Forall fun op => op.writes ⊆ ((writes0).map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer stretch 0 does not write holds after it what it held before. -/
theorem hs0 (c : Dev nD) (b : Ref sig .tc) (hb : b ∉ writes0) :
    W1 m ρ c (Proc.devRef .tc b) = W0 m ρ c (Proc.devRef .tc b) :=
  StableHlo.after_of_writes_sub hostOps0 _ (sub0 (F := F)) hb

/-- The buffers the operations of stretch 1 write, in order. -/
def writes1 : List (Ref sig .tc) := [main_v4, main_v5, main_v6]

theorem sub1 : (hostOps1 : List (HloOp τ sig (Elt F))).Forall fun op => op.writes ⊆ ((writes1).map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer stretch 1 does not write holds after it what it held before. -/
theorem hs1 (c : Dev nD) (b : Ref sig .tc) (hb : b ∉ writes1) :
    W3 m ρ c (Proc.devRef .tc b) = W2 m ρ c (Proc.devRef .tc b) :=
  StableHlo.after_of_writes_sub hostOps1 _ (sub1 (F := F)) hb

/-- The buffers the operations of stretch 2 write, in order. -/
def writes2 : List (Ref sig .tc) := [main_cst, main_v8, main_v9, main_v10, main_cst_0, main_v11, main_v12, main_v13, main_v14, main_v15, main_v16, main_cst_1, main_v17, main_v18, main_v19, main_v20, main_v21, main_v22, main_v23, main_v24, main_v25, main_c, main_v26, main_v27, main_c_2, main_v28, main_v29, main_v30, main_v31, main_v32, main_v33, main_cst_3, main_v34, main_v35, main_v36, main_v37, main_v38, main_v39, main_v40, main_v41, main_c_4, main_v42, main_v43, main_c_5, main_v44, main_v45, main_v46, main_v47, main_v48, main_v49, main_cst_6, main_v50, main_v51, main_v52, main_v53, main_v54, main_v55, main_v56, main_cst_7, main_v57, main_v58, main_v59, main_v60, main_v61, main_v62, main_v63, main_v64, main_v65, main_v66, main_v67, main_v68, main_v69, main_v70, main_cst_8, main_v71, main_v72, main_v73, main_v74, main_v75, main_v76, main_v77, main_v78, main_v79, main_v80, main_v81, main_v82, main_v83, main_v84, main_v85, main_v86, main_v87]

theorem sub2 : (hostOps2 : List (HloOp τ sig (Elt F))).Forall fun op => op.writes ⊆ ((writes2).map (Proc.devRef (τ := τ) .tc)).toFinset := by
  simp only [hostOps2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer stretch 2 does not write holds after it what it held before. -/
theorem hs2 (c : Dev nD) (b : Ref sig .tc) (hb : b ∉ writes2) :
    W5 m ρ c (Proc.devRef .tc b) = W4 m ρ c (Proc.devRef .tc b) :=
  StableHlo.after_of_writes_sub hostOps2 _ (sub2 (F := F)) hb

/-- The buffers the operations of stretch 3 write, in order. -/
def writes3 : List (Ref sig .tc) := [main_v89, main_v90, main_v91, main_v92, main_v93, main_v94, main_v95, main_v96, main_v97, main_v98, main_v99]

theorem sub3 : (hostOps3 : List (HloOp τ sig (Elt F))).Forall fun op => op.writes ⊆ ((writes3).map (Proc.devRef (τ := τ) .tc)).toFinset := by
  simp only [hostOps3, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer stretch 3 does not write holds after it what it held before. -/
theorem hs3 (c : Dev nD) (b : Ref sig .tc) (hb : b ∉ writes3) :
    W7 m ρ c (Proc.devRef .tc b) = W6 m ρ c (Proc.devRef .tc b) :=
  StableHlo.after_of_writes_sub hostOps3 _ (sub3 (F := F)) hb

/-- The buffers the operations of stretch 4 write, in order. -/
def writes4 : List (Ref sig .tc) := [main_v101, main_v102, main_v103, main_v104, main_v105, main_c_9, main_v106, main_v107, main_c_10, main_v108, main_v109, main_v110, main_v111, main_v112, main_v113, main_cst_11, main_v114, main_v115, main_v116, main_v117, main_v118, main_v119, main_v120, main_v121, main_c_12, main_v122, main_v123, main_c_13, main_v124, main_v125, main_v126, main_v127, main_v128, main_v129, main_cst_14, main_v130, main_v131, main_v132, main_v133, main_v134, main_v135, main_v136, main_cst_15, main_v137, main_v138, main_v139, main_v140, main_v141, main_v142, main_v143, main_v144, main_v145, main_v146, main_v147, main_v148, main_v149, main_v150, main_cst_16, main_v151, main_v152, main_v153, main_v154, main_v155, main_v156, main_v157, main_v158, main_v159, main_v160, main_v161, main_v162, main_v163, main_v164, main_v165, main_v166, main_v167]

theorem sub4 : (hostOps4 : List (HloOp τ sig (Elt F))).Forall fun op => op.writes ⊆ ((writes4).map (Proc.devRef (τ := τ) .tc)).toFinset := by
  simp only [hostOps4, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer stretch 4 does not write holds after it what it held before. -/
theorem hs4 (c : Dev nD) (b : Ref sig .tc) (hb : b ∉ writes4) :
    W9 m ρ c (Proc.devRef .tc b) = W8 m ρ c (Proc.devRef .tc b) :=
  StableHlo.after_of_writes_sub hostOps4 _ (sub4 (F := F)) hb

/-- The buffers the operations of stretch 5 write, in order. -/
def writes5 : List (Ref sig .tc) := [main_v169, main_v170, main_v171, main_v172, main_v173, main_v174, main_v175, main_v176, main_v177, main_v178, main_v179]

theorem sub5 : (hostOps5 : List (HloOp τ sig (Elt F))).Forall fun op => op.writes ⊆ ((writes5).map (Proc.devRef (τ := τ) .tc)).toFinset := by
  simp only [hostOps5, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer stretch 5 does not write holds after it what it held before. -/
theorem hs5 (c : Dev nD) (b : Ref sig .tc) (hb : b ∉ writes5) :
    W11 m ρ c (Proc.devRef .tc b) = W10 m ρ c (Proc.devRef .tc b) :=
  StableHlo.after_of_writes_sub hostOps5 _ (sub5 (F := F)) hb

/-- The buffers the operations of stretch 6 write, in order. -/
def writes6 : List (Ref sig .tc) := [main_v181, main_c_17, main_v182, main_v183, main_c_18, main_v184, main_v185, main_v186, main_v187, main_v188, main_c_19, main_v189, main_v190, main_c_20, main_v191, main_v192, main_v193, main_v194, main_v195, main_v196, main_v197, main_v198, main_v199, main_v200, main_v201, main_v202, main_v203, main_v204, main_v205, main_v206, main_v207]

theorem sub6 : (hostOps6 : List (HloOp τ sig (Elt F))).Forall fun op => op.writes ⊆ ((writes6).map (Proc.devRef (τ := τ) .tc)).toFinset := by
  simp only [hostOps6, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer stretch 6 does not write holds after it what it held before. -/
theorem hs6 (c : Dev nD) (b : Ref sig .tc) (hb : b ∉ writes6) :
    W13 m ρ c (Proc.devRef .tc b) = W12 m ρ c (Proc.devRef .tc b) :=
  StableHlo.after_of_writes_sub hostOps6 _ (sub6 (F := F)) hb

/-- The buffers the operations of stretch 7 write, in order. -/
def writes7 : List (Ref sig .tc) := [main_v209]

theorem sub7 : (hostOps7 : List (HloOp τ sig (Elt F))).Forall fun op => op.writes ⊆ ((writes7).map (Proc.devRef (τ := τ) .tc)).toFinset := by
  simp only [hostOps7, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-- A buffer stretch 7 does not write holds after it what it held before. -/
theorem hs7 (c : Dev nD) (b : Ref sig .tc) (hb : b ∉ writes7) :
    W15 m ρ c (Proc.devRef .tc b) = W14 m ρ c (Proc.devRef .tc b) :=
  StableHlo.after_of_writes_sub hostOps7 _ (sub7 (F := F)) hb

end Cert.KernelIdeal.Pass

end
-- ==== Proof.Pass.lean ====
/-
  How a value reaches its readers. A buffer of this program is written once — by the launch (an argument), by one host
  operation, or by one region as its output array — and then only read. Between its producer and a later boundary every
  stretch leaves it alone (it is not in the stretch's list of written buffers), and every region either does not touch it
  or reads it through an input window, whose array the region hands back as it found it. So at any later boundary the
  buffer still holds what its producer left.
-/
import proofs.«149189_j32641751449687_2_alg».proof.Proof.Gen.KernelIdeal.Frame
import proofs.«149189_j32641751449687_2_alg».proof.Proof.Skip
set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem p1_main_arg0 (c : Dev nD) : W1 m ρ c (Proc.devRef .tc main_arg0) = m ((c : Thread nD τ).loc main_arg0) :=
  (hs0 m ρ c main_arg0 (by decide))

theorem p3_main_arg1 (c : Dev nD) : W3 m ρ c (Proc.devRef .tc main_arg1) = m ((c : Thread nD τ).loc main_arg1) :=
  ((hs1 m ρ c main_arg1 (by decide)).trans ((W2_of_ne m ρ c main_arg1 (by decide)).trans (hs0 m ρ c main_arg1 (by decide))))

theorem p2_main_arg9 (c : Dev nD) : W2 m ρ c (Proc.devRef .tc main_arg9) = m ((c : Thread nD τ).loc main_arg9) :=
  ((W2_of_ne m ρ c main_arg9 (by decide)).trans (hs0 m ρ c main_arg9 (by decide)))

theorem p2_main_arg10 (c : Dev nD) : W2 m ρ c (Proc.devRef .tc main_arg10) = m ((c : Thread nD τ).loc main_arg10) :=
  ((W2_of_ne m ρ c main_arg10 (by decide)).trans (hs0 m ρ c main_arg10 (by decide)))

theorem p5_main_v7 (c : Dev nD) : W5 m ρ c (Proc.devRef .tc main_v7) = W4 m ρ c (Proc.devRef .tc main_v7) :=
  (hs2 m ρ c main_v7 (by decide))

theorem p4_main_arg3 (c : Dev nD) : W4 m ρ c (Proc.devRef .tc main_arg3) = m ((c : Thread nD τ).loc main_arg3) :=
  ((W4_of_ne m ρ c main_arg3 (by decide)).trans ((hs1 m ρ c main_arg3 (by decide)).trans ((W2_of_ne m ρ c main_arg3 (by decide)).trans (hs0 m ρ c main_arg3 (by decide)))))

theorem p4_main_arg4 (c : Dev nD) : W4 m ρ c (Proc.devRef .tc main_arg4) = m ((c : Thread nD τ).loc main_arg4) :=
  ((W4_of_ne m ρ c main_arg4 (by decide)).trans ((hs1 m ρ c main_arg4 (by decide)).trans ((W2_of_ne m ρ c main_arg4 (by decide)).trans (hs0 m ρ c main_arg4 (by decide)))))

theorem p4_main_v3 (c : Dev nD) : W4 m ρ c (Proc.devRef .tc main_v3) = W2 m ρ c (Proc.devRef .tc main_v3) :=
  ((W4_of_ne m ρ c main_v3 (by decide)).trans (hs1 m ρ c main_v3 (by decide)))

theorem p4_main_arg17 (c : Dev nD) : W4 m ρ c (Proc.devRef .tc main_arg17) = m ((c : Thread nD τ).loc main_arg17) :=
  ((W4_of_ne m ρ c main_arg17 (by decide)).trans ((hs1 m ρ c main_arg17 (by decide)).trans ((W2_of_ne m ρ c main_arg17 (by decide)).trans (hs0 m ρ c main_arg17 (by decide)))))

theorem p4_main_arg18 (c : Dev nD) : W4 m ρ c (Proc.devRef .tc main_arg18) = m ((c : Thread nD τ).loc main_arg18) :=
  ((W4_of_ne m ρ c main_arg18 (by decide)).trans ((hs1 m ρ c main_arg18 (by decide)).trans ((W2_of_ne m ρ c main_arg18 (by decide)).trans (hs0 m ρ c main_arg18 (by decide)))))

theorem p4_main_arg19 (c : Dev nD) : W4 m ρ c (Proc.devRef .tc main_arg19) = m ((c : Thread nD τ).loc main_arg19) :=
  ((W4_of_ne m ρ c main_arg19 (by decide)).trans ((hs1 m ρ c main_arg19 (by decide)).trans ((W2_of_ne m ρ c main_arg19 (by decide)).trans (hs0 m ρ c main_arg19 (by decide)))))

theorem p4_main_arg20 (c : Dev nD) : W4 m ρ c (Proc.devRef .tc main_arg20) = m ((c : Thread nD τ).loc main_arg20) :=
  ((W4_of_ne m ρ c main_arg20 (by decide)).trans ((hs1 m ρ c main_arg20 (by decide)).trans ((W2_of_ne m ρ c main_arg20 (by decide)).trans (hs0 m ρ c main_arg20 (by decide)))))

theorem p4_main_arg11 (c : Dev nD) : W4 m ρ c (Proc.devRef .tc main_arg11) = m ((c : Thread nD τ).loc main_arg11) :=
  ((W4_of_ne m ρ c main_arg11 (by decide)).trans ((hs1 m ρ c main_arg11 (by decide)).trans ((W2_of_ne m ρ c main_arg11 (by decide)).trans (hs0 m ρ c main_arg11 (by decide)))))

theorem p4_main_arg12 (c : Dev nD) : W4 m ρ c (Proc.devRef .tc main_arg12) = m ((c : Thread nD τ).loc main_arg12) :=
  ((W4_of_ne m ρ c main_arg12 (by decide)).trans ((hs1 m ρ c main_arg12 (by decide)).trans ((W2_of_ne m ρ c main_arg12 (by decide)).trans (hs0 m ρ c main_arg12 (by decide)))))

theorem p4_main_arg13 (c : Dev nD) : W4 m ρ c (Proc.devRef .tc main_arg13) = m ((c : Thread nD τ).loc main_arg13) :=
  ((W4_of_ne m ρ c main_arg13 (by decide)).trans ((hs1 m ρ c main_arg13 (by decide)).trans ((W2_of_ne m ρ c main_arg13 (by decide)).trans (hs0 m ρ c main_arg13 (by decide)))))

theorem p7_main_v52 (c : Dev nD) : W7 m ρ c (Proc.devRef .tc main_v52) = W5 m ρ c (Proc.devRef .tc main_v52) :=
  ((hs3 m ρ c main_v52 (by decide)).trans (W6_of_ne m ρ c main_v52 (by decide)))

theorem p7_main_v20 (c : Dev nD) : W7 m ρ c (Proc.devRef .tc main_v20) = W5 m ρ c (Proc.devRef .tc main_v20) :=
  ((hs3 m ρ c main_v20 (by decide)).trans (W6_of_ne m ρ c main_v20 (by decide)))

theorem p7_main_v61 (c : Dev nD) : W7 m ρ c (Proc.devRef .tc main_v61) = W5 m ρ c (Proc.devRef .tc main_v61) :=
  ((hs3 m ρ c main_v61 (by decide)).trans ((W6_arr m ρ c 6).trans (((dat2 (V5 m ρ) c).arrAt_in 6 rfl _).trans (A_eq2 (V5 m ρ) c 6))))

theorem p7_main_v76 (c : Dev nD) : W7 m ρ c (Proc.devRef .tc main_v76) = W5 m ρ c (Proc.devRef .tc main_v76) :=
  ((hs3 m ρ c main_v76 (by decide)).trans ((W6_arr m ρ c 7).trans (((dat2 (V5 m ρ) c).arrAt_in 7 rfl _).trans (A_eq2 (V5 m ρ) c 7))))

theorem p7_main_v3 (c : Dev nD) : W7 m ρ c (Proc.devRef .tc main_v3) = W2 m ρ c (Proc.devRef .tc main_v3) :=
  ((hs3 m ρ c main_v3 (by decide)).trans ((W6_of_ne m ρ c main_v3 (by decide)).trans ((hs2 m ρ c main_v3 (by decide)).trans ((W4_of_ne m ρ c main_v3 (by decide)).trans (hs1 m ρ c main_v3 (by decide))))))

theorem p6_main_arg14 (c : Dev nD) : W6 m ρ c (Proc.devRef .tc main_arg14) = m ((c : Thread nD τ).loc main_arg14) :=
  ((W6_of_ne m ρ c main_arg14 (by decide)).trans ((hs2 m ρ c main_arg14 (by decide)).trans ((W4_of_ne m ρ c main_arg14 (by decide)).trans ((hs1 m ρ c main_arg14 (by decide)).trans ((W2_of_ne m ρ c main_arg14 (by decide)).trans (hs0 m ρ c main_arg14 (by decide)))))))

theorem p6_main_arg15 (c : Dev nD) : W6 m ρ c (Proc.devRef .tc main_arg15) = m ((c : Thread nD τ).loc main_arg15) :=
  ((W6_of_ne m ρ c main_arg15 (by decide)).trans ((hs2 m ρ c main_arg15 (by decide)).trans ((W4_of_ne m ρ c main_arg15 (by decide)).trans ((hs1 m ρ c main_arg15 (by decide)).trans ((W2_of_ne m ρ c main_arg15 (by decide)).trans (hs0 m ρ c main_arg15 (by decide)))))))

theorem p6_main_arg16 (c : Dev nD) : W6 m ρ c (Proc.devRef .tc main_arg16) = m ((c : Thread nD τ).loc main_arg16) :=
  ((W6_of_ne m ρ c main_arg16 (by decide)).trans ((hs2 m ρ c main_arg16 (by decide)).trans ((W4_of_ne m ρ c main_arg16 (by decide)).trans ((hs1 m ρ c main_arg16 (by decide)).trans ((W2_of_ne m ρ c main_arg16 (by decide)).trans (hs0 m ρ c main_arg16 (by decide)))))))

theorem p9_main_v14 (c : Dev nD) : W9 m ρ c (Proc.devRef .tc main_v14) = W5 m ρ c (Proc.devRef .tc main_v14) :=
  ((hs4 m ρ c main_v14 (by decide)).trans ((W8_of_ne m ρ c main_v14 (by decide)).trans ((hs3 m ρ c main_v14 (by decide)).trans ((W6_arr m ρ c 1).trans (((dat2 (V5 m ρ) c).arrAt_in 1 rfl _).trans (A_eq2 (V5 m ρ) c 1))))))

theorem p9_main_v88 (c : Dev nD) : W9 m ρ c (Proc.devRef .tc main_v88) = W6 m ρ c (Proc.devRef .tc main_v88) :=
  ((hs4 m ρ c main_v88 (by decide)).trans ((W8_of_ne m ρ c main_v88 (by decide)).trans (hs3 m ρ c main_v88 (by decide))))

theorem p8_main_arg3 (c : Dev nD) : W8 m ρ c (Proc.devRef .tc main_arg3) = m ((c : Thread nD τ).loc main_arg3) :=
  ((W8_of_ne m ρ c main_arg3 (by decide)).trans ((hs3 m ρ c main_arg3 (by decide)).trans ((W6_of_ne m ρ c main_arg3 (by decide)).trans ((hs2 m ρ c main_arg3 (by decide)).trans ((W4_of_ne m ρ c main_arg3 (by decide)).trans ((hs1 m ρ c main_arg3 (by decide)).trans ((W2_of_ne m ρ c main_arg3 (by decide)).trans (hs0 m ρ c main_arg3 (by decide)))))))))

theorem p8_main_arg4 (c : Dev nD) : W8 m ρ c (Proc.devRef .tc main_arg4) = m ((c : Thread nD τ).loc main_arg4) :=
  ((W8_of_ne m ρ c main_arg4 (by decide)).trans ((hs3 m ρ c main_arg4 (by decide)).trans ((W6_of_ne m ρ c main_arg4 (by decide)).trans ((hs2 m ρ c main_arg4 (by decide)).trans ((W4_of_ne m ρ c main_arg4 (by decide)).trans ((hs1 m ρ c main_arg4 (by decide)).trans ((W2_of_ne m ρ c main_arg4 (by decide)).trans (hs0 m ρ c main_arg4 (by decide)))))))))

theorem p8_main_v88 (c : Dev nD) : W8 m ρ c (Proc.devRef .tc main_v88) = W6 m ρ c (Proc.devRef .tc main_v88) :=
  ((W8_of_ne m ρ c main_v88 (by decide)).trans (hs3 m ρ c main_v88 (by decide)))

theorem p8_main_arg17 (c : Dev nD) : W8 m ρ c (Proc.devRef .tc main_arg17) = m ((c : Thread nD τ).loc main_arg17) :=
  ((W8_of_ne m ρ c main_arg17 (by decide)).trans ((hs3 m ρ c main_arg17 (by decide)).trans ((W6_of_ne m ρ c main_arg17 (by decide)).trans ((hs2 m ρ c main_arg17 (by decide)).trans ((W4_of_ne m ρ c main_arg17 (by decide)).trans ((hs1 m ρ c main_arg17 (by decide)).trans ((W2_of_ne m ρ c main_arg17 (by decide)).trans (hs0 m ρ c main_arg17 (by decide)))))))))

theorem p8_main_arg18 (c : Dev nD) : W8 m ρ c (Proc.devRef .tc main_arg18) = m ((c : Thread nD τ).loc main_arg18) :=
  ((W8_of_ne m ρ c main_arg18 (by decide)).trans ((hs3 m ρ c main_arg18 (by decide)).trans ((W6_of_ne m ρ c main_arg18 (by decide)).trans ((hs2 m ρ c main_arg18 (by decide)).trans ((W4_of_ne m ρ c main_arg18 (by decide)).trans ((hs1 m ρ c main_arg18 (by decide)).trans ((W2_of_ne m ρ c main_arg18 (by decide)).trans (hs0 m ρ c main_arg18 (by decide)))))))))

theorem p8_main_arg19 (c : Dev nD) : W8 m ρ c (Proc.devRef .tc main_arg19) = m ((c : Thread nD τ).loc main_arg19) :=
  ((W8_of_ne m ρ c main_arg19 (by decide)).trans ((hs3 m ρ c main_arg19 (by decide)).trans ((W6_of_ne m ρ c main_arg19 (by decide)).trans ((hs2 m ρ c main_arg19 (by decide)).trans ((W4_of_ne m ρ c main_arg19 (by decide)).trans ((hs1 m ρ c main_arg19 (by decide)).trans ((W2_of_ne m ρ c main_arg19 (by decide)).trans (hs0 m ρ c main_arg19 (by decide)))))))))

theorem p8_main_arg20 (c : Dev nD) : W8 m ρ c (Proc.devRef .tc main_arg20) = m ((c : Thread nD τ).loc main_arg20) :=
  ((W8_of_ne m ρ c main_arg20 (by decide)).trans ((hs3 m ρ c main_arg20 (by decide)).trans ((W6_of_ne m ρ c main_arg20 (by decide)).trans ((hs2 m ρ c main_arg20 (by decide)).trans ((W4_of_ne m ρ c main_arg20 (by decide)).trans ((hs1 m ρ c main_arg20 (by decide)).trans ((W2_of_ne m ρ c main_arg20 (by decide)).trans (hs0 m ρ c main_arg20 (by decide)))))))))

theorem p8_main_arg11 (c : Dev nD) : W8 m ρ c (Proc.devRef .tc main_arg11) = m ((c : Thread nD τ).loc main_arg11) :=
  ((W8_of_ne m ρ c main_arg11 (by decide)).trans ((hs3 m ρ c main_arg11 (by decide)).trans ((W6_of_ne m ρ c main_arg11 (by decide)).trans ((hs2 m ρ c main_arg11 (by decide)).trans ((W4_of_ne m ρ c main_arg11 (by decide)).trans ((hs1 m ρ c main_arg11 (by decide)).trans ((W2_of_ne m ρ c main_arg11 (by decide)).trans (hs0 m ρ c main_arg11 (by decide)))))))))

theorem p8_main_arg12 (c : Dev nD) : W8 m ρ c (Proc.devRef .tc main_arg12) = m ((c : Thread nD τ).loc main_arg12) :=
  ((W8_of_ne m ρ c main_arg12 (by decide)).trans ((hs3 m ρ c main_arg12 (by decide)).trans ((W6_of_ne m ρ c main_arg12 (by decide)).trans ((hs2 m ρ c main_arg12 (by decide)).trans ((W4_of_ne m ρ c main_arg12 (by decide)).trans ((hs1 m ρ c main_arg12 (by decide)).trans ((W2_of_ne m ρ c main_arg12 (by decide)).trans (hs0 m ρ c main_arg12 (by decide)))))))))

theorem p8_main_arg13 (c : Dev nD) : W8 m ρ c (Proc.devRef .tc main_arg13) = m ((c : Thread nD τ).loc main_arg13) :=
  ((W8_of_ne m ρ c main_arg13 (by decide)).trans ((hs3 m ρ c main_arg13 (by decide)).trans ((W6_of_ne m ρ c main_arg13 (by decide)).trans ((hs2 m ρ c main_arg13 (by decide)).trans ((W4_of_ne m ρ c main_arg13 (by decide)).trans ((hs1 m ρ c main_arg13 (by decide)).trans ((W2_of_ne m ρ c main_arg13 (by decide)).trans (hs0 m ρ c main_arg13 (by decide)))))))))

theorem p11_main_v132 (c : Dev nD) : W11 m ρ c (Proc.devRef .tc main_v132) = W9 m ρ c (Proc.devRef .tc main_v132) :=
  ((hs5 m ρ c main_v132 (by decide)).trans (W10_of_ne m ρ c main_v132 (by decide)))

theorem p11_main_v141 (c : Dev nD) : W11 m ρ c (Proc.devRef .tc main_v141) = W9 m ρ c (Proc.devRef .tc main_v141) :=
  ((hs5 m ρ c main_v141 (by decide)).trans ((W10_arr m ρ c 6).trans (((dat4 (V9 m ρ) c).arrAt_in 6 rfl _).trans (A_eq4 (V9 m ρ) c 6))))

theorem p11_main_v156 (c : Dev nD) : W11 m ρ c (Proc.devRef .tc main_v156) = W9 m ρ c (Proc.devRef .tc main_v156) :=
  ((hs5 m ρ c main_v156 (by decide)).trans ((W10_arr m ρ c 7).trans (((dat4 (V9 m ρ) c).arrAt_in 7 rfl _).trans (A_eq4 (V9 m ρ) c 7))))

theorem p11_main_v20 (c : Dev nD) : W11 m ρ c (Proc.devRef .tc main_v20) = W5 m ρ c (Proc.devRef .tc main_v20) :=
  ((hs5 m ρ c main_v20 (by decide)).trans ((W10_of_ne m ρ c main_v20 (by decide)).trans ((hs4 m ρ c main_v20 (by decide)).trans (((W8_arr m ρ c 1).trans (((dat3 (V7 m ρ) c).arrAt_in 1 rfl _).trans (A_eq3 (V7 m ρ) c 1))).trans ((hs3 m ρ c main_v20 (by decide)).trans (W6_of_ne m ρ c main_v20 (by decide)))))))

theorem p11_main_v100 (c : Dev nD) : W11 m ρ c (Proc.devRef .tc main_v100) = W8 m ρ c (Proc.devRef .tc main_v100) :=
  ((hs5 m ρ c main_v100 (by decide)).trans ((W10_of_ne m ρ c main_v100 (by decide)).trans (hs4 m ρ c main_v100 (by decide))))

theorem p10_main_arg14 (c : Dev nD) : W10 m ρ c (Proc.devRef .tc main_arg14) = m ((c : Thread nD τ).loc main_arg14) :=
  ((W10_of_ne m ρ c main_arg14 (by decide)).trans ((hs4 m ρ c main_arg14 (by decide)).trans ((W8_of_ne m ρ c main_arg14 (by decide)).trans ((hs3 m ρ c main_arg14 (by decide)).trans ((W6_of_ne m ρ c main_arg14 (by decide)).trans ((hs2 m ρ c main_arg14 (by decide)).trans ((W4_of_ne m ρ c main_arg14 (by decide)).trans ((hs1 m ρ c main_arg14 (by decide)).trans ((W2_of_ne m ρ c main_arg14 (by decide)).trans (hs0 m ρ c main_arg14 (by decide)))))))))))

theorem p10_main_arg15 (c : Dev nD) : W10 m ρ c (Proc.devRef .tc main_arg15) = m ((c : Thread nD τ).loc main_arg15) :=
  ((W10_of_ne m ρ c main_arg15 (by decide)).trans ((hs4 m ρ c main_arg15 (by decide)).trans ((W8_of_ne m ρ c main_arg15 (by decide)).trans ((hs3 m ρ c main_arg15 (by decide)).trans ((W6_of_ne m ρ c main_arg15 (by decide)).trans ((hs2 m ρ c main_arg15 (by decide)).trans ((W4_of_ne m ρ c main_arg15 (by decide)).trans ((hs1 m ρ c main_arg15 (by decide)).trans ((W2_of_ne m ρ c main_arg15 (by decide)).trans (hs0 m ρ c main_arg15 (by decide)))))))))))

theorem p10_main_arg16 (c : Dev nD) : W10 m ρ c (Proc.devRef .tc main_arg16) = m ((c : Thread nD τ).loc main_arg16) :=
  ((W10_of_ne m ρ c main_arg16 (by decide)).trans ((hs4 m ρ c main_arg16 (by decide)).trans ((W8_of_ne m ρ c main_arg16 (by decide)).trans ((hs3 m ρ c main_arg16 (by decide)).trans ((W6_of_ne m ρ c main_arg16 (by decide)).trans ((hs2 m ρ c main_arg16 (by decide)).trans ((W4_of_ne m ρ c main_arg16 (by decide)).trans ((hs1 m ρ c main_arg16 (by decide)).trans ((W2_of_ne m ρ c main_arg16 (by decide)).trans (hs0 m ρ c main_arg16 (by decide)))))))))))

theorem p13_main_arg23 (c : Dev nD) : W13 m ρ c (Proc.devRef .tc main_arg23) = m ((c : Thread nD τ).loc main_arg23) :=
  ((hs6 m ρ c main_arg23 (by decide)).trans ((W12_of_ne m ρ c main_arg23 (by decide)).trans ((hs5 m ρ c main_arg23 (by decide)).trans ((W10_of_ne m ρ c main_arg23 (by decide)).trans ((hs4 m ρ c main_arg23 (by decide)).trans ((W8_of_ne m ρ c main_arg23 (by decide)).trans ((hs3 m ρ c main_arg23 (by decide)).trans ((W6_of_ne m ρ c main_arg23 (by decide)).trans ((hs2 m ρ c main_arg23 (by decide)).trans ((W4_of_ne m ρ c main_arg23 (by decide)).trans ((hs1 m ρ c main_arg23 (by decide)).trans ((W2_of_ne m ρ c main_arg23 (by decide)).trans (hs0 m ρ c main_arg23 (by decide))))))))))))))

theorem p12_main_arg5 (c : Dev nD) : W12 m ρ c (Proc.devRef .tc main_arg5) = m ((c : Thread nD τ).loc main_arg5) :=
  ((W12_of_ne m ρ c main_arg5 (by decide)).trans ((hs5 m ρ c main_arg5 (by decide)).trans ((W10_of_ne m ρ c main_arg5 (by decide)).trans ((hs4 m ρ c main_arg5 (by decide)).trans ((W8_of_ne m ρ c main_arg5 (by decide)).trans ((hs3 m ρ c main_arg5 (by decide)).trans ((W6_of_ne m ρ c main_arg5 (by decide)).trans ((hs2 m ρ c main_arg5 (by decide)).trans ((W4_of_ne m ρ c main_arg5 (by decide)).trans ((hs1 m ρ c main_arg5 (by decide)).trans ((W2_of_ne m ρ c main_arg5 (by decide)).trans (hs0 m ρ c main_arg5 (by decide)))))))))))))

theorem p12_main_arg6 (c : Dev nD) : W12 m ρ c (Proc.devRef .tc main_arg6) = m ((c : Thread nD τ).loc main_arg6) :=
  ((W12_of_ne m ρ c main_arg6 (by decide)).trans ((hs5 m ρ c main_arg6 (by decide)).trans ((W10_of_ne m ρ c main_arg6 (by decide)).trans ((hs4 m ρ c main_arg6 (by decide)).trans ((W8_of_ne m ρ c main_arg6 (by decide)).trans ((hs3 m ρ c main_arg6 (by decide)).trans ((W6_of_ne m ρ c main_arg6 (by decide)).trans ((hs2 m ρ c main_arg6 (by decide)).trans ((W4_of_ne m ρ c main_arg6 (by decide)).trans ((hs1 m ρ c main_arg6 (by decide)).trans ((W2_of_ne m ρ c main_arg6 (by decide)).trans (hs0 m ρ c main_arg6 (by decide)))))))))))))

theorem p12_main_arg2 (c : Dev nD) : W12 m ρ c (Proc.devRef .tc main_arg2) = m ((c : Thread nD τ).loc main_arg2) :=
  ((W12_of_ne m ρ c main_arg2 (by decide)).trans ((hs5 m ρ c main_arg2 (by decide)).trans ((W10_of_ne m ρ c main_arg2 (by decide)).trans ((hs4 m ρ c main_arg2 (by decide)).trans ((W8_of_ne m ρ c main_arg2 (by decide)).trans ((hs3 m ρ c main_arg2 (by decide)).trans ((W6_of_ne m ρ c main_arg2 (by decide)).trans ((hs2 m ρ c main_arg2 (by decide)).trans ((W4_of_ne m ρ c main_arg2 (by decide)).trans ((hs1 m ρ c main_arg2 (by decide)).trans ((W2_of_ne m ρ c main_arg2 (by decide)).trans (hs0 m ρ c main_arg2 (by decide)))))))))))))

theorem p12_main_arg21 (c : Dev nD) : W12 m ρ c (Proc.devRef .tc main_arg21) = m ((c : Thread nD τ).loc main_arg21) :=
  ((W12_of_ne m ρ c main_arg21 (by decide)).trans ((hs5 m ρ c main_arg21 (by decide)).trans ((W10_of_ne m ρ c main_arg21 (by decide)).trans ((hs4 m ρ c main_arg21 (by decide)).trans ((W8_of_ne m ρ c main_arg21 (by decide)).trans ((hs3 m ρ c main_arg21 (by decide)).trans ((W6_of_ne m ρ c main_arg21 (by decide)).trans ((hs2 m ρ c main_arg21 (by decide)).trans ((W4_of_ne m ρ c main_arg21 (by decide)).trans ((hs1 m ρ c main_arg21 (by decide)).trans ((W2_of_ne m ρ c main_arg21 (by decide)).trans (hs0 m ρ c main_arg21 (by decide)))))))))))))

theorem p12_main_arg22 (c : Dev nD) : W12 m ρ c (Proc.devRef .tc main_arg22) = m ((c : Thread nD τ).loc main_arg22) :=
  ((W12_of_ne m ρ c main_arg22 (by decide)).trans ((hs5 m ρ c main_arg22 (by decide)).trans ((W10_of_ne m ρ c main_arg22 (by decide)).trans ((hs4 m ρ c main_arg22 (by decide)).trans ((W8_of_ne m ρ c main_arg22 (by decide)).trans ((hs3 m ρ c main_arg22 (by decide)).trans ((W6_of_ne m ρ c main_arg22 (by decide)).trans ((hs2 m ρ c main_arg22 (by decide)).trans ((W4_of_ne m ρ c main_arg22 (by decide)).trans ((hs1 m ρ c main_arg22 (by decide)).trans ((W2_of_ne m ρ c main_arg22 (by decide)).trans (hs0 m ρ c main_arg22 (by decide)))))))))))))

theorem p12_main_arg24 (c : Dev nD) : W12 m ρ c (Proc.devRef .tc main_arg24) = m ((c : Thread nD τ).loc main_arg24) :=
  ((W12_of_ne m ρ c main_arg24 (by decide)).trans ((hs5 m ρ c main_arg24 (by decide)).trans ((W10_of_ne m ρ c main_arg24 (by decide)).trans ((hs4 m ρ c main_arg24 (by decide)).trans ((W8_of_ne m ρ c main_arg24 (by decide)).trans ((hs3 m ρ c main_arg24 (by decide)).trans ((W6_of_ne m ρ c main_arg24 (by decide)).trans ((hs2 m ρ c main_arg24 (by decide)).trans ((W4_of_ne m ρ c main_arg24 (by decide)).trans ((hs1 m ρ c main_arg24 (by decide)).trans ((W2_of_ne m ρ c main_arg24 (by decide)).trans (hs0 m ρ c main_arg24 (by decide)))))))))))))

end Cert.KernelIdeal.Pass

end
-- ==== Proof.ReadsShort.lean ====
import proofs.«149189_j32641751449687_2_alg».proof.Proof.Pass
import Idealize.ShloMosaic.PureOps.Ideal

noncomputable section

namespace Cert.KernelIdeal.Reads

open Cert.KernelIdeal Cert.KernelIdeal.Gen Cert.KernelIdeal.Pass Idealize.ShloMosaic Idealize.ShloMosaic.TcCoe Idealize.ShloMosaic.StableHlo

variable (m : (ℓ : Loc nD τ sig) → Buf (Elt Ideal) ℓ) (ρ : Dev nD → PrngReg)

/-- What stretch 0 leaves in %1: its operations composed, over what the stretch reads. -/
theorem rd_main_v1 (c : Dev nD) :
    W1 m ρ c (Proc.devRef .tc main_v1) = truncf (F := Ideal) .bf16 (transpose S16x256 [1, 0] (m ((c : Thread nD τ).loc main_arg7) : (⟨S256x16, .f32⟩ : BufTy).Contents (Elt Ideal)) transposes_S256x16_S16x256_1_0) bitsLt_bf16_f32 := by
  show StableHlo.after hostOps0 (W0 m ρ c) (Proc.devRef .tc main_v1) = _
  after_results
  all_goals rfl

/-- What stretch 0 leaves in %2: its operations composed, over what the stretch reads. -/
theorem rd_main_v2 (c : Dev nD) :
    W1 m ρ c (Proc.devRef .tc main_v2) = shapeCast S1x256 (m ((c : Thread nD τ).loc main_arg8) : (⟨S256, .f32⟩ : BufTy).Contents (Elt Ideal)) shapeCasts_S256_S1x256 := by
  show StableHlo.after hostOps0 (W0 m ρ c) (Proc.devRef .tc main_v2) = _
  after_results
  all_goals rfl

/-- What stretch 1 leaves in %5: its operations composed, over what the stretch reads. -/
theorem rd_main_v5 (c : Dev nD) :
    W3 m ρ c (Proc.devRef .tc main_v5) = truncf (F := Ideal) .bf16 (transpose S32x256 [1, 0] (m ((c : Thread nD τ).loc main_arg9) : (⟨S256x32, .f32⟩ : BufTy).Contents (Elt Ideal)) transposes_S256x32_S32x256_1_0) bitsLt_bf16_f32 := by
  show StableHlo.after hostOps1 (W2 m ρ c) (Proc.devRef .tc main_v5) = _
  after_results
  rw [p2_main_arg9 m ρ c]
  all_goals rfl

/-- What stretch 1 leaves in %6: its operations composed, over what the stretch reads. -/
theorem rd_main_v6 (c : Dev nD) :
    W3 m ρ c (Proc.devRef .tc main_v6) = shapeCast S1x256 (m ((c : Thread nD τ).loc main_arg10) : (⟨S256, .f32⟩ : BufTy).Contents (Elt Ideal)) shapeCasts_S256_S1x256 := by
  show StableHlo.after hostOps1 (W2 m ρ c) (Proc.devRef .tc main_v6) = _
  after_results
  rw [p2_main_arg10 m ρ c]
  all_goals rfl

/-- What stretch 3 leaves in %92: its operations composed, over what the stretch reads. -/
theorem rd_main_v92 (c : Dev nD) :
    W7 m ρ c (Proc.devRef .tc main_v92) = truncf (F := Ideal) .bf16 (transpose S256x256 [1, 0] (shapeCast S256x256 (extractStridedSlice S1x256x256 ![0, 0, 0] (m ((c : Thread nD τ).loc main_arg14) : (⟨S2x256x256, .f32⟩ : BufTy).Contents (Elt Ideal)) slices_S2x256x256_S1x256x256_0_0_0) shapeCasts_S1x256x256_S256x256) transposes_S256x256_S256x256_1_0) bitsLt_bf16_f32 := by
  show StableHlo.after hostOps3 (W6 m ρ c) (Proc.devRef .tc main_v92) = _
  after_results
  rw [p6_main_arg14 m ρ c]
  all_goals rfl

/-- What stretch 3 leaves in %96: its operations composed, over what the stretch reads. -/
theorem rd_main_v96 (c : Dev nD) :
    W7 m ρ c (Proc.devRef .tc main_v96) = truncf (F := Ideal) .bf16 (transpose S256x256 [1, 0] (shapeCast S256x256 (extractStridedSlice S1x256x256 ![0, 0, 0] (m ((c : Thread nD τ).loc main_arg16) : (⟨S2x256x256, .f32⟩ : BufTy).Contents (Elt Ideal)) slices_S2x256x256_S1x256x256_0_0_0) shapeCasts_S1x256x256_S256x256) transposes_S256x256_S256x256_1_0) bitsLt_bf16_f32 := by
  show StableHlo.after hostOps3 (W6 m ρ c) (Proc.devRef .tc main_v96) = _
  after_results
  rw [p6_main_arg16 m ρ c]
  all_goals rfl

/-- What stretch 3 leaves in %99: its operations composed, over what the stretch reads. -/
theorem rd_main_v99 (c : Dev nD) :
    W7 m ρ c (Proc.devRef .tc main_v99) = shapeCast S1x256 (shapeCast S256 (extractStridedSlice S1x256 ![0, 0] (m ((c : Thread nD τ).loc main_arg15) : (⟨S2x256, .f32⟩ : BufTy).Contents (Elt Ideal)) slices_S2x256_S1x256_0_0) shapeCasts_S1x256_S256) shapeCasts_S256_S1x256 := by
  show StableHlo.after hostOps3 (W6 m ρ c) (Proc.devRef .tc main_v99) = _
  after_results
  rw [p6_main_arg15 m ρ c]
  all_goals rfl

/-- What stretch 5 leaves in %172: its operations composed, over what the stretch reads. -/
theorem rd_main_v172 (c : Dev nD) :
    W11 m ρ c (Proc.devRef .tc main_v172) = truncf (F := Ideal) .bf16 (transpose S256x256 [1, 0] (shapeCast S256x256 (extractStridedSlice S1x256x256 ![1, 0, 0] (m ((c : Thread nD τ).loc main_arg14) : (⟨S2x256x256, .f32⟩ : BufTy).Contents (Elt Ideal)) slices_S2x256x256_S1x256x256_1_0_0) shapeCasts_S1x256x256_S256x256) transposes_S256x256_S256x256_1_0) bitsLt_bf16_f32 := by
  show StableHlo.after hostOps5 (W10 m ρ c) (Proc.devRef .tc main_v172) = _
  after_results
  rw [p10_main_arg14 m ρ c]
  all_goals rfl

/-- What stretch 5 leaves in %176: its operations composed, over what the stretch reads. -/
theorem rd_main_v176 (c : Dev nD) :
    W11 m ρ c (Proc.devRef .tc main_v176) = truncf (F := Ideal) .bf16 (transpose S256x256 [1, 0] (shapeCast S256x256 (extractStridedSlice S1x256x256 ![1, 0, 0] (m ((c : Thread nD τ).loc main_arg16) : (⟨S2x256x256, .f32⟩ : BufTy).Contents (Elt Ideal)) slices_S2x256x256_S1x256x256_1_0_0) shapeCasts_S1x256x256_S256x256) transposes_S256x256_S256x256_1_0) bitsLt_bf16_f32 := by
  show StableHlo.after hostOps5 (W10 m ρ c) (Proc.devRef .tc main_v176) = _
  after_results
  rw [p10_main_arg16 m ρ c]
  all_goals rfl

/-- What stretch 5 leaves in %179: its operations composed, over what the stretch reads. -/
theorem rd_main_v179 (c : Dev nD) :
    W11 m ρ c (Proc.devRef .tc main_v179) = shapeCast S1x256 (shapeCast S256 (extractStridedSlice S1x256 ![1, 0] (m ((c : Thread nD τ).loc main_arg15) : (⟨S2x256, .f32⟩ : BufTy).Contents (Elt Ideal)) slices_S2x256_S1x256_1_0) shapeCasts_S1x256_S256) shapeCasts_S256_S1x256 := by
  show StableHlo.after hostOps5 (W10 m ρ c) (Proc.devRef .tc main_v179) = _
  after_results
  rw [p10_main_arg15 m ρ c]
  all_goals rfl

/-- What stretch 7 leaves in %209: its operations composed, over what the stretch reads. -/
theorem rd_main_v209 (c : Dev nD) :
    W15 m ρ c (Proc.devRef .tc main_v209) = shapeCast S300000 (W14 m ρ c (Proc.devRef .tc main_v208) : (⟨S300000x1, .f32⟩ : BufTy).Contents (Elt Ideal)) shapeCasts_S300000x1_S300000 := by
  show StableHlo.after hostOps7 (W14 m ρ c) (Proc.devRef .tc main_v209) = _
  after_results
  all_goals rfl

end Cert.KernelIdeal.Reads

end
-- ==== Proof.Reads2a.lean ====
import proofs.«149189_j32641751449687_2_alg».proof.Proof.Pass
import Idealize.ShloMosaic.PureOps.Ideal

noncomputable section

namespace Cert.KernelIdeal.Reads

open Cert.KernelIdeal Cert.KernelIdeal.Gen Cert.KernelIdeal.Pass Idealize.ShloMosaic Idealize.ShloMosaic.TcCoe Idealize.ShloMosaic.StableHlo

variable (m : (ℓ : Loc nD τ sig) → Buf (Elt Ideal) ℓ) (ρ : Dev nD → PrngReg)

set_option maxHeartbeats 4000000 in
/-- What stretch 2 leaves in %36: its operations composed, over what the stretch reads. -/
theorem rd_main_v36 (c : Dev nD) :
    W5 m ρ c (Proc.devRef .tc main_v36) = Host.scatterAdd (F := Ideal) scatter_S300000x256_S600000x1_S600000x256_1_0_0_1 (broadcastInDim S300000x256 ![] bcast_S_S300000x256 (constant (F := Ideal) S_ .f32 0x00000000#32)) (broadcastInDim S600000x1 ![0] bcast_S600000_S600000x1_0 (shapeCast S600000 (extractStridedSlice S1x600000 ![1, 0] (m ((c : Thread nD τ).loc main_arg3) : (⟨S2x600000, .i32⟩ : BufTy).Contents (Elt Ideal)) slices_S2x600000_S1x600000_1_0) shapeCasts_S1x600000_S600000)) (extf (F := Ideal) .f32 (Host.gather gather_S100000x256_S600000x1_S600000x256_1_0_n_n_0_1_1256 (truncf (F := Ideal) .bf16 (W2 m ρ c (Proc.devRef .tc main_v3) : (⟨S100000x256, .f32⟩ : BufTy).Contents (Elt Ideal)) bitsLt_bf16_f32) (broadcastInDim S600000x1 ![0] bcast_S600000_S600000x1_0 (select (cmpi .slt (shapeCast S600000 (extractStridedSlice S1x600000 ![0, 0] (m ((c : Thread nD τ).loc main_arg3) : (⟨S2x600000, .i32⟩ : BufTy).Contents (Elt Ideal)) slices_S2x600000_S1x600000_0_0) shapeCasts_S1x600000_S600000) (broadcastInDim S600000 ![] bcast_S_S600000 (constantI S_ 32 0#32))) (addi (shapeCast S600000 (extractStridedSlice S1x600000 ![0, 0] (m ((c : Thread nD τ).loc main_arg3) : (⟨S2x600000, .i32⟩ : BufTy).Contents (Elt Ideal)) slices_S2x600000_S1x600000_0_0) shapeCasts_S1x600000_S600000) (broadcastInDim S600000 ![] bcast_S_S600000 (constantI S_ 32 100000#32))) (shapeCast S600000 (extractStridedSlice S1x600000 ![0, 0] (m ((c : Thread nD τ).loc main_arg3) : (⟨S2x600000, .i32⟩ : BufTy).Contents (Elt Ideal)) slices_S2x600000_S1x600000_0_0) shapeCasts_S1x600000_S600000)))) bitsLt_bf16_f32) := by
  show StableHlo.after hostOps2 (W4 m ρ c) (Proc.devRef .tc main_v36) = _
  after_results_simp
  rw [p4_main_arg3 m ρ c, p4_main_v3 m ρ c]
  all_goals rfl

set_option maxHeartbeats 4000000 in
/-- What stretch 2 leaves in %14: its operations composed, over what the stretch reads. -/
theorem rd_main_v14 (c : Dev nD) :
    W5 m ρ c (Proc.devRef .tc main_v14) = shapeCast S300000x1 (Host.scatterAdd (F := Ideal) scatter_S300000_S600000x1_S600000_n_0_0_1 (broadcastInDim S300000 ![] bcast_S_S300000 (constant (F := Ideal) S_ .f32 0x00000000#32)) (broadcastInDim S600000x1 ![0] bcast_S600000_S600000x1_0 (shapeCast S600000 (extractStridedSlice S1x600000 ![1, 0] (m ((c : Thread nD τ).loc main_arg3) : (⟨S2x600000, .i32⟩ : BufTy).Contents (Elt Ideal)) slices_S2x600000_S1x600000_1_0) shapeCasts_S1x600000_S600000)) (broadcastInDim S600000 ![] bcast_S_S600000 (constant (F := Ideal) S_ .f32 0x3F800000#32))) shapeCasts_S300000_S300000x1 := by
  show StableHlo.after hostOps2 (W4 m ρ c) (Proc.devRef .tc main_v14) = _
  after_results_simp
  rw [p4_main_arg3 m ρ c]
  all_goals rfl

set_option maxHeartbeats 4000000 in
/-- What stretch 2 leaves in %20: its operations composed, over what the stretch reads. -/
theorem rd_main_v20 (c : Dev nD) :
    W5 m ρ c (Proc.devRef .tc main_v20) = shapeCast S100000x1 (Host.scatterAdd (F := Ideal) scatter_S100000_S600000x1_S600000_n_0_0_1 (broadcastInDim S100000 ![] bcast_S_S100000 (constant (F := Ideal) S_ .f32 0x00000000#32)) (broadcastInDim S600000x1 ![0] bcast_S600000_S600000x1_0 (shapeCast S600000 (extractStridedSlice S1x600000 ![1, 0] (m ((c : Thread nD τ).loc main_arg4) : (⟨S2x600000, .i32⟩ : BufTy).Contents (Elt Ideal)) slices_S2x600000_S1x600000_1_0) shapeCasts_S1x600000_S600000)) (broadcastInDim S600000 ![] bcast_S_S600000 (constant (F := Ideal) S_ .f32 0x3F800000#32))) shapeCasts_S100000_S100000x1 := by
  show StableHlo.after hostOps2 (W4 m ρ c) (Proc.devRef .tc main_v20) = _
  after_results_simp
  rw [p4_main_arg4 m ρ c]
  all_goals rfl

end Cert.KernelIdeal.Reads

end
-- ==== Proof.Reads2b.lean ====
import proofs.«149189_j32641751449687_2_alg».proof.Proof.Pass
import Idealize.ShloMosaic.PureOps.Ideal

noncomputable section

namespace Cert.KernelIdeal.Reads

open Cert.KernelIdeal Cert.KernelIdeal.Gen Cert.KernelIdeal.Pass Idealize.ShloMosaic Idealize.ShloMosaic.TcCoe Idealize.ShloMosaic.StableHlo

variable (m : (ℓ : Loc nD τ sig) → Buf (Elt Ideal) ℓ) (ρ : Dev nD → PrngReg)

set_option maxHeartbeats 4000000 in
/-- What stretch 2 leaves in %52: its operations composed, over what the stretch reads. -/
theorem rd_main_v52 (c : Dev nD) :
    W5 m ρ c (Proc.devRef .tc main_v52) = Host.scatterAdd (F := Ideal) scatter_S100000x256_S600000x1_S600000x256_1_0_0_1 (broadcastInDim S100000x256 ![] bcast_S_S100000x256 (constant (F := Ideal) S_ .f32 0x00000000#32)) (broadcastInDim S600000x1 ![0] bcast_S600000_S600000x1_0 (shapeCast S600000 (extractStridedSlice S1x600000 ![1, 0] (m ((c : Thread nD τ).loc main_arg4) : (⟨S2x600000, .i32⟩ : BufTy).Contents (Elt Ideal)) slices_S2x600000_S1x600000_1_0) shapeCasts_S1x600000_S600000)) (extf (F := Ideal) .f32 (Host.gather gather_S300000x256_S600000x1_S600000x256_1_0_n_n_0_1_1256 (truncf (F := Ideal) .bf16 (W4 m ρ c (Proc.devRef .tc main_v7) : (⟨S300000x256, .f32⟩ : BufTy).Contents (Elt Ideal)) bitsLt_bf16_f32) (broadcastInDim S600000x1 ![0] bcast_S600000_S600000x1_0 (select (cmpi .slt (shapeCast S600000 (extractStridedSlice S1x600000 ![0, 0] (m ((c : Thread nD τ).loc main_arg4) : (⟨S2x600000, .i32⟩ : BufTy).Contents (Elt Ideal)) slices_S2x600000_S1x600000_0_0) shapeCasts_S1x600000_S600000) (broadcastInDim S600000 ![] bcast_S_S600000 (constantI S_ 32 0#32))) (addi (shapeCast S600000 (extractStridedSlice S1x600000 ![0, 0] (m ((c : Thread nD τ).loc main_arg4) : (⟨S2x600000, .i32⟩ : BufTy).Contents (Elt Ideal)) slices_S2x600000_S1x600000_0_0) shapeCasts_S1x600000_S600000) (broadcastInDim S600000 ![] bcast_S_S600000 (constantI S_ 32 300000#32))) (shapeCast S600000 (extractStridedSlice S1x600000 ![0, 0] (m ((c : Thread nD τ).loc main_arg4) : (⟨S2x600000, .i32⟩ : BufTy).Contents (Elt Ideal)) slices_S2x600000_S1x600000_0_0) shapeCasts_S1x600000_S600000)))) bitsLt_bf16_f32) := by
  show StableHlo.after hostOps2 (W4 m ρ c) (Proc.devRef .tc main_v52) = _
  after_results_simp
  rw [p4_main_arg4 m ρ c]
  all_goals rfl

set_option maxHeartbeats 4000000 in
/-- What stretch 2 leaves in %61: its operations composed, over what the stretch reads. -/
theorem rd_main_v61 (c : Dev nD) :
    W5 m ρ c (Proc.devRef .tc main_v61) = shapeCast S1x256 (mulf (F := Ideal) (shapeCast S256 (extractStridedSlice S1x256 ![0, 0] (m ((c : Thread nD τ).loc main_arg17) : (⟨S2x256, .f32⟩ : BufTy).Contents (Elt Ideal)) slices_S2x256_S1x256_0_0) shapeCasts_S1x256_S256) (Host.rsqrt (F := Ideal) (addf (F := Ideal) (shapeCast S256 (extractStridedSlice S1x256 ![0, 0] (m ((c : Thread nD τ).loc main_arg20) : (⟨S2x256, .f32⟩ : BufTy).Contents (Elt Ideal)) slices_S2x256_S1x256_0_0) shapeCasts_S1x256_S256) (broadcastInDim S256 ![] bcast_S_S256 (constant (F := Ideal) S_ .f32 0x3727C5AC#32))))) shapeCasts_S256_S1x256 := by
  show StableHlo.after hostOps2 (W4 m ρ c) (Proc.devRef .tc main_v61) = _
  after_results_simp
  rw [p4_main_arg17 m ρ c, p4_main_arg20 m ρ c]
  all_goals rfl

set_option maxHeartbeats 4000000 in
/-- What stretch 2 leaves in %76: its operations composed, over what the stretch reads. -/
theorem rd_main_v76 (c : Dev nD) :
    W5 m ρ c (Proc.devRef .tc main_v76) = shapeCast S1x256 (subf (F := Ideal) (shapeCast S256 (extractStridedSlice S1x256 ![0, 0] (m ((c : Thread nD τ).loc main_arg18) : (⟨S2x256, .f32⟩ : BufTy).Contents (Elt Ideal)) slices_S2x256_S1x256_0_0) shapeCasts_S1x256_S256) (mulf (F := Ideal) (mulf (F := Ideal) (shapeCast S256 (extractStridedSlice S1x256 ![0, 0] (m ((c : Thread nD τ).loc main_arg19) : (⟨S2x256, .f32⟩ : BufTy).Contents (Elt Ideal)) slices_S2x256_S1x256_0_0) shapeCasts_S1x256_S256) (shapeCast S256 (extractStridedSlice S1x256 ![0, 0] (m ((c : Thread nD τ).loc main_arg17) : (⟨S2x256, .f32⟩ : BufTy).Contents (Elt Ideal)) slices_S2x256_S1x256_0_0) shapeCasts_S1x256_S256)) (Host.rsqrt (F := Ideal) (addf (F := Ideal) (shapeCast S256 (extractStridedSlice S1x256 ![0, 0] (m ((c : Thread nD τ).loc main_arg20) : (⟨S2x256, .f32⟩ : BufTy).Contents (Elt Ideal)) slices_S2x256_S1x256_0_0) shapeCasts_S1x256_S256) (broadcastInDim S256 ![] bcast_S_S256 (constant (F := Ideal) S_ .f32 0x3727C5AC#32)))))) shapeCasts_S256_S1x256 := by
  show StableHlo.after hostOps2 (W4 m ρ c) (Proc.devRef .tc main_v76) = _
  after_results_simp
  rw [p4_main_arg18 m ρ c, p4_main_arg19 m ρ c, p4_main_arg17 m ρ c, p4_main_arg20 m ρ c]
  all_goals rfl

end Cert.KernelIdeal.Reads

end
-- ==== Proof.Reads2c.lean ====
import proofs.«149189_j32641751449687_2_alg».proof.Proof.Pass
import Idealize.ShloMosaic.PureOps.Ideal

noncomputable section

namespace Cert.KernelIdeal.Reads

open Cert.KernelIdeal Cert.KernelIdeal.Gen Cert.KernelIdeal.Pass Idealize.ShloMosaic Idealize.ShloMosaic.TcCoe Idealize.ShloMosaic.StableHlo

variable (m : (ℓ : Loc nD τ sig) → Buf (Elt Ideal) ℓ) (ρ : Dev nD → PrngReg)

set_option maxHeartbeats 4000000 in
/-- What stretch 2 leaves in %80: its operations composed, over what the stretch reads. -/
theorem rd_main_v80 (c : Dev nD) :
    W5 m ρ c (Proc.devRef .tc main_v80) = truncf (F := Ideal) .bf16 (transpose S256x256 [1, 0] (shapeCast S256x256 (extractStridedSlice S1x256x256 ![0, 0, 0] (m ((c : Thread nD τ).loc main_arg11) : (⟨S2x256x256, .f32⟩ : BufTy).Contents (Elt Ideal)) slices_S2x256x256_S1x256x256_0_0_0) shapeCasts_S1x256x256_S256x256) transposes_S256x256_S256x256_1_0) bitsLt_bf16_f32 := by
  show StableHlo.after hostOps2 (W4 m ρ c) (Proc.devRef .tc main_v80) = _
  after_results_simp
  rw [p4_main_arg11 m ρ c]
  all_goals rfl

set_option maxHeartbeats 4000000 in
/-- What stretch 2 leaves in %84: its operations composed, over what the stretch reads. -/
theorem rd_main_v84 (c : Dev nD) :
    W5 m ρ c (Proc.devRef .tc main_v84) = truncf (F := Ideal) .bf16 (transpose S256x256 [1, 0] (shapeCast S256x256 (extractStridedSlice S1x256x256 ![0, 0, 0] (m ((c : Thread nD τ).loc main_arg13) : (⟨S2x256x256, .f32⟩ : BufTy).Contents (Elt Ideal)) slices_S2x256x256_S1x256x256_0_0_0) shapeCasts_S1x256x256_S256x256) transposes_S256x256_S256x256_1_0) bitsLt_bf16_f32 := by
  show StableHlo.after hostOps2 (W4 m ρ c) (Proc.devRef .tc main_v84) = _
  after_results_simp
  rw [p4_main_arg13 m ρ c]
  all_goals rfl

set_option maxHeartbeats 4000000 in
/-- What stretch 2 leaves in %87: its operations composed, over what the stretch reads. -/
theorem rd_main_v87 (c : Dev nD) :
    W5 m ρ c (Proc.devRef .tc main_v87) = shapeCast S1x256 (shapeCast S256 (extractStridedSlice S1x256 ![0, 0] (m ((c : Thread nD τ).loc main_arg12) : (⟨S2x256, .f32⟩ : BufTy).Contents (Elt Ideal)) slices_S2x256_S1x256_0_0) shapeCasts_S1x256_S256) shapeCasts_S256_S1x256 := by
  show StableHlo.after hostOps2 (W4 m ρ c) (Proc.devRef .tc main_v87) = _
  after_results_simp
  rw [p4_main_arg12 m ρ c]
  all_goals rfl

end Cert.KernelIdeal.Reads

end
-- ==== Proof.Reads4.lean ====
import proofs.«149189_j32641751449687_2_alg».proof.Proof.Pass
import Idealize.ShloMosaic.PureOps.Ideal

noncomputable section

namespace Cert.KernelIdeal.Reads

open Cert.KernelIdeal Cert.KernelIdeal.Gen Cert.KernelIdeal.Pass Idealize.ShloMosaic Idealize.ShloMosaic.TcCoe Idealize.ShloMosaic.StableHlo

variable (m : (ℓ : Loc nD τ sig) → Buf (Elt Ideal) ℓ) (ρ : Dev nD → PrngReg)

set_option maxHeartbeats 4000000 in
/-- What stretch 4 leaves in %132: its operations composed, over what the stretch reads. -/
theorem rd_main_v132 (c : Dev nD) :
    W9 m ρ c (Proc.devRef .tc main_v132) = Host.scatterAdd (F := Ideal) scatter_S100000x256_S600000x1_S600000x256_1_0_0_1 (broadcastInDim S100000x256 ![] bcast_S_S100000x256 (constant (F := Ideal) S_ .f32 0x00000000#32)) (broadcastInDim S600000x1 ![0] bcast_S600000_S600000x1_0 (shapeCast S600000 (extractStridedSlice S1x600000 ![1, 0] (m ((c : Thread nD τ).loc main_arg4) : (⟨S2x600000, .i32⟩ : BufTy).Contents (Elt Ideal)) slices_S2x600000_S1x600000_1_0) shapeCasts_S1x600000_S600000)) (extf (F := Ideal) .f32 (Host.gather gather_S300000x256_S600000x1_S600000x256_1_0_n_n_0_1_1256 (truncf (F := Ideal) .bf16 (W6 m ρ c (Proc.devRef .tc main_v88) : (⟨S300000x256, .f32⟩ : BufTy).Contents (Elt Ideal)) bitsLt_bf16_f32) (broadcastInDim S600000x1 ![0] bcast_S600000_S600000x1_0 (select (cmpi .slt (shapeCast S600000 (extractStridedSlice S1x600000 ![0, 0] (m ((c : Thread nD τ).loc main_arg4) : (⟨S2x600000, .i32⟩ : BufTy).Contents (Elt Ideal)) slices_S2x600000_S1x600000_0_0) shapeCasts_S1x600000_S600000) (broadcastInDim S600000 ![] bcast_S_S600000 (constantI S_ 32 0#32))) (addi (shapeCast S600000 (extractStridedSlice S1x600000 ![0, 0] (m ((c : Thread nD τ).loc main_arg4) : (⟨S2x600000, .i32⟩ : BufTy).Contents (Elt Ideal)) slices_S2x600000_S1x600000_0_0) shapeCasts_S1x600000_S600000) (broadcastInDim S600000 ![] bcast_S_S600000 (constantI S_ 32 300000#32))) (shapeCast S600000 (extractStridedSlice S1x600000 ![0, 0] (m ((c : Thread nD τ).loc main_arg4) : (⟨S2x600000, .i32⟩ : BufTy).Contents (Elt Ideal)) slices_S2x600000_S1x600000_0_0) shapeCasts_S1x600000_S600000)))) bitsLt_bf16_f32) := by
  show StableHlo.after hostOps4 (W8 m ρ c) (Proc.devRef .tc main_v132) = _
  after_results_simp
  rw [p8_main_arg4 m ρ c, p8_main_v88 m ρ c]
  all_goals rfl

set_option maxHeartbeats 4000000 in
/-- What stretch 4 leaves in %141: its operations composed, over what the stretch reads. -/
theorem rd_main_v141 (c : Dev nD) :
    W9 m ρ c (Proc.devRef .tc main_v141) = shapeCast S1x256 (mulf (F := Ideal) (shapeCast S256 (extractStridedSlice S1x256 ![1, 0] (m ((c : Thread nD τ).loc main_arg17) : (⟨S2x256, .f32⟩ : BufTy).Contents (Elt Ideal)) slices_S2x256_S1x256_1_0) shapeCasts_S1x256_S256) (Host.rsqrt (F := Ideal) (addf (F := Ideal) (shapeCast S256 (extractStridedSlice S1x256 ![1, 0] (m ((c : Thread nD τ).loc main_arg20) : (⟨S2x256, .f32⟩ : BufTy).Contents (Elt Ideal)) slices_S2x256_S1x256_1_0) shapeCasts_S1x256_S256) (broadcastInDim S256 ![] bcast_S_S256 (constant (F := Ideal) S_ .f32 0x3727C5AC#32))))) shapeCasts_S256_S1x256 := by
  show StableHlo.after hostOps4 (W8 m ρ c) (Proc.devRef .tc main_v141) = _
  after_results_simp
  rw [p8_main_arg17 m ρ c, p8_main_arg20 m ρ c]
  all_goals rfl

set_option maxHeartbeats 4000000 in
/-- What stretch 4 leaves in %156: its operations composed, over what the stretch reads. -/
theorem rd_main_v156 (c : Dev nD) :
    W9 m ρ c (Proc.devRef .tc main_v156) = shapeCast S1x256 (subf (F := Ideal) (shapeCast S256 (extractStridedSlice S1x256 ![1, 0] (m ((c : Thread nD τ).loc main_arg18) : (⟨S2x256, .f32⟩ : BufTy).Contents (Elt Ideal)) slices_S2x256_S1x256_1_0) shapeCasts_S1x256_S256) (mulf (F := Ideal) (mulf (F := Ideal) (shapeCast S256 (extractStridedSlice S1x256 ![1, 0] (m ((c : Thread nD τ).loc main_arg19) : (⟨S2x256, .f32⟩ : BufTy).Contents (Elt Ideal)) slices_S2x256_S1x256_1_0) shapeCasts_S1x256_S256) (shapeCast S256 (extractStridedSlice S1x256 ![1, 0] (m ((c : Thread nD τ).loc main_arg17) : (⟨S2x256, .f32⟩ : BufTy).Contents (Elt Ideal)) slices_S2x256_S1x256_1_0) shapeCasts_S1x256_S256)) (Host.rsqrt (F := Ideal) (addf (F := Ideal) (shapeCast S256 (extractStridedSlice S1x256 ![1, 0] (m ((c : Thread nD τ).loc main_arg20) : (⟨S2x256, .f32⟩ : BufTy).Contents (Elt Ideal)) slices_S2x256_S1x256_1_0) shapeCasts_S1x256_S256) (broadcastInDim S256 ![] bcast_S_S256 (constant (F := Ideal) S_ .f32 0x3727C5AC#32)))))) shapeCasts_S256_S1x256 := by
  show StableHlo.after hostOps4 (W8 m ρ c) (Proc.devRef .tc main_v156) = _
  after_results_simp
  rw [p8_main_arg18 m ρ c, p8_main_arg19 m ρ c, p8_main_arg17 m ρ c, p8_main_arg20 m ρ c]
  all_goals rfl

end Cert.KernelIdeal.Reads

end
-- ==== Proof.Reads6.lean ====
import proofs.«149189_j32641751449687_2_alg».proof.Proof.Pass
import Idealize.ShloMosaic.PureOps.Ideal

noncomputable section

namespace Cert.KernelIdeal.Reads

open Cert.KernelIdeal Cert.KernelIdeal.Gen Cert.KernelIdeal.Pass Idealize.ShloMosaic Idealize.ShloMosaic.TcCoe Idealize.ShloMosaic.StableHlo

variable (m : (ℓ : Loc nD τ sig) → Buf (Elt Ideal) ℓ) (ρ : Dev nD → PrngReg)

set_option maxHeartbeats 4000000 in
/-- What stretch 6 leaves in %188: its operations composed, over what the stretch reads. -/
theorem rd_main_v188 (c : Dev nD) :
    W13 m ρ c (Proc.devRef .tc main_v188) = Host.gather gather_S100000x256_S300000x1_S300000x256_1_0_n_n_0_1_1256 (truncf (F := Ideal) .bf16 (W12 m ρ c (Proc.devRef .tc main_v180) : (⟨S100000x256, .f32⟩ : BufTy).Contents (Elt Ideal)) bitsLt_bf16_f32) (broadcastInDim S300000x1 ![0] bcast_S300000_S300000x1_0 (select (cmpi .slt (m ((c : Thread nD τ).loc main_arg5) : (⟨S300000, .i32⟩ : BufTy).Contents (Elt Ideal)) (broadcastInDim S300000 ![] bcast_S_S300000 (constantI S_ 32 0#32))) (addi (m ((c : Thread nD τ).loc main_arg5) : (⟨S300000, .i32⟩ : BufTy).Contents (Elt Ideal)) (broadcastInDim S300000 ![] bcast_S_S300000 (constantI S_ 32 100000#32))) (m ((c : Thread nD τ).loc main_arg5) : (⟨S300000, .i32⟩ : BufTy).Contents (Elt Ideal)))) := by
  show StableHlo.after hostOps6 (W12 m ρ c) (Proc.devRef .tc main_v188) = _
  after_results_simp
  rw [p12_main_arg5 m ρ c]
  all_goals rfl

set_option maxHeartbeats 4000000 in
/-- What stretch 6 leaves in %195: its operations composed, over what the stretch reads. -/
theorem rd_main_v195 (c : Dev nD) :
    W13 m ρ c (Proc.devRef .tc main_v195) = Host.gather gather_S100000x256_S300000x1_S300000x256_1_0_n_n_0_1_1256 (truncf (F := Ideal) .bf16 (W12 m ρ c (Proc.devRef .tc main_v180) : (⟨S100000x256, .f32⟩ : BufTy).Contents (Elt Ideal)) bitsLt_bf16_f32) (broadcastInDim S300000x1 ![0] bcast_S300000_S300000x1_0 (select (cmpi .slt (m ((c : Thread nD τ).loc main_arg6) : (⟨S300000, .i32⟩ : BufTy).Contents (Elt Ideal)) (broadcastInDim S300000 ![] bcast_S_S300000 (constantI S_ 32 0#32))) (addi (m ((c : Thread nD τ).loc main_arg6) : (⟨S300000, .i32⟩ : BufTy).Contents (Elt Ideal)) (broadcastInDim S300000 ![] bcast_S_S300000 (constantI S_ 32 100000#32))) (m ((c : Thread nD τ).loc main_arg6) : (⟨S300000, .i32⟩ : BufTy).Contents (Elt Ideal)))) := by
  show StableHlo.after hostOps6 (W12 m ρ c) (Proc.devRef .tc main_v195) = _
  after_results_simp
  rw [p12_main_arg6 m ρ c]
  all_goals rfl

set_option maxHeartbeats 4000000 in
/-- What stretch 6 leaves in %196: its operations composed, over what the stretch reads. -/
theorem rd_main_v196 (c : Dev nD) :
    W13 m ρ c (Proc.devRef .tc main_v196) = truncf (F := Ideal) .bf16 (m ((c : Thread nD τ).loc main_arg2) : (⟨S300000x32, .f32⟩ : BufTy).Contents (Elt Ideal)) bitsLt_bf16_f32 := by
  show StableHlo.after hostOps6 (W12 m ρ c) (Proc.devRef .tc main_v196) = _
  after_results_simp
  rw [p12_main_arg2 m ρ c]
  all_goals rfl

set_option maxHeartbeats 4000000 in
/-- What stretch 6 leaves in %199: its operations composed, over what the stretch reads. -/
theorem rd_main_v199 (c : Dev nD) :
    W13 m ρ c (Proc.devRef .tc main_v199) = truncf (F := Ideal) .bf16 (transpose S256x256 [1, 0] (extractStridedSlice S256x256 ![0, 0] (m ((c : Thread nD τ).loc main_arg21) : (⟨S256x544, .f32⟩ : BufTy).Contents (Elt Ideal)) slices_S256x544_S256x256_0_0) transposes_S256x256_S256x256_1_0) bitsLt_bf16_f32 := by
  show StableHlo.after hostOps6 (W12 m ρ c) (Proc.devRef .tc main_v199) = _
  after_results_simp
  rw [p12_main_arg21 m ρ c]
  all_goals rfl

set_option maxHeartbeats 4000000 in
/-- What stretch 6 leaves in %202: its operations composed, over what the stretch reads. -/
theorem rd_main_v202 (c : Dev nD) :
    W13 m ρ c (Proc.devRef .tc main_v202) = truncf (F := Ideal) .bf16 (transpose S256x256 [1, 0] (extractStridedSlice S256x256 ![0, 256] (m ((c : Thread nD τ).loc main_arg21) : (⟨S256x544, .f32⟩ : BufTy).Contents (Elt Ideal)) slices_S256x544_S256x256_0_256) transposes_S256x256_S256x256_1_0) bitsLt_bf16_f32 := by
  show StableHlo.after hostOps6 (W12 m ρ c) (Proc.devRef .tc main_v202) = _
  after_results_simp
  rw [p12_main_arg21 m ρ c]
  all_goals rfl

set_option maxHeartbeats 4000000 in
/-- What stretch 6 leaves in %205: its operations composed, over what the stretch reads. -/
theorem rd_main_v205 (c : Dev nD) :
    W13 m ρ c (Proc.devRef .tc main_v205) = truncf (F := Ideal) .bf16 (transpose S32x256 [1, 0] (extractStridedSlice S256x32 ![0, 512] (m ((c : Thread nD τ).loc main_arg21) : (⟨S256x544, .f32⟩ : BufTy).Contents (Elt Ideal)) slices_S256x544_S256x32_0_512) transposes_S256x32_S32x256_1_0) bitsLt_bf16_f32 := by
  show StableHlo.after hostOps6 (W12 m ρ c) (Proc.devRef .tc main_v205) = _
  after_results_simp
  rw [p12_main_arg21 m ρ c]
  all_goals rfl

set_option maxHeartbeats 4000000 in
/-- What stretch 6 leaves in %206: its operations composed, over what the stretch reads. -/
theorem rd_main_v206 (c : Dev nD) :
    W13 m ρ c (Proc.devRef .tc main_v206) = shapeCast S1x256 (m ((c : Thread nD τ).loc main_arg22) : (⟨S256, .f32⟩ : BufTy).Contents (Elt Ideal)) shapeCasts_S256_S1x256 := by
  show StableHlo.after hostOps6 (W12 m ρ c) (Proc.devRef .tc main_v206) = _
  after_results_simp
  rw [p12_main_arg22 m ρ c]
  all_goals rfl

set_option maxHeartbeats 4000000 in
/-- What stretch 6 leaves in %207: its operations composed, over what the stretch reads. -/
theorem rd_main_v207 (c : Dev nD) :
    W13 m ρ c (Proc.devRef .tc main_v207) = shapeCast S1x1 (m ((c : Thread nD τ).loc main_arg24) : (⟨S1, .f32⟩ : BufTy).Contents (Elt Ideal)) shapeCasts_S1_S1x1 := by
  show StableHlo.after hostOps6 (W12 m ρ c) (Proc.devRef .tc main_v207) = _
  after_results_simp
  rw [p12_main_arg24 m ρ c]
  all_goals rfl

end Cert.KernelIdeal.Reads

end
-- ==== Proof.Reads.lean ====
import proofs.«149189_j32641751449687_2_alg».proof.Proof.ReadsShort
import proofs.«149189_j32641751449687_2_alg».proof.Proof.Reads2a
import proofs.«149189_j32641751449687_2_alg».proof.Proof.Reads2b
import proofs.«149189_j32641751449687_2_alg».proof.Proof.Reads2c
import proofs.«149189_j32641751449687_2_alg».proof.Proof.Reads4
import proofs.«149189_j32641751449687_2_alg».proof.Proof.Reads6

/-!
  What each host stretch leaves in the buffers the regions read: for every such buffer, the stretch's
  operations composed into one term over the program's arguments and the earlier regions' output arrays
  (rd_<buffer>). Stretches 0, 1, 3, 5 and 7 are in ReadsShort; the long stretches 2, 4 and 6 have their own modules.
-/
-- ==== Proof.WholeApply.lean ====
/-
  The three whole-array functions read at one entry. A plain product into zero at (r, l) is the sum over k of
  X (r, k) · W (k, l); a row repeated down the rows reads its entry of the column, a column repeated across the
  columns its entry of the row, a broadcast rank-0 constant its one value; the f32 words of 0.0 and 1.0 denote 0
  and 1. Substituting these into `linear`, `sage` and `mlp` gives each output entry as an explicit formula over
  entries of the arguments, with the additions grouped as the definitions group them.
-/
import proofs.«149189_j32641751449687_2_alg».proof.Proof.Payloads

noncomputable section

namespace Cert.KernelIdeal.Whole

open Idealize.ShloMosaic Idealize.ShloMosaic.ValueIdx Cert.Tile

/-- The f32 word of 1.0 denotes 1. -/
theorem ofBits_one_f32 : Ideal.ofBits .f32 0x3F800000#32 = 1 := IdealRules.sign_bit.ideal_onePat .f32

/-- A plain product into zero, read at (r, l): the sum over k of X (r, k) · W (k, l). -/
theorem mm_apply {M K N : Nat} (X : (⟨2, ![M, K]⟩ : Shape).Idx → EReal) (W : (⟨2, ![K, N]⟩ : Shape).Idx → EReal)
    (r : Fin M) (l : Fin N) :
    Ideal.matmul (DotDims.plain M K N) X W (fun _ => 0) (ix2 r l) = ∑ k : Fin K, X (ix2 r k) * W (ix2 k l) := by
  unfold Ideal.matmul
  show (0 : EReal) + _ = _
  rw [zero_add]
  refine Fintype.sum_equiv (contrEquiv1 (DotDims.plain M K N) K rfl rfl) _ _ fun k => ?_
  rw [plain_lhs, plain_rhs]
  rfl

/-- A 1 × C row repeated down M rows, read at (r, l): the row's entry l. -/
theorem rowB_apply {M C : Nat} (b : (⟨2, ![1, C]⟩ : Shape).Idx → EReal)
    (g : (⟨2, ![1, C]⟩ : Shape).BroadcastsInDim ⟨2, ![M, C]⟩ ![0, 1]) (r : Fin M) (l : Fin C) :
    broadcastInDim ⟨2, ![M, C]⟩ ![0, 1] g b (ix2 r l) = b (ix2 ⟨0, Nat.one_pos⟩ l) := by
  have hl := l.isLt
  refine broadcastInDim_apply _ g b (ix2 r l) (ix2 ⟨0, Nat.one_pos⟩ l) fun a => ?_
  match a with
  | ⟨0, _⟩ => rfl
  | ⟨1, _⟩ =>
    show l.val = if C = 1 then 0 else l.val
    split <;> omega

/-- An M × 1 column repeated across C columns, read at (r, l): the column's entry r. -/
theorem colB_apply {M C : Nat} (X : (⟨2, ![M, 1]⟩ : Shape).Idx → EReal)
    (g : (⟨2, ![M, 1]⟩ : Shape).BroadcastsInDim ⟨2, ![M, C]⟩ ![0, 1]) (r : Fin M) (l : Fin C) :
    broadcastInDim ⟨2, ![M, C]⟩ ![0, 1] g X (ix2 r l) = X (ix2 r ⟨0, Nat.one_pos⟩) := by
  have hr := r.isLt
  refine broadcastInDim_apply _ g X (ix2 r l) (ix2 r ⟨0, Nat.one_pos⟩) fun a => ?_
  match a with
  | ⟨0, _⟩ =>
    show r.val = if M = 1 then 0 else r.val
    split <;> omega
  | ⟨1, _⟩ => rfl

/-- A rank-0 constant broadcast over M × C reads the value of its word everywhere. -/
theorem constB_apply {M C : Nat} (w : BitVec 32) (g : (⟨0, ![]⟩ : Shape).BroadcastsInDim ⟨2, ![M, C]⟩ ![])
    (i : (⟨2, ![M, C]⟩ : Shape).Idx) :
    broadcastInDim ⟨2, ![M, C]⟩ ![] g (constant (F := Ideal) ⟨0, ![]⟩ .f32 w) i = Ideal.ofBits .f32 w :=
  broadcastInDim_apply _ g _ i ix0 fun a => a.elim0

/-- The dense layer at (r, l). -/
theorem linear_apply {M K : Nat} (X : (⟨2, ![M, K]⟩ : Shape).Idx → EReal) (W : (⟨2, ![K, 256]⟩ : Shape).Idx → EReal)
    (b : (⟨2, ![1, 256]⟩ : Shape).Idx → EReal) (r : Fin M) (l : Fin 256) :
    linear X W b (ix2 r l) = max ((∑ k : Fin K, X (ix2 r k) * W (ix2 k l)) + b (ix2 ⟨0, Nat.one_pos⟩ l)) 0 := by
  unfold linear
  rw [mm_apply, rowB_apply, constB_apply, Ideal.ofBits_zero_f32]

/-- The count column clamped below by one and repeated across the columns, read at (r, k): max (CNT r, 1). -/
theorem cntB_apply {M C : Nat} (CNT : (⟨2, ![M, 1]⟩ : Shape).Idx → EReal) (r : Fin M) (k : Fin C) :
    broadcastInDim ⟨2, ![M, C]⟩ ![0, 1] (bidCol M C)
        (fun j => max (CNT j)
          (broadcastInDim ⟨2, ![M, 1]⟩ ![] (bidScalar M 1) (constant (F := Ideal) ⟨0, ![]⟩ .f32 0x3F800000#32) j))
        (ix2 r k)
      = max (CNT (ix2 r ⟨0, Nat.one_pos⟩)) 1 := by
  rw [colB_apply, constB_apply, ofBits_one_f32]

/-- The SAGE update at (r, l). -/
theorem sage_apply {M : Nat} (AGG : (⟨2, ![M, 256]⟩ : Shape).Idx → EReal) (CNT : (⟨2, ![M, 1]⟩ : Shape).Idx → EReal)
    (XD : (⟨2, ![M, 256]⟩ : Shape).Idx → EReal) (WL WR : (⟨2, ![256, 256]⟩ : Shape).Idx → EReal)
    (BL SC SH : (⟨2, ![1, 256]⟩ : Shape).Idx → EReal) (r : Fin M) (l : Fin 256) :
    sage AGG CNT XD WL WR BL SC SH (ix2 r l)
      = max
          ((((∑ k : Fin 256, Ideal.div (AGG (ix2 r k)) (max (CNT (ix2 r ⟨0, Nat.one_pos⟩)) 1) * WL (ix2 k l))
                + BL (ix2 ⟨0, Nat.one_pos⟩ l))
              + (∑ k : Fin 256, XD (ix2 r k) * WR (ix2 k l)))
            * SC (ix2 ⟨0, Nat.one_pos⟩ l)
            + SH (ix2 ⟨0, Nat.one_pos⟩ l))
          0 := by
  unfold sage
  rw [mm_apply, mm_apply, rowB_apply, rowB_apply, rowB_apply, constB_apply, Ideal.ofBits_zero_f32]
  rw [Finset.sum_congr rfl fun k _ => by rw [cntB_apply CNT r k]]

/-- The hidden layer of the edge MLP at (r, l). -/
theorem mlpHidden_apply {M : Nat} (HS HR : (⟨2, ![M, 256]⟩ : Shape).Idx → EReal) (TX : (⟨2, ![M, 32]⟩ : Shape).Idx → EReal)
    (W1A W1B : (⟨2, ![256, 256]⟩ : Shape).Idx → EReal) (W1C : (⟨2, ![32, 256]⟩ : Shape).Idx → EReal)
    (B1 : (⟨2, ![1, 256]⟩ : Shape).Idx → EReal) (r : Fin M) (l : Fin 256) :
    mlpHidden HS HR TX W1A W1B W1C B1 (ix2 r l)
      = max
          ((((∑ k : Fin 256, HS (ix2 r k) * W1A (ix2 k l)) + (∑ k : Fin 256, HR (ix2 r k) * W1B (ix2 k l)))
              + (∑ k : Fin 32, TX (ix2 r k) * W1C (ix2 k l)))
            + B1 (ix2 ⟨0, Nat.one_pos⟩ l))
          0 := by
  unfold mlpHidden
  rw [mm_apply, mm_apply, mm_apply, rowB_apply, constB_apply, Ideal.ofBits_zero_f32]

/-- The edge MLP at (r, q), q the one column. -/
theorem mlp_apply {M : Nat} (HS HR : (⟨2, ![M, 256]⟩ : Shape).Idx → EReal) (TX : (⟨2, ![M, 32]⟩ : Shape).Idx → EReal)
    (W1A W1B : (⟨2, ![256, 256]⟩ : Shape).Idx → EReal) (W1C : (⟨2, ![32, 256]⟩ : Shape).Idx → EReal)
    (B1 W2 : (⟨2, ![1, 256]⟩ : Shape).Idx → EReal) (B2 : (⟨2, ![1, 1]⟩ : Shape).Idx → EReal) (r : Fin M) (q : Fin 1) :
    mlp HS HR TX W1A W1B W1C B1 W2 B2 (ix2 r q)
      = (∑ l : Fin 256,
            max
                ((((∑ k : Fin 256, HS (ix2 r k) * W1A (ix2 k l)) + (∑ k : Fin 256, HR (ix2 r k) * W1B (ix2 k l)))
                    + (∑ k : Fin 32, TX (ix2 r k) * W1C (ix2 k l)))
                  + B1 (ix2 ⟨0, Nat.one_pos⟩ l))
                0
              * W2 (ix2 ⟨0, Nat.one_pos⟩ l))
          + B2 (ix2 ⟨0, Nat.one_pos⟩ ⟨0, Nat.one_pos⟩) := by
  obtain rfl : q = ⟨0, Nat.one_pos⟩ := Fin.ext (by have := q.isLt; omega)
  unfold mlp
  rw [rowSum_apply, rowB_apply]
  refine congrArg (fun s => s + B2 (ix2 ⟨0, Nat.one_pos⟩ ⟨0, Nat.one_pos⟩)) (Finset.sum_congr rfl fun l _ => ?_)
  rw [mlpHidden_apply, rowB_apply]

end Cert.KernelIdeal.Whole

end
-- ==== Proof.GlueEntries.lean ====
/-
  The small host operations between the regions, each read at one entry: a vector of 256 entries viewed as a
  1 × 256 row, a vector of n entries as an n × 1 column and back, a one-entry vector as 1 × 1; a block of columns of a
  matrix, transposed; one matrix of a stack of two, transposed; one row of a 2 × 256 parameter as a vector; and the two
  rows the normalisation sends on, gamma / sqrt (var + eps) and beta − mean · gamma / sqrt (var + eps), entry by entry.
  Narrowing the float format is the identity on the extended reals, so it drops out of every reading.
-/
import proofs.«149189_j32641751449687_2_alg».proof.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Glue

open Cert.KernelIdeal Idealize.ShloMosaic Idealize.ShloMosaic.ValueIdx

variable [Facts₀]
open Facts₀

/-- A vector of a entries viewed as an a × 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column viewed as a vector of a entries reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i ⟨0, Nat.one_pos⟩) :=
  shapeCast_apply x h _ _ (by
    rw [Shape.rowMajor_val_two, Shape.rowMajor_val_one]
    show i.val * 1 + 0 = i.val
    rw [Nat.mul_one, Nat.add_zero])

/-- A bias of 256 entries viewed as a 1 × 256 row, at column l. -/
theorem row_cast (B : Vec Ideal S256 .f32) (l : Fin 256) :
    shapeCast S1x256 B shapeCasts_S256_S1x256 (ix2 ⟨0, Nat.one_pos⟩ l) = B (ix1 l) :=
  shapeCast_a_1a_apply B shapeCasts_S256_S1x256 ⟨0, Nat.one_pos⟩ l

/-- A vector of 300000 counts viewed as a column, at row r. -/
theorem col_cast3 (C : Vec Ideal S300000 .f32) (r : Fin 300000) :
    shapeCast S300000x1 C shapeCasts_S300000_S300000x1 (ix2 r ⟨0, Nat.one_pos⟩) = C (ix1 r) :=
  shapeCast_a_a1_apply C shapeCasts_S300000_S300000x1 r ⟨0, Nat.one_pos⟩

/-- A vector of 100000 counts viewed as a column, at row r. -/
theorem col_cast1 (C : Vec Ideal S100000 .f32) (r : Fin 100000) :
    shapeCast S100000x1 C shapeCasts_S100000_S100000x1 (ix2 r ⟨0, Nat.one_pos⟩) = C (ix1 r) :=
  shapeCast_a_a1_apply C shapeCasts_S100000_S100000x1 r ⟨0, Nat.one_pos⟩

/-- The output column viewed as a vector of 300000 entries, at r. -/
theorem out_cast (X : Vec Ideal S300000x1 .f32) (r : Fin 300000) :
    shapeCast S300000 X shapeCasts_S300000x1_S300000 (ix1 r) = X (ix2 r ⟨0, Nat.one_pos⟩) :=
  shapeCast_a1_a_apply X shapeCasts_S300000x1_S300000 r

/-- A one-entry vector viewed as 1 × 1. -/
theorem one_cast (b : Vec Ideal S1 .f32) :
    shapeCast S1x1 b shapeCasts_S1_S1x1 (ix2 ⟨0, Nat.one_pos⟩ ⟨0, Nat.one_pos⟩) = b (ix1 ⟨0, Nat.one_pos⟩) :=
  shapeCast_a_1a_apply b shapeCasts_S1_S1x1 ⟨0, Nat.one_pos⟩ ⟨0, Nat.one_pos⟩

/-- Columns [0, 256) of the 256 × 544 matrix, transposed and narrowed, at (k, l): the matrix at (l, k). -/
theorem w1a (W1 : Vec Ideal S256x544 .f32) (k : Fin 256) (l : Fin 256) :
    truncf (F := Ideal) (φ := .f32) .bf16
        (transpose S256x256 [1, 0] (extractStridedSlice S256x256 ![0, 0] W1 slices_S256x544_S256x256_0_0) transposes_S256x256_S256x256_1_0)
        bitsLt_bf16_f32 (ix2 k l)
      = W1 (ix2 l ⟨k.val, by omega⟩) :=
  (transpose_ix2_apply _ transposes_S256x256_S256x256_1_0 k l).trans
    (slice2_axis1_apply 0 W1 slices_S256x544_S256x256_0_0 l k ⟨k.val, by omega⟩ (Nat.zero_add _).symm)

/-- Columns [256, 512) of the 256 × 544 matrix, transposed and narrowed, at (k, l): the matrix at (l, 256 + k). -/
theorem w1b (W1 : Vec Ideal S256x544 .f32) (k : Fin 256) (l : Fin 256) :
    truncf (F := Ideal) (φ := .f32) .bf16
        (transpose S256x256 [1, 0] (extractStridedSlice S256x256 ![0, 256] W1 slices_S256x544_S256x256_0_256) transposes_S256x256_S256x256_1_0)
        bitsLt_bf16_f32 (ix2 k l)
      = W1 (ix2 l ⟨256 + k.val, by omega⟩) :=
  (transpose_ix2_apply _ transposes_S256x256_S256x256_1_0 k l).trans
    (slice2_axis1_apply 256 W1 slices_S256x544_S256x256_0_256 l k ⟨256 + k.val, by omega⟩ rfl)

/-- Columns [512, 544) of the 256 × 544 matrix, transposed and narrowed, at (k, l): the matrix at (l, 512 + k). -/
theorem w1c (W1 : Vec Ideal S256x544 .f32) (k : Fin 32) (l : Fin 256) :
    truncf (F := Ideal) (φ := .f32) .bf16
        (transpose S32x256 [1, 0] (extractStridedSlice S256x32 ![0, 512] W1 slices_S256x544_S256x32_0_512) transposes_S256x32_S32x256_1_0)
        bitsLt_bf16_f32 (ix2 k l)
      = W1 (ix2 l ⟨512 + k.val, by omega⟩) :=
  (transpose_ix2_apply _ transposes_S256x32_S32x256_1_0 k l).trans
    (slice2_axis1_apply 512 W1 slices_S256x544_S256x32_0_512 l k ⟨512 + k.val, by omega⟩ rfl)

/-- Layer 0's weight matrix, transposed and narrowed, at (k, l): the parameter at (0, l, k). -/
theorem wT0 (P : Vec Ideal S2x256x256 .f32) (k l : Fin 256) :
    truncf (F := Ideal) (φ := .f32) .bf16
        (transpose S256x256 [1, 0]
          (shapeCast S256x256 (extractStridedSlice S1x256x256 ![0, 0, 0] P slices_S2x256x256_S1x256x256_0_0_0)
            shapeCasts_S1x256x256_S256x256)
          transposes_S256x256_S256x256_1_0)
        bitsLt_bf16_f32 (ix2 k l)
      = P (ix3 ⟨0, by omega⟩ l k) :=
  (transpose_ix2_apply _ transposes_S256x256_S256x256_1_0 k l).trans
    ((shapeCast_1ab_ab_apply _ shapeCasts_S1x256x256_S256x256 l k).trans
      (extractStridedSlice_apply _ P slices_S2x256x256_S1x256x256_0_0_0 _ (ix3 ⟨0, by omega⟩ l k) fun a => by
        match a with
        | ⟨0, _⟩ => rfl
        | ⟨1, _⟩ => exact (Nat.zero_add _).symm
        | ⟨2, _⟩ => exact (Nat.zero_add _).symm))

/-- Layer 1's weight matrix, transposed and narrowed, at (k, l): the parameter at (1, l, k). -/
theorem wT1 (P : Vec Ideal S2x256x256 .f32) (k l : Fin 256) :
    truncf (F := Ideal) (φ := .f32) .bf16
        (transpose S256x256 [1, 0]
          (shapeCast S256x256 (extractStridedSlice S1x256x256 ![1, 0, 0] P slices_S2x256x256_S1x256x256_1_0_0)
            shapeCasts_S1x256x256_S256x256)
          transposes_S256x256_S256x256_1_0)
        bitsLt_bf16_f32 (ix2 k l)
      = P (ix3 ⟨1, by omega⟩ l k) :=
  (transpose_ix2_apply _ transposes_S256x256_S256x256_1_0 k l).trans
    ((shapeCast_1ab_ab_apply _ shapeCasts_S1x256x256_S256x256 l k).trans
      (extractStridedSlice_apply _ P slices_S2x256x256_S1x256x256_1_0_0 _ (ix3 ⟨1, by omega⟩ l k) fun a => by
        match a with
        | ⟨0, _⟩ => rfl
        | ⟨1, _⟩ => exact (Nat.zero_add _).symm
        | ⟨2, _⟩ => exact (Nat.zero_add _).symm))

/-- The first input projection, transposed and narrowed, at (k, l): the 256 × 16 matrix at (l, k). -/
theorem projT16 (W : Vec Ideal S256x16 .f32) (k : Fin 16) (l : Fin 256) :
    truncf (F := Ideal) (φ := .f32) .bf16 (transpose S16x256 [1, 0] W transposes_S256x16_S16x256_1_0) bitsLt_bf16_f32 (ix2 k l)
      = W (ix2 l k) :=
  transpose_ix2_apply W transposes_S256x16_S16x256_1_0 k l

/-- The second input projection, transposed and narrowed, at (k, l): the 256 × 32 matrix at (l, k). -/
theorem projT32 (W : Vec Ideal S256x32 .f32) (k : Fin 32) (l : Fin 256) :
    truncf (F := Ideal) (φ := .f32) .bf16 (transpose S32x256 [1, 0] W transposes_S256x32_S32x256_1_0) bitsLt_bf16_f32 (ix2 k l)
      = W (ix2 l k) :=
  transpose_ix2_apply W transposes_S256x32_S32x256_1_0 k l

/-- Row 0 of a 2 × 256 parameter, as a vector of 256 entries, at l. -/
theorem rowp0 (G : Vec Ideal S2x256 .f32) (l : Fin 256) :
    shapeCast S256 (extractStridedSlice S1x256 ![0, 0] G slices_S2x256_S1x256_0_0) shapeCasts_S1x256_S256 (ix1 l)
      = G (ix2 ⟨0, by omega⟩ l) :=
  (shapeCast_1a_a_apply _ shapeCasts_S1x256_S256 l).trans
    (slice2_axis0_apply 0 G slices_S2x256_S1x256_0_0 (0 : Fin 1) l ⟨0, by omega⟩ rfl)

/-- Row 1 of a 2 × 256 parameter, as a vector of 256 entries, at l. -/
theorem rowp1 (G : Vec Ideal S2x256 .f32) (l : Fin 256) :
    shapeCast S256 (extractStridedSlice S1x256 ![1, 0] G slices_S2x256_S1x256_1_0) shapeCasts_S1x256_S256 (ix1 l)
      = G (ix2 ⟨1, by omega⟩ l) :=
  (shapeCast_1a_a_apply _ shapeCasts_S1x256_S256 l).trans
    (slice2_axis0_apply 1 G slices_S2x256_S1x256_1_0 (0 : Fin 1) l ⟨1, by omega⟩ rfl)

/-- Row 0 of the normalisation's scale, as a 1 × 256 row, at column l: gamma / sqrt (var + eps). -/
theorem scale_entry0 (G VAR : Vec Ideal S2x256 .f32) (l : Fin 256) :
    shapeCast S1x256
        (mulf (F := Ideal) (φ := .f32) (shapeCast S256 (extractStridedSlice S1x256 ![0, 0] G slices_S2x256_S1x256_0_0) shapeCasts_S1x256_S256)
          (Host.rsqrt (F := Ideal) (φ := .f32) (addf (F := Ideal) (φ := .f32) (shapeCast S256 (extractStridedSlice S1x256 ![0, 0] VAR slices_S2x256_S1x256_0_0) shapeCasts_S1x256_S256) (broadcastInDim S256 ![] bcast_S_S256 (constant (F := Ideal) S_ .f32 0x3727C5AC#32)))))
        shapeCasts_S256_S1x256 (ix2 ⟨0, Nat.one_pos⟩ l)
      = G (ix2 ⟨0, by omega⟩ l) * Ideal.rsqrt (VAR (ix2 ⟨0, by omega⟩ l) + Ideal.ofBits .f32 0x3727C5AC#32) := by
  refine (shapeCast_a_1a_apply _ shapeCasts_S256_S1x256 ⟨0, Nat.one_pos⟩ l).trans ?_
  exact congrArg₂ (fun a b => a * Ideal.rsqrt (b + Ideal.ofBits .f32 0x3727C5AC#32)) (rowp0 G l) (rowp0 VAR l)

/-- Row 0 of the normalisation's shift, as a 1 × 256 row, at column l: beta − (mean · gamma) / sqrt (var + eps). -/
theorem shift_entry0 (B MN G VAR : Vec Ideal S2x256 .f32) (l : Fin 256) :
    shapeCast S1x256
        (subf (F := Ideal) (φ := .f32) (shapeCast S256 (extractStridedSlice S1x256 ![0, 0] B slices_S2x256_S1x256_0_0) shapeCasts_S1x256_S256)
          (mulf (F := Ideal) (φ := .f32)
            (mulf (F := Ideal) (φ := .f32) (shapeCast S256 (extractStridedSlice S1x256 ![0, 0] MN slices_S2x256_S1x256_0_0) shapeCasts_S1x256_S256) (shapeCast S256 (extractStridedSlice S1x256 ![0, 0] G slices_S2x256_S1x256_0_0) shapeCasts_S1x256_S256))
            (Host.rsqrt (F := Ideal) (φ := .f32) (addf (F := Ideal) (φ := .f32) (shapeCast S256 (extractStridedSlice S1x256 ![0, 0] VAR slices_S2x256_S1x256_0_0) shapeCasts_S1x256_S256) (broadcastInDim S256 ![] bcast_S_S256 (constant (F := Ideal) S_ .f32 0x3727C5AC#32))))))
        shapeCasts_S256_S1x256 (ix2 ⟨0, Nat.one_pos⟩ l)
      = B (ix2 ⟨0, by omega⟩ l)
          - (MN (ix2 ⟨0, by omega⟩ l) * G (ix2 ⟨0, by omega⟩ l))
            * Ideal.rsqrt (VAR (ix2 ⟨0, by omega⟩ l) + Ideal.ofBits .f32 0x3727C5AC#32) := by
  refine (shapeCast_a_1a_apply _ shapeCasts_S256_S1x256 ⟨0, Nat.one_pos⟩ l).trans ?_
  exact congrArg₂ (fun a b => a - b) (rowp0 B l)
    (congrArg₂ (fun a b => a * b) (congrArg₂ (fun a b => a * b) (rowp0 MN l) (rowp0 G l))
      (congrArg (fun b => Ideal.rsqrt (b + Ideal.ofBits .f32 0x3727C5AC#32)) (rowp0 VAR l)))

/-- Row 1 of the normalisation's scale, as a 1 × 256 row, at column l: gamma / sqrt (var + eps). -/
theorem scale_entry1 (G VAR : Vec Ideal S2x256 .f32) (l : Fin 256) :
    shapeCast S1x256
        (mulf (F := Ideal) (φ := .f32) (shapeCast S256 (extractStridedSlice S1x256 ![1, 0] G slices_S2x256_S1x256_1_0) shapeCasts_S1x256_S256)
          (Host.rsqrt (F := Ideal) (φ := .f32) (addf (F := Ideal) (φ := .f32) (shapeCast S256 (extractStridedSlice S1x256 ![1, 0] VAR slices_S2x256_S1x256_1_0) shapeCasts_S1x256_S256) (broadcastInDim S256 ![] bcast_S_S256 (constant (F := Ideal) S_ .f32 0x3727C5AC#32)))))
        shapeCasts_S256_S1x256 (ix2 ⟨0, Nat.one_pos⟩ l)
      = G (ix2 ⟨1, by omega⟩ l) * Ideal.rsqrt (VAR (ix2 ⟨1, by omega⟩ l) + Ideal.ofBits .f32 0x3727C5AC#32) := by
  refine (shapeCast_a_1a_apply _ shapeCasts_S256_S1x256 ⟨0, Nat.one_pos⟩ l).trans ?_
  exact congrArg₂ (fun a b => a * Ideal.rsqrt (b + Ideal.ofBits .f32 0x3727C5AC#32)) (rowp1 G l) (rowp1 VAR l)

/-- Row 1 of the normalisation's shift, as a 1 × 256 row, at column l: beta − (mean · gamma) / sqrt (var + eps). -/
theorem shift_entry1 (B MN G VAR : Vec Ideal S2x256 .f32) (l : Fin 256) :
    shapeCast S1x256
        (subf (F := Ideal) (φ := .f32) (shapeCast S256 (extractStridedSlice S1x256 ![1, 0] B slices_S2x256_S1x256_1_0) shapeCasts_S1x256_S256)
          (mulf (F := Ideal) (φ := .f32)
            (mulf (F := Ideal) (φ := .f32) (shapeCast S256 (extractStridedSlice S1x256 ![1, 0] MN slices_S2x256_S1x256_1_0) shapeCasts_S1x256_S256) (shapeCast S256 (extractStridedSlice S1x256 ![1, 0] G slices_S2x256_S1x256_1_0) shapeCasts_S1x256_S256))
            (Host.rsqrt (F := Ideal) (φ := .f32) (addf (F := Ideal) (φ := .f32) (shapeCast S256 (extractStridedSlice S1x256 ![1, 0] VAR slices_S2x256_S1x256_1_0) shapeCasts_S1x256_S256) (broadcastInDim S256 ![] bcast_S_S256 (constant (F := Ideal) S_ .f32 0x3727C5AC#32))))))
        shapeCasts_S256_S1x256 (ix2 ⟨0, Nat.one_pos⟩ l)
      = B (ix2 ⟨1, by omega⟩ l)
          - (MN (ix2 ⟨1, by omega⟩ l) * G (ix2 ⟨1, by omega⟩ l))
            * Ideal.rsqrt (VAR (ix2 ⟨1, by omega⟩ l) + Ideal.ofBits .f32 0x3727C5AC#32) := by
  refine (shapeCast_a_1a_apply _ shapeCasts_S256_S1x256 ⟨0, Nat.one_pos⟩ l).trans ?_
  exact congrArg₂ (fun a b => a - b) (rowp1 B l)
    (congrArg₂ (fun a b => a * b) (congrArg₂ (fun a b => a * b) (rowp1 MN l) (rowp1 G l))
      (congrArg (fun b => Ideal.rsqrt (b + Ideal.ofBits .f32 0x3727C5AC#32)) (rowp1 VAR l)))

end Cert.KernelIdeal.Glue

end
-- ==== Proof.LayersA.lean ====
/-
  Layer by layer, the kernel program's arrays are the reference's. Each region's output is a whole-array function of
  its entry arrays; the entry arrays are host rearrangements of the arguments (a transposed weight matrix, a bias
  viewed as a row); and the reference computes the same layer from the same arguments, one operation at a time. Read
  at one entry, both sides are the same expression over entries of the arguments: the same products summed over the
  same index, the same bias entry, the same maximum with zero.
-/
import proofs.«149189_j32641751449687_2_alg».proof.Proof.Regions
import proofs.«149189_j32641751449687_2_alg».proof.Proof.Reads
import proofs.«149189_j32641751449687_2_alg».proof.Proof.WholeApply
import proofs.«149189_j32641751449687_2_alg».proof.Proof.GlueEntries
import proofs.«149189_j32641751449687_2_alg».proof.Proof.Pass
import proofs.«149189_j32641751449687_2_alg».proof.Proof.RefRead

noncomputable section

namespace Cert.KernelIdeal.Layers

open Cert.KernelIdeal Cert.KernelIdeal.Gen
open Idealize.ShloMosaic Idealize.ShloMosaic.TcCoe Idealize.ShloMosaic.ValueIdx
open Idealize.SL Idealize.SL.Sem
open Cert.KernelIdeal.Whole

variable (m : (ℓ : Loc nD τ sig) → Buf (Elt Ideal) ℓ) (ρ : Dev nD → PrngReg)

/-- The reference's first dense layer is the dense-layer function of the same arguments: relu (x · Wᵀ + b), W transposed and the bias viewed as a row. -/
theorem linear16_ref (x0 : (⟨S100000x16, .f32⟩ : BufTy).Contents (Elt Ideal)) (x7 : (⟨S256x16, .f32⟩ : BufTy).Contents (Elt Ideal))
    (x8 : (⟨S256, .f32⟩ : BufTy).Contents (Elt Ideal)) :
    linear (M := 100000) (K := 16) x0
        (truncf (F := Ideal) .bf16 (transpose S16x256 [1, 0] x7 transposes_S256x16_S16x256_1_0) bitsLt_bf16_f32)
        (shapeCast S1x256 x8 shapeCasts_S256_S1x256)
      = Cert.ReferenceIdeal.ReadP.val_main_v5 (F := Ideal) x0 x7 x8 := by
  funext i
  obtain ⟨r, l, rfl⟩ : ∃ (r : Fin 100000) (l : Fin 256), i = ix2 r l := ⟨i 0, i 1, eq_ix2 i⟩
  rw [linear_apply]
  show _ = max (Cert.ReferenceIdeal.ReadP.val_main_v1 (F := Ideal) x0 x7 (ix2 r l) + Cert.ReferenceIdeal.ReadP.val_main_v3 (F := Ideal) x8 (ix2 r l))
      (Cert.ReferenceIdeal.ReadP.val_main_call0_v0 (F := Ideal) (ix2 r l))
  rw [Cert.ReferenceIdeal.ReadP.val_main_v1_apply, Cert.ReferenceIdeal.ReadP.val_main_v3_apply, Cert.ReferenceIdeal.ReadP.val_main_v2_apply, Cert.ReferenceIdeal.ReadP.val_main_call0_v0_apply]
  show _ = max (_ + _) (Ideal.ofBits .f32 0x00000000#32)
  rw [Ideal.ofBits_zero_f32]
  refine congrArg₂ (fun a b => max (a + b) 0) (Finset.sum_congr rfl fun k _ => ?_) ?_
  · rw [Cert.ReferenceIdeal.ReadP.val_main_v0_apply]
    refine congrArg₂ (fun a b => a * b) (congrArg x0 ?_) ((Glue.projT16 x7 k l).trans (congrArg x7 ?_))
    · funext a
      match a with
      | ⟨0, _⟩ => rfl
      | ⟨1, _⟩ => rfl
    · funext a
      match a with
      | ⟨0, _⟩ => rfl
      | ⟨1, _⟩ => rfl
  · refine (Glue.row_cast x8 l).trans (congrArg x8 ?_)
    funext a
    match a with
    | ⟨0, _⟩ => rfl

/-- The reference's second dense layer likewise, over 300000 rows of 32 columns. -/
theorem linear32_ref (x1 : (⟨S300000x32, .f32⟩ : BufTy).Contents (Elt Ideal)) (x9 : (⟨S256x32, .f32⟩ : BufTy).Contents (Elt Ideal))
    (x10 : (⟨S256, .f32⟩ : BufTy).Contents (Elt Ideal)) :
    linear (M := 300000) (K := 32) x1
        (truncf (F := Ideal) .bf16 (transpose S32x256 [1, 0] x9 transposes_S256x32_S32x256_1_0) bitsLt_bf16_f32)
        (shapeCast S1x256 x10 shapeCasts_S256_S1x256)
      = Cert.ReferenceIdeal.ReadP.val_main_v11 (F := Ideal) x1 x9 x10 := by
  funext i
  obtain ⟨r, l, rfl⟩ : ∃ (r : Fin 300000) (l : Fin 256), i = ix2 r l := ⟨i 0, i 1, eq_ix2 i⟩
  rw [linear_apply]
  show _ = max (Cert.ReferenceIdeal.ReadP.val_main_v7 (F := Ideal) x1 x9 (ix2 r l) + Cert.ReferenceIdeal.ReadP.val_main_v9 (F := Ideal) x10 (ix2 r l))
      (Cert.ReferenceIdeal.ReadP.val_main_call1_v0 (F := Ideal) (ix2 r l))
  rw [Cert.ReferenceIdeal.ReadP.val_main_v7_apply, Cert.ReferenceIdeal.ReadP.val_main_v9_apply, Cert.ReferenceIdeal.ReadP.val_main_v8_apply, Cert.ReferenceIdeal.ReadP.val_main_call1_v0_apply]
  show _ = max (_ + _) (Ideal.ofBits .f32 0x00000000#32)
  rw [Ideal.ofBits_zero_f32]
  refine congrArg₂ (fun a b => max (a + b) 0) (Finset.sum_congr rfl fun k _ => ?_) ?_
  · rw [Cert.ReferenceIdeal.ReadP.val_main_v6_apply]
    refine congrArg₂ (fun a b => a * b) (congrArg x1 ?_) ((Glue.projT32 x9 k l).trans (congrArg x9 ?_))
    · funext a
      match a with
      | ⟨0, _⟩ => rfl
      | ⟨1, _⟩ => rfl
    · funext a
      match a with
      | ⟨0, _⟩ => rfl
      | ⟨1, _⟩ => rfl
  · refine (Glue.row_cast x10 l).trans (congrArg x10 ?_)
    funext a
    match a with
    | ⟨0, _⟩ => rfl

/-- The first region's output array is the reference's first dense layer of the arguments. -/
theorem acc0 (c : Dev nD) :
    W2 m ρ c (Proc.devRef .tc main_v3)
      = Cert.ReferenceIdeal.ReadP.val_main_v5 (F := Ideal) (m ((c : Thread nD τ).loc main_arg0)) (m ((c : Thread nD τ).loc main_arg7))
          (m ((c : Thread nD τ).loc main_arg8)) := by
  rw [Regions.reg0 m ρ c, Pass.p1_main_arg0 m ρ c, Reads.rd_main_v1 m ρ c, Reads.rd_main_v2 m ρ c]
  exact linear16_ref _ _ _

/-- The second region's output array is the reference's second dense layer of the arguments. -/
theorem tx0 (c : Dev nD) :
    W4 m ρ c (Proc.devRef .tc main_v7)
      = Cert.ReferenceIdeal.ReadP.val_main_v11 (F := Ideal) (m ((c : Thread nD τ).loc main_arg1)) (m ((c : Thread nD τ).loc main_arg9))
          (m ((c : Thread nD τ).loc main_arg10)) := by
  rw [Regions.reg1 m ρ c, Pass.p3_main_arg1 m ρ c, Reads.rd_main_v5 m ρ c, Reads.rd_main_v6 m ρ c]
  exact linear32_ref _ _ _

/-- A sum over 544 columns splits into the sums over columns [0, 256), [256, 512) and [512, 544). -/
theorem sum544 (f : Fin 544 → EReal) :
    ∑ k : Fin 544, f k
      = (∑ k : Fin 256, f ⟨k.val, by omega⟩ + ∑ k : Fin 256, f ⟨256 + k.val, by omega⟩)
        + ∑ k : Fin 32, f ⟨512 + k.val, by omega⟩ := by
  have h1 := Fin.sum_univ_add (a := 512) (b := 32) (fun i : Fin (512 + 32) => f i)
  have h2 := Fin.sum_univ_add (a := 256) (b := 256) (fun i : Fin (256 + 256) => f (Fin.castAdd 32 i))
  exact h1.trans (congrArg₂ (fun a b => a + b) h2 rfl)

section Cat
variable (Y1 Y2 : (⟨Cert.ReferenceIdeal.S300000x256, .f32⟩ : BufTy).Contents (Elt Ideal)) (Y3 : (⟨Cert.ReferenceIdeal.S300000x32, .f32⟩ : BufTy).Contents (Elt Ideal))
  (h : Shape.Concatenates (([⟨Cert.ReferenceIdeal.S300000x256, Y1⟩, ⟨Cert.ReferenceIdeal.S300000x256, Y2⟩, ⟨Cert.ReferenceIdeal.S300000x32, Y3⟩] :
      List ((s : Shape) × (s.Idx → Elt Ideal .f32))).map (·.1)) Cert.ReferenceIdeal.S300000x544 1)

/-- Three arrays joined along the columns, read in the first array's columns. -/
theorem cat_left (r : Fin 300000) (k : Fin 256) :
    concatenate Cert.ReferenceIdeal.S300000x544 1 [⟨Cert.ReferenceIdeal.S300000x256, Y1⟩, ⟨Cert.ReferenceIdeal.S300000x256, Y2⟩, ⟨Cert.ReferenceIdeal.S300000x32, Y3⟩] h
        (ix2 r ⟨k.val, by omega⟩) = Y1 (ix2 r k) :=
  concatenate_apply_piece 1 _ h _ 0 (show (0 : Nat) < 3 by omega) Cert.ReferenceIdeal.S300000x256 Y1 rfl rfl 0 rfl (ix2 r k)
    (fun b => match b with
      | ⟨0, _⟩ => fun _ => rfl
      | ⟨1, _⟩ => fun hb => absurd rfl hb)
    (Nat.zero_add _)

/-- … in the second array's columns. -/
theorem cat_mid (r : Fin 300000) (k : Fin 256) :
    concatenate Cert.ReferenceIdeal.S300000x544 1 [⟨Cert.ReferenceIdeal.S300000x256, Y1⟩, ⟨Cert.ReferenceIdeal.S300000x256, Y2⟩, ⟨Cert.ReferenceIdeal.S300000x32, Y3⟩] h
        (ix2 r ⟨256 + k.val, by omega⟩) = Y2 (ix2 r k) :=
  concatenate_apply_piece 1 _ h _ 1 (show (1 : Nat) < 3 by omega) Cert.ReferenceIdeal.S300000x256 Y2 rfl rfl 256 rfl (ix2 r k)
    (fun b => match b with
      | ⟨0, _⟩ => fun _ => rfl
      | ⟨1, _⟩ => fun hb => absurd rfl hb)
    rfl

/-- … in the third array's columns. -/
theorem cat_right (r : Fin 300000) (k : Fin 32) :
    concatenate Cert.ReferenceIdeal.S300000x544 1 [⟨Cert.ReferenceIdeal.S300000x256, Y1⟩, ⟨Cert.ReferenceIdeal.S300000x256, Y2⟩, ⟨Cert.ReferenceIdeal.S300000x32, Y3⟩] h
        (ix2 r ⟨512 + k.val, by omega⟩) = Y3 (ix2 r k) :=
  concatenate_apply_piece 1 _ h _ 2 (show (2 : Nat) < 3 by omega) Cert.ReferenceIdeal.S300000x32 Y3 rfl rfl 512 rfl (ix2 r k)
    (fun b => match b with
      | ⟨0, _⟩ => fun _ => rfl
      | ⟨1, _⟩ => fun hb => absurd rfl hb)
    rfl

end Cat

/-- The reference's last layer at row r: the hidden layer over the 544 joined columns, relu, times the output row,
    summed, plus the output bias. -/
theorem ref_entry (x0 : (⟨Cert.ReferenceIdeal.S100000x16, .f32⟩ : BufTy).Contents (Elt Ideal)) (x1 : (⟨Cert.ReferenceIdeal.S300000x32, .f32⟩ : BufTy).Contents (Elt Ideal)) (x2 : (⟨Cert.ReferenceIdeal.S300000x32, .f32⟩ : BufTy).Contents (Elt Ideal)) (x3 : (⟨Cert.ReferenceIdeal.S2x600000, .i32⟩ : BufTy).Contents (Elt Ideal)) (x4 : (⟨Cert.ReferenceIdeal.S2x600000, .i32⟩ : BufTy).Contents (Elt Ideal)) (x5 : (⟨Cert.ReferenceIdeal.S300000, .i32⟩ : BufTy).Contents (Elt Ideal)) (x6 : (⟨Cert.ReferenceIdeal.S300000, .i32⟩ : BufTy).Contents (Elt Ideal)) (x7 : (⟨Cert.ReferenceIdeal.S256x16, .f32⟩ : BufTy).Contents (Elt Ideal)) (x8 : (⟨Cert.ReferenceIdeal.S256, .f32⟩ : BufTy).Contents (Elt Ideal)) (x9 : (⟨Cert.ReferenceIdeal.S256x32, .f32⟩ : BufTy).Contents (Elt Ideal)) (x10 : (⟨Cert.ReferenceIdeal.S256, .f32⟩ : BufTy).Contents (Elt Ideal)) (x11 : (⟨Cert.ReferenceIdeal.S2x256x256, .f32⟩ : BufTy).Contents (Elt Ideal)) (x12 : (⟨Cert.ReferenceIdeal.S2x256, .f32⟩ : BufTy).Contents (Elt Ideal)) (x13 : (⟨Cert.ReferenceIdeal.S2x256x256, .f32⟩ : BufTy).Contents (Elt Ideal)) (x14 : (⟨Cert.ReferenceIdeal.S2x256x256, .f32⟩ : BufTy).Contents (Elt Ideal)) (x15 : (⟨Cert.ReferenceIdeal.S2x256, .f32⟩ : BufTy).Contents (Elt Ideal)) (x16 : (⟨Cert.ReferenceIdeal.S2x256x256, .f32⟩ : BufTy).Contents (Elt Ideal)) (x17 : (⟨Cert.ReferenceIdeal.S2x256, .f32⟩ : BufTy).Contents (Elt Ideal)) (x18 : (⟨Cert.ReferenceIdeal.S2x256, .f32⟩ : BufTy).Contents (Elt Ideal)) (x19 : (⟨Cert.ReferenceIdeal.S2x256, .f32⟩ : BufTy).Contents (Elt Ideal)) (x20 : (⟨Cert.ReferenceIdeal.S2x256, .f32⟩ : BufTy).Contents (Elt Ideal)) (x21 : (⟨Cert.ReferenceIdeal.S256x544, .f32⟩ : BufTy).Contents (Elt Ideal)) (x22 : (⟨Cert.ReferenceIdeal.S256, .f32⟩ : BufTy).Contents (Elt Ideal)) (x23 : (⟨Cert.ReferenceIdeal.S1x256, .f32⟩ : BufTy).Contents (Elt Ideal)) (x24 : (⟨Cert.ReferenceIdeal.S1, .f32⟩ : BufTy).Contents (Elt Ideal)) (r : Fin 300000) :
    Cert.ReferenceIdeal.ReadP.val_main_v274 (F := Ideal) x0 x1 x2 x3 x4 x5 x6 x7 x8 x9 x10 x11 x12 x13 x14 x15 x16 x17 x18 x19 x20 x21 x22 x23 x24 (ix1 r)
      = (∑ l : Fin 256,
            max ((∑ k : Fin 544, Cert.ReferenceIdeal.ReadP.val_main_v262 (F := Ideal) x0 x1 x2 x3 x4 x5 x6 x7 x8 x9 x10 x11 x12 x13 x14 x15 x16 x17 x18 x19 x20 (ix2 r k) * x21 (ix2 l k)) + x22 (ix1 l)) 0
              * x23 (ix2 ⟨0, Nat.one_pos⟩ l))
          + x24 (ix1 ⟨0, Nat.one_pos⟩) := by
  rw [Cert.ReferenceIdeal.ReadP.val_main_v274_apply]
  show Cert.ReferenceIdeal.ReadP.val_main_v270 (F := Ideal) x0 x1 x2 x3 x4 x5 x6 x7 x8 x9 x10 x11 x12 x13 x14 x15 x16 x17 x18 x19 x20 x21 x22 x23 (Cert.ReferenceIdeal.ReadP.idx_main_v274 (ix1 r))
      + Cert.ReferenceIdeal.ReadP.val_main_v272 (F := Ideal) x24 (Cert.ReferenceIdeal.ReadP.idx_main_v274 (ix1 r)) = _
  rw [Cert.ReferenceIdeal.ReadP.val_main_v270_apply, Cert.ReferenceIdeal.ReadP.val_main_v272_apply, Cert.ReferenceIdeal.ReadP.val_main_v271_apply]
  refine congrArg₂ (fun a b => a + b) (Finset.sum_congr rfl fun l _ => ?_) (congrArg x24 ?_)
  · have hj : Cert.ReferenceIdeal.ReadP.lidx_main_v270 (Cert.ReferenceIdeal.ReadP.idx_main_v274 (ix1 r)) l = ix2 r l := by
      funext a
      match a with
      | ⟨0, _⟩ => exact Fin.ext (Nat.div_one _)
      | ⟨1, _⟩ => rfl
    rw [hj, Cert.ReferenceIdeal.ReadP.val_main_v269_apply]
    show max (Cert.ReferenceIdeal.ReadP.val_main_v264 (F := Ideal) x0 x1 x2 x3 x4 x5 x6 x7 x8 x9 x10 x11 x12 x13 x14 x15 x16 x17 x18 x19 x20 x21 (ix2 r l) + Cert.ReferenceIdeal.ReadP.val_main_v266 (F := Ideal) x22 (ix2 r l))
        (Cert.ReferenceIdeal.ReadP.val_main_call6_v0 (F := Ideal) (ix2 r l)) * _ = _
    rw [Cert.ReferenceIdeal.ReadP.val_main_v264_apply, Cert.ReferenceIdeal.ReadP.val_main_v266_apply, Cert.ReferenceIdeal.ReadP.val_main_v265_apply, Cert.ReferenceIdeal.ReadP.val_main_call6_v0_apply]
    show max (_ + _) (Ideal.ofBits .f32 0x00000000#32) * _ = _
    rw [Ideal.ofBits_zero_f32]
    refine congrArg₂ (fun a b => max a 0 * b)
      (congrArg₂ (fun a b => a + b) (Finset.sum_congr rfl fun k _ => ?_) (congrArg x22 ?_)) (congrArg x23 ?_)
    · rw [Cert.ReferenceIdeal.ReadP.val_main_v263_apply]
      refine congrArg₂ (fun a b => a * b) (congrArg (Cert.ReferenceIdeal.ReadP.val_main_v262 (F := Ideal) x0 x1 x2 x3 x4 x5 x6 x7 x8 x9 x10 x11 x12 x13 x14 x15 x16 x17 x18 x19 x20) ?_) (congrArg x21 ?_)
      · funext a
        match a with
        | ⟨0, _⟩ => rfl
        | ⟨1, _⟩ => rfl
      · funext a
        match a with
        | ⟨0, _⟩ => rfl
        | ⟨1, _⟩ => rfl
    · funext a
      match a with
      | ⟨0, _⟩ => rfl
    · funext a
      match a with
      | ⟨0, _⟩ => rfl
      | ⟨1, _⟩ => rfl
  · funext a
    match a with
    | ⟨0, _⟩ => rfl

/-- The kernel program's gathered rows of the last accumulator layer, by the first index vector, are the reference's:
    the same gather of the same array at the same wrapped indices (narrowing the format is the identity). -/
theorem g5 (x0 : (⟨Cert.ReferenceIdeal.S100000x16, .f32⟩ : BufTy).Contents (Elt Ideal)) (x1 : (⟨Cert.ReferenceIdeal.S300000x32, .f32⟩ : BufTy).Contents (Elt Ideal)) (x3 : (⟨Cert.ReferenceIdeal.S2x600000, .i32⟩ : BufTy).Contents (Elt Ideal)) (x4 : (⟨Cert.ReferenceIdeal.S2x600000, .i32⟩ : BufTy).Contents (Elt Ideal)) (x5 : (⟨Cert.ReferenceIdeal.S300000, .i32⟩ : BufTy).Contents (Elt Ideal)) (x7 : (⟨Cert.ReferenceIdeal.S256x16, .f32⟩ : BufTy).Contents (Elt Ideal)) (x8 : (⟨Cert.ReferenceIdeal.S256, .f32⟩ : BufTy).Contents (Elt Ideal)) (x9 : (⟨Cert.ReferenceIdeal.S256x32, .f32⟩ : BufTy).Contents (Elt Ideal)) (x10 : (⟨Cert.ReferenceIdeal.S256, .f32⟩ : BufTy).Contents (Elt Ideal)) (x11 : (⟨Cert.ReferenceIdeal.S2x256x256, .f32⟩ : BufTy).Contents (Elt Ideal)) (x12 : (⟨Cert.ReferenceIdeal.S2x256, .f32⟩ : BufTy).Contents (Elt Ideal)) (x13 : (⟨Cert.ReferenceIdeal.S2x256x256, .f32⟩ : BufTy).Contents (Elt Ideal)) (x14 : (⟨Cert.ReferenceIdeal.S2x256x256, .f32⟩ : BufTy).Contents (Elt Ideal)) (x15 : (⟨Cert.ReferenceIdeal.S2x256, .f32⟩ : BufTy).Contents (Elt Ideal)) (x16 : (⟨Cert.ReferenceIdeal.S2x256x256, .f32⟩ : BufTy).Contents (Elt Ideal)) (x17 : (⟨Cert.ReferenceIdeal.S2x256, .f32⟩ : BufTy).Contents (Elt Ideal)) (x18 : (⟨Cert.ReferenceIdeal.S2x256, .f32⟩ : BufTy).Contents (Elt Ideal)) (x19 : (⟨Cert.ReferenceIdeal.S2x256, .f32⟩ : BufTy).Contents (Elt Ideal)) (x20 : (⟨Cert.ReferenceIdeal.S2x256, .f32⟩ : BufTy).Contents (Elt Ideal)) :
    Host.gather gather_S100000x256_S300000x1_S300000x256_1_0_n_n_0_1_1256 (truncf (F := Ideal) .bf16 (Cert.ReferenceIdeal.ReadP.val_main_v225 (F := Ideal) x0 x1 x3 x4 x7 x8 x9 x10 x11 x12 x13 x14 x15 x16 x17 x18 x19 x20 : (⟨S100000x256, .f32⟩ : BufTy).Contents (Elt Ideal)) bitsLt_bf16_f32) (broadcastInDim S300000x1 ![0] bcast_S300000_S300000x1_0 (select (cmpi .slt (x5 : (⟨S300000, .i32⟩ : BufTy).Contents (Elt Ideal)) (broadcastInDim S300000 ![] bcast_S_S300000 (constantI S_ 32 0#32))) (addi (x5 : (⟨S300000, .i32⟩ : BufTy).Contents (Elt Ideal)) (broadcastInDim S300000 ![] bcast_S_S300000 (constantI S_ 32 100000#32))) (x5 : (⟨S300000, .i32⟩ : BufTy).Contents (Elt Ideal)))) = Cert.ReferenceIdeal.ReadP.val_main_v254 (F := Ideal) x0 x1 x3 x4 x5 x7 x8 x9 x10 x11 x12 x13 x14 x15 x16 x17 x18 x19 x20 := rfl

/-- … and by the second index vector. -/
theorem g6 (x0 : (⟨Cert.ReferenceIdeal.S100000x16, .f32⟩ : BufTy).Contents (Elt Ideal)) (x1 : (⟨Cert.ReferenceIdeal.S300000x32, .f32⟩ : BufTy).Contents (Elt Ideal)) (x3 : (⟨Cert.ReferenceIdeal.S2x600000, .i32⟩ : BufTy).Contents (Elt Ideal)) (x4 : (⟨Cert.ReferenceIdeal.S2x600000, .i32⟩ : BufTy).Contents (Elt Ideal)) (x6 : (⟨Cert.ReferenceIdeal.S300000, .i32⟩ : BufTy).Contents (Elt Ideal)) (x7 : (⟨Cert.ReferenceIdeal.S256x16, .f32⟩ : BufTy).Contents (Elt Ideal)) (x8 : (⟨Cert.ReferenceIdeal.S256, .f32⟩ : BufTy).Contents (Elt Ideal)) (x9 : (⟨Cert.ReferenceIdeal.S256x32, .f32⟩ : BufTy).Contents (Elt Ideal)) (x10 : (⟨Cert.ReferenceIdeal.S256, .f32⟩ : BufTy).Contents (Elt Ideal)) (x11 : (⟨Cert.ReferenceIdeal.S2x256x256, .f32⟩ : BufTy).Contents (Elt Ideal)) (x12 : (⟨Cert.ReferenceIdeal.S2x256, .f32⟩ : BufTy).Contents (Elt Ideal)) (x13 : (⟨Cert.ReferenceIdeal.S2x256x256, .f32⟩ : BufTy).Contents (Elt Ideal)) (x14 : (⟨Cert.ReferenceIdeal.S2x256x256, .f32⟩ : BufTy).Contents (Elt Ideal)) (x15 : (⟨Cert.ReferenceIdeal.S2x256, .f32⟩ : BufTy).Contents (Elt Ideal)) (x16 : (⟨Cert.ReferenceIdeal.S2x256x256, .f32⟩ : BufTy).Contents (Elt Ideal)) (x17 : (⟨Cert.ReferenceIdeal.S2x256, .f32⟩ : BufTy).Contents (Elt Ideal)) (x18 : (⟨Cert.ReferenceIdeal.S2x256, .f32⟩ : BufTy).Contents (Elt Ideal)) (x19 : (⟨Cert.ReferenceIdeal.S2x256, .f32⟩ : BufTy).Contents (Elt Ideal)) (x20 : (⟨Cert.ReferenceIdeal.S2x256, .f32⟩ : BufTy).Contents (Elt Ideal)) :
    Host.gather gather_S100000x256_S300000x1_S300000x256_1_0_n_n_0_1_1256 (truncf (F := Ideal) .bf16 (Cert.ReferenceIdeal.ReadP.val_main_v225 (F := Ideal) x0 x1 x3 x4 x7 x8 x9 x10 x11 x12 x13 x14 x15 x16 x17 x18 x19 x20 : (⟨S100000x256, .f32⟩ : BufTy).Contents (Elt Ideal)) bitsLt_bf16_f32) (broadcastInDim S300000x1 ![0] bcast_S300000_S300000x1_0 (select (cmpi .slt (x6 : (⟨S300000, .i32⟩ : BufTy).Contents (Elt Ideal)) (broadcastInDim S300000 ![] bcast_S_S300000 (constantI S_ 32 0#32))) (addi (x6 : (⟨S300000, .i32⟩ : BufTy).Contents (Elt Ideal)) (broadcastInDim S300000 ![] bcast_S_S300000 (constantI S_ 32 100000#32))) (x6 : (⟨S300000, .i32⟩ : BufTy).Contents (Elt Ideal)))) = Cert.ReferenceIdeal.ReadP.val_main_v261 (F := Ideal) x0 x1 x3 x4 x6 x7 x8 x9 x10 x11 x12 x13 x14 x15 x16 x17 x18 x19 x20 := rfl

/-- The edge MLP of the gathered rows and the edge features is the reference's last layer: at row r both are the
    hidden layer's relu times the output row, summed, plus the output bias; the reference contracts the three blocks of
    columns of the first weight matrix in one sum over 544 joined columns, the kernel program in three sums. -/
theorem mlp_ref (x0 : (⟨Cert.ReferenceIdeal.S100000x16, .f32⟩ : BufTy).Contents (Elt Ideal)) (x1 : (⟨Cert.ReferenceIdeal.S300000x32, .f32⟩ : BufTy).Contents (Elt Ideal)) (x2 : (⟨Cert.ReferenceIdeal.S300000x32, .f32⟩ : BufTy).Contents (Elt Ideal)) (x3 : (⟨Cert.ReferenceIdeal.S2x600000, .i32⟩ : BufTy).Contents (Elt Ideal)) (x4 : (⟨Cert.ReferenceIdeal.S2x600000, .i32⟩ : BufTy).Contents (Elt Ideal)) (x5 : (⟨Cert.ReferenceIdeal.S300000, .i32⟩ : BufTy).Contents (Elt Ideal)) (x6 : (⟨Cert.ReferenceIdeal.S300000, .i32⟩ : BufTy).Contents (Elt Ideal)) (x7 : (⟨Cert.ReferenceIdeal.S256x16, .f32⟩ : BufTy).Contents (Elt Ideal)) (x8 : (⟨Cert.ReferenceIdeal.S256, .f32⟩ : BufTy).Contents (Elt Ideal)) (x9 : (⟨Cert.ReferenceIdeal.S256x32, .f32⟩ : BufTy).Contents (Elt Ideal)) (x10 : (⟨Cert.ReferenceIdeal.S256, .f32⟩ : BufTy).Contents (Elt Ideal)) (x11 : (⟨Cert.ReferenceIdeal.S2x256x256, .f32⟩ : BufTy).Contents (Elt Ideal)) (x12 : (⟨Cert.ReferenceIdeal.S2x256, .f32⟩ : BufTy).Contents (Elt Ideal)) (x13 : (⟨Cert.ReferenceIdeal.S2x256x256, .f32⟩ : BufTy).Contents (Elt Ideal)) (x14 : (⟨Cert.ReferenceIdeal.S2x256x256, .f32⟩ : BufTy).Contents (Elt Ideal)) (x15 : (⟨Cert.ReferenceIdeal.S2x256, .f32⟩ : BufTy).Contents (Elt Ideal)) (x16 : (⟨Cert.ReferenceIdeal.S2x256x256, .f32⟩ : BufTy).Contents (Elt Ideal)) (x17 : (⟨Cert.ReferenceIdeal.S2x256, .f32⟩ : BufTy).Contents (Elt Ideal)) (x18 : (⟨Cert.ReferenceIdeal.S2x256, .f32⟩ : BufTy).Contents (Elt Ideal)) (x19 : (⟨Cert.ReferenceIdeal.S2x256, .f32⟩ : BufTy).Contents (Elt Ideal)) (x20 : (⟨Cert.ReferenceIdeal.S2x256, .f32⟩ : BufTy).Contents (Elt Ideal)) (x21 : (⟨Cert.ReferenceIdeal.S256x544, .f32⟩ : BufTy).Contents (Elt Ideal)) (x22 : (⟨Cert.ReferenceIdeal.S256, .f32⟩ : BufTy).Contents (Elt Ideal)) (x23 : (⟨Cert.ReferenceIdeal.S1x256, .f32⟩ : BufTy).Contents (Elt Ideal)) (x24 : (⟨Cert.ReferenceIdeal.S1, .f32⟩ : BufTy).Contents (Elt Ideal))
    (HS HR : (⟨Cert.ReferenceIdeal.S300000x256, .f32⟩ : BufTy).Contents (Elt Ideal))
    (hS : HS = Cert.ReferenceIdeal.ReadP.val_main_v254 (F := Ideal) x0 x1 x3 x4 x5 x7 x8 x9 x10 x11 x12 x13 x14 x15 x16 x17 x18 x19 x20) (hR : HR = Cert.ReferenceIdeal.ReadP.val_main_v261 (F := Ideal) x0 x1 x3 x4 x6 x7 x8 x9 x10 x11 x12 x13 x14 x15 x16 x17 x18 x19 x20) :
    shapeCast S300000
        (mlp (M := 300000) HS HR
          (truncf (F := Ideal) .bf16 (x2 : (⟨S300000x32, .f32⟩ : BufTy).Contents (Elt Ideal)) bitsLt_bf16_f32)
          (truncf (F := Ideal) .bf16 (transpose S256x256 [1, 0] (extractStridedSlice S256x256 ![0, 0] (x21 : (⟨S256x544, .f32⟩ : BufTy).Contents (Elt Ideal)) slices_S256x544_S256x256_0_0) transposes_S256x256_S256x256_1_0) bitsLt_bf16_f32)
          (truncf (F := Ideal) .bf16 (transpose S256x256 [1, 0] (extractStridedSlice S256x256 ![0, 256] (x21 : (⟨S256x544, .f32⟩ : BufTy).Contents (Elt Ideal)) slices_S256x544_S256x256_0_256) transposes_S256x256_S256x256_1_0) bitsLt_bf16_f32)
          (truncf (F := Ideal) .bf16 (transpose S32x256 [1, 0] (extractStridedSlice S256x32 ![0, 512] (x21 : (⟨S256x544, .f32⟩ : BufTy).Contents (Elt Ideal)) slices_S256x544_S256x32_0_512) transposes_S256x32_S32x256_1_0) bitsLt_bf16_f32)
          (shapeCast S1x256 (x22 : (⟨S256, .f32⟩ : BufTy).Contents (Elt Ideal)) shapeCasts_S256_S1x256)
          (x23 : (⟨S1x256, .f32⟩ : BufTy).Contents (Elt Ideal))
          (shapeCast S1x1 (x24 : (⟨S1, .f32⟩ : BufTy).Contents (Elt Ideal)) shapeCasts_S1_S1x1)
          : (⟨S300000x1, .f32⟩ : BufTy).Contents (Elt Ideal))
        shapeCasts_S300000x1_S300000
      = Cert.ReferenceIdeal.ReadP.val_main_v274 (F := Ideal) x0 x1 x2 x3 x4 x5 x6 x7 x8 x9 x10 x11 x12 x13 x14 x15 x16 x17 x18 x19 x20 x21 x22 x23 x24 := by
  subst hS hR
  funext i
  obtain ⟨r, rfl⟩ : ∃ r : Fin 300000, i = ix1 r := ⟨i 0, eq_ix1 i⟩
  refine (Glue.out_cast _ r).trans ?_
  rw [mlp_apply, ref_entry]
  refine congrArg₂ (fun a b => a + b) (Finset.sum_congr rfl fun l _ => ?_) (Glue.one_cast x24)
  refine congrArg₂ (fun a b => max a 0 * b) (congrArg₂ (fun a b => a + b) ?_ (Glue.row_cast x22 l)) rfl
  rw [sum544]
  refine congrArg₂ (fun a b => a + b)
    (congrArg₂ (fun a b => a + b) (Finset.sum_congr rfl fun k _ => ?_) (Finset.sum_congr rfl fun k _ => ?_))
    (Finset.sum_congr rfl fun k _ => ?_)
  · exact congrArg₂ (fun a b => a * b)
      (cat_left (Cert.ReferenceIdeal.ReadP.val_main_v254 (F := Ideal) x0 x1 x3 x4 x5 x7 x8 x9 x10 x11 x12 x13 x14 x15 x16 x17 x18 x19 x20) (Cert.ReferenceIdeal.ReadP.val_main_v261 (F := Ideal) x0 x1 x3 x4 x6 x7 x8 x9 x10 x11 x12 x13 x14 x15 x16 x17 x18 x19 x20) x2 _ r k).symm
      (Glue.w1a x21 k l)
  · exact congrArg₂ (fun a b => a * b)
      (cat_mid (Cert.ReferenceIdeal.ReadP.val_main_v254 (F := Ideal) x0 x1 x3 x4 x5 x7 x8 x9 x10 x11 x12 x13 x14 x15 x16 x17 x18 x19 x20) (Cert.ReferenceIdeal.ReadP.val_main_v261 (F := Ideal) x0 x1 x3 x4 x6 x7 x8 x9 x10 x11 x12 x13 x14 x15 x16 x17 x18 x19 x20) x2 _ r k).symm
      (Glue.w1b x21 k l)
  · exact congrArg₂ (fun a b => a * b)
      (cat_right (Cert.ReferenceIdeal.ReadP.val_main_v254 (F := Ideal) x0 x1 x3 x4 x5 x7 x8 x9 x10 x11 x12 x13 x14 x15 x16 x17 x18 x19 x20) (Cert.ReferenceIdeal.ReadP.val_main_v261 (F := Ideal) x0 x1 x3 x4 x6 x7 x8 x9 x10 x11 x12 x13 x14 x15 x16 x17 x18 x19 x20) x2 _ r k).symm
      (Glue.w1c x21 k l)

/-- The kernel program's result array is the reference's, given that the last accumulator layer's array is. -/
theorem result (c : Dev nD)
    (hacc : W12 m ρ c (Proc.devRef .tc main_v180)
      = Cert.ReferenceIdeal.ReadP.val_main_v225 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :
    W15 m ρ c (Proc.devRef .tc main_v209)
      = Cert.ReferenceIdeal.ReadP.val_main_v274 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  rw [Reads.rd_main_v209 m ρ c, Regions.reg6 m ρ c, Reads.rd_main_v188 m ρ c, Reads.rd_main_v195 m ρ c,
    Reads.rd_main_v196 m ρ c, Reads.rd_main_v199 m ρ c, Reads.rd_main_v202 m ρ c, Reads.rd_main_v205 m ρ c,
    Reads.rd_main_v206 m ρ c, Pass.p13_main_arg23 m ρ c, Reads.rd_main_v207 m ρ c, hacc]
  exact mlp_ref _ _ _ _ _ _ _ _ _ _ _ _ _ _ _ _ _ _ _ _ _ _ _ _ _ _ _
    (g5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
    (g6 (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))

end Cert.KernelIdeal.Layers

end
-- ==== Proof.BnLaw.lean ====
import Idealize.ShloMosaic.PureOps.Ideal
import Idealize.ShloMosaic.PureOps.Ideal.Laws
import Mathlib.Data.EReal.Operations
import Mathlib.Analysis.SpecialFunctions.Pow.Real

noncomputable section

namespace Cert.BnLaw

open Idealize.ShloMosaic

/-- Affine normalisation with a finite scale: subtracting a finite mean before scaling equals scaling first and
    adding the finite shift `b - mn * g * r`. The value `v` may be infinite: then both sides are the same infinity
    (or, at scale zero, both are `b`), because every other quantity is a real number. -/
theorem bn_scalar (v : EReal) (mn g r b : ℝ) :
    (v - (mn : EReal)) * ((g : EReal) * (r : EReal)) + (b : EReal)
      = v * ((g : EReal) * (r : EReal)) + ((b : EReal) - ((mn : EReal) * (g : EReal)) * (r : EReal)) := by
  have hc : (g : EReal) * (r : EReal) = ((g * r : ℝ) : EReal) := (EReal.coe_mul g r).symm
  have hs : (b : EReal) - ((mn : EReal) * (g : EReal)) * (r : EReal) = ((b - mn * g * r : ℝ) : EReal) := by
    rw [← EReal.coe_mul, ← EReal.coe_mul, ← EReal.coe_sub]
  rw [hc, hs]
  induction v using EReal.rec with
  | bot =>
    rw [EReal.bot_sub]
    rcases lt_trichotomy (g * r) 0 with h | h | h
    · rw [EReal.bot_mul_coe_of_neg h, EReal.top_add_coe, EReal.top_add_coe]
    · have h0 : mn * g * r = 0 := by rw [mul_assoc, h, mul_zero]
      rw [h, h0, sub_zero]
    · rw [EReal.bot_mul_coe_of_pos h, EReal.bot_add, EReal.bot_add]
  | top =>
    rw [EReal.top_sub_coe]
    rcases lt_trichotomy (g * r) 0 with h | h | h
    · rw [EReal.top_mul_coe_of_neg h, EReal.bot_add, EReal.bot_add]
    · have h0 : mn * g * r = 0 := by rw [mul_assoc, h, mul_zero]
      rw [h, h0, sub_zero]
    · rw [EReal.top_mul_coe_of_pos h, EReal.top_add_coe, EReal.top_add_coe]
  | coe x =>
    rw [← EReal.coe_sub, ← EReal.coe_mul, ← EReal.coe_add, ← EReal.coe_mul, ← EReal.coe_add]
    congr 1
    ring

/-- The pattern `0x3727C5AC` (exponent field `110`, fraction `2606508`) denotes `10995116 · 2⁻⁴⁰`. -/
theorem eps_val : Ideal.ofBits .f32 0x3727C5AC#32 = ((10995116 * (2 : ℝ) ^ (-40 : Int) : ℝ) : EReal) := by
  simp [Ideal.ofBits, Ideal.ieee, -EReal.coe_mul]

/-- The epsilon constant is a positive real number. -/
theorem eps_pos : ∃ e : ℝ, 0 < e ∧ Ideal.ofBits .f32 0x3727C5AC#32 = (e : EReal) :=
  ⟨10995116 * (2 : ℝ) ^ (-40 : Int), by positivity, eps_val⟩

/-- The reciprocal square root of a nonnegative real plus a positive real is a real number. -/
theorem rsqrt_real (x e : ℝ) (hx : 0 ≤ x) (he : 0 < e) :
    ∃ r : ℝ, Ideal.rsqrt ((x : EReal) + (e : EReal)) = (r : EReal) := by
  have hpos : 0 < x + e := by linarith
  refine ⟨(Real.sqrt (x + e))⁻¹, ?_⟩
  rw [← EReal.coe_add, Ideal.rsqrt_coe, if_neg (not_lt.mpr hpos.le), if_neg hpos.ne']

/-- The normalisation law at one entry: with finite `g`, `mn`, `b` and a finite nonnegative `var`, the reference's
    `(v - mn) * (g * rsqrt (var + eps)) + b` equals `v * scale + shift` with the precomputed scale and shift. -/
theorem bn_entry (v g mn b var : EReal) (hg : ∃ r : ℝ, g = r) (hm : ∃ r : ℝ, mn = r) (hb : ∃ r : ℝ, b = r)
    (hv : ∃ r : ℝ, 0 ≤ r ∧ var = r) :
    (v - mn) * (g * Ideal.rsqrt (var + Ideal.ofBits .f32 0x3727C5AC#32)) + b
      = v * (g * Ideal.rsqrt (var + Ideal.ofBits .f32 0x3727C5AC#32))
        + (b - (mn * g) * Ideal.rsqrt (var + Ideal.ofBits .f32 0x3727C5AC#32)) := by
  obtain ⟨g, rfl⟩ := hg
  obtain ⟨mn, rfl⟩ := hm
  obtain ⟨b, rfl⟩ := hb
  obtain ⟨x, hx, rfl⟩ := hv
  obtain ⟨e, he, hE⟩ := eps_pos
  obtain ⟨r, hr⟩ := rsqrt_real x e hx he
  rw [hE, hr]
  exact bn_scalar v mn g r b

/-- The same law in the words of the float operations at the ideal values (each unfolds by `rfl`). -/
theorem bn_entry_ops (v g mn b var : Ideal .f32) (hg : ∃ r : ℝ, g = r) (hm : ∃ r : ℝ, mn = r) (hb : ∃ r : ℝ, b = r)
    (hv : ∃ r : ℝ, 0 ≤ r ∧ var = r) :
    FloatOps.addf (FloatOps.mulf (FloatOps.subf v mn)
        (FloatOps.mulf g (FloatOps.hostUnary .rsqrt (FloatOps.addf var (FloatOps.ofBits (F := Ideal) .f32 0x3727C5AC#32))))) b
      = FloatOps.addf (FloatOps.mulf v
          (FloatOps.mulf g (FloatOps.hostUnary .rsqrt (FloatOps.addf var (FloatOps.ofBits (F := Ideal) .f32 0x3727C5AC#32)))))
        (FloatOps.subf b (FloatOps.mulf (FloatOps.mulf mn g)
          (FloatOps.hostUnary .rsqrt (FloatOps.addf var (FloatOps.ofBits (F := Ideal) .f32 0x3727C5AC#32))))) :=
  bn_entry v g mn b var hg hm hb hv

end Cert.BnLaw

end
-- ==== Proof.PreFacts.lean ====
import proofs.«149189_j32641751449687_2_alg».proof.Defs
import Idealize.ShloMosaic.Lib.ReduceAll
import Idealize.ShloMosaic.Lib.ValueIdx
import Idealize.ShloMosaic.PureOps.Ideal
import Idealize.ShloMosaic.PureOps.Ideal.Laws

noncomputable section

namespace Cert.PreFacts

open Idealize.ShloMosaic Idealize.SL.Sem
open Cert.Pre_finite_inputs

/-- The rank-0 shape has one index. -/
instance : Subsingleton S_.Idx := ⟨fun a b => funext fun d => d.elim0⟩

/-- The pattern `0x7F800000` denotes `+∞`. -/
theorem ofBits_inf : Ideal.ofBits .f32 0x7F800000#32 = ⊤ := by
  simp [Ideal.ofBits, Ideal.ieee]

/-- The pattern `0x00000000` denotes `0`. -/
theorem ofBits_zero : Ideal.ofBits .f32 0x00000000#32 = 0 := by
  simp [Ideal.ofBits, Ideal.ieee]

theorem ofBool_eq_one (b : Bool) : BitVec.ofBool b = 1#1 ↔ b = true := by cases b <;> decide

/-- An extended real whose absolute value `max x (-x)` is below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  have hlt : max x (-x) < ⊤ := of_decide_eq_true h
  induction x using EReal.rec with
  | bot => exact absurd hlt (by simp)
  | top => exact absurd hlt (by simp)
  | coe r => exact ⟨r, rfl⟩

/-- An extended real at or above the value of the pattern `0` is nonnegative. -/
theorem nonneg_of_oge (x : EReal)
    (h : Ideal.cmp .oge x (Ideal.ofBits .f32 0x00000000#32) = 1#1) : 0 ≤ x := by
  rw [ofBits_zero] at h
  unfold Ideal.cmp at h
  rw [ofBool_eq_one] at h
  exact of_decide_eq_true h

section Split

variable [Cert.Pre_finite_inputs.Facts]

/-- The predicate at arbitrary arguments, decoded for the four arrays the normalisation reads: each of the first
    three is entrywise real, and the fourth is entrywise real and nonnegative. The predicate is a left-nested
    conjunction of twenty-two reductions by `and`; it is split once, and each reduction gives its comparison at
    every index. -/
theorem fn_bn (a0 : FVec Ideal S100000x16 .f32) (a1 : FVec Ideal S300000x32 .f32) (a2 : FVec Ideal S300000x32 .f32) (a3 : IVec S2x600000 32) (a4 : IVec S2x600000 32) (a5 : IVec S300000 32) (a6 : IVec S300000 32) (a7 : FVec Ideal S256x16 .f32) (a8 : FVec Ideal S256 .f32) (a9 : FVec Ideal S256x32 .f32) (a10 : FVec Ideal S256 .f32) (a11 : FVec Ideal S2x256x256 .f32) (a12 : FVec Ideal S2x256 .f32) (a13 : FVec Ideal S2x256x256 .f32) (a14 : FVec Ideal S2x256x256 .f32) (a15 : FVec Ideal S2x256 .f32) (a16 : FVec Ideal S2x256x256 .f32) (a17 : FVec Ideal S2x256 .f32) (a18 : FVec Ideal S2x256 .f32) (a19 : FVec Ideal S2x256 .f32) (a20 : FVec Ideal S2x256 .f32) (a21 : FVec Ideal S256x544 .f32) (a22 : FVec Ideal S256 .f32) (a23 : FVec Ideal S1x256 .f32) (a24 : FVec Ideal S1 .f32)
    (h : Cert.Pre_finite_inputs.fn (F := Ideal) a0 a1 a2 a3 a4 a5 a6 a7 a8 a9 a10 a11 a12 a13 a14 a15 a16 a17 a18 a19 a20 a21 a22 a23 a24 = fun _ => 1#1) :
    (∀ i, ∃ r : ℝ, a17 i = (r : EReal)) ∧ (∀ i, ∃ r : ℝ, a18 i = (r : EReal)) ∧ (∀ i, ∃ r : ℝ, a19 i = (r : EReal))
      ∧ (∀ i, ∃ r : ℝ, 0 ≤ r ∧ a20 i = (r : EReal)) := by
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at e
  dsimp only at e
  simp only [andi, IntOp.andi_eq_one] at e
  obtain ⟨⟨⟨⟨⟨⟨⟨⟨⟨-, h17⟩, h18⟩, h19⟩, h20⟩, -⟩, -⟩, -⟩, -⟩, hge⟩ := e
  have r17 : ∀ i, ∃ r : ℝ, a17 i = (r : EReal) := fun i =>
    real_of_abs_lt (a17 i) (Host.reduce_andi_all _ _ _ _ ValueIdx.ix0 h17 i)
  have r18 : ∀ i, ∃ r : ℝ, a18 i = (r : EReal) := fun i =>
    real_of_abs_lt (a18 i) (Host.reduce_andi_all _ _ _ _ ValueIdx.ix0 h18 i)
  have r19 : ∀ i, ∃ r : ℝ, a19 i = (r : EReal) := fun i =>
    real_of_abs_lt (a19 i) (Host.reduce_andi_all _ _ _ _ ValueIdx.ix0 h19 i)
  have r20 : ∀ i, ∃ r : ℝ, a20 i = (r : EReal) := fun i =>
    real_of_abs_lt (a20 i) (Host.reduce_andi_all _ _ _ _ ValueIdx.ix0 h20 i)
  refine ⟨r17, r18, r19, fun i => ?_⟩
  obtain ⟨r, hr⟩ := r20 i
  have h0 : 0 ≤ a20 i := nonneg_of_oge (a20 i) (Host.reduce_andi_all _ _ _ _ ValueIdx.ix0 hge i)
  refine ⟨r, ?_, hr⟩
  rw [hr] at h0
  exact EReal.coe_nonneg.mp h0

end Split

/-- From the precondition of the launch memory to the entrywise facts about the four normalisation arrays:
    gamma, beta and mean are entrywise real, and the variance is entrywise real and nonnegative. -/
theorem bn_inputs [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
      (∀ i, ∃ r : ℝ, (m ((c.tc : Thread Cert.KernelIdeal.nD Cert.KernelIdeal.τ).loc Cert.KernelIdeal.main_arg17)) i = (r : EReal))
    ∧ (∀ i, ∃ r : ℝ, (m ((c.tc : Thread Cert.KernelIdeal.nD Cert.KernelIdeal.τ).loc Cert.KernelIdeal.main_arg18)) i = (r : EReal))
    ∧ (∀ i, ∃ r : ℝ, (m ((c.tc : Thread Cert.KernelIdeal.nD Cert.KernelIdeal.τ).loc Cert.KernelIdeal.main_arg19)) i = (r : EReal))
    ∧ (∀ i, ∃ r : ℝ, 0 ≤ r ∧ (m ((c.tc : Thread Cert.KernelIdeal.nD Cert.KernelIdeal.τ).loc Cert.KernelIdeal.main_arg20)) i = (r : EReal)) :=
  fn_bn _ _ _ _ _ _ _ _ _ _ _ _ _ _ _ _ _ _ _ _ _ _ _ _ _ (hpre c)

/-- The same facts at explicit coordinates `(p, l)` of the `2 × 256` arrays. -/
theorem bn_inputs_ix [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (p : Fin 2) (l : Fin 256) :
      (∃ r : ℝ, (m ((c.tc : Thread Cert.KernelIdeal.nD Cert.KernelIdeal.τ).loc Cert.KernelIdeal.main_arg17)) (ValueIdx.ix2 p l) = (r : EReal))
    ∧ (∃ r : ℝ, (m ((c.tc : Thread Cert.KernelIdeal.nD Cert.KernelIdeal.τ).loc Cert.KernelIdeal.main_arg18)) (ValueIdx.ix2 p l) = (r : EReal))
    ∧ (∃ r : ℝ, (m ((c.tc : Thread Cert.KernelIdeal.nD Cert.KernelIdeal.τ).loc Cert.KernelIdeal.main_arg19)) (ValueIdx.ix2 p l) = (r : EReal))
    ∧ (∃ r : ℝ, 0 ≤ r ∧ (m ((c.tc : Thread Cert.KernelIdeal.nD Cert.KernelIdeal.τ).loc Cert.KernelIdeal.main_arg20)) (ValueIdx.ix2 p l) = (r : EReal)) :=
  have h := bn_inputs m hpre c
  ⟨h.1 _, h.2.1 _, h.2.2.1 _, h.2.2.2 _⟩

end Cert.PreFacts

end
-- ==== Proof.RefEntries.lean ====
import proofs.«149189_j32641751449687_2_alg».proof.Proof.RefRead
import Idealize.ShloMosaic.Lib.ValueIdx
import Idealize.ShloMosaic.PureOps.Ideal.Laws

noncomputable section

namespace Cert.ReferenceIdeal.Entries

open Cert.ReferenceIdeal Cert.ReferenceIdeal.ReadP Idealize.ShloMosaic Idealize.ShloMosaic.ValueIdx

/-! ## The three aggregation layers with their normalisation -/

/-! ### The layer whose output is `v129` -/

theorem ix_v127 (r : Fin 300000) (l : Fin 256) : idx_main_v126 (idx_main_v127 (ix2 r l)) = ix1 l := by
  funext a
  match a with
  | ⟨0, _⟩ => rfl
theorem ix_v124 (r : Fin 300000) (l : Fin 256) : idx_main_v123 (idx_main_v124 (ix2 r l)) = ix1 l := by
  funext a
  match a with
  | ⟨0, _⟩ => rfl
theorem ix_v117 (r : Fin 300000) (l : Fin 256) : idx_main_v116 (idx_main_v117 (ix2 r l)) = ix1 l := by
  funext a
  match a with
  | ⟨0, _⟩ => rfl
theorem ix_v44 (r : Fin 300000) (l : Fin 256) : idx_main_v43 (idx_main_v44 (ix2 r l)) = ix1 l := by
  funext a
  match a with
  | ⟨0, _⟩ => rfl
theorem ix_v47_l (r : Fin 300000) (l : Fin 256) (k : Fin 256) : lidx_main_v47 (ix2 r l) k = ix2 r k := by
  funext a
  match a with
  | ⟨0, _⟩ => rfl
  | ⟨1, _⟩ => rfl
theorem ix_v47_r (r : Fin 300000) (l : Fin 256) (k : Fin 256) : ridx_main_v47 (ix2 r l) k = ix2 k l := by
  funext a
  match a with
  | ⟨0, _⟩ => rfl
  | ⟨1, _⟩ => rfl
theorem ix_v42_l (r : Fin 300000) (l : Fin 256) (k : Fin 256) : lidx_main_v42 (ix2 r l) k = ix2 r k := by
  funext a
  match a with
  | ⟨0, _⟩ => rfl
  | ⟨1, _⟩ => rfl
theorem ix_v42_r (r : Fin 300000) (l : Fin 256) (k : Fin 256) : ridx_main_v42 (ix2 r l) k = ix2 k l := by
  funext a
  match a with
  | ⟨0, _⟩ => rfl
  | ⟨1, _⟩ => rfl
theorem ix_v39 (r : Fin 300000) (k : Fin 256) : idx_main_v38 (idx_main_v39 (ix2 r k)) = ix1 r := by
  funext a
  match a with
  | ⟨0, _⟩ => rfl
/-- The layer at an entry, its operands the reference's own intermediates at an entry: the mean aggregation
    (`v31` over `max v35 1`) against the transposed weight `v41`, the bias `v15`, the destination
    features `v11` against `v46`, then the normalisation with mean `v113`, scale `v122` and shift
    `v111`, then the maximum with zero. -/
theorem sage_apply_v129 (x0 : (⟨S100000x16, .f32⟩ : BufTy).Contents (Elt Ideal)) (x1 : (⟨S300000x32, .f32⟩ : BufTy).Contents (Elt Ideal)) (x3 : (⟨S2x600000, .i32⟩ : BufTy).Contents (Elt Ideal)) (x7 : (⟨S256x16, .f32⟩ : BufTy).Contents (Elt Ideal)) (x8 : (⟨S256, .f32⟩ : BufTy).Contents (Elt Ideal)) (x9 : (⟨S256x32, .f32⟩ : BufTy).Contents (Elt Ideal)) (x10 : (⟨S256, .f32⟩ : BufTy).Contents (Elt Ideal)) (x11 : (⟨S2x256x256, .f32⟩ : BufTy).Contents (Elt Ideal)) (x12 : (⟨S2x256, .f32⟩ : BufTy).Contents (Elt Ideal)) (x13 : (⟨S2x256x256, .f32⟩ : BufTy).Contents (Elt Ideal)) (x17 x18 x19 x20 : (⟨S2x256, .f32⟩ : BufTy).Contents (Elt Ideal)) (r : Fin 300000) (l : Fin 256) :
    val_main_v129 (F := Ideal) x0 x1 x3 x7 x8 x9 x10 x11 x12 x13 x17 x18 x19 x20 (ix2 r l)
      = max (((((∑ k : Fin 256, Ideal.div (val_main_v31 (F := Ideal) x0 x3 x7 x8 (ix2 r k))
                    (max (val_main_v35 (F := Ideal) x3 (ix1 r)) (Ideal.ofBits .f32 0x3F800000#32)) * val_main_v41 (F := Ideal) x11 (ix2 k l))
                + val_main_v15 (F := Ideal) x12 (ix1 l))
              + ∑ k : Fin 256, val_main_v11 (F := Ideal) x1 x9 x10 (ix2 r k) * val_main_v46 (F := Ideal) x13 (ix2 k l))
            - val_main_v113 (F := Ideal) x19 (ix1 l)) * val_main_v122 (F := Ideal) x17 x20 (ix1 l) + val_main_v111 (F := Ideal) x18 (ix1 l)) 0 := by
  simp only [val_main_v129_apply, val_main_v128_apply, val_main_v127_apply, val_main_v126_apply, val_main_v125_apply, val_main_v124_apply, val_main_v123_apply, val_main_v118_apply, val_main_v117_apply, val_main_v116_apply, val_main_v48_apply, val_main_v47_apply, val_main_v45_apply, val_main_v44_apply, val_main_v43_apply, val_main_v42_apply, val_main_v40_apply, val_main_v39_apply, val_main_v38_apply, val_main_v37_apply, val_main_v36_apply, val_main_cst_3_apply, val_main_call3_v0_apply, val_main_call3_cst_apply,
    ix_v127, ix_v124, ix_v117, ix_v44, ix_v47_l, ix_v47_r, ix_v42_l, ix_v42_r, ix_v39,
    Ideal.maximumf_def, Ideal.addf_def, Ideal.subf_def, Ideal.mulf_def, Ideal.hostDivf_def, Ideal.ofBits_def,
    Ideal.ofBits_zero_f32]

/-! ### The layer whose output is `v107` -/

theorem ix_v105 (r : Fin 100000) (l : Fin 256) : idx_main_v104 (idx_main_v105 (ix2 r l)) = ix1 l := by
  funext a
  match a with
  | ⟨0, _⟩ => rfl
theorem ix_v102 (r : Fin 100000) (l : Fin 256) : idx_main_v101 (idx_main_v102 (ix2 r l)) = ix1 l := by
  funext a
  match a with
  | ⟨0, _⟩ => rfl
theorem ix_v95 (r : Fin 100000) (l : Fin 256) : idx_main_v94 (idx_main_v95 (ix2 r l)) = ix1 l := by
  funext a
  match a with
  | ⟨0, _⟩ => rfl
theorem ix_v81 (r : Fin 100000) (l : Fin 256) : idx_main_v80 (idx_main_v81 (ix2 r l)) = ix1 l := by
  funext a
  match a with
  | ⟨0, _⟩ => rfl
theorem ix_v84_l (r : Fin 100000) (l : Fin 256) (k : Fin 256) : lidx_main_v84 (ix2 r l) k = ix2 r k := by
  funext a
  match a with
  | ⟨0, _⟩ => rfl
  | ⟨1, _⟩ => rfl
theorem ix_v84_r (r : Fin 100000) (l : Fin 256) (k : Fin 256) : ridx_main_v84 (ix2 r l) k = ix2 k l := by
  funext a
  match a with
  | ⟨0, _⟩ => rfl
  | ⟨1, _⟩ => rfl
theorem ix_v79_l (r : Fin 100000) (l : Fin 256) (k : Fin 256) : lidx_main_v79 (ix2 r l) k = ix2 r k := by
  funext a
  match a with
  | ⟨0, _⟩ => rfl
  | ⟨1, _⟩ => rfl
theorem ix_v79_r (r : Fin 100000) (l : Fin 256) (k : Fin 256) : ridx_main_v79 (ix2 r l) k = ix2 k l := by
  funext a
  match a with
  | ⟨0, _⟩ => rfl
  | ⟨1, _⟩ => rfl
theorem ix_v76 (r : Fin 100000) (k : Fin 256) : idx_main_v75 (idx_main_v76 (ix2 r k)) = ix1 r := by
  funext a
  match a with
  | ⟨0, _⟩ => rfl
/-- The layer at an entry, its operands the reference's own intermediates at an entry: the mean aggregation
    (`v68` over `max v72 1`) against the transposed weight `v78`, the bias `v52`, the destination
    features `v5` against `v83`, then the normalisation with mean `v91`, scale `v100` and shift
    `v89`, then the maximum with zero. -/
theorem sage_apply_v107 (x0 : (⟨S100000x16, .f32⟩ : BufTy).Contents (Elt Ideal)) (x1 : (⟨S300000x32, .f32⟩ : BufTy).Contents (Elt Ideal)) (x4 : (⟨S2x600000, .i32⟩ : BufTy).Contents (Elt Ideal)) (x7 : (⟨S256x16, .f32⟩ : BufTy).Contents (Elt Ideal)) (x8 : (⟨S256, .f32⟩ : BufTy).Contents (Elt Ideal)) (x9 : (⟨S256x32, .f32⟩ : BufTy).Contents (Elt Ideal)) (x10 : (⟨S256, .f32⟩ : BufTy).Contents (Elt Ideal)) (x14 : (⟨S2x256x256, .f32⟩ : BufTy).Contents (Elt Ideal)) (x15 : (⟨S2x256, .f32⟩ : BufTy).Contents (Elt Ideal)) (x16 : (⟨S2x256x256, .f32⟩ : BufTy).Contents (Elt Ideal)) (x17 x18 x19 x20 : (⟨S2x256, .f32⟩ : BufTy).Contents (Elt Ideal)) (r : Fin 100000) (l : Fin 256) :
    val_main_v107 (F := Ideal) x0 x1 x4 x7 x8 x9 x10 x14 x15 x16 x17 x18 x19 x20 (ix2 r l)
      = max (((((∑ k : Fin 256, Ideal.div (val_main_v68 (F := Ideal) x1 x4 x9 x10 (ix2 r k))
                    (max (val_main_v72 (F := Ideal) x4 (ix1 r)) (Ideal.ofBits .f32 0x3F800000#32)) * val_main_v78 (F := Ideal) x14 (ix2 k l))
                + val_main_v52 (F := Ideal) x15 (ix1 l))
              + ∑ k : Fin 256, val_main_v5 (F := Ideal) x0 x7 x8 (ix2 r k) * val_main_v83 (F := Ideal) x16 (ix2 k l))
            - val_main_v91 (F := Ideal) x19 (ix1 l)) * val_main_v100 (F := Ideal) x17 x20 (ix1 l) + val_main_v89 (F := Ideal) x18 (ix1 l)) 0 := by
  simp only [val_main_v107_apply, val_main_v106_apply, val_main_v105_apply, val_main_v104_apply, val_main_v103_apply, val_main_v102_apply, val_main_v101_apply, val_main_v96_apply, val_main_v95_apply, val_main_v94_apply, val_main_v85_apply, val_main_v84_apply, val_main_v82_apply, val_main_v81_apply, val_main_v80_apply, val_main_v79_apply, val_main_v77_apply, val_main_v76_apply, val_main_v75_apply, val_main_v74_apply, val_main_v73_apply, val_main_cst_9_apply, val_main_call2_v0_apply, val_main_call2_cst_apply,
    ix_v105, ix_v102, ix_v95, ix_v81, ix_v84_l, ix_v84_r, ix_v79_l, ix_v79_r, ix_v76,
    Ideal.maximumf_def, Ideal.addf_def, Ideal.subf_def, Ideal.mulf_def, Ideal.hostDivf_def, Ideal.ofBits_def,
    Ideal.ofBits_zero_f32]

/-! ### The layer whose output is `v225` -/

theorem ix_v223 (r : Fin 100000) (l : Fin 256) : idx_main_v222 (idx_main_v223 (ix2 r l)) = ix1 l := by
  funext a
  match a with
  | ⟨0, _⟩ => rfl
theorem ix_v220 (r : Fin 100000) (l : Fin 256) : idx_main_v219 (idx_main_v220 (ix2 r l)) = ix1 l := by
  funext a
  match a with
  | ⟨0, _⟩ => rfl
theorem ix_v213 (r : Fin 100000) (l : Fin 256) : idx_main_v212 (idx_main_v213 (ix2 r l)) = ix1 l := by
  funext a
  match a with
  | ⟨0, _⟩ => rfl
theorem ix_v199 (r : Fin 100000) (l : Fin 256) : idx_main_v198 (idx_main_v199 (ix2 r l)) = ix1 l := by
  funext a
  match a with
  | ⟨0, _⟩ => rfl
theorem ix_v202_l (r : Fin 100000) (l : Fin 256) (k : Fin 256) : lidx_main_v202 (ix2 r l) k = ix2 r k := by
  funext a
  match a with
  | ⟨0, _⟩ => rfl
  | ⟨1, _⟩ => rfl
theorem ix_v202_r (r : Fin 100000) (l : Fin 256) (k : Fin 256) : ridx_main_v202 (ix2 r l) k = ix2 k l := by
  funext a
  match a with
  | ⟨0, _⟩ => rfl
  | ⟨1, _⟩ => rfl
theorem ix_v197_l (r : Fin 100000) (l : Fin 256) (k : Fin 256) : lidx_main_v197 (ix2 r l) k = ix2 r k := by
  funext a
  match a with
  | ⟨0, _⟩ => rfl
  | ⟨1, _⟩ => rfl
theorem ix_v197_r (r : Fin 100000) (l : Fin 256) (k : Fin 256) : ridx_main_v197 (ix2 r l) k = ix2 k l := by
  funext a
  match a with
  | ⟨0, _⟩ => rfl
  | ⟨1, _⟩ => rfl
theorem ix_v194 (r : Fin 100000) (k : Fin 256) : idx_main_v193 (idx_main_v194 (ix2 r k)) = ix1 r := by
  funext a
  match a with
  | ⟨0, _⟩ => rfl
/-- The layer at an entry, its operands the reference's own intermediates at an entry: the mean aggregation
    (`v186` over `max v190 1`) against the transposed weight `v196`, the bias `v170`, the destination
    features `v107` against `v201`, then the normalisation with mean `v209`, scale `v218` and shift
    `v207`, then the maximum with zero. -/
theorem sage_apply_v225 (x0 : (⟨S100000x16, .f32⟩ : BufTy).Contents (Elt Ideal)) (x1 : (⟨S300000x32, .f32⟩ : BufTy).Contents (Elt Ideal)) (x3 x4 : (⟨S2x600000, .i32⟩ : BufTy).Contents (Elt Ideal)) (x7 : (⟨S256x16, .f32⟩ : BufTy).Contents (Elt Ideal)) (x8 : (⟨S256, .f32⟩ : BufTy).Contents (Elt Ideal)) (x9 : (⟨S256x32, .f32⟩ : BufTy).Contents (Elt Ideal)) (x10 : (⟨S256, .f32⟩ : BufTy).Contents (Elt Ideal)) (x11 : (⟨S2x256x256, .f32⟩ : BufTy).Contents (Elt Ideal)) (x12 : (⟨S2x256, .f32⟩ : BufTy).Contents (Elt Ideal)) (x13 x14 : (⟨S2x256x256, .f32⟩ : BufTy).Contents (Elt Ideal)) (x15 : (⟨S2x256, .f32⟩ : BufTy).Contents (Elt Ideal)) (x16 : (⟨S2x256x256, .f32⟩ : BufTy).Contents (Elt Ideal)) (x17 x18 x19 x20 : (⟨S2x256, .f32⟩ : BufTy).Contents (Elt Ideal)) (r : Fin 100000) (l : Fin 256) :
    val_main_v225 (F := Ideal) x0 x1 x3 x4 x7 x8 x9 x10 x11 x12 x13 x14 x15 x16 x17 x18 x19 x20 (ix2 r l)
      = max (((((∑ k : Fin 256, Ideal.div (val_main_v186 (F := Ideal) x0 x1 x3 x4 x7 x8 x9 x10 x11 x12 x13 x17 x18 x19 x20 (ix2 r k))
                    (max (val_main_v190 (F := Ideal) x4 (ix1 r)) (Ideal.ofBits .f32 0x3F800000#32)) * val_main_v196 (F := Ideal) x14 (ix2 k l))
                + val_main_v170 (F := Ideal) x15 (ix1 l))
              + ∑ k : Fin 256, val_main_v107 (F := Ideal) x0 x1 x4 x7 x8 x9 x10 x14 x15 x16 x17 x18 x19 x20 (ix2 r k) * val_main_v201 (F := Ideal) x16 (ix2 k l))
            - val_main_v209 (F := Ideal) x19 (ix1 l)) * val_main_v218 (F := Ideal) x17 x20 (ix1 l) + val_main_v207 (F := Ideal) x18 (ix1 l)) 0 := by
  simp only [val_main_v225_apply, val_main_v224_apply, val_main_v223_apply, val_main_v222_apply, val_main_v221_apply, val_main_v220_apply, val_main_v219_apply, val_main_v214_apply, val_main_v213_apply, val_main_v212_apply, val_main_v203_apply, val_main_v202_apply, val_main_v200_apply, val_main_v199_apply, val_main_v198_apply, val_main_v197_apply, val_main_v195_apply, val_main_v194_apply, val_main_v193_apply, val_main_v192_apply, val_main_v191_apply, val_main_cst_23_apply, val_main_call4_v0_apply, val_main_call4_cst_apply,
    ix_v223, ix_v220, ix_v213, ix_v199, ix_v202_l, ix_v202_r, ix_v197_l, ix_v197_r, ix_v194,
    Ideal.maximumf_def, Ideal.addf_def, Ideal.subf_def, Ideal.mulf_def, Ideal.hostDivf_def, Ideal.ofBits_def,
    Ideal.ofBits_zero_f32]

end Cert.ReferenceIdeal.Entries

end
-- ==== Proof.Bridge5.lean ====
/-
  Region 2's entry arrays (first layer, transaction rows) as the reference's intermediates. At its entry a SAGE region finds: the neighbour sums (a scatter-add of gathered source rows), the
  neighbour counts as a column, the destination rows, the two transposed weight slices, the bias row, and the
  normalisation's scale row gamma · rsqrt (var + eps) and shift row beta − (mean · gamma) · rsqrt (var + eps). The host
  operations that made them are the reference's own operations on the same arrays (narrowing to a shorter float
  format is the identity on the extended reals), so each entry array IS the reference's corresponding intermediate.
  Entry by entry the region's output is then  max (v · scale + shift) 0  where the reference has
  max ((v − mean) · scale + beta) 0  for the same v; scale is a real number because gamma is finite, var is finite
  and ≥ 0 and eps > 0, so the two agree by distributing scale over v − mean.
-/
import proofs.«149189_j32641751449687_2_alg».proof.Proof.Gen.KernelIdeal.Frame
import Idealize.ShloMosaic.PureOps.Ideal
import Idealize.ShloMosaic.PureOps.Ideal.Laws
import proofs.«149189_j32641751449687_2_alg».proof.Proof.Regions
import proofs.«149189_j32641751449687_2_alg».proof.Proof.Reads
import proofs.«149189_j32641751449687_2_alg».proof.Proof.WholeApply
import proofs.«149189_j32641751449687_2_alg».proof.Proof.GlueEntries
import proofs.«149189_j32641751449687_2_alg».proof.Proof.BnLaw
import proofs.«149189_j32641751449687_2_alg».proof.Proof.PreFacts
import proofs.«149189_j32641751449687_2_alg».proof.Proof.RefRead
set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

open Cert.KernelIdeal.Pass Cert.KernelIdeal.Reads Cert.KernelIdeal.Whole Cert.KernelIdeal.Glue
open Cert.ReferenceIdeal.ReadP Idealize.ShloMosaic.ValueIdx

theorem b5_main_v36 (c : Dev nD) (hacc0 : W2 m ρ c (Proc.devRef .tc main_v3) = val_main_v5 (F := Ideal) (m ((c : Thread nD τ).loc main_arg0)) (m ((c : Thread nD τ).loc main_arg7)) (m ((c : Thread nD τ).loc main_arg8))) :
    W5 m ρ c (Proc.devRef .tc main_v36) = val_main_v31 (F := Ideal) (m ((c : Thread nD τ).loc main_arg0)) (m ((c : Thread nD τ).loc main_arg3)) (m ((c : Thread nD τ).loc main_arg7)) (m ((c : Thread nD τ).loc main_arg8)) := by
  rw [rd_main_v36 m ρ c, hacc0]
  rfl

theorem b5_main_v14 (c : Dev nD) :
    W5 m ρ c (Proc.devRef .tc main_v14) = shapeCast S300000x1 (val_main_v35 (F := Ideal) (m ((c : Thread nD τ).loc main_arg3))) shapeCasts_S300000_S300000x1 := by
  rw [rd_main_v14 m ρ c]
  rfl

theorem b5_main_v7 (c : Dev nD) (htx0 : W4 m ρ c (Proc.devRef .tc main_v7) = val_main_v11 (F := Ideal) (m ((c : Thread nD τ).loc main_arg1)) (m ((c : Thread nD τ).loc main_arg9)) (m ((c : Thread nD τ).loc main_arg10))) :
    W5 m ρ c (Proc.devRef .tc main_v7) = val_main_v11 (F := Ideal) (m ((c : Thread nD τ).loc main_arg1)) (m ((c : Thread nD τ).loc main_arg9)) (m ((c : Thread nD τ).loc main_arg10)) := (p5_main_v7 m ρ c).trans htx0

theorem b5_main_v80 (c : Dev nD) :
    W5 m ρ c (Proc.devRef .tc main_v80) = val_main_v41 (F := Ideal) (m ((c : Thread nD τ).loc main_arg11)) := by
  rw [rd_main_v80 m ρ c]
  rfl

theorem b5_main_v84 (c : Dev nD) :
    W5 m ρ c (Proc.devRef .tc main_v84) = val_main_v46 (F := Ideal) (m ((c : Thread nD τ).loc main_arg13)) := by
  rw [rd_main_v84 m ρ c]
  rfl

theorem b5_main_v87 (c : Dev nD) :
    W5 m ρ c (Proc.devRef .tc main_v87) = shapeCast S1x256 (val_main_v15 (F := Ideal) (m ((c : Thread nD τ).loc main_arg12))) shapeCasts_S256_S1x256 := by
  rw [rd_main_v87 m ρ c]
  rfl

theorem b5_main_v61 (c : Dev nD) :
    W5 m ρ c (Proc.devRef .tc main_v61) = shapeCast S1x256 (val_main_v122 (F := Ideal) (m ((c : Thread nD τ).loc main_arg17)) (m ((c : Thread nD τ).loc main_arg20))) shapeCasts_S256_S1x256 := by
  rw [rd_main_v61 m ρ c]
  rfl

theorem b5_main_v76 (c : Dev nD) :
    W5 m ρ c (Proc.devRef .tc main_v76) = shapeCast S1x256 (subf (F := Ideal) (val_main_v111 (F := Ideal) (m ((c : Thread nD τ).loc main_arg18))) (mulf (F := Ideal) (mulf (F := Ideal) (val_main_v113 (F := Ideal) (m ((c : Thread nD τ).loc main_arg19))) (val_main_v109 (F := Ideal) (m ((c : Thread nD τ).loc main_arg17)))) (Host.rsqrt (F := Ideal) (addf (F := Ideal) (val_main_v115 (F := Ideal) (m ((c : Thread nD τ).loc main_arg20))) (broadcastInDim S256 ![] bcast_S_S256 (constant (F := Ideal) S_ .f32 0x3727C5AC#32)))))) shapeCasts_S256_S1x256 := by
  rw [rd_main_v76 m ρ c]
  rfl

end Cert.KernelIdeal.Bridge

end
-- ==== Proof.Bridge7.lean ====
/-
  Region 3's entry arrays (first layer, account rows) as the reference's intermediates. At its entry a SAGE region finds: the neighbour sums (a scatter-add of gathered source rows), the
  neighbour counts as a column, the destination rows, the two transposed weight slices, the bias row, and the
  normalisation's scale row gamma · rsqrt (var + eps) and shift row beta − (mean · gamma) · rsqrt (var + eps). The host
  operations that made them are the reference's own operations on the same arrays (narrowing to a shorter float
  format is the identity on the extended reals), so each entry array IS the reference's corresponding intermediate.
  Entry by entry the region's output is then  max (v · scale + shift) 0  where the reference has
  max ((v − mean) · scale + beta) 0  for the same v; scale is a real number because gamma is finite, var is finite
  and ≥ 0 and eps > 0, so the two agree by distributing scale over v − mean.
-/
import proofs.«149189_j32641751449687_2_alg».proof.Proof.Gen.KernelIdeal.Frame
import Idealize.ShloMosaic.PureOps.Ideal
import Idealize.ShloMosaic.PureOps.Ideal.Laws
import proofs.«149189_j32641751449687_2_alg».proof.Proof.Regions
import proofs.«149189_j32641751449687_2_alg».proof.Proof.Reads
import proofs.«149189_j32641751449687_2_alg».proof.Proof.WholeApply
import proofs.«149189_j32641751449687_2_alg».proof.Proof.GlueEntries
import proofs.«149189_j32641751449687_2_alg».proof.Proof.BnLaw
import proofs.«149189_j32641751449687_2_alg».proof.Proof.PreFacts
import proofs.«149189_j32641751449687_2_alg».proof.Proof.RefRead
set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

open Cert.KernelIdeal.Pass Cert.KernelIdeal.Reads Cert.KernelIdeal.Whole Cert.KernelIdeal.Glue
open Cert.ReferenceIdeal.ReadP Idealize.ShloMosaic.ValueIdx

theorem b7_main_v52 (c : Dev nD) (htx0 : W4 m ρ c (Proc.devRef .tc main_v7) = val_main_v11 (F := Ideal) (m ((c : Thread nD τ).loc main_arg1)) (m ((c : Thread nD τ).loc main_arg9)) (m ((c : Thread nD τ).loc main_arg10))) :
    W7 m ρ c (Proc.devRef .tc main_v52) = val_main_v68 (F := Ideal) (m ((c : Thread nD τ).loc main_arg1)) (m ((c : Thread nD τ).loc main_arg4)) (m ((c : Thread nD τ).loc main_arg9)) (m ((c : Thread nD τ).loc main_arg10)) := by
  rw [p7_main_v52 m ρ c, rd_main_v52 m ρ c, htx0]
  rfl

theorem b7_main_v20 (c : Dev nD) :
    W7 m ρ c (Proc.devRef .tc main_v20) = shapeCast S100000x1 (val_main_v72 (F := Ideal) (m ((c : Thread nD τ).loc main_arg4))) shapeCasts_S100000_S100000x1 := by
  rw [p7_main_v20 m ρ c, rd_main_v20 m ρ c]
  rfl

theorem b7_main_v3 (c : Dev nD) (hacc0 : W2 m ρ c (Proc.devRef .tc main_v3) = val_main_v5 (F := Ideal) (m ((c : Thread nD τ).loc main_arg0)) (m ((c : Thread nD τ).loc main_arg7)) (m ((c : Thread nD τ).loc main_arg8))) :
    W7 m ρ c (Proc.devRef .tc main_v3) = val_main_v5 (F := Ideal) (m ((c : Thread nD τ).loc main_arg0)) (m ((c : Thread nD τ).loc main_arg7)) (m ((c : Thread nD τ).loc main_arg8)) := (p7_main_v3 m ρ c).trans hacc0

theorem b7_main_v92 (c : Dev nD) :
    W7 m ρ c (Proc.devRef .tc main_v92) = val_main_v78 (F := Ideal) (m ((c : Thread nD τ).loc main_arg14)) := by
  rw [rd_main_v92 m ρ c]
  rfl

theorem b7_main_v96 (c : Dev nD) :
    W7 m ρ c (Proc.devRef .tc main_v96) = val_main_v83 (F := Ideal) (m ((c : Thread nD τ).loc main_arg16)) := by
  rw [rd_main_v96 m ρ c]
  rfl

theorem b7_main_v99 (c : Dev nD) :
    W7 m ρ c (Proc.devRef .tc main_v99) = shapeCast S1x256 (val_main_v52 (F := Ideal) (m ((c : Thread nD τ).loc main_arg15))) shapeCasts_S256_S1x256 := by
  rw [rd_main_v99 m ρ c]
  rfl

theorem b7_main_v61 (c : Dev nD) :
    W7 m ρ c (Proc.devRef .tc main_v61) = shapeCast S1x256 (val_main_v100 (F := Ideal) (m ((c : Thread nD τ).loc main_arg17)) (m ((c : Thread nD τ).loc main_arg20))) shapeCasts_S256_S1x256 := by
  rw [p7_main_v61 m ρ c, rd_main_v61 m ρ c]
  rfl

theorem b7_main_v76 (c : Dev nD) :
    W7 m ρ c (Proc.devRef .tc main_v76) = shapeCast S1x256 (subf (F := Ideal) (val_main_v89 (F := Ideal) (m ((c : Thread nD τ).loc main_arg18))) (mulf (F := Ideal) (mulf (F := Ideal) (val_main_v91 (F := Ideal) (m ((c : Thread nD τ).loc main_arg19))) (val_main_v87 (F := Ideal) (m ((c : Thread nD τ).loc main_arg17)))) (Host.rsqrt (F := Ideal) (addf (F := Ideal) (val_main_v93 (F := Ideal) (m ((c : Thread nD τ).loc main_arg20))) (broadcastInDim S256 ![] bcast_S_S256 (constant (F := Ideal) S_ .f32 0x3727C5AC#32)))))) shapeCasts_S256_S1x256 := by
  rw [p7_main_v76 m ρ c, rd_main_v76 m ρ c]
  rfl

end Cert.KernelIdeal.Bridge

end
-- ==== Proof.Bridge11.lean ====
/-
  Region 5's entry arrays (second layer, account rows) as the reference's intermediates. At its entry a SAGE region finds: the neighbour sums (a scatter-add of gathered source rows), the
  neighbour counts as a column, the destination rows, the two transposed weight slices, the bias row, and the
  normalisation's scale row gamma · rsqrt (var + eps) and shift row beta − (mean · gamma) · rsqrt (var + eps). The host
  operations that made them are the reference's own operations on the same arrays (narrowing to a shorter float
  format is the identity on the extended reals), so each entry array IS the reference's corresponding intermediate.
  Entry by entry the region's output is then  max (v · scale + shift) 0  where the reference has
  max ((v − mean) · scale + beta) 0  for the same v; scale is a real number because gamma is finite, var is finite
  and ≥ 0 and eps > 0, so the two agree by distributing scale over v − mean.
-/
import proofs.«149189_j32641751449687_2_alg».proof.Proof.Gen.KernelIdeal.Frame
import Idealize.ShloMosaic.PureOps.Ideal
import Idealize.ShloMosaic.PureOps.Ideal.Laws
import proofs.«149189_j32641751449687_2_alg».proof.Proof.Regions
import proofs.«149189_j32641751449687_2_alg».proof.Proof.Reads
import proofs.«149189_j32641751449687_2_alg».proof.Proof.WholeApply
import proofs.«149189_j32641751449687_2_alg».proof.Proof.GlueEntries
import proofs.«149189_j32641751449687_2_alg».proof.Proof.BnLaw
import proofs.«149189_j32641751449687_2_alg».proof.Proof.PreFacts
import proofs.«149189_j32641751449687_2_alg».proof.Proof.RefRead
set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

open Cert.KernelIdeal.Pass Cert.KernelIdeal.Reads Cert.KernelIdeal.Whole Cert.KernelIdeal.Glue
open Cert.ReferenceIdeal.ReadP Idealize.ShloMosaic.ValueIdx

theorem b11_main_v132 (c : Dev nD) (htx1 : W6 m ρ c (Proc.devRef .tc main_v88) = val_main_v129 (F := Ideal) (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20))) :
    W11 m ρ c (Proc.devRef .tc main_v132) = val_main_v186 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) := by
  rw [p11_main_v132 m ρ c, rd_main_v132 m ρ c, htx1]
  rfl

theorem b11_main_v20 (c : Dev nD) :
    W11 m ρ c (Proc.devRef .tc main_v20) = shapeCast S100000x1 (val_main_v190 (F := Ideal) (m ((c : Thread nD τ).loc main_arg4))) shapeCasts_S100000_S100000x1 := by
  rw [p11_main_v20 m ρ c, rd_main_v20 m ρ c]
  rfl

theorem b11_main_v100 (c : Dev nD) (hacc1 : W8 m ρ c (Proc.devRef .tc main_v100) = val_main_v107 (F := Ideal) (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :
    W11 m ρ c (Proc.devRef .tc main_v100) = val_main_v107 (F := Ideal) (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := (p11_main_v100 m ρ c).trans hacc1

theorem b11_main_v172 (c : Dev nD) :
    W11 m ρ c (Proc.devRef .tc main_v172) = val_main_v196 (F := Ideal) (m ((c : Thread nD τ).loc main_arg14)) := by
  rw [rd_main_v172 m ρ c]
  rfl

theorem b11_main_v176 (c : Dev nD) :
    W11 m ρ c (Proc.devRef .tc main_v176) = val_main_v201 (F := Ideal) (m ((c : Thread nD τ).loc main_arg16)) := by
  rw [rd_main_v176 m ρ c]
  rfl

theorem b11_main_v179 (c : Dev nD) :
    W11 m ρ c (Proc.devRef .tc main_v179) = shapeCast S1x256 (val_main_v170 (F := Ideal) (m ((c : Thread nD τ).loc main_arg15))) shapeCasts_S256_S1x256 := by
  rw [rd_main_v179 m ρ c]
  rfl

theorem b11_main_v141 (c : Dev nD) :
    W11 m ρ c (Proc.devRef .tc main_v141) = shapeCast S1x256 (val_main_v218 (F := Ideal) (m ((c : Thread nD τ).loc main_arg17)) (m ((c : Thread nD τ).loc main_arg20))) shapeCasts_S256_S1x256 := by
  rw [p11_main_v141 m ρ c, rd_main_v141 m ρ c]
  rfl

theorem b11_main_v156 (c : Dev nD) :
    W11 m ρ c (Proc.devRef .tc main_v156) = shapeCast S1x256 (subf (F := Ideal) (val_main_v207 (F := Ideal) (m ((c : Thread nD τ).loc main_arg18))) (mulf (F := Ideal) (mulf (F := Ideal) (val_main_v209 (F := Ideal) (m ((c : Thread nD τ).loc main_arg19))) (val_main_v205 (F := Ideal) (m ((c : Thread nD τ).loc main_arg17)))) (Host.rsqrt (F := Ideal) (addf (F := Ideal) (val_main_v211 (F := Ideal) (m ((c : Thread nD τ).loc main_arg20))) (broadcastInDim S256 ![] bcast_S_S256 (constant (F := Ideal) S_ .f32 0x3727C5AC#32)))))) shapeCasts_S256_S1x256 := by
  rw [p11_main_v156 m ρ c, rd_main_v156 m ρ c]
  rfl

end Cert.KernelIdeal.Bridge

end
-- ==== Proof.LayersS.lean ====
/-
  The three SAGE layers. At its entry a SAGE region finds: the neighbour sums (a scatter-add of gathered source rows), the
  neighbour counts as a column, the destination rows, the two transposed weight slices, the bias row, and the
  normalisation's scale row gamma · rsqrt (var + eps) and shift row beta − (mean · gamma) · rsqrt (var + eps). The host
  operations that made them are the reference's own operations on the same arrays (narrowing to a shorter float
  format is the identity on the extended reals), so each entry array IS the reference's corresponding intermediate.
  Entry by entry the region's output is then  max (v · scale + shift) 0  where the reference has
  max ((v − mean) · scale + beta) 0  for the same v; scale is a real number because gamma is finite, var is finite
  and ≥ 0 and eps > 0, so the two agree by distributing scale over v − mean.
-/
import proofs.«149189_j32641751449687_2_alg».proof.Proof.Gen.KernelIdeal.Frame
import Idealize.ShloMosaic.PureOps.Ideal
import Idealize.ShloMosaic.PureOps.Ideal.Laws
import proofs.«149189_j32641751449687_2_alg».proof.Proof.Regions
import proofs.«149189_j32641751449687_2_alg».proof.Proof.Reads
import proofs.«149189_j32641751449687_2_alg».proof.Proof.WholeApply
import proofs.«149189_j32641751449687_2_alg».proof.Proof.GlueEntries
import proofs.«149189_j32641751449687_2_alg».proof.Proof.BnLaw
import proofs.«149189_j32641751449687_2_alg».proof.Proof.PreFacts
import proofs.«149189_j32641751449687_2_alg».proof.Proof.RefRead
import proofs.«149189_j32641751449687_2_alg».proof.Proof.RefEntries
import proofs.«149189_j32641751449687_2_alg».proof.Proof.Bridge5
import proofs.«149189_j32641751449687_2_alg».proof.Proof.Bridge7
import proofs.«149189_j32641751449687_2_alg».proof.Proof.Bridge11
set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

open Cert.KernelIdeal.Pass Cert.KernelIdeal.Reads Cert.KernelIdeal.Whole Cert.KernelIdeal.Glue
open Cert.ReferenceIdeal.ReadP Idealize.ShloMosaic.ValueIdx

/-- tx1: region 2's output is the reference's normalised, rectified SAGE update, entry by entry. -/
theorem tx1 (c : Dev nD) [hPre_finite_inputs : Cert.Pre_finite_inputs.Facts] (hpre : Cert.Pre_KernelIdeal m) (hacc0 : W2 m ρ c (Proc.devRef .tc main_v3) = val_main_v5 (F := Ideal) (m ((c : Thread nD τ).loc main_arg0)) (m ((c : Thread nD τ).loc main_arg7)) (m ((c : Thread nD τ).loc main_arg8))) (htx0 : W4 m ρ c (Proc.devRef .tc main_v7) = val_main_v11 (F := Ideal) (m ((c : Thread nD τ).loc main_arg1)) (m ((c : Thread nD τ).loc main_arg9)) (m ((c : Thread nD τ).loc main_arg10))) :
    W6 m ρ c (Proc.devRef .tc main_v88) = val_main_v129 (F := Ideal) (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) := by
  rw [Cert.KernelIdeal.Regions.reg2 m ρ c, Bridge.b5_main_v36 m ρ c hacc0, Bridge.b5_main_v14 m ρ c, Bridge.b5_main_v7 m ρ c htx0,
    Bridge.b5_main_v80 m ρ c, Bridge.b5_main_v84 m ρ c, Bridge.b5_main_v87 m ρ c, Bridge.b5_main_v61 m ρ c, Bridge.b5_main_v76 m ρ c]
  funext i
  obtain ⟨r, l, rfl⟩ : ∃ (r : Fin 300000) (l : Fin 256), i = ix2 r l := ⟨i 0, i 1, eq_ix2 i⟩
  rw [sage_apply, Cert.ReferenceIdeal.Entries.sage_apply_v129]
  rw [col_cast3 (val_main_v35 (F := Ideal) (m ((c : Thread nD τ).loc main_arg3))) r, row_cast (val_main_v15 (F := Ideal) (m ((c : Thread nD τ).loc main_arg12))) l, row_cast (val_main_v122 (F := Ideal) (m ((c : Thread nD τ).loc main_arg17)) (m ((c : Thread nD τ).loc main_arg20))) l, row_cast _ l, ofBits_one_f32]
  refine congrArg (fun z => max z 0) ?_
  -- the finiteness the law needs: row 0 of gamma, beta, mean is finite, row 0 of var finite and ≥ 0
  obtain ⟨hG, hB, hM, hV⟩ := Cert.PreFacts.bn_inputs m hpre c
  have eG : val_main_v109 (F := Ideal) (m ((c : Thread nD τ).loc main_arg17)) (ix1 l) = (m ((c : Thread nD τ).loc main_arg17)) (ix2 ⟨0, by omega⟩ l) := rowp0 _ l
  have eB : val_main_v111 (F := Ideal) (m ((c : Thread nD τ).loc main_arg18)) (ix1 l) = (m ((c : Thread nD τ).loc main_arg18)) (ix2 ⟨0, by omega⟩ l) := rowp0 _ l
  have eM : val_main_v113 (F := Ideal) (m ((c : Thread nD τ).loc main_arg19)) (ix1 l) = (m ((c : Thread nD τ).loc main_arg19)) (ix2 ⟨0, by omega⟩ l) := rowp0 _ l
  have eV : val_main_v115 (F := Ideal) (m ((c : Thread nD τ).loc main_arg20)) (ix1 l) = (m ((c : Thread nD τ).loc main_arg20)) (ix2 ⟨0, by omega⟩ l) := rowp0 _ l
  exact (Cert.BnLaw.bn_entry _ (val_main_v109 (F := Ideal) (m ((c : Thread nD τ).loc main_arg17)) (ix1 l)) (val_main_v113 (F := Ideal) (m ((c : Thread nD τ).loc main_arg19)) (ix1 l)) (val_main_v111 (F := Ideal) (m ((c : Thread nD τ).loc main_arg18)) (ix1 l)) (val_main_v115 (F := Ideal) (m ((c : Thread nD τ).loc main_arg20)) (ix1 l))
    (eG ▸ hG _) (eM ▸ hM _) (eB ▸ hB _) (eV ▸ hV _)).symm

/-- acc1: region 3's output is the reference's normalised, rectified SAGE update, entry by entry. -/
theorem acc1 (c : Dev nD) [hPre_finite_inputs : Cert.Pre_finite_inputs.Facts] (hpre : Cert.Pre_KernelIdeal m) (hacc0 : W2 m ρ c (Proc.devRef .tc main_v3) = val_main_v5 (F := Ideal) (m ((c : Thread nD τ).loc main_arg0)) (m ((c : Thread nD τ).loc main_arg7)) (m ((c : Thread nD τ).loc main_arg8))) (htx0 : W4 m ρ c (Proc.devRef .tc main_v7) = val_main_v11 (F := Ideal) (m ((c : Thread nD τ).loc main_arg1)) (m ((c : Thread nD τ).loc main_arg9)) (m ((c : Thread nD τ).loc main_arg10))) :
    W8 m ρ c (Proc.devRef .tc main_v100) = val_main_v107 (F := Ideal) (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [Cert.KernelIdeal.Regions.reg3 m ρ c, Bridge.b7_main_v52 m ρ c htx0, Bridge.b7_main_v20 m ρ c, Bridge.b7_main_v3 m ρ c hacc0,
    Bridge.b7_main_v92 m ρ c, Bridge.b7_main_v96 m ρ c, Bridge.b7_main_v99 m ρ c, Bridge.b7_main_v61 m ρ c, Bridge.b7_main_v76 m ρ c]
  funext i
  obtain ⟨r, l, rfl⟩ : ∃ (r : Fin 100000) (l : Fin 256), i = ix2 r l := ⟨i 0, i 1, eq_ix2 i⟩
  rw [sage_apply, Cert.ReferenceIdeal.Entries.sage_apply_v107]
  rw [col_cast1 (val_main_v72 (F := Ideal) (m ((c : Thread nD τ).loc main_arg4))) r, row_cast (val_main_v52 (F := Ideal) (m ((c : Thread nD τ).loc main_arg15))) l, row_cast (val_main_v100 (F := Ideal) (m ((c : Thread nD τ).loc main_arg17)) (m ((c : Thread nD τ).loc main_arg20))) l, row_cast _ l, ofBits_one_f32]
  refine congrArg (fun z => max z 0) ?_
  -- the finiteness the law needs: row 0 of gamma, beta, mean is finite, row 0 of var finite and ≥ 0
  obtain ⟨hG, hB, hM, hV⟩ := Cert.PreFacts.bn_inputs m hpre c
  have eG : val_main_v87 (F := Ideal) (m ((c : Thread nD τ).loc main_arg17)) (ix1 l) = (m ((c : Thread nD τ).loc main_arg17)) (ix2 ⟨0, by omega⟩ l) := rowp0 _ l
  have eB : val_main_v89 (F := Ideal) (m ((c : Thread nD τ).loc main_arg18)) (ix1 l) = (m ((c : Thread nD τ).loc main_arg18)) (ix2 ⟨0, by omega⟩ l) := rowp0 _ l
  have eM : val_main_v91 (F := Ideal) (m ((c : Thread nD τ).loc main_arg19)) (ix1 l) = (m ((c : Thread nD τ).loc main_arg19)) (ix2 ⟨0, by omega⟩ l) := rowp0 _ l
  have eV : val_main_v93 (F := Ideal) (m ((c : Thread nD τ).loc main_arg20)) (ix1 l) = (m ((c : Thread nD τ).loc main_arg20)) (ix2 ⟨0, by omega⟩ l) := rowp0 _ l
  exact (Cert.BnLaw.bn_entry _ (val_main_v87 (F := Ideal) (m ((c : Thread nD τ).loc main_arg17)) (ix1 l)) (val_main_v91 (F := Ideal) (m ((c : Thread nD τ).loc main_arg19)) (ix1 l)) (val_main_v89 (F := Ideal) (m ((c : Thread nD τ).loc main_arg18)) (ix1 l)) (val_main_v93 (F := Ideal) (m ((c : Thread nD τ).loc main_arg20)) (ix1 l))
    (eG ▸ hG _) (eM ▸ hM _) (eB ▸ hB _) (eV ▸ hV _)).symm

/-- acc2: region 5's output is the reference's normalised, rectified SAGE update, entry by entry. -/
theorem acc2 (c : Dev nD) [hPre_finite_inputs : Cert.Pre_finite_inputs.Facts] (hpre : Cert.Pre_KernelIdeal m) (htx1 : W6 m ρ c (Proc.devRef .tc main_v88) = val_main_v129 (F := Ideal) (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20))) (hacc1 : W8 m ρ c (Proc.devRef .tc main_v100) = val_main_v107 (F := Ideal) (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :
    W12 m ρ c (Proc.devRef .tc main_v180) = val_main_v225 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [Cert.KernelIdeal.Regions.reg5 m ρ c, Bridge.b11_main_v132 m ρ c htx1, Bridge.b11_main_v20 m ρ c, Bridge.b11_main_v100 m ρ c hacc1,
    Bridge.b11_main_v172 m ρ c, Bridge.b11_main_v176 m ρ c, Bridge.b11_main_v179 m ρ c, Bridge.b11_main_v141 m ρ c, Bridge.b11_main_v156 m ρ c]
  funext i
  obtain ⟨r, l, rfl⟩ : ∃ (r : Fin 100000) (l : Fin 256), i = ix2 r l := ⟨i 0, i 1, eq_ix2 i⟩
  rw [sage_apply, Cert.ReferenceIdeal.Entries.sage_apply_v225]
  rw [col_cast1 (val_main_v190 (F := Ideal) (m ((c : Thread nD τ).loc main_arg4))) r, row_cast (val_main_v170 (F := Ideal) (m ((c : Thread nD τ).loc main_arg15))) l, row_cast (val_main_v218 (F := Ideal) (m ((c : Thread nD τ).loc main_arg17)) (m ((c : Thread nD τ).loc main_arg20))) l, row_cast _ l, ofBits_one_f32]
  refine congrArg (fun z => max z 0) ?_
  -- the finiteness the law needs: row 1 of gamma, beta, mean is finite, row 1 of var finite and ≥ 0
  obtain ⟨hG, hB, hM, hV⟩ := Cert.PreFacts.bn_inputs m hpre c
  have eG : val_main_v205 (F := Ideal) (m ((c : Thread nD τ).loc main_arg17)) (ix1 l) = (m ((c : Thread nD τ).loc main_arg17)) (ix2 ⟨1, by omega⟩ l) := rowp1 _ l
  have eB : val_main_v207 (F := Ideal) (m ((c : Thread nD τ).loc main_arg18)) (ix1 l) = (m ((c : Thread nD τ).loc main_arg18)) (ix2 ⟨1, by omega⟩ l) := rowp1 _ l
  have eM : val_main_v209 (F := Ideal) (m ((c : Thread nD τ).loc main_arg19)) (ix1 l) = (m ((c : Thread nD τ).loc main_arg19)) (ix2 ⟨1, by omega⟩ l) := rowp1 _ l
  have eV : val_main_v211 (F := Ideal) (m ((c : Thread nD τ).loc main_arg20)) (ix1 l) = (m ((c : Thread nD τ).loc main_arg20)) (ix2 ⟨1, by omega⟩ l) := rowp1 _ l
  exact (Cert.BnLaw.bn_entry _ (val_main_v205 (F := Ideal) (m ((c : Thread nD τ).loc main_arg17)) (ix1 l)) (val_main_v209 (F := Ideal) (m ((c : Thread nD τ).loc main_arg19)) (ix1 l)) (val_main_v207 (F := Ideal) (m ((c : Thread nD τ).loc main_arg18)) (ix1 l)) (val_main_v211 (F := Ideal) (m ((c : Thread nD τ).loc main_arg20)) (ix1 l))
    (eG ▸ hG _) (eM ▸ hM _) (eB ▸ hB _) (eV ▸ hV _)).symm

end Cert.KernelIdeal.Layers

end
-- ==== Proof.Final.lean ====
/-
  The kernel's result as the reference's function of the arguments: the seven stages chained. The two input projections
  give the first account and transaction features; the first layer's two updates read those; the second layer's account
  update reads the first layer's two outputs (its transaction update feeds nothing that is returned); the edge MLP reads the
  second layer's account features through the two row gathers.
-/
import proofs.«149189_j32641751449687_2_alg».proof.Proof.Gen.KernelIdeal.Frame
import Idealize.ShloMosaic.PureOps.Ideal
import Idealize.ShloMosaic.PureOps.Ideal.Laws
import proofs.«149189_j32641751449687_2_alg».proof.Proof.LayersA
import proofs.«149189_j32641751449687_2_alg».proof.Proof.LayersS
set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

open Cert.ReferenceIdeal.ReadP

/-- The result buffer at the end of the kernel's run is the reference's result term of the same arguments. -/
theorem result [hPre_finite_inputs : Cert.Pre_finite_inputs.Facts] (hpre : Cert.Pre_KernelIdeal m) (c : Dev nD) :
    W15 m ρ c (Proc.devRef .tc main_v209) = val_main_v274 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  have h0 := Cert.KernelIdeal.Layers.acc0 m ρ c
  have ht0 := Cert.KernelIdeal.Layers.tx0 m ρ c
  have ht1 := Cert.KernelIdeal.Layers.tx1 m ρ c hpre h0 ht0
  have ha1 := Cert.KernelIdeal.Layers.acc1 m ρ c hpre h0 ht0
  have ha2 := Cert.KernelIdeal.Layers.acc2 m ρ c hpre ht1 ha1
  Cert.KernelIdeal.Layers.result m ρ c ha2

end Cert.KernelIdeal.Final

end
-- ==== Proof.lean ====
/-
  The certificate of the account/transaction graph network. The kernel and the reference compute, on the extended reals,
  the same function of the 25 argument arrays:

    acc⁰ = relu (x_acc · W_accᵀ + b_acc),  tx⁰ = relu (x_tx · W_txᵀ + b_tx);
    for each of the two layers, with mean(x; ei) the degree-normalised sum of the source rows over the edges into a
    destination row (a gather, a scatter-add, a count clamped below by 1, a division),
      tx'  = relu (norm (mean(acc; sends) · Wl_atᵀ + bl_at + tx · Wr_atᵀ)),
      acc' = relu (norm (mean(tx; recv) · Wl_taᵀ + bl_ta + acc · Wr_taᵀ)),
      norm v = (v − mean) · (gamma · rsqrt (var + eps)) + beta;
    result row i = relu ([acc[sender i], acc[receiver i], tx_raw i] · W1ᵀ + b1) · W2ᵀ + b2.

  The kernel computes every dense piece in row tiles (seven regions), rounds operands to a narrower float format on
  the way into its products (the identity on the extended reals), splits the last layer's 544 joined columns into three
  products, takes the last projection as a lane sum, and folds the normalisation into a scale gamma · rsqrt (var + eps)
  and a shift beta − (mean · gamma) · rsqrt (var + eps). The one law this needs is distributivity of the scale over
  v − mean, which holds on the extended reals because the scale is a real number: the precondition gives finite
  gamma, beta, mean and 0 ≤ var, and eps > 0. Sums are only regrouped, which the extended reals allow freely.
  The frames of the two kernel programs are generated; the reference's frame is its run (its operations, part by part) with the result dropped; the
  idealization rewrote nothing, so its conjunct is trivial.
-/
import proofs.«149189_j32641751449687_2_alg».proof.Defs
import proofs.«149189_j32641751449687_2_alg».proof.Proof.Gen.Kernel.Frame
import proofs.«149189_j32641751449687_2_alg».proof.Proof.Gen.KernelIdeal.Frame
import proofs.«149189_j32641751449687_2_alg».proof.Proof.RefRun
import proofs.«149189_j32641751449687_2_alg».proof.Proof.RefKeys
import proofs.«149189_j32641751449687_2_alg».proof.Proof.Gen.Pre_finite_inputs
import proofs.«149189_j32641751449687_2_alg».proof.Proof.KernelRun
import proofs.«149189_j32641751449687_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at one function of the (agreeing) arguments. -/
theorem algebraic : Cert.algebraic_KernelIdeal_ReferenceIdeal := by
  intro m ρ m' ρ' hpre hagree
  refine ⟨fun c => Cert.KernelIdeal.Gen.W15 m ρ c (Proc.devRef .tc Cert.KernelIdeal.main_v209), Cert.KernelIdeal.Result.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Keys.k_main_v274 m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]
  exact (Cert.KernelIdeal.Final.result m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
